-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S10x512 : Shape := ⟨2, ![10, 512]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S10x512 : S_.BroadcastsInDim S10x512 (![] : Fin 0 → Fin S10x512.rank)
  reducesTo_S10x512_S_d0_1 : S10x512.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg7 : FVec F S128 .f32) (main_arg15 : FVec F S3x128 .f32) (main_arg19 : FVec F S10 .f32) (main_v83 : IVec S_ 1) (main_v84 : FVec F S10x512 .f32) (main_cst_32 : FVec F S_ .f32) : IVec S_ 1 :=
  let main_v85 : FVec F S10x512 .f32 := broadcastInDim S10x512 ![] bcast_S_S10x512 main_cst_32
  let main_v86 : IVec S10x512 1 := cmpf .olt main_v84 main_v85
  let main_c_33 : IVec S_ 1 := constantI S_ 1 1#1
  let main_v87 : IVec S_ 1 := (fun x v => Host.reduce IntOp.andi x v reducesTo_S10x512_S_d0_1 h_S_) main_v86 main_c_33
  let main_v88 : IVec S_ 1 := andi main_v83 main_v87
  let main_v89 : FVec F S10 .f32 := Host.absf main_arg19
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  let main_cst_36 : FVec F S_ .f32 := constant S_ .f32 0x00000000#32
  let main_v94 : FVec F S128 .f32 := broadcastInDim S128 ![] bcast_S_S128 main_cst_36
  let main_v95 : IVec S128 1 := cmpf .oge main_arg7 main_v94
  let main_c_37 : IVec S_ 1 := constantI S_ 1 1#1
  let main_v96 : IVec S_ 1 := (fun x v => Host.reduce IntOp.andi x v reducesTo_S128_S_d0 h_S_) main_v95 main_c_37
  let main_v97 : IVec S_ 1 := andi main_v93 main_v96
  let main_cst_38 : FVec F S_ .f32 := constant S_ .f32 0x00000000#32
  let main_v98 : FVec F S3x128 .f32 := broadcastInDim S3x128 ![] bcast_S_S3x128 main_cst_38
  let main_v99 : IVec S3x128 1 := cmpf .oge main_arg15 main_v98
  let main_c_39 : IVec S_ 1 := constantI S_ 1 1#1
  let main_v100 : IVec S_ 1 := (fun x v => Host.reduce IntOp.andi x v reducesTo_S3x128_S_d0_1 h_S_) main_v99 main_c_39
  let main_v101 : IVec S_ 1 := andi main_v97 main_v100
  main_v101

def fn_part4 {F : FTy → Type} [FloatOps F] (main_arg7 : FVec F S128 .f32) (main_arg15 : FVec F S3x128 .f32) (main_arg16 : FVec F S3x128x128 .f32) (main_arg17 : FVec F S3x128 .f32) (main_arg18 : FVec F S10x512 .f32) (main_arg19 : FVec F S10 .f32) (main_v63 : IVec S_ 1) (main_v67 : IVec S_ 1) : IVec S_ 1 :=
  let main_v68 : IVec S_ 1 := andi main_v63 main_v67
  let main_v69 : FVec F S3x128 .f32 := Host.absf main_arg15
  let main_cst_26 : FVec F S_ .f32 := constant S_ .f32 0x7F800000#32
  let main_v70 : FVec F S3x128 .f32 := broadcastInDim S3x128 ![] bcast_S_S3x128 main_cst_26
  let main_v71 : IVec S3x128 1 := cmpf .olt main_v69 main_v70
  let main_c_27 : IVec S_ 1 := constantI S_ 1 1#1
  let main_v72 : IVec S_ 1 := (fun x v => Host.reduce IntOp.andi x v reducesTo_S3x128_S_d0_1 h_S_) main_v71 main_c_27
  let main_v73 : IVec S_ 1 := andi main_v68 main_v72
  let main_v74 : FVec F S3x128x128 .f32 := Host.absf main_arg16
  let main_cst_28 : FVec F S_ .f32 := constant S_ .f32 0x7F800000#32
  let main_v75 : FVec F S3x128x128 .f32 := broadcastInDim S3x128x128 ![] bcast_S_S3x128x128 main_cst_28
  let main_v76 : IVec S3x128x128 1 := cmpf .olt main_v74 main_v75
  let main_c_29 : IVec S_ 1 := constantI S_ 1 1#1
  let main_v77 : IVec S_ 1 := (fun x v => Host.reduce IntOp.andi x v reducesTo_S3x128x128_S_d0_1_2 h_S_) main_v76 main_c_29
  let main_v78 : IVec S_ 1 := andi main_v73 main_v77
  let main_v79 : FVec F S3x128 .f32 := Host.absf main_arg17
  let main_cst_30 : FVec F S_ .f32 := constant S_ .f32 0x7F800000#32
  let main_v80 : FVec F S3x128 .f32 := broadcastInDim S3x128 ![] bcast_S_S3x128 main_cst_30
  let main_v81 : IVec S3x128 1 := cmpf .olt main_v79 main_v80
  let main_c_31 : IVec S_ 1 := constantI S_ 1 1#1
  let main_v82 : IVec S_ 1 := (fun x v => Host.reduce IntOp.andi x v reducesTo_S3x128_S_d0_1 h_S_) main_v81 main_c_31
  let main_v83 : IVec S_ 1 := andi main_v78 main_v82
  let main_v84 : FVec F S10x512 .f32 := Host.absf main_arg18
  let main_cst_32 : FVec F S_ .f32 := constant S_ .f32 0x7F800000#32
  fn_part5 (F := F) main_arg7 main_arg15 main_arg19 main_v83 main_v84 main_cst_32

def fn_part3 {F : FTy → Type} [FloatOps F] (main_arg7 : FVec F S128 .f32) (main_arg12 : FVec F S3x128 .f32) (main_arg13 : FVec F S3x128 .f32) (main_arg14 : FVec F S3x128 .f32) (main_arg15 : FVec F S3x128 .f32) (main_arg16 : FVec F S3x128x128 .f32) (main_arg17 : FVec F S3x128 .f32) (main_arg18 : FVec F S10x512 .f32) (main_arg19 : FVec F S10 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg12
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg13
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S3x128 .f32 := Host.absf main_arg14
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg7 main_arg15 main_arg16 main_arg17 main_arg18 main_arg19 main_v63 main_v67

def fn_part2 {F : FTy → Type} [FloatOps F] (main_arg7 : FVec F S128 .f32) (main_arg8 : FVec F S128x128 .f32) (main_arg9 : FVec F S128 .f32) (main_arg10 : FVec F S3x128x128 .f32) (main_arg11 : FVec F S3x128 .f32) (main_arg12 : FVec F S3x128 .f32) (main_arg13 : FVec F S3x128 .f32) (main_arg14 : FVec F S3x128 .f32) (main_arg15 : FVec F S3x128 .f32) (main_arg16 : FVec F S3x128x128 .f32) (main_arg17 : FVec F S3x128 .f32) (main_arg18 : FVec F S10x512 .f32) (main_arg19 : FVec F S10 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S3x128x128 .f32 := Host.absf main_arg10
  let main_cst_16 : FVec F S_ .f32 := constant S_ .f32 0x7F800000#32
  let main_v45 : FVec F S3x128x128 .f32 := broadcastInDim S3x128x128 ![] bcast_S_S3x128x128 main_cst_16
  let main_v46 : IVec S3x128x128 1 := cmpf .olt main_v44 main_v45
  let main_c_17 : IVec S_ 1 := constantI S_ 1 1#1
  let main_v47 : IVec S_ 1 := (fun x v => Host.reduce IntOp.andi x v reducesTo_S3x128x128_S_d0_1_2 h_S_) main_v46 main_c_17
  let main_v48 : IVec S_ 1 := andi main_v43 main_v47
  let main_v49 : FVec F S3x128 .f32 := Host.absf main_arg11
  let main_cst_18 : FVec F S_ .f32 := constant S_ .f32 0x7F800000#32
  let main_v50 : FVec F S3x128 .f32 := broadcastInDim S3x128 ![] bcast_S_S3x128 main_cst_18
  fn_part3 (F := F) main_arg7 main_arg12 main_arg13 main_arg14 main_arg15 main_arg16 main_arg17 main_arg18 main_arg19 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S3x128x128 .f32) (main_arg11 : FVec F S3x128 .f32) (main_arg12 : FVec F S3x128 .f32) (main_arg13 : FVec F S3x128 .f32) (main_arg14 : FVec F S3x128 .f32) (main_arg15 : FVec F S3x128 .f32) (main_arg16 : FVec F S3x128x128 .f32) (main_arg17 : FVec F S3x128 .f32) (main_arg18 : FVec F S10x512 .f32) (main_arg19 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S3x128x128 .f32) (main_arg11 : FVec F S3x128 .f32) (main_arg12 : FVec F S3x128 .f32) (main_arg13 : FVec F S3x128 .f32) (main_arg14 : FVec F S3x128 .f32) (main_arg15 : FVec F S3x128 .f32) (main_arg16 : FVec F S3x128x128 .f32) (main_arg17 : FVec F S3x128 .f32) (main_arg18 : FVec F S10x512 .f32) (main_arg19 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S10x512 : Shape := ⟨2, ![10, 512]⟩
abbrev S10 : Shape := ⟨1, ![10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S2000x128 : Shape := ⟨2, ![2000, 128]⟩
abbrev S1x128x128 : Shape := ⟨3, ![1, 128, 128]⟩
abbrev S1x512 : Shape := ⟨2, ![1, 512]⟩
abbrev S512x10 : Shape := ⟨2, ![512, 10]⟩
abbrev S1x10 : Shape := ⟨2, ![1, 10]⟩

abbrev nBuf : Space → Nat
  | .hbm => 205
  | .vmem => 48
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S3x128x128, .f32⟩
  | 11 => ⟨S3x128, .f32⟩
  | 12 => ⟨S3x128, .f32⟩
  | 13 => ⟨S3x128, .f32⟩
  | 14 => ⟨S3x128, .f32⟩
  | 15 => ⟨S3x128, .f32⟩
  | 16 => ⟨S3x128x128, .f32⟩
  | 17 => ⟨S3x128, .f32⟩
  | 18 => ⟨S10x512, .f32⟩
  | 19 => ⟨S10, .f32⟩
  | 20 => ⟨S1x600000, .i32⟩
  | 21 => ⟨S600000, .i32⟩
  | 22 => ⟨S1x600000, .i32⟩
  | 23 => ⟨S600000, .i32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S50000x128, .f32⟩
  | 35 => ⟨S600000x1, .i32⟩
  | 36 => ⟨S50000x128, .f32⟩
  | 37 => ⟨S_, .f32⟩
  | 38 => ⟨S128, .f32⟩
  | 39 => ⟨S128, .f32⟩
  | 40 => ⟨S128, .f32⟩
  | 41 => ⟨S128, .f32⟩
  | 42 => ⟨S128, .f32⟩
  | 43 => ⟨S128, .f32⟩
  | 44 => ⟨S128x128, .f32⟩
  | 45 => ⟨S128x128, .bf16⟩
  | 46 => ⟨S128x128, .f32⟩
  | 47 => ⟨S128x128, .bf16⟩
  | 48 => ⟨S1x128, .f32⟩
  | 49 => ⟨S1x128, .f32⟩
  | 50 => ⟨S1x128, .f32⟩
  | 51 => ⟨S1x128, .f32⟩
  | 52 => ⟨S50000x128, .f32⟩
  | 53 => ⟨S1x128x128, .f32⟩
  | 54 => ⟨S128x128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S128, .f32⟩
  | 65 => ⟨S1x128x128, .f32⟩
  | 66 => ⟨S128x128, .f32⟩
  | 67 => ⟨S1x128, .f32⟩
  | 68 => ⟨S128, .f32⟩
  | 69 => ⟨S_, .i32⟩
  | 70 => ⟨S600000, .i32⟩
  | 71 => ⟨S600000, .i1⟩
  | 72 => ⟨S_, .i32⟩
  | 73 => ⟨S600000, .i32⟩
  | 74 => ⟨S600000, .i32⟩
  | 75 => ⟨S600000, .i32⟩
  | 76 => ⟨S600000x1, .i32⟩
  | 77 => ⟨S600000x128, .f32⟩
  | 78 => ⟨S_, .f32⟩
  | 79 => ⟨S50000x128, .f32⟩
  | 80 => ⟨S600000x1, .i32⟩
  | 81 => ⟨S50000x128, .f32⟩
  | 82 => ⟨S_, .f32⟩
  | 83 => ⟨S128, .f32⟩
  | 84 => ⟨S128, .f32⟩
  | 85 => ⟨S128, .f32⟩
  | 86 => ⟨S128, .f32⟩
  | 87 => ⟨S128, .f32⟩
  | 88 => ⟨S128, .f32⟩
  | 89 => ⟨S128x128, .f32⟩
  | 90 => ⟨S128x128, .bf16⟩
  | 91 => ⟨S128x128, .f32⟩
  | 92 => ⟨S128x128, .bf16⟩
  | 93 => ⟨S1x128, .f32⟩
  | 94 => ⟨S1x128, .f32⟩
  | 95 => ⟨S1x128, .f32⟩
  | 96 => ⟨S1x128, .f32⟩
  | 97 => ⟨S50000x128, .f32⟩
  | 98 => ⟨S1x128x128, .f32⟩
  | 99 => ⟨S128x128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128x128, .f32⟩
  | 111 => ⟨S128x128, .f32⟩
  | 112 => ⟨S1x128, .f32⟩
  | 113 => ⟨S128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S_, .f32⟩
  | 124 => ⟨S50000x128, .f32⟩
  | 125 => ⟨S600000x1, .i32⟩
  | 126 => ⟨S50000x128, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S128, .f32⟩
  | 3 => ⟨S128, .f32⟩
  | 4 => ⟨S128, .f32⟩
  | 5 => ⟨S128, .f32⟩
  | 6 => ⟨S128x128, .f32⟩
  | 7 => ⟨S128x128, .bf16⟩
  | 8 => ⟨S128x128, .f32⟩
  | 9 => ⟨S128x128, .bf16⟩
  | 10 => ⟨S1x128, .f32⟩
  | 11 => ⟨S1x128, .f32⟩
  | 12 => ⟨S1x128, .f32⟩
  | 13 => ⟨S1x128, .f32⟩
  | 14 => ⟨S50000x128, .f32⟩
  | 15 => ⟨S1x128x128, .f32⟩
  | 16 => ⟨S128x128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128x128, .f32⟩
  | 28 => ⟨S128x128, .f32⟩
  | 29 => ⟨S1x128, .f32⟩
  | 30 => ⟨S128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S_, .f32⟩
  | 41 => ⟨S50000x128, .f32⟩
  | 42 => ⟨S600000x1, .i32⟩
  | 43 => ⟨S50000x128, .f32⟩
  | 44 => ⟨S_, .f32⟩
  | 45 => ⟨S128, .f32⟩
  | 46 => ⟨S128, .f32⟩
  | 47 => ⟨S128, .f32⟩
  | 48 => ⟨S128, .f32⟩
  | 49 => ⟨S128, .f32⟩
  | 50 => ⟨S128, .f32⟩
  | 51 => ⟨S128x128, .f32⟩
  | 52 => ⟨S128x128, .bf16⟩
  | 53 => ⟨S128x128, .f32⟩
  | 54 => ⟨S128x128, .bf16⟩
  | 55 => ⟨S1x128, .f32⟩
  | 56 => ⟨S1x128, .f32⟩
  | 57 => ⟨S1x128, .f32⟩
  | 58 => ⟨S1x128, .f32⟩
  | 59 => ⟨S50000x128, .f32⟩
  | 60 => ⟨S_, .f32⟩
  | 61 => ⟨S128, .f32⟩
  | 62 => ⟨S1x128, .f32⟩
  | 63 => ⟨S_, .f32⟩
  | 64 => ⟨S128, .f32⟩
  | 65 => ⟨S1x128, .f32⟩
  | 66 => ⟨S_, .f32⟩
  | 67 => ⟨S128, .f32⟩
  | 68 => ⟨S1x128, .f32⟩
  | 69 => ⟨S_, .f32⟩
  | 70 => ⟨S128, .f32⟩
  | 71 => ⟨S1x128, .f32⟩
  | 72 => ⟨S1x512, .f32⟩
  | 73 => ⟨S512x10, .f32⟩
  | 74 => ⟨S1x10, .f32⟩
  | 75 => ⟨S1x10, .f32⟩
  | 76 => ⟨S1x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .bf16⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .bf16⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .bf16⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x128, .bf16⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x128, .bf16⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S128x128, .bf16⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_2 : Ref sig .tc := ⟨.hbm, 69, rfl⟩
abbrev main_v45 : Ref sig .tc := ⟨.hbm, 70, rfl⟩
abbrev main_v46 : Ref sig .tc := ⟨.hbm, 71, rfl⟩
abbrev main_c_3 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_4 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_5 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_6 : Ref sig .tc := ⟨.hbm, 114, rfl⟩
abbrev main_v86 : Ref sig .tc := ⟨.hbm, 115, rfl⟩
abbrev main_v87 : Ref sig .tc := ⟨.hbm, 116, rfl⟩
abbrev main_c_7 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_8 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_9 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_c_10 : Ref sig .tc := ⟨.hbm, 159, rfl⟩
abbrev main_v127 : Ref sig .tc := ⟨.hbm, 160, rfl⟩
abbrev main_v128 : Ref sig .tc := ⟨.hbm, 161, rfl⟩
abbrev main_c_11 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_12 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_13 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_14 : Ref sig .tc := ⟨.hbm, 188, rfl⟩
abbrev main_v152 : Ref sig .tc := ⟨.hbm, 189, rfl⟩
abbrev main_v153 : Ref sig .tc := ⟨.hbm, 190, rfl⟩
abbrev main_cst_15 : Ref sig .tc := ⟨.hbm, 191, rfl⟩
abbrev main_v154 : Ref sig .tc := ⟨.hbm, 192, rfl⟩
abbrev main_v155 : Ref sig .tc := ⟨.hbm, 193, rfl⟩
abbrev main_cst_16 : Ref sig .tc := ⟨.hbm, 194, rfl⟩
abbrev main_v156 : Ref sig .tc := ⟨.hbm, 195, rfl⟩
abbrev main_v157 : Ref sig .tc := ⟨.hbm, 196, rfl⟩
abbrev main_cst_17 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg8_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem8_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S128 : S_.BroadcastsInDim S128 (![] : Fin 0 → Fin S128.rank)
  transposes_S128x128_S128x128_1_0 : S128x128.Transposes [1, 0] S128x128
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  reducesTo_S50000x128_S128_d0 : S50000x128.ReducesTo [0] S128
  h_S_ : 0 < S_.numel
  bcast_S128_S1x128_1 : S128.BroadcastsInDim S1x128 (![1] : Fin 1 → Fin S1x128.rank)
  concatenates_S1x128_S1x128_S1x128_S1x128_S1x512_d1 : Shape.Concatenates [S1x128, S1x128, S1x128, S1x128] S1x512 1
  transposes_S10x512_S512x10_1_0 : S10x512.Transposes [1, 0] S512x10
  bcast_S10_S1x10_1 : S10.BroadcastsInDim S1x10 (![1] : Fin 1 → Fin S1x10.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S1x512_S512x10_S1x10_1_0_0_1_n_n_wf : DotDims.WF S1x512 S512x10 S1x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .bf16 = 32 ∨ (Rect.block (s := S128x128) S128x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .bf16 = 32 ∨ (Rect.block (s := S128x128) S128x128.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S50000x128.size a
  hwx3_8 : ∀ i : grid3.Coords, EltTy.bits .f32 = 32 ∨ (Rect.block (s := S50000x128) S2000x128.size (cc3_transform_8 i) (hinb3_8 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1x512_S512x10_S1x10_1_0_0_1_n_n : DotDims S1x512 S512x10 S1x10 where
  lhsContracting := [1]
  rhsContracting := [0]
  lhsNonContracting := [0]
  rhsNonContracting := [1]
  lhsBatch := []
  rhsBatch := []
  wf := dot_S1x512_S512x10_S1x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v68) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v69) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v69) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v95) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v103) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v106) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v107) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v108) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v105) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v109) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v110) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v110) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v136) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v144) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v147) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v148) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v149) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v146) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v150) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v151) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S10x512 : Shape := ⟨2, ![10, 512]⟩
abbrev S10 : Shape := ⟨1, ![10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S1x128x128 : Shape := ⟨3, ![1, 128, 128]⟩
abbrev S1x512 : Shape := ⟨2, ![1, 512]⟩
abbrev S512x10 : Shape := ⟨2, ![512, 10]⟩
abbrev S1x10 : Shape := ⟨2, ![1, 10]⟩

abbrev nBuf : Space → Nat
  | .hbm => 277
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S3x128x128, .f32⟩
  | 11 => ⟨S3x128, .f32⟩
  | 12 => ⟨S3x128, .f32⟩
  | 13 => ⟨S3x128, .f32⟩
  | 14 => ⟨S3x128, .f32⟩
  | 15 => ⟨S3x128, .f32⟩
  | 16 => ⟨S3x128x128, .f32⟩
  | 17 => ⟨S3x128, .f32⟩
  | 18 => ⟨S10x512, .f32⟩
  | 19 => ⟨S10, .f32⟩
  | 20 => ⟨S1x600000, .i32⟩
  | 21 => ⟨S600000, .i32⟩
  | 22 => ⟨S1x600000, .i32⟩
  | 23 => ⟨S600000, .i32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S50000x128, .f32⟩
  | 35 => ⟨S600000x1, .i32⟩
  | 36 => ⟨S50000x128, .f32⟩
  | 37 => ⟨S50000x128, .f32⟩
  | 38 => ⟨S128x128, .f32⟩
  | 39 => ⟨S50000x128, .f32⟩
  | 40 => ⟨S1x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S128, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S128x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S1x128x128, .f32⟩
  | 69 => ⟨S128x128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x128x128, .f32⟩
  | 81 => ⟨S128x128, .f32⟩
  | 82 => ⟨S1x128, .f32⟩
  | 83 => ⟨S128, .f32⟩
  | 84 => ⟨S1x600000, .i32⟩
  | 85 => ⟨S600000, .i32⟩
  | 86 => ⟨S1x600000, .i32⟩
  | 87 => ⟨S600000, .i32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .f32⟩
  | 97 => ⟨S_, .f32⟩
  | 98 => ⟨S50000x128, .f32⟩
  | 99 => ⟨S600000x1, .i32⟩
  | 100 => ⟨S50000x128, .f32⟩
  | 101 => ⟨S50000x128, .f32⟩
  | 102 => ⟨S128x128, .f32⟩
  | 103 => ⟨S50000x128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S128, .f32⟩
  | 112 => ⟨S128, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S128x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S1x128x128, .f32⟩
  | 5 => ⟨S128x128, .f32⟩
  | 6 => ⟨S1x128, .f32⟩
  | 7 => ⟨S128, .f32⟩
  | 8 => ⟨S1x128, .f32⟩
  | 9 => ⟨S128, .f32⟩
  | 10 => ⟨S1x128, .f32⟩
  | 11 => ⟨S128, .f32⟩
  | 12 => ⟨S1x128, .f32⟩
  | 13 => ⟨S128, .f32⟩
  | 14 => ⟨S1x128, .f32⟩
  | 15 => ⟨S128, .f32⟩
  | 16 => ⟨S1x128x128, .f32⟩
  | 17 => ⟨S128x128, .f32⟩
  | 18 => ⟨S1x128, .f32⟩
  | 19 => ⟨S128, .f32⟩
  | 20 => ⟨S1x600000, .i32⟩
  | 21 => ⟨S600000, .i32⟩
  | 22 => ⟨S1x600000, .i32⟩
  | 23 => ⟨S600000, .i32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S50000x128, .f32⟩
  | 35 => ⟨S600000x1, .i32⟩
  | 36 => ⟨S50000x128, .f32⟩
  | 37 => ⟨S50000x128, .f32⟩
  | 38 => ⟨S128x128, .f32⟩
  | 39 => ⟨S50000x128, .f32⟩
  | 40 => ⟨S1x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S128, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S128x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S1x128x128, .f32⟩
  | 69 => ⟨S128x128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x128x128, .f32⟩
  | 81 => ⟨S128x128, .f32⟩
  | 82 => ⟨S1x128, .f32⟩
  | 83 => ⟨S128, .f32⟩
  | 84 => ⟨S1x600000, .i32⟩
  | 85 => ⟨S600000, .i32⟩
  | 86 => ⟨S1x600000, .i32⟩
  | 87 => ⟨S600000, .i32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .f32⟩
  | 97 => ⟨S_, .f32⟩
  | 98 => ⟨S50000x128, .f32⟩
  | 99 => ⟨S600000x1, .i32⟩
  | 100 => ⟨S50000x128, .f32⟩
  | 101 => ⟨S50000x128, .f32⟩
  | 102 => ⟨S128x128, .f32⟩
  | 103 => ⟨S50000x128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S128, .f32⟩
  | 112 => ⟨S128, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S128x128, .f32⟩
  | 125 => ⟨S50000x128, .f32⟩
  | 126 => ⟨S1x128, .f32⟩
  | 127 => ⟨S50000x128, .f32⟩
  | _ => ⟨S50000x128, .f32⟩

abbrev hbmTy0_2 (i : Nat) : BufTy := match i % 128 with
  | 0 => ⟨S50000x128, .f32⟩
  | 1 => ⟨S_, .f32⟩
  | 2 => ⟨S50000x128, .f32⟩
  | 3 => ⟨S50000x128, .f32⟩
  | 4 => ⟨S_, .f32⟩
  | 5 => ⟨S128, .f32⟩
  | 6 => ⟨S1x128, .f32⟩
  | 7 => ⟨S_, .f32⟩
  | 8 => ⟨S128, .f32⟩
  | 9 => ⟨S1x128, .f32⟩
  | 10 => ⟨S_, .f32⟩
  | 11 => ⟨S128, .f32⟩
  | 12 => ⟨S1x128, .f32⟩
  | 13 => ⟨S_, .f32⟩
  | 14 => ⟨S128, .f32⟩
  | 15 => ⟨S1x128, .f32⟩
  | 16 => ⟨S1x512, .f32⟩
  | 17 => ⟨S512x10, .f32⟩
  | 18 => ⟨S1x10, .f32⟩
  | 19 => ⟨S1x10, .f32⟩
  | 20 => ⟨S1x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_cst : Ref sig .tc := ⟨.hbm, 57, rfl⟩
abbrev main_call0_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call1_cst : Ref sig .tc := ⟨.hbm, 65, rfl⟩
abbrev main_call1_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_2 : Ref sig .tc := ⟨.hbm, 88, rfl⟩
abbrev main_v60 : Ref sig .tc := ⟨.hbm, 89, rfl⟩
abbrev main_v61 : Ref sig .tc := ⟨.hbm, 90, rfl⟩
abbrev main_c_3 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_4 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_5 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_call2_cst : Ref sig .tc := ⟨.hbm, 121, rfl⟩
abbrev main_call2_v0 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_c_6 : Ref sig .tc := ⟨.hbm, 152, rfl⟩
abbrev main_v116 : Ref sig .tc := ⟨.hbm, 153, rfl⟩
abbrev main_v117 : Ref sig .tc := ⟨.hbm, 154, rfl⟩
abbrev main_c_7 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_8 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_9 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_call4_cst : Ref sig .tc := ⟨.hbm, 185, rfl⟩
abbrev main_call4_v0 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_call5_cst : Ref sig .tc := ⟨.hbm, 193, rfl⟩
abbrev main_call5_v0 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_c_10 : Ref sig .tc := ⟨.hbm, 216, rfl⟩
abbrev main_v172 : Ref sig .tc := ⟨.hbm, 217, rfl⟩
abbrev main_v173 : Ref sig .tc := ⟨.hbm, 218, rfl⟩
abbrev main_c_11 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_cst_12 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_cst_13 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_call6_cst : Ref sig .tc := ⟨.hbm, 249, rfl⟩
abbrev main_call6_v0 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_call7_cst : Ref sig .tc := ⟨.hbm, 257, rfl⟩
abbrev main_call7_v0 : Ref sig .tc := ⟨.hbm, 258, rfl⟩
abbrev main_v207 : Ref sig .tc := ⟨.hbm, 259, rfl⟩
abbrev main_cst_14 : Ref sig .tc := ⟨.hbm, 260, rfl⟩
abbrev main_v208 : Ref sig .tc := ⟨.hbm, 261, rfl⟩
abbrev main_v209 : Ref sig .tc := ⟨.hbm, 262, rfl⟩
abbrev main_cst_15 : Ref sig .tc := ⟨.hbm, 263, rfl⟩
abbrev main_v210 : Ref sig .tc := ⟨.hbm, 264, rfl⟩
abbrev main_v211 : Ref sig .tc := ⟨.hbm, 265, rfl⟩
abbrev main_cst_16 : Ref sig .tc := ⟨.hbm, 266, rfl⟩
abbrev main_v212 : Ref sig .tc := ⟨.hbm, 267, rfl⟩
abbrev main_v213 : Ref sig .tc := ⟨.hbm, 268, rfl⟩
abbrev main_cst_17 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  reducesTo_S50000x128_S128_d0 : S50000x128.ReducesTo [0] S128
  h_S_ : 0 < S_.numel
  concatenates_S1x128_S1x128_S1x128_S1x128_S1x512_d1 : Shape.Concatenates [S1x128, S1x128, S1x128, S1x128] S1x512 1
  transposes_S10x512_S512x10_1_0 : S10x512.Transposes [1, 0] S512x10
  bcast_S10_S1x10_1 : S10.BroadcastsInDim S1x10 (![1] : Fin 1 → Fin S1x10.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S1x512_S512x10_S1x10_1_0_0_1_n_n_wf : DotDims.WF S1x512 S512x10 S1x10 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S1x512_S512x10_S1x10_1_0_0_1_n_n : DotDims S1x512 S512x10 S1x10 where
  lhsContracting := [1]
  rhsContracting := [0]
  lhsNonContracting := [0]
  rhsNonContracting := [1]
  lhsBatch := []
  rhsBatch := []
  wf := dot_S1x512_S512x10_S1x10_1_0_0_1_n_n_wf

class Facts : Prop extends Facts₀ where

variable [Facts]
-- ==== Proof.K.Region0.lean ====
/- The region half of custom_call 0 of @main (pipeline 0), at a parameter `V` — the TensorCore's buffer
   contents when the region is entered: each window's block at a grid point, what the body leaves in the output
   window's buffer as a function of the eight input blocks, the body's triple, the pipeline's proof data and the
   body obligation at every point. Stated for any float interpretation `F`. -/
import proofs.«156729_j87711822119196_1_alg».proof.Proof.Gen.Kernel.Launch
import proofs.«156729_j87711822119196_1_alg».proof.Proof.Gen.Kernel.Skeleton
import proofs.«156729_j87711822119196_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the
    block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the
    block index has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (unfetched, the
    block index has not moved), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (unfetched, the
    block index has not moved), for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (unfetched, the
    block index has not moved), for any proof data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- Window 8's staging buffer after the body, from the eight input blocks: its one store, of the whole block. -/
def out0_8 (x0 x1 : Vec F S2000x128 .f32) (x2 : Vec F S128x128 .bf16) (x3 x4 x5 : Vec F S1x128 .f32) (x6 : Vec F S128x128 .bf16) (x7 : Vec F S1x128 .f32) : Vec F S2000x128 .f32 :=
  View.canon [⟨r0_0, k0_pay1 (View.ld x0 r0_0) (View.ld x1 r0_0) (View.ld x2 r0_1) (View.ld x3 r0_2) (View.ld x4 r0_2) (View.ld x5 r0_2) (View.ld x6 r0_1) (View.ld x7 r0_2)⟩]

/-- The one store covers the buffer. -/
theorem cover0_8 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The kernel body on whole staging memrefs, the inputs' at read contents `xW` and the output's at anything, runs to
    the continuation holding the inputs' as they were and the output's at `out0_8` of the inputs'. The body reads
    the output's buffer once before its store; what it reads there is not used. -/
theorem sound_kernel0 (c : Dev nD) (E : Set ℕ) (i : grid0.Coords) (arg0 : Memref sig .tc .vmem S2000x128 .f32) (harg0 : arg0.IsWhole) (arg1 : Memref sig .tc .vmem S2000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S2000x128 .f32) (harg8 : arg8.IsWhole)
    (x0 x1 : Vec F S2000x128 .f32) (x2 : Vec F S128x128 .bf16) (x3 x4 x5 : Vec F S1x128 .f32) (x6 : Vec F S128x128 .bf16) (x7 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out0_8 x0 x1 x2 x3 x4 x5 x6 x7)) -∗ K ⟨⟩))
      ⊢ wp frame (wpE (defs₀ (F := F)) Variants.none c none) E (cc0_gin_mlp_kernel i arg0 harg0 arg1 harg1 arg2 harg2 arg3 harg3 arg4 harg4 arg5 harg5 arg6 harg6 arg7 harg7 arg8 harg8) K := by
  simp only [cc0_gin_mlp_kernel_eq_skeleton]; unfold cc0_gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The pipeline's proof data -/

/-- The proof data of pipeline 0 on core `c`: the arrays as the region finds them (`V`); after the body at point
    `t` each input's buffer at its block and the output's at `out0_8` of the input blocks; the invariant holds the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.GenH

end
-- ==== Proof.K.Region1.lean ====
/- The region half of custom_call 1 of @main (pipeline 1), at a parameter `V` — the TensorCore's buffer
   contents when the region is entered: each window's block at a grid point, what the body leaves in the output
   window's buffer as a function of the eight input blocks, the body's triple, the pipeline's proof data and the
   body obligation at every point. Stated for any float interpretation `F`. -/
import proofs.«156729_j87711822119196_1_alg».proof.Proof.Gen.Kernel.Launch
import proofs.«156729_j87711822119196_1_alg».proof.Proof.Gen.Kernel.Skeleton
import proofs.«156729_j87711822119196_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the
    block index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched, the
    block index has not moved), for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (unfetched, the
    block index has not moved), for any proof data whose array is `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- Window 8's staging buffer after the body, from the eight input blocks: its one store, of the whole block. -/
def out1_8 (x0 x1 : Vec F S2000x128 .f32) (x2 : Vec F S128x128 .bf16) (x3 x4 x5 : Vec F S1x128 .f32) (x6 : Vec F S128x128 .bf16) (x7 : Vec F S1x128 .f32) : Vec F S2000x128 .f32 :=
  View.canon [⟨r1_0, k1_pay1 (View.ld x0 r1_0) (View.ld x1 r1_0) (View.ld x2 r1_1) (View.ld x3 r1_2) (View.ld x4 r1_2) (View.ld x5 r1_2) (View.ld x6 r1_1) (View.ld x7 r1_2)⟩]

/-- The one store covers the buffer. -/
theorem cover1_8 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at read contents `xW` and the output's at anything, runs to
    the continuation holding the inputs' as they were and the output's at `out1_8` of the inputs'. The body reads
    the output's buffer once before its store; what it reads there is not used. -/
theorem sound_kernel1 (c : Dev nD) (E : Set ℕ) (i : grid1.Coords) (arg0 : Memref sig .tc .vmem S2000x128 .f32) (harg0 : arg0.IsWhole) (arg1 : Memref sig .tc .vmem S2000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S2000x128 .f32) (harg8 : arg8.IsWhole)
    (x0 x1 : Vec F S2000x128 .f32) (x2 : Vec F S128x128 .bf16) (x3 x4 x5 : Vec F S1x128 .f32) (x6 : Vec F S128x128 .bf16) (x7 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out1_8 x0 x1 x2 x3 x4 x5 x6 x7)) -∗ K ⟨⟩))
      ⊢ wp frame (wpE (defs₀ (F := F)) Variants.none c none) E (cc1_gin_mlp_kernel i arg0 harg0 arg1 harg1 arg2 harg2 arg3 harg3 arg4 harg4 arg5 harg5 arg6 harg6 arg7 harg7 arg8 harg8) K := by
  simp only [cc1_gin_mlp_kernel_eq_skeleton]; unfold cc1_gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of pipeline 1 on core `c`: the arrays as the region finds them (`V`); after the body at point
    `t` each input's buffer at its block and the output's at `out1_8` of the input blocks; the invariant holds the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.GenH

end
-- ==== Proof.K.Region2.lean ====
/- The region half of custom_call 2 of @main (pipeline 2), at a parameter `V` — the TensorCore's buffer
   contents when the region is entered: each window's block at a grid point, what the body leaves in the output
   window's buffer as a function of the eight input blocks, the body's triple, the pipeline's proof data and the
   body obligation at every point. Stated for any float interpretation `F`. -/
import proofs.«156729_j87711822119196_1_alg».proof.Proof.Gen.Kernel.Launch
import proofs.«156729_j87711822119196_1_alg».proof.Proof.Gen.Kernel.Skeleton
import proofs.«156729_j87711822119196_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, the
    block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (unfetched, the
    block index has not moved), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (unfetched, the
    block index has not moved), for any proof data whose array is `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not (unfetched, the
    block index has not moved), for any proof data whose array is `V`'s and whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-! ## What the body leaves in the output window's buffer -/

/-- Window 8's staging buffer after the body, from the eight input blocks: its one store, of the whole block. -/
def out2_8 (x0 x1 : Vec F S2000x128 .f32) (x2 : Vec F S128x128 .bf16) (x3 x4 x5 : Vec F S1x128 .f32) (x6 : Vec F S128x128 .bf16) (x7 : Vec F S1x128 .f32) : Vec F S2000x128 .f32 :=
  View.canon [⟨r2_0, k2_pay1 (View.ld x0 r2_0) (View.ld x1 r2_0) (View.ld x2 r2_1) (View.ld x3 r2_2) (View.ld x4 r2_2) (View.ld x5 r2_2) (View.ld x6 r2_1) (View.ld x7 r2_2)⟩]

/-- The one store covers the buffer. -/
theorem cover2_8 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 1000000 in
/-- The kernel body on whole staging memrefs, the inputs' at read contents `xW` and the output's at anything, runs to
    the continuation holding the inputs' as they were and the output's at `out2_8` of the inputs'. The body reads
    the output's buffer once before its store; what it reads there is not used. -/
theorem sound_kernel2 (c : Dev nD) (E : Set ℕ) (i : grid2.Coords) (arg0 : Memref sig .tc .vmem S2000x128 .f32) (harg0 : arg0.IsWhole) (arg1 : Memref sig .tc .vmem S2000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S2000x128 .f32) (harg8 : arg8.IsWhole)
    (x0 x1 : Vec F S2000x128 .f32) (x2 : Vec F S128x128 .bf16) (x3 x4 x5 : Vec F S1x128 .f32) (x6 : Vec F S128x128 .bf16) (x7 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out2_8 x0 x1 x2 x3 x4 x5 x6 x7)) -∗ K ⟨⟩))
      ⊢ wp frame (wpE (defs₀ (F := F)) Variants.none c none) E (cc2_gin_mlp_kernel i arg0 harg0 arg1 harg1 arg2 harg2 arg3 harg3 arg4 harg4 arg5 harg5 arg6 harg6 arg7 harg7 arg8 harg8) K := by
  simp only [cc2_gin_mlp_kernel_eq_skeleton]; unfold cc2_gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of pipeline 2 on core `c`: the arrays as the region finds them (`V`); after the body at point
    `t` each input's buffer at its block and the output's at `out2_8` of the input blocks; the invariant holds the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.GenH

end
-- ==== Proof.K.Region3.lean ====
/- The region half of custom_call 3 of @main (pipeline 3), at a parameter `V` — the TensorCore's buffer
   contents when the region is entered: each window's block at a grid point, what the body leaves in the output
   window's buffer as a function of the eight input blocks, the body's triple, the pipeline's proof data and the
   body obligation at every point. Stated for any float interpretation `F`. -/
import proofs.«156729_j87711822119196_1_alg».proof.Proof.Gen.Kernel.Launch
import proofs.«156729_j87711822119196_1_alg».proof.Proof.Gen.Kernel.Skeleton
import proofs.«156729_j87711822119196_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the
    block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the
    block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (unfetched, the
    block index has not moved), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (unfetched, the
    block index has not moved), for any proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (unfetched, the
    block index has not moved), for any proof data whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not (unfetched, the
    block index has not moved), for any proof data whose array is `V`'s and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not (unfetched, the
    block index has not moved), for any proof data whose array is `V`'s and whose body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in the output window's buffer -/

/-- Window 8's staging buffer after the body, from the eight input blocks: its one store, of the whole block. -/
def out3_8 (x0 x1 : Vec F S2000x128 .f32) (x2 : Vec F S128x128 .bf16) (x3 x4 x5 : Vec F S1x128 .f32) (x6 : Vec F S128x128 .bf16) (x7 : Vec F S1x128 .f32) : Vec F S2000x128 .f32 :=
  View.canon [⟨r3_0, k3_pay1 (View.ld x0 r3_0) (View.ld x1 r3_0) (View.ld x2 r3_1) (View.ld x3 r3_2) (View.ld x4 r3_2) (View.ld x5 r3_2) (View.ld x6 r3_1) (View.ld x7 r3_2)⟩]

/-- The one store covers the buffer. -/
theorem cover3_8 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body on whole staging memrefs, the inputs' at read contents `xW` and the output's at anything, runs to
    the continuation holding the inputs' as they were and the output's at `out3_8` of the inputs'. The body reads
    the output's buffer once before its store; what it reads there is not used. -/
theorem sound_kernel3 (c : Dev nD) (E : Set ℕ) (i : grid3.Coords) (arg0 : Memref sig .tc .vmem S2000x128 .f32) (harg0 : arg0.IsWhole) (arg1 : Memref sig .tc .vmem S2000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S2000x128 .f32) (harg8 : arg8.IsWhole)
    (x0 x1 : Vec F S2000x128 .f32) (x2 : Vec F S128x128 .bf16) (x3 x4 x5 : Vec F S1x128 .f32) (x6 : Vec F S128x128 .bf16) (x7 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out3_8 x0 x1 x2 x3 x4 x5 x6 x7)) -∗ K ⟨⟩))
      ⊢ wp frame (wpE (defs₀ (F := F)) Variants.none c none) E (cc3_gin_mlp_kernel i arg0 harg0 arg1 harg1 arg2 harg2 arg3 harg3 arg4 harg4 arg5 harg5 arg6 harg6 arg7 harg7 arg8 harg8) K := by
  simp only [cc3_gin_mlp_kernel_eq_skeleton]; unfold cc3_gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_8 _)

/-! ## The pipeline's proof data -/

/-- The proof data of pipeline 3 on core `c`: the arrays as the region finds them (`V`); after the body at point
    `t` each input's buffer at its block and the output's at `out3_8` of the input blocks; the invariant holds the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.GenH

end
-- ==== Proof.K.Run.lean ====
/- THE RUN of @main: its nine items — five stretches of host operations around four kernel regions — as segments
   from the launch to the return. The buffer contents at every segment boundary are a fold from the launch memory
   (a stretch's `StableHlo.after`; a region's arrays at what its write-backs leave, every other buffer as entered);
   every argument array read back through the fold is its launch contents; each region is a segment over the
   thread state "every unscoped buffer at the boundary's contents, the generator register at some state, nothing
   owed"; the launch over the segments gives every unscoped buffer of every final state at the last boundary's
   contents (`run_all`), and from it the frame claim (`frame`). Stated for any float interpretation `F`. -/
import proofs.«156729_j87711822119196_1_alg».proof.Proof.K.Region0
import proofs.«156729_j87711822119196_1_alg».proof.Proof.K.Region1
import proofs.«156729_j87711822119196_1_alg».proof.Proof.K.Region2
import proofs.«156729_j87711822119196_1_alg».proof.Proof.K.Region3
import proofs.«156729_j87711822119196_1_alg».proof.Proof.Gen.Kernel.Regions

-- decided memberships over the program's 253 references recurse past the default depth
set_option maxRecDepth 16384

noncomputable section

namespace Cert.Kernel.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- A buffer `hostOps0` does not write holds after the stretch what it held before. -/
theorem W1_of (c : Dev nD) (b : Ref sig .tc) (h : b ∉ hostOps0_W) :
    W1 m ρ c (Proc.devRef .tc b) = W0 m ρ c (Proc.devRef .tc b) :=
  StableHlo.after_of_writes_sub hostOps0 _ hostOps0_writes h
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0's output array at its exit: the write-backs of all its grid points folded into the array as entered. -/
theorem W2_out (c : Dev nD) : W2 m ρ c (Proc.devRef .tc main_v28) = (dat0 (V1 m ρ) c).arrAt 8 cfg0.N :=
  W2_arr m ρ c 8
/-- Every other buffer at region 0's exit holds what it held at entry: an input array is never written back
    (`Dat.arrAt_in`), a buffer that is no array of the region is not the region's to change. -/
theorem W2_keep (c : Dev nD) (b : Ref sig .tc) (hb : b ≠ main_v28) :
    W2 m ρ c (Proc.devRef .tc b) = W1 m ρ c (Proc.devRef .tc b) := by
  by_cases h : ∃ w, Pipeline.arrRef spec0 w = b
  · obtain ⟨w, rfl⟩ := h
    have hin : (cfg0.win w).isOut = false :=
      (by decide : ∀ w : Fin 9, Pipeline.arrRef spec0 w ≠ main_v28 → (cfg0.win w).isOut = false) w hb
    exact (W2_arr m ρ c w).trans (((dat0 (V1 m ρ) c).arrAt_in w hin _).trans (A_eq0 (V1 m ρ) c w))
  · exact W2_of_ne m ρ c b fun w e => h ⟨w, e⟩

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- A buffer `hostOps1` does not write holds after the stretch what it held before. -/
theorem W3_of (c : Dev nD) (b : Ref sig .tc) (h : b ∉ hostOps1_W) :
    W3 m ρ c (Proc.devRef .tc b) = W2 m ρ c (Proc.devRef .tc b) :=
  StableHlo.after_of_writes_sub hostOps1 _ hostOps1_writes h
/-- At region 1's exit: its arrays at what the pipeline leaves (the inputs as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1's output array at its exit: the write-backs of all its grid points folded into the array as entered. -/
theorem W4_out (c : Dev nD) : W4 m ρ c (Proc.devRef .tc main_v69) = (dat1 (V3 m ρ) c).arrAt 8 cfg1.N :=
  W4_arr m ρ c 8
/-- Every other buffer at region 1's exit holds what it held at entry: an input array is never written back
    (`Dat.arrAt_in`), a buffer that is no array of the region is not the region's to change. -/
theorem W4_keep (c : Dev nD) (b : Ref sig .tc) (hb : b ≠ main_v69) :
    W4 m ρ c (Proc.devRef .tc b) = W3 m ρ c (Proc.devRef .tc b) := by
  by_cases h : ∃ w, Pipeline.arrRef spec1 w = b
  · obtain ⟨w, rfl⟩ := h
    have hin : (cfg1.win w).isOut = false :=
      (by decide : ∀ w : Fin 9, Pipeline.arrRef spec1 w ≠ main_v69 → (cfg1.win w).isOut = false) w hb
    exact (W4_arr m ρ c w).trans (((dat1 (V3 m ρ) c).arrAt_in w hin _).trans (A_eq1 (V3 m ρ) c w))
  · exact W4_of_ne m ρ c b fun w e => h ⟨w, e⟩

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- A buffer `hostOps2` does not write holds after the stretch what it held before. -/
theorem W5_of (c : Dev nD) (b : Ref sig .tc) (h : b ∉ hostOps2_W) :
    W5 m ρ c (Proc.devRef .tc b) = W4 m ρ c (Proc.devRef .tc b) :=
  StableHlo.after_of_writes_sub hostOps2 _ hostOps2_writes h
/-- At region 2's exit: its arrays at what the pipeline leaves (the inputs as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2's output array at its exit: the write-backs of all its grid points folded into the array as entered. -/
theorem W6_out (c : Dev nD) : W6 m ρ c (Proc.devRef .tc main_v110) = (dat2 (V5 m ρ) c).arrAt 8 cfg2.N :=
  W6_arr m ρ c 8
/-- Every other buffer at region 2's exit holds what it held at entry: an input array is never written back
    (`Dat.arrAt_in`), a buffer that is no array of the region is not the region's to change. -/
theorem W6_keep (c : Dev nD) (b : Ref sig .tc) (hb : b ≠ main_v110) :
    W6 m ρ c (Proc.devRef .tc b) = W5 m ρ c (Proc.devRef .tc b) := by
  by_cases h : ∃ w, Pipeline.arrRef spec2 w = b
  · obtain ⟨w, rfl⟩ := h
    have hin : (cfg2.win w).isOut = false :=
      (by decide : ∀ w : Fin 9, Pipeline.arrRef spec2 w ≠ main_v110 → (cfg2.win w).isOut = false) w hb
    exact (W6_arr m ρ c w).trans (((dat2 (V5 m ρ) c).arrAt_in w hin _).trans (A_eq2 (V5 m ρ) c w))
  · exact W6_of_ne m ρ c b fun w e => h ⟨w, e⟩

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- A buffer `hostOps3` does not write holds after the stretch what it held before. -/
theorem W7_of (c : Dev nD) (b : Ref sig .tc) (h : b ∉ hostOps3_W) :
    W7 m ρ c (Proc.devRef .tc b) = W6 m ρ c (Proc.devRef .tc b) :=
  StableHlo.after_of_writes_sub hostOps3 _ hostOps3_writes h
/-- At region 3's exit: its arrays at what the pipeline leaves (the inputs as entered, the output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- Region 3's output array at its exit: the write-backs of all its grid points folded into the array as entered. -/
theorem W8_out (c : Dev nD) : W8 m ρ c (Proc.devRef .tc main_v151) = (dat3 (V7 m ρ) c).arrAt 8 cfg3.N :=
  W8_arr m ρ c 8
/-- Every other buffer at region 3's exit holds what it held at entry: an input array is never written back
    (`Dat.arrAt_in`), a buffer that is no array of the region is not the region's to change. -/
theorem W8_keep (c : Dev nD) (b : Ref sig .tc) (hb : b ≠ main_v151) :
    W8 m ρ c (Proc.devRef .tc b) = W7 m ρ c (Proc.devRef .tc b) := by
  by_cases h : ∃ w, Pipeline.arrRef spec3 w = b
  · obtain ⟨w, rfl⟩ := h
    have hin : (cfg3.win w).isOut = false :=
      (by decide : ∀ w : Fin 9, Pipeline.arrRef spec3 w ≠ main_v151 → (cfg3.win w).isOut = false) w hb
    exact (W8_arr m ρ c w).trans (((dat3 (V7 m ρ) c).arrAt_in w hin _).trans (A_eq3 (V7 m ρ) c w))
  · exact W8_of_ne m ρ c b fun w e => h ⟨w, e⟩

/-- After `hostOps4` (the return). -/
abbrev W9 : Dev nD → Valuation τ sig (Elt F) := fun c => StableHlo.after hostOps4 (W8 m ρ c)
/-- A buffer `hostOps4` does not write holds after the stretch what it held before. -/
theorem W9_of (c : Dev nD) (b : Ref sig .tc) (h : b ∉ hostOps4_W) :
    W9 m ρ c (Proc.devRef .tc b) = W8 m ρ c (Proc.devRef .tc b) :=
  StableHlo.after_of_writes_sub hostOps4 _ hostOps4_writes h

/-! ### The arguments end as launched: no host operation writes one and no region's output array is one, so the
    fold at an argument's buffer walks back to the launch memory -/

theorem W9_main_arg0 (c : Dev nD) : W9 m ρ c (Proc.devRef .tc main_arg0) = m ((c : Thread nD τ).loc main_arg0) :=
  (W9_of m ρ c main_arg0 (by decide)).trans <| (W8_keep m ρ c main_arg0 (by decide)).trans <|
  (W7_of m ρ c main_arg0 (by decide)).trans <| (W6_keep m ρ c main_arg0 (by decide)).trans <|
  (W5_of m ρ c main_arg0 (by decide)).trans <| (W4_keep m ρ c main_arg0 (by decide)).trans <|
  (W3_of m ρ c main_arg0 (by decide)).trans <| (W2_keep m ρ c main_arg0 (by decide)).trans <|
  (W1_of m ρ c main_arg0 (by decide)).trans rfl
theorem W9_main_arg1 (c : Dev nD) : W9 m ρ c (Proc.devRef .tc main_arg1) = m ((c : Thread nD τ).loc main_arg1) :=
  (W9_of m ρ c main_arg1 (by decide)).trans <| (W8_keep m ρ c main_arg1 (by decide)).trans <|
  (W7_of m ρ c main_arg1 (by decide)).trans <| (W6_keep m ρ c main_arg1 (by decide)).trans <|
  (W5_of m ρ c main_arg1 (by decide)).trans <| (W4_keep m ρ c main_arg1 (by decide)).trans <|
  (W3_of m ρ c main_arg1 (by decide)).trans <| (W2_keep m ρ c main_arg1 (by decide)).trans <|
  (W1_of m ρ c main_arg1 (by decide)).trans rfl
theorem W9_main_arg2 (c : Dev nD) : W9 m ρ c (Proc.devRef .tc main_arg2) = m ((c : Thread nD τ).loc main_arg2) :=
  (W9_of m ρ c main_arg2 (by decide)).trans <| (W8_keep m ρ c main_arg2 (by decide)).trans <|
  (W7_of m ρ c main_arg2 (by decide)).trans <| (W6_keep m ρ c main_arg2 (by decide)).trans <|
  (W5_of m ρ c main_arg2 (by decide)).trans <| (W4_keep m ρ c main_arg2 (by decide)).trans <|
  (W3_of m ρ c main_arg2 (by decide)).trans <| (W2_keep m ρ c main_arg2 (by decide)).trans <|
  (W1_of m ρ c main_arg2 (by decide)).trans rfl
theorem W9_main_arg3 (c : Dev nD) : W9 m ρ c (Proc.devRef .tc main_arg3) = m ((c : Thread nD τ).loc main_arg3) :=
  (W9_of m ρ c main_arg3 (by decide)).trans <| (W8_keep m ρ c main_arg3 (by decide)).trans <|
  (W7_of m ρ c main_arg3 (by decide)).trans <| (W6_keep m ρ c main_arg3 (by decide)).trans <|
  (W5_of m ρ c main_arg3 (by decide)).trans <| (W4_keep m ρ c main_arg3 (by decide)).trans <|
  (W3_of m ρ c main_arg3 (by decide)).trans <| (W2_keep m ρ c main_arg3 (by decide)).trans <|
  (W1_of m ρ c main_arg3 (by decide)).trans rfl
theorem W9_main_arg4 (c : Dev nD) : W9 m ρ c (Proc.devRef .tc main_arg4) = m ((c : Thread nD τ).loc main_arg4) :=
  (W9_of m ρ c main_arg4 (by decide)).trans <| (W8_keep m ρ c main_arg4 (by decide)).trans <|
  (W7_of m ρ c main_arg4 (by decide)).trans <| (W6_keep m ρ c main_arg4 (by decide)).trans <|
  (W5_of m ρ c main_arg4 (by decide)).trans <| (W4_keep m ρ c main_arg4 (by decide)).trans <|
  (W3_of m ρ c main_arg4 (by decide)).trans <| (W2_keep m ρ c main_arg4 (by decide)).trans <|
  (W1_of m ρ c main_arg4 (by decide)).trans rfl
theorem W9_main_arg5 (c : Dev nD) : W9 m ρ c (Proc.devRef .tc main_arg5) = m ((c : Thread nD τ).loc main_arg5) :=
  (W9_of m ρ c main_arg5 (by decide)).trans <| (W8_keep m ρ c main_arg5 (by decide)).trans <|
  (W7_of m ρ c main_arg5 (by decide)).trans <| (W6_keep m ρ c main_arg5 (by decide)).trans <|
  (W5_of m ρ c main_arg5 (by decide)).trans <| (W4_keep m ρ c main_arg5 (by decide)).trans <|
  (W3_of m ρ c main_arg5 (by decide)).trans <| (W2_keep m ρ c main_arg5 (by decide)).trans <|
  (W1_of m ρ c main_arg5 (by decide)).trans rfl
theorem W9_main_arg6 (c : Dev nD) : W9 m ρ c (Proc.devRef .tc main_arg6) = m ((c : Thread nD τ).loc main_arg6) :=
  (W9_of m ρ c main_arg6 (by decide)).trans <| (W8_keep m ρ c main_arg6 (by decide)).trans <|
  (W7_of m ρ c main_arg6 (by decide)).trans <| (W6_keep m ρ c main_arg6 (by decide)).trans <|
  (W5_of m ρ c main_arg6 (by decide)).trans <| (W4_keep m ρ c main_arg6 (by decide)).trans <|
  (W3_of m ρ c main_arg6 (by decide)).trans <| (W2_keep m ρ c main_arg6 (by decide)).trans <|
  (W1_of m ρ c main_arg6 (by decide)).trans rfl
theorem W9_main_arg7 (c : Dev nD) : W9 m ρ c (Proc.devRef .tc main_arg7) = m ((c : Thread nD τ).loc main_arg7) :=
  (W9_of m ρ c main_arg7 (by decide)).trans <| (W8_keep m ρ c main_arg7 (by decide)).trans <|
  (W7_of m ρ c main_arg7 (by decide)).trans <| (W6_keep m ρ c main_arg7 (by decide)).trans <|
  (W5_of m ρ c main_arg7 (by decide)).trans <| (W4_keep m ρ c main_arg7 (by decide)).trans <|
  (W3_of m ρ c main_arg7 (by decide)).trans <| (W2_keep m ρ c main_arg7 (by decide)).trans <|
  (W1_of m ρ c main_arg7 (by decide)).trans rfl
theorem W9_main_arg8 (c : Dev nD) : W9 m ρ c (Proc.devRef .tc main_arg8) = m ((c : Thread nD τ).loc main_arg8) :=
  (W9_of m ρ c main_arg8 (by decide)).trans <| (W8_keep m ρ c main_arg8 (by decide)).trans <|
  (W7_of m ρ c main_arg8 (by decide)).trans <| (W6_keep m ρ c main_arg8 (by decide)).trans <|
  (W5_of m ρ c main_arg8 (by decide)).trans <| (W4_keep m ρ c main_arg8 (by decide)).trans <|
  (W3_of m ρ c main_arg8 (by decide)).trans <| (W2_keep m ρ c main_arg8 (by decide)).trans <|
  (W1_of m ρ c main_arg8 (by decide)).trans rfl
theorem W9_main_arg9 (c : Dev nD) : W9 m ρ c (Proc.devRef .tc main_arg9) = m ((c : Thread nD τ).loc main_arg9) :=
  (W9_of m ρ c main_arg9 (by decide)).trans <| (W8_keep m ρ c main_arg9 (by decide)).trans <|
  (W7_of m ρ c main_arg9 (by decide)).trans <| (W6_keep m ρ c main_arg9 (by decide)).trans <|
  (W5_of m ρ c main_arg9 (by decide)).trans <| (W4_keep m ρ c main_arg9 (by decide)).trans <|
  (W3_of m ρ c main_arg9 (by decide)).trans <| (W2_keep m ρ c main_arg9 (by decide)).trans <|
  (W1_of m ρ c main_arg9 (by decide)).trans rfl
theorem W9_main_arg10 (c : Dev nD) : W9 m ρ c (Proc.devRef .tc main_arg10) = m ((c : Thread nD τ).loc main_arg10) :=
  (W9_of m ρ c main_arg10 (by decide)).trans <| (W8_keep m ρ c main_arg10 (by decide)).trans <|
  (W7_of m ρ c main_arg10 (by decide)).trans <| (W6_keep m ρ c main_arg10 (by decide)).trans <|
  (W5_of m ρ c main_arg10 (by decide)).trans <| (W4_keep m ρ c main_arg10 (by decide)).trans <|
  (W3_of m ρ c main_arg10 (by decide)).trans <| (W2_keep m ρ c main_arg10 (by decide)).trans <|
  (W1_of m ρ c main_arg10 (by decide)).trans rfl
theorem W9_main_arg11 (c : Dev nD) : W9 m ρ c (Proc.devRef .tc main_arg11) = m ((c : Thread nD τ).loc main_arg11) :=
  (W9_of m ρ c main_arg11 (by decide)).trans <| (W8_keep m ρ c main_arg11 (by decide)).trans <|
  (W7_of m ρ c main_arg11 (by decide)).trans <| (W6_keep m ρ c main_arg11 (by decide)).trans <|
  (W5_of m ρ c main_arg11 (by decide)).trans <| (W4_keep m ρ c main_arg11 (by decide)).trans <|
  (W3_of m ρ c main_arg11 (by decide)).trans <| (W2_keep m ρ c main_arg11 (by decide)).trans <|
  (W1_of m ρ c main_arg11 (by decide)).trans rfl
theorem W9_main_arg12 (c : Dev nD) : W9 m ρ c (Proc.devRef .tc main_arg12) = m ((c : Thread nD τ).loc main_arg12) :=
  (W9_of m ρ c main_arg12 (by decide)).trans <| (W8_keep m ρ c main_arg12 (by decide)).trans <|
  (W7_of m ρ c main_arg12 (by decide)).trans <| (W6_keep m ρ c main_arg12 (by decide)).trans <|
  (W5_of m ρ c main_arg12 (by decide)).trans <| (W4_keep m ρ c main_arg12 (by decide)).trans <|
  (W3_of m ρ c main_arg12 (by decide)).trans <| (W2_keep m ρ c main_arg12 (by decide)).trans <|
  (W1_of m ρ c main_arg12 (by decide)).trans rfl
theorem W9_main_arg13 (c : Dev nD) : W9 m ρ c (Proc.devRef .tc main_arg13) = m ((c : Thread nD τ).loc main_arg13) :=
  (W9_of m ρ c main_arg13 (by decide)).trans <| (W8_keep m ρ c main_arg13 (by decide)).trans <|
  (W7_of m ρ c main_arg13 (by decide)).trans <| (W6_keep m ρ c main_arg13 (by decide)).trans <|
  (W5_of m ρ c main_arg13 (by decide)).trans <| (W4_keep m ρ c main_arg13 (by decide)).trans <|
  (W3_of m ρ c main_arg13 (by decide)).trans <| (W2_keep m ρ c main_arg13 (by decide)).trans <|
  (W1_of m ρ c main_arg13 (by decide)).trans rfl
theorem W9_main_arg14 (c : Dev nD) : W9 m ρ c (Proc.devRef .tc main_arg14) = m ((c : Thread nD τ).loc main_arg14) :=
  (W9_of m ρ c main_arg14 (by decide)).trans <| (W8_keep m ρ c main_arg14 (by decide)).trans <|
  (W7_of m ρ c main_arg14 (by decide)).trans <| (W6_keep m ρ c main_arg14 (by decide)).trans <|
  (W5_of m ρ c main_arg14 (by decide)).trans <| (W4_keep m ρ c main_arg14 (by decide)).trans <|
  (W3_of m ρ c main_arg14 (by decide)).trans <| (W2_keep m ρ c main_arg14 (by decide)).trans <|
  (W1_of m ρ c main_arg14 (by decide)).trans rfl
theorem W9_main_arg15 (c : Dev nD) : W9 m ρ c (Proc.devRef .tc main_arg15) = m ((c : Thread nD τ).loc main_arg15) :=
  (W9_of m ρ c main_arg15 (by decide)).trans <| (W8_keep m ρ c main_arg15 (by decide)).trans <|
  (W7_of m ρ c main_arg15 (by decide)).trans <| (W6_keep m ρ c main_arg15 (by decide)).trans <|
  (W5_of m ρ c main_arg15 (by decide)).trans <| (W4_keep m ρ c main_arg15 (by decide)).trans <|
  (W3_of m ρ c main_arg15 (by decide)).trans <| (W2_keep m ρ c main_arg15 (by decide)).trans <|
  (W1_of m ρ c main_arg15 (by decide)).trans rfl
theorem W9_main_arg16 (c : Dev nD) : W9 m ρ c (Proc.devRef .tc main_arg16) = m ((c : Thread nD τ).loc main_arg16) :=
  (W9_of m ρ c main_arg16 (by decide)).trans <| (W8_keep m ρ c main_arg16 (by decide)).trans <|
  (W7_of m ρ c main_arg16 (by decide)).trans <| (W6_keep m ρ c main_arg16 (by decide)).trans <|
  (W5_of m ρ c main_arg16 (by decide)).trans <| (W4_keep m ρ c main_arg16 (by decide)).trans <|
  (W3_of m ρ c main_arg16 (by decide)).trans <| (W2_keep m ρ c main_arg16 (by decide)).trans <|
  (W1_of m ρ c main_arg16 (by decide)).trans rfl
theorem W9_main_arg17 (c : Dev nD) : W9 m ρ c (Proc.devRef .tc main_arg17) = m ((c : Thread nD τ).loc main_arg17) :=
  (W9_of m ρ c main_arg17 (by decide)).trans <| (W8_keep m ρ c main_arg17 (by decide)).trans <|
  (W7_of m ρ c main_arg17 (by decide)).trans <| (W6_keep m ρ c main_arg17 (by decide)).trans <|
  (W5_of m ρ c main_arg17 (by decide)).trans <| (W4_keep m ρ c main_arg17 (by decide)).trans <|
  (W3_of m ρ c main_arg17 (by decide)).trans <| (W2_keep m ρ c main_arg17 (by decide)).trans <|
  (W1_of m ρ c main_arg17 (by decide)).trans rfl
theorem W9_main_arg18 (c : Dev nD) : W9 m ρ c (Proc.devRef .tc main_arg18) = m ((c : Thread nD τ).loc main_arg18) :=
  (W9_of m ρ c main_arg18 (by decide)).trans <| (W8_keep m ρ c main_arg18 (by decide)).trans <|
  (W7_of m ρ c main_arg18 (by decide)).trans <| (W6_keep m ρ c main_arg18 (by decide)).trans <|
  (W5_of m ρ c main_arg18 (by decide)).trans <| (W4_keep m ρ c main_arg18 (by decide)).trans <|
  (W3_of m ρ c main_arg18 (by decide)).trans <| (W2_keep m ρ c main_arg18 (by decide)).trans <|
  (W1_of m ρ c main_arg18 (by decide)).trans rfl
theorem W9_main_arg19 (c : Dev nD) : W9 m ρ c (Proc.devRef .tc main_arg19) = m ((c : Thread nD τ).loc main_arg19) :=
  (W9_of m ρ c main_arg19 (by decide)).trans <| (W8_keep m ρ c main_arg19 (by decide)).trans <|
  (W7_of m ρ c main_arg19 (by decide)).trans <| (W6_keep m ρ c main_arg19 (by decide)).trans <|
  (W5_of m ρ c main_arg19 (by decide)).trans <| (W4_keep m ρ c main_arg19 (by decide)).trans <|
  (W3_of m ρ c main_arg19 (by decide)).trans <| (W2_keep m ρ c main_arg19 (by decide)).trans <|
  (W1_of m ρ c main_arg19 (by decide)).trans rfl

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

-- a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers and put back at the exit
    contents; the generator register into the class invariant and out; nothing owed; no semaphore of the
    kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers and put back at the exit
    contents; the generator register into the class invariant and out; nothing owed; no semaphore of the
    kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers and put back at the exit
    contents; the generator register into the class invariant and out; nothing owed; no semaphore of the
    kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the next segment is entered from). Its arrays split out of the unscoped buffers and put back at the exit
    contents; the generator register into the class invariant and out; nothing owed; no semaphore of the
    kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

/-- The segments' fragments of @main, in order. -/
theorem segs_progs : (segs m ρ).map Seg.prog = [
    StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()),
    StableHlo.seq hostOps4 ] := rfl

/-- @main IS the run of the segments: @main is the chain of its items, and so is the segments' run. -/
theorem main_run (c : Dev nD) : main (F := F) c = Pipeline.Seg.run (segs m ρ) := by
  rw [main_chain c, Seg.run_eq_chain, segs_progs]

-- the launch kit's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's every unscoped buffer holds the last
    boundary's contents `W9`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

/-- THE FRAME at any `F`: every final state has the argument arrays as launched — each argument is an unscoped buffer,
    and the last boundary's contents at it are the launch's (`W9_main_arg<i>`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  OrdCont.mono (θ_run defs (onTc (τ := τ) (main (F := F))) ⟨m, fun _ => 0, ρ⟩) (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c),
     (h c _ (mem_uc main_arg14 (by decide))).trans (W9_main_arg14 m ρ c),
     (h c _ (mem_uc main_arg15 (by decide))).trans (W9_main_arg15 m ρ c),
     (h c _ (mem_uc main_arg16 (by decide))).trans (W9_main_arg16 m ρ c),
     (h c _ (mem_uc main_arg17 (by decide))).trans (W9_main_arg17 m ρ c),
     (h c _ (mem_uc main_arg18 (by decide))).trans (W9_main_arg18 m ρ c),
     (h c _ (mem_uc main_arg19 (by decide))).trans (W9_main_arg19 m ρ c)⟩) (run_all m ρ)

end Cert.Kernel.GenH

end
-- ==== Proof.KI.Region0.lean ====
/- The region half of custom_call 0 of @main (pipeline 0), at a parameter `V` — the TensorCore's buffer
   contents when the region is entered: each window's block at a grid point, what the body leaves in the output
   window's buffer as a function of the eight input blocks, the body's triple, the pipeline's proof data and the
   body obligation at every point. Stated for any float interpretation `F`. -/
import proofs.«156729_j87711822119196_1_alg».proof.Proof.Gen.KernelIdeal.Launch
import proofs.«156729_j87711822119196_1_alg».proof.Proof.Gen.KernelIdeal.Skeleton
import proofs.«156729_j87711822119196_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the
    block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the
    block index has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (unfetched, the
    block index has not moved), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (unfetched, the
    block index has not moved), for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (unfetched, the
    block index has not moved), for any proof data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- Window 8's staging buffer after the body, from the eight input blocks: its one store, of the whole block. -/
def out0_8 (x0 x1 : Vec F S2000x128 .f32) (x2 : Vec F S128x128 .bf16) (x3 x4 x5 : Vec F S1x128 .f32) (x6 : Vec F S128x128 .bf16) (x7 : Vec F S1x128 .f32) : Vec F S2000x128 .f32 :=
  View.canon [⟨r0_0, k0_pay1 (View.ld x0 r0_0) (View.ld x1 r0_0) (View.ld x2 r0_1) (View.ld x3 r0_2) (View.ld x4 r0_2) (View.ld x5 r0_2) (View.ld x6 r0_1) (View.ld x7 r0_2)⟩]

/-- The one store covers the buffer. -/
theorem cover0_8 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The kernel body on whole staging memrefs, the inputs' at read contents `xW` and the output's at anything, runs to
    the continuation holding the inputs' as they were and the output's at `out0_8` of the inputs'. The body reads
    the output's buffer once before its store; what it reads there is not used. -/
theorem sound_kernel0 (c : Dev nD) (E : Set ℕ) (i : grid0.Coords) (arg0 : Memref sig .tc .vmem S2000x128 .f32) (harg0 : arg0.IsWhole) (arg1 : Memref sig .tc .vmem S2000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S2000x128 .f32) (harg8 : arg8.IsWhole)
    (x0 x1 : Vec F S2000x128 .f32) (x2 : Vec F S128x128 .bf16) (x3 x4 x5 : Vec F S1x128 .f32) (x6 : Vec F S128x128 .bf16) (x7 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out0_8 x0 x1 x2 x3 x4 x5 x6 x7)) -∗ K ⟨⟩))
      ⊢ wp frame (wpE (defs₀ (F := F)) Variants.none c none) E (cc0_gin_mlp_kernel i arg0 harg0 arg1 harg1 arg2 harg2 arg3 harg3 arg4 harg4 arg5 harg5 arg6 harg6 arg7 harg7 arg8 harg8) K := by
  simp only [cc0_gin_mlp_kernel_eq_skeleton]; unfold cc0_gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The pipeline's proof data -/

/-- The proof data of pipeline 0 on core `c`: the arrays as the region finds them (`V`); after the body at point
    `t` each input's buffer at its block and the output's at `out0_8` of the input blocks; the invariant holds the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.GenH

end
-- ==== Proof.KI.Region1.lean ====
/- The region half of custom_call 1 of @main (pipeline 1), at a parameter `V` — the TensorCore's buffer
   contents when the region is entered: each window's block at a grid point, what the body leaves in the output
   window's buffer as a function of the eight input blocks, the body's triple, the pipeline's proof data and the
   body obligation at every point. Stated for any float interpretation `F`. -/
import proofs.«156729_j87711822119196_1_alg».proof.Proof.Gen.KernelIdeal.Launch
import proofs.«156729_j87711822119196_1_alg».proof.Proof.Gen.KernelIdeal.Skeleton
import proofs.«156729_j87711822119196_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the
    block index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched, the
    block index has not moved), for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (unfetched, the
    block index has not moved), for any proof data whose array is `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output window's buffer -/

/-- Window 8's staging buffer after the body, from the eight input blocks: its one store, of the whole block. -/
def out1_8 (x0 x1 : Vec F S2000x128 .f32) (x2 : Vec F S128x128 .bf16) (x3 x4 x5 : Vec F S1x128 .f32) (x6 : Vec F S128x128 .bf16) (x7 : Vec F S1x128 .f32) : Vec F S2000x128 .f32 :=
  View.canon [⟨r1_0, k1_pay1 (View.ld x0 r1_0) (View.ld x1 r1_0) (View.ld x2 r1_1) (View.ld x3 r1_2) (View.ld x4 r1_2) (View.ld x5 r1_2) (View.ld x6 r1_1) (View.ld x7 r1_2)⟩]

/-- The one store covers the buffer. -/
theorem cover1_8 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at read contents `xW` and the output's at anything, runs to
    the continuation holding the inputs' as they were and the output's at `out1_8` of the inputs'. The body reads
    the output's buffer once before its store; what it reads there is not used. -/
theorem sound_kernel1 (c : Dev nD) (E : Set ℕ) (i : grid1.Coords) (arg0 : Memref sig .tc .vmem S2000x128 .f32) (harg0 : arg0.IsWhole) (arg1 : Memref sig .tc .vmem S2000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S2000x128 .f32) (harg8 : arg8.IsWhole)
    (x0 x1 : Vec F S2000x128 .f32) (x2 : Vec F S128x128 .bf16) (x3 x4 x5 : Vec F S1x128 .f32) (x6 : Vec F S128x128 .bf16) (x7 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out1_8 x0 x1 x2 x3 x4 x5 x6 x7)) -∗ K ⟨⟩))
      ⊢ wp frame (wpE (defs₀ (F := F)) Variants.none c none) E (cc1_gin_mlp_kernel i arg0 harg0 arg1 harg1 arg2 harg2 arg3 harg3 arg4 harg4 arg5 harg5 arg6 harg6 arg7 harg7 arg8 harg8) K := by
  simp only [cc1_gin_mlp_kernel_eq_skeleton]; unfold cc1_gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of pipeline 1 on core `c`: the arrays as the region finds them (`V`); after the body at point
    `t` each input's buffer at its block and the output's at `out1_8` of the input blocks; the invariant holds the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.GenH

end
-- ==== Proof.KI.Region2.lean ====
/- The region half of custom_call 2 of @main (pipeline 2), at a parameter `V` — the TensorCore's buffer
   contents when the region is entered: each window's block at a grid point, what the body leaves in the output
   window's buffer as a function of the eight input blocks, the body's triple, the pipeline's proof data and the
   body obligation at every point. Stated for any float interpretation `F`. -/
import proofs.«156729_j87711822119196_1_alg».proof.Proof.Gen.KernelIdeal.Launch
import proofs.«156729_j87711822119196_1_alg».proof.Proof.Gen.KernelIdeal.Skeleton
import proofs.«156729_j87711822119196_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, the
    block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (unfetched, the
    block index has not moved), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (unfetched, the
    block index has not moved), for any proof data whose array is `V`'s and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not (unfetched, the
    block index has not moved), for any proof data whose array is `V`'s and whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-! ## What the body leaves in the output window's buffer -/

/-- Window 8's staging buffer after the body, from the eight input blocks: its one store, of the whole block. -/
def out2_8 (x0 x1 : Vec F S2000x128 .f32) (x2 : Vec F S128x128 .bf16) (x3 x4 x5 : Vec F S1x128 .f32) (x6 : Vec F S128x128 .bf16) (x7 : Vec F S1x128 .f32) : Vec F S2000x128 .f32 :=
  View.canon [⟨r2_0, k2_pay1 (View.ld x0 r2_0) (View.ld x1 r2_0) (View.ld x2 r2_1) (View.ld x3 r2_2) (View.ld x4 r2_2) (View.ld x5 r2_2) (View.ld x6 r2_1) (View.ld x7 r2_2)⟩]

/-- The one store covers the buffer. -/
theorem cover2_8 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

/-! ## The body's triple -/

set_option maxHeartbeats 1000000 in
/-- The kernel body on whole staging memrefs, the inputs' at read contents `xW` and the output's at anything, runs to
    the continuation holding the inputs' as they were and the output's at `out2_8` of the inputs'. The body reads
    the output's buffer once before its store; what it reads there is not used. -/
theorem sound_kernel2 (c : Dev nD) (E : Set ℕ) (i : grid2.Coords) (arg0 : Memref sig .tc .vmem S2000x128 .f32) (harg0 : arg0.IsWhole) (arg1 : Memref sig .tc .vmem S2000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S2000x128 .f32) (harg8 : arg8.IsWhole)
    (x0 x1 : Vec F S2000x128 .f32) (x2 : Vec F S128x128 .bf16) (x3 x4 x5 : Vec F S1x128 .f32) (x6 : Vec F S128x128 .bf16) (x7 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out2_8 x0 x1 x2 x3 x4 x5 x6 x7)) -∗ K ⟨⟩))
      ⊢ wp frame (wpE (defs₀ (F := F)) Variants.none c none) E (cc2_gin_mlp_kernel i arg0 harg0 arg1 harg1 arg2 harg2 arg3 harg3 arg4 harg4 arg5 harg5 arg6 harg6 arg7 harg7 arg8 harg8) K := by
  simp only [cc2_gin_mlp_kernel_eq_skeleton]; unfold cc2_gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of pipeline 2 on core `c`: the arrays as the region finds them (`V`); after the body at point
    `t` each input's buffer at its block and the output's at `out2_8` of the input blocks; the invariant holds the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.GenH

end
-- ==== Proof.KI.Region3.lean ====
/- The region half of custom_call 3 of @main (pipeline 3), at a parameter `V` — the TensorCore's buffer
   contents when the region is entered: each window's block at a grid point, what the body leaves in the output
   window's buffer as a function of the eight input blocks, the body's triple, the pipeline's proof data and the
   body obligation at every point. Stated for any float interpretation `F`. -/
import proofs.«156729_j87711822119196_1_alg».proof.Proof.Gen.KernelIdeal.Launch
import proofs.«156729_j87711822119196_1_alg».proof.Proof.Gen.KernelIdeal.Skeleton
import proofs.«156729_j87711822119196_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the
    block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the
    block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (unfetched, the
    block index has not moved), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (unfetched, the
    block index has not moved), for any proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (unfetched, the
    block index has not moved), for any proof data whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not (unfetched, the
    block index has not moved), for any proof data whose array is `V`'s and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not (unfetched, the
    block index has not moved), for any proof data whose array is `V`'s and whose body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in the output window's buffer -/

/-- Window 8's staging buffer after the body, from the eight input blocks: its one store, of the whole block. -/
def out3_8 (x0 x1 : Vec F S2000x128 .f32) (x2 : Vec F S128x128 .bf16) (x3 x4 x5 : Vec F S1x128 .f32) (x6 : Vec F S128x128 .bf16) (x7 : Vec F S1x128 .f32) : Vec F S2000x128 .f32 :=
  View.canon [⟨r3_0, k3_pay1 (View.ld x0 r3_0) (View.ld x1 r3_0) (View.ld x2 r3_1) (View.ld x3 r3_2) (View.ld x4 r3_2) (View.ld x5 r3_2) (View.ld x6 r3_1) (View.ld x7 r3_2)⟩]

/-- The one store covers the buffer. -/
theorem cover3_8 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body on whole staging memrefs, the inputs' at read contents `xW` and the output's at anything, runs to
    the continuation holding the inputs' as they were and the output's at `out3_8` of the inputs'. The body reads
    the output's buffer once before its store; what it reads there is not used. -/
theorem sound_kernel3 (c : Dev nD) (E : Set ℕ) (i : grid3.Coords) (arg0 : Memref sig .tc .vmem S2000x128 .f32) (harg0 : arg0.IsWhole) (arg1 : Memref sig .tc .vmem S2000x128 .f32) (harg1 : arg1.IsWhole) (arg2 : Memref sig .tc .vmem S128x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S2000x128 .f32) (harg8 : arg8.IsWhole)
    (x0 x1 : Vec F S2000x128 .f32) (x2 : Vec F S128x128 .bf16) (x3 x4 x5 : Vec F S1x128 .f32) (x6 : Vec F S128x128 .bf16) (x7 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out3_8 x0 x1 x2 x3 x4 x5 x6 x7)) -∗ K ⟨⟩))
      ⊢ wp frame (wpE (defs₀ (F := F)) Variants.none c none) E (cc3_gin_mlp_kernel i arg0 harg0 arg1 harg1 arg2 harg2 arg3 harg3 arg4 harg4 arg5 harg5 arg6 harg6 arg7 harg7 arg8 harg8) K := by
  simp only [cc3_gin_mlp_kernel_eq_skeleton]; unfold cc3_gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_8 _)

/-! ## The pipeline's proof data -/

/-- The proof data of pipeline 3 on core `c`: the arrays as the region finds them (`V`); after the body at point
    `t` each input's buffer at its block and the output's at `out3_8` of the input blocks; the invariant holds the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.GenH

end
-- ==== Proof.KI.Run.lean ====
/- THE RUN of @main: its nine items — five stretches of host operations around four kernel regions — as segments
   from the launch to the return. The buffer contents at every segment boundary are a fold from the launch memory
   (a stretch's `StableHlo.after`; a region's arrays at what its write-backs leave, every other buffer as entered);
   every argument array read back through the fold is its launch contents; each region is a segment over the
   thread state "every unscoped buffer at the boundary's contents, the generator register at some state, nothing
   owed"; the launch over the segments gives every unscoped buffer of every final state at the last boundary's
   contents (`run_all`), and from it the frame claim (`frame`). Stated for any float interpretation `F`. -/
import proofs.«156729_j87711822119196_1_alg».proof.Proof.KI.Region0
import proofs.«156729_j87711822119196_1_alg».proof.Proof.KI.Region1
import proofs.«156729_j87711822119196_1_alg».proof.Proof.KI.Region2
import proofs.«156729_j87711822119196_1_alg».proof.Proof.KI.Region3
import proofs.«156729_j87711822119196_1_alg».proof.Proof.Gen.KernelIdeal.Regions

-- decided memberships over the program's 253 references recurse past the default depth
set_option maxRecDepth 16384

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- A buffer `hostOps0` does not write holds after the stretch what it held before. -/
theorem W1_of (c : Dev nD) (b : Ref sig .tc) (h : b ∉ hostOps0_W) :
    W1 m ρ c (Proc.devRef .tc b) = W0 m ρ c (Proc.devRef .tc b) :=
  StableHlo.after_of_writes_sub hostOps0 _ hostOps0_writes h
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0's output array at its exit: the write-backs of all its grid points folded into the array as entered. -/
theorem W2_out (c : Dev nD) : W2 m ρ c (Proc.devRef .tc main_v28) = (dat0 (V1 m ρ) c).arrAt 8 cfg0.N :=
  W2_arr m ρ c 8
/-- Every other buffer at region 0's exit holds what it held at entry: an input array is never written back
    (`Dat.arrAt_in`), a buffer that is no array of the region is not the region's to change. -/
theorem W2_keep (c : Dev nD) (b : Ref sig .tc) (hb : b ≠ main_v28) :
    W2 m ρ c (Proc.devRef .tc b) = W1 m ρ c (Proc.devRef .tc b) := by
  by_cases h : ∃ w, Pipeline.arrRef spec0 w = b
  · obtain ⟨w, rfl⟩ := h
    have hin : (cfg0.win w).isOut = false :=
      (by decide : ∀ w : Fin 9, Pipeline.arrRef spec0 w ≠ main_v28 → (cfg0.win w).isOut = false) w hb
    exact (W2_arr m ρ c w).trans (((dat0 (V1 m ρ) c).arrAt_in w hin _).trans (A_eq0 (V1 m ρ) c w))
  · exact W2_of_ne m ρ c b fun w e => h ⟨w, e⟩

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- A buffer `hostOps1` does not write holds after the stretch what it held before. -/
theorem W3_of (c : Dev nD) (b : Ref sig .tc) (h : b ∉ hostOps1_W) :
    W3 m ρ c (Proc.devRef .tc b) = W2 m ρ c (Proc.devRef .tc b) :=
  StableHlo.after_of_writes_sub hostOps1 _ hostOps1_writes h
/-- At region 1's exit: its arrays at what the pipeline leaves (the inputs as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1's output array at its exit: the write-backs of all its grid points folded into the array as entered. -/
theorem W4_out (c : Dev nD) : W4 m ρ c (Proc.devRef .tc main_v69) = (dat1 (V3 m ρ) c).arrAt 8 cfg1.N :=
  W4_arr m ρ c 8
/-- Every other buffer at region 1's exit holds what it held at entry: an input array is never written back
    (`Dat.arrAt_in`), a buffer that is no array of the region is not the region's to change. -/
theorem W4_keep (c : Dev nD) (b : Ref sig .tc) (hb : b ≠ main_v69) :
    W4 m ρ c (Proc.devRef .tc b) = W3 m ρ c (Proc.devRef .tc b) := by
  by_cases h : ∃ w, Pipeline.arrRef spec1 w = b
  · obtain ⟨w, rfl⟩ := h
    have hin : (cfg1.win w).isOut = false :=
      (by decide : ∀ w : Fin 9, Pipeline.arrRef spec1 w ≠ main_v69 → (cfg1.win w).isOut = false) w hb
    exact (W4_arr m ρ c w).trans (((dat1 (V3 m ρ) c).arrAt_in w hin _).trans (A_eq1 (V3 m ρ) c w))
  · exact W4_of_ne m ρ c b fun w e => h ⟨w, e⟩

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- A buffer `hostOps2` does not write holds after the stretch what it held before. -/
theorem W5_of (c : Dev nD) (b : Ref sig .tc) (h : b ∉ hostOps2_W) :
    W5 m ρ c (Proc.devRef .tc b) = W4 m ρ c (Proc.devRef .tc b) :=
  StableHlo.after_of_writes_sub hostOps2 _ hostOps2_writes h
/-- At region 2's exit: its arrays at what the pipeline leaves (the inputs as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2's output array at its exit: the write-backs of all its grid points folded into the array as entered. -/
theorem W6_out (c : Dev nD) : W6 m ρ c (Proc.devRef .tc main_v110) = (dat2 (V5 m ρ) c).arrAt 8 cfg2.N :=
  W6_arr m ρ c 8
/-- Every other buffer at region 2's exit holds what it held at entry: an input array is never written back
    (`Dat.arrAt_in`), a buffer that is no array of the region is not the region's to change. -/
theorem W6_keep (c : Dev nD) (b : Ref sig .tc) (hb : b ≠ main_v110) :
    W6 m ρ c (Proc.devRef .tc b) = W5 m ρ c (Proc.devRef .tc b) := by
  by_cases h : ∃ w, Pipeline.arrRef spec2 w = b
  · obtain ⟨w, rfl⟩ := h
    have hin : (cfg2.win w).isOut = false :=
      (by decide : ∀ w : Fin 9, Pipeline.arrRef spec2 w ≠ main_v110 → (cfg2.win w).isOut = false) w hb
    exact (W6_arr m ρ c w).trans (((dat2 (V5 m ρ) c).arrAt_in w hin _).trans (A_eq2 (V5 m ρ) c w))
  · exact W6_of_ne m ρ c b fun w e => h ⟨w, e⟩

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- A buffer `hostOps3` does not write holds after the stretch what it held before. -/
theorem W7_of (c : Dev nD) (b : Ref sig .tc) (h : b ∉ hostOps3_W) :
    W7 m ρ c (Proc.devRef .tc b) = W6 m ρ c (Proc.devRef .tc b) :=
  StableHlo.after_of_writes_sub hostOps3 _ hostOps3_writes h
/-- At region 3's exit: its arrays at what the pipeline leaves (the inputs as entered, the output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- Region 3's output array at its exit: the write-backs of all its grid points folded into the array as entered. -/
theorem W8_out (c : Dev nD) : W8 m ρ c (Proc.devRef .tc main_v151) = (dat3 (V7 m ρ) c).arrAt 8 cfg3.N :=
  W8_arr m ρ c 8
/-- Every other buffer at region 3's exit holds what it held at entry: an input array is never written back
    (`Dat.arrAt_in`), a buffer that is no array of the region is not the region's to change. -/
theorem W8_keep (c : Dev nD) (b : Ref sig .tc) (hb : b ≠ main_v151) :
    W8 m ρ c (Proc.devRef .tc b) = W7 m ρ c (Proc.devRef .tc b) := by
  by_cases h : ∃ w, Pipeline.arrRef spec3 w = b
  · obtain ⟨w, rfl⟩ := h
    have hin : (cfg3.win w).isOut = false :=
      (by decide : ∀ w : Fin 9, Pipeline.arrRef spec3 w ≠ main_v151 → (cfg3.win w).isOut = false) w hb
    exact (W8_arr m ρ c w).trans (((dat3 (V7 m ρ) c).arrAt_in w hin _).trans (A_eq3 (V7 m ρ) c w))
  · exact W8_of_ne m ρ c b fun w e => h ⟨w, e⟩

/-- After `hostOps4` (the return). -/
abbrev W9 : Dev nD → Valuation τ sig (Elt F) := fun c => StableHlo.after hostOps4 (W8 m ρ c)
/-- A buffer `hostOps4` does not write holds after the stretch what it held before. -/
theorem W9_of (c : Dev nD) (b : Ref sig .tc) (h : b ∉ hostOps4_W) :
    W9 m ρ c (Proc.devRef .tc b) = W8 m ρ c (Proc.devRef .tc b) :=
  StableHlo.after_of_writes_sub hostOps4 _ hostOps4_writes h

/-! ### The arguments end as launched: no host operation writes one and no region's output array is one, so the
    fold at an argument's buffer walks back to the launch memory -/

theorem W9_main_arg0 (c : Dev nD) : W9 m ρ c (Proc.devRef .tc main_arg0) = m ((c : Thread nD τ).loc main_arg0) :=
  (W9_of m ρ c main_arg0 (by decide)).trans <| (W8_keep m ρ c main_arg0 (by decide)).trans <|
  (W7_of m ρ c main_arg0 (by decide)).trans <| (W6_keep m ρ c main_arg0 (by decide)).trans <|
  (W5_of m ρ c main_arg0 (by decide)).trans <| (W4_keep m ρ c main_arg0 (by decide)).trans <|
  (W3_of m ρ c main_arg0 (by decide)).trans <| (W2_keep m ρ c main_arg0 (by decide)).trans <|
  (W1_of m ρ c main_arg0 (by decide)).trans rfl
theorem W9_main_arg1 (c : Dev nD) : W9 m ρ c (Proc.devRef .tc main_arg1) = m ((c : Thread nD τ).loc main_arg1) :=
  (W9_of m ρ c main_arg1 (by decide)).trans <| (W8_keep m ρ c main_arg1 (by decide)).trans <|
  (W7_of m ρ c main_arg1 (by decide)).trans <| (W6_keep m ρ c main_arg1 (by decide)).trans <|
  (W5_of m ρ c main_arg1 (by decide)).trans <| (W4_keep m ρ c main_arg1 (by decide)).trans <|
  (W3_of m ρ c main_arg1 (by decide)).trans <| (W2_keep m ρ c main_arg1 (by decide)).trans <|
  (W1_of m ρ c main_arg1 (by decide)).trans rfl
theorem W9_main_arg2 (c : Dev nD) : W9 m ρ c (Proc.devRef .tc main_arg2) = m ((c : Thread nD τ).loc main_arg2) :=
  (W9_of m ρ c main_arg2 (by decide)).trans <| (W8_keep m ρ c main_arg2 (by decide)).trans <|
  (W7_of m ρ c main_arg2 (by decide)).trans <| (W6_keep m ρ c main_arg2 (by decide)).trans <|
  (W5_of m ρ c main_arg2 (by decide)).trans <| (W4_keep m ρ c main_arg2 (by decide)).trans <|
  (W3_of m ρ c main_arg2 (by decide)).trans <| (W2_keep m ρ c main_arg2 (by decide)).trans <|
  (W1_of m ρ c main_arg2 (by decide)).trans rfl
theorem W9_main_arg3 (c : Dev nD) : W9 m ρ c (Proc.devRef .tc main_arg3) = m ((c : Thread nD τ).loc main_arg3) :=
  (W9_of m ρ c main_arg3 (by decide)).trans <| (W8_keep m ρ c main_arg3 (by decide)).trans <|
  (W7_of m ρ c main_arg3 (by decide)).trans <| (W6_keep m ρ c main_arg3 (by decide)).trans <|
  (W5_of m ρ c main_arg3 (by decide)).trans <| (W4_keep m ρ c main_arg3 (by decide)).trans <|
  (W3_of m ρ c main_arg3 (by decide)).trans <| (W2_keep m ρ c main_arg3 (by decide)).trans <|
  (W1_of m ρ c main_arg3 (by decide)).trans rfl
theorem W9_main_arg4 (c : Dev nD) : W9 m ρ c (Proc.devRef .tc main_arg4) = m ((c : Thread nD τ).loc main_arg4) :=
  (W9_of m ρ c main_arg4 (by decide)).trans <| (W8_keep m ρ c main_arg4 (by decide)).trans <|
  (W7_of m ρ c main_arg4 (by decide)).trans <| (W6_keep m ρ c main_arg4 (by decide)).trans <|
  (W5_of m ρ c main_arg4 (by decide)).trans <| (W4_keep m ρ c main_arg4 (by decide)).trans <|
  (W3_of m ρ c main_arg4 (by decide)).trans <| (W2_keep m ρ c main_arg4 (by decide)).trans <|
  (W1_of m ρ c main_arg4 (by decide)).trans rfl
theorem W9_main_arg5 (c : Dev nD) : W9 m ρ c (Proc.devRef .tc main_arg5) = m ((c : Thread nD τ).loc main_arg5) :=
  (W9_of m ρ c main_arg5 (by decide)).trans <| (W8_keep m ρ c main_arg5 (by decide)).trans <|
  (W7_of m ρ c main_arg5 (by decide)).trans <| (W6_keep m ρ c main_arg5 (by decide)).trans <|
  (W5_of m ρ c main_arg5 (by decide)).trans <| (W4_keep m ρ c main_arg5 (by decide)).trans <|
  (W3_of m ρ c main_arg5 (by decide)).trans <| (W2_keep m ρ c main_arg5 (by decide)).trans <|
  (W1_of m ρ c main_arg5 (by decide)).trans rfl
theorem W9_main_arg6 (c : Dev nD) : W9 m ρ c (Proc.devRef .tc main_arg6) = m ((c : Thread nD τ).loc main_arg6) :=
  (W9_of m ρ c main_arg6 (by decide)).trans <| (W8_keep m ρ c main_arg6 (by decide)).trans <|
  (W7_of m ρ c main_arg6 (by decide)).trans <| (W6_keep m ρ c main_arg6 (by decide)).trans <|
  (W5_of m ρ c main_arg6 (by decide)).trans <| (W4_keep m ρ c main_arg6 (by decide)).trans <|
  (W3_of m ρ c main_arg6 (by decide)).trans <| (W2_keep m ρ c main_arg6 (by decide)).trans <|
  (W1_of m ρ c main_arg6 (by decide)).trans rfl
theorem W9_main_arg7 (c : Dev nD) : W9 m ρ c (Proc.devRef .tc main_arg7) = m ((c : Thread nD τ).loc main_arg7) :=
  (W9_of m ρ c main_arg7 (by decide)).trans <| (W8_keep m ρ c main_arg7 (by decide)).trans <|
  (W7_of m ρ c main_arg7 (by decide)).trans <| (W6_keep m ρ c main_arg7 (by decide)).trans <|
  (W5_of m ρ c main_arg7 (by decide)).trans <| (W4_keep m ρ c main_arg7 (by decide)).trans <|
  (W3_of m ρ c main_arg7 (by decide)).trans <| (W2_keep m ρ c main_arg7 (by decide)).trans <|
  (W1_of m ρ c main_arg7 (by decide)).trans rfl
theorem W9_main_arg8 (c : Dev nD) : W9 m ρ c (Proc.devRef .tc main_arg8) = m ((c : Thread nD τ).loc main_arg8) :=
  (W9_of m ρ c main_arg8 (by decide)).trans <| (W8_keep m ρ c main_arg8 (by decide)).trans <|
  (W7_of m ρ c main_arg8 (by decide)).trans <| (W6_keep m ρ c main_arg8 (by decide)).trans <|
  (W5_of m ρ c main_arg8 (by decide)).trans <| (W4_keep m ρ c main_arg8 (by decide)).trans <|
  (W3_of m ρ c main_arg8 (by decide)).trans <| (W2_keep m ρ c main_arg8 (by decide)).trans <|
  (W1_of m ρ c main_arg8 (by decide)).trans rfl
theorem W9_main_arg9 (c : Dev nD) : W9 m ρ c (Proc.devRef .tc main_arg9) = m ((c : Thread nD τ).loc main_arg9) :=
  (W9_of m ρ c main_arg9 (by decide)).trans <| (W8_keep m ρ c main_arg9 (by decide)).trans <|
  (W7_of m ρ c main_arg9 (by decide)).trans <| (W6_keep m ρ c main_arg9 (by decide)).trans <|
  (W5_of m ρ c main_arg9 (by decide)).trans <| (W4_keep m ρ c main_arg9 (by decide)).trans <|
  (W3_of m ρ c main_arg9 (by decide)).trans <| (W2_keep m ρ c main_arg9 (by decide)).trans <|
  (W1_of m ρ c main_arg9 (by decide)).trans rfl
theorem W9_main_arg10 (c : Dev nD) : W9 m ρ c (Proc.devRef .tc main_arg10) = m ((c : Thread nD τ).loc main_arg10) :=
  (W9_of m ρ c main_arg10 (by decide)).trans <| (W8_keep m ρ c main_arg10 (by decide)).trans <|
  (W7_of m ρ c main_arg10 (by decide)).trans <| (W6_keep m ρ c main_arg10 (by decide)).trans <|
  (W5_of m ρ c main_arg10 (by decide)).trans <| (W4_keep m ρ c main_arg10 (by decide)).trans <|
  (W3_of m ρ c main_arg10 (by decide)).trans <| (W2_keep m ρ c main_arg10 (by decide)).trans <|
  (W1_of m ρ c main_arg10 (by decide)).trans rfl
theorem W9_main_arg11 (c : Dev nD) : W9 m ρ c (Proc.devRef .tc main_arg11) = m ((c : Thread nD τ).loc main_arg11) :=
  (W9_of m ρ c main_arg11 (by decide)).trans <| (W8_keep m ρ c main_arg11 (by decide)).trans <|
  (W7_of m ρ c main_arg11 (by decide)).trans <| (W6_keep m ρ c main_arg11 (by decide)).trans <|
  (W5_of m ρ c main_arg11 (by decide)).trans <| (W4_keep m ρ c main_arg11 (by decide)).trans <|
  (W3_of m ρ c main_arg11 (by decide)).trans <| (W2_keep m ρ c main_arg11 (by decide)).trans <|
  (W1_of m ρ c main_arg11 (by decide)).trans rfl
theorem W9_main_arg12 (c : Dev nD) : W9 m ρ c (Proc.devRef .tc main_arg12) = m ((c : Thread nD τ).loc main_arg12) :=
  (W9_of m ρ c main_arg12 (by decide)).trans <| (W8_keep m ρ c main_arg12 (by decide)).trans <|
  (W7_of m ρ c main_arg12 (by decide)).trans <| (W6_keep m ρ c main_arg12 (by decide)).trans <|
  (W5_of m ρ c main_arg12 (by decide)).trans <| (W4_keep m ρ c main_arg12 (by decide)).trans <|
  (W3_of m ρ c main_arg12 (by decide)).trans <| (W2_keep m ρ c main_arg12 (by decide)).trans <|
  (W1_of m ρ c main_arg12 (by decide)).trans rfl
theorem W9_main_arg13 (c : Dev nD) : W9 m ρ c (Proc.devRef .tc main_arg13) = m ((c : Thread nD τ).loc main_arg13) :=
  (W9_of m ρ c main_arg13 (by decide)).trans <| (W8_keep m ρ c main_arg13 (by decide)).trans <|
  (W7_of m ρ c main_arg13 (by decide)).trans <| (W6_keep m ρ c main_arg13 (by decide)).trans <|
  (W5_of m ρ c main_arg13 (by decide)).trans <| (W4_keep m ρ c main_arg13 (by decide)).trans <|
  (W3_of m ρ c main_arg13 (by decide)).trans <| (W2_keep m ρ c main_arg13 (by decide)).trans <|
  (W1_of m ρ c main_arg13 (by decide)).trans rfl
theorem W9_main_arg14 (c : Dev nD) : W9 m ρ c (Proc.devRef .tc main_arg14) = m ((c : Thread nD τ).loc main_arg14) :=
  (W9_of m ρ c main_arg14 (by decide)).trans <| (W8_keep m ρ c main_arg14 (by decide)).trans <|
  (W7_of m ρ c main_arg14 (by decide)).trans <| (W6_keep m ρ c main_arg14 (by decide)).trans <|
  (W5_of m ρ c main_arg14 (by decide)).trans <| (W4_keep m ρ c main_arg14 (by decide)).trans <|
  (W3_of m ρ c main_arg14 (by decide)).trans <| (W2_keep m ρ c main_arg14 (by decide)).trans <|
  (W1_of m ρ c main_arg14 (by decide)).trans rfl
theorem W9_main_arg15 (c : Dev nD) : W9 m ρ c (Proc.devRef .tc main_arg15) = m ((c : Thread nD τ).loc main_arg15) :=
  (W9_of m ρ c main_arg15 (by decide)).trans <| (W8_keep m ρ c main_arg15 (by decide)).trans <|
  (W7_of m ρ c main_arg15 (by decide)).trans <| (W6_keep m ρ c main_arg15 (by decide)).trans <|
  (W5_of m ρ c main_arg15 (by decide)).trans <| (W4_keep m ρ c main_arg15 (by decide)).trans <|
  (W3_of m ρ c main_arg15 (by decide)).trans <| (W2_keep m ρ c main_arg15 (by decide)).trans <|
  (W1_of m ρ c main_arg15 (by decide)).trans rfl
theorem W9_main_arg16 (c : Dev nD) : W9 m ρ c (Proc.devRef .tc main_arg16) = m ((c : Thread nD τ).loc main_arg16) :=
  (W9_of m ρ c main_arg16 (by decide)).trans <| (W8_keep m ρ c main_arg16 (by decide)).trans <|
  (W7_of m ρ c main_arg16 (by decide)).trans <| (W6_keep m ρ c main_arg16 (by decide)).trans <|
  (W5_of m ρ c main_arg16 (by decide)).trans <| (W4_keep m ρ c main_arg16 (by decide)).trans <|
  (W3_of m ρ c main_arg16 (by decide)).trans <| (W2_keep m ρ c main_arg16 (by decide)).trans <|
  (W1_of m ρ c main_arg16 (by decide)).trans rfl
theorem W9_main_arg17 (c : Dev nD) : W9 m ρ c (Proc.devRef .tc main_arg17) = m ((c : Thread nD τ).loc main_arg17) :=
  (W9_of m ρ c main_arg17 (by decide)).trans <| (W8_keep m ρ c main_arg17 (by decide)).trans <|
  (W7_of m ρ c main_arg17 (by decide)).trans <| (W6_keep m ρ c main_arg17 (by decide)).trans <|
  (W5_of m ρ c main_arg17 (by decide)).trans <| (W4_keep m ρ c main_arg17 (by decide)).trans <|
  (W3_of m ρ c main_arg17 (by decide)).trans <| (W2_keep m ρ c main_arg17 (by decide)).trans <|
  (W1_of m ρ c main_arg17 (by decide)).trans rfl
theorem W9_main_arg18 (c : Dev nD) : W9 m ρ c (Proc.devRef .tc main_arg18) = m ((c : Thread nD τ).loc main_arg18) :=
  (W9_of m ρ c main_arg18 (by decide)).trans <| (W8_keep m ρ c main_arg18 (by decide)).trans <|
  (W7_of m ρ c main_arg18 (by decide)).trans <| (W6_keep m ρ c main_arg18 (by decide)).trans <|
  (W5_of m ρ c main_arg18 (by decide)).trans <| (W4_keep m ρ c main_arg18 (by decide)).trans <|
  (W3_of m ρ c main_arg18 (by decide)).trans <| (W2_keep m ρ c main_arg18 (by decide)).trans <|
  (W1_of m ρ c main_arg18 (by decide)).trans rfl
theorem W9_main_arg19 (c : Dev nD) : W9 m ρ c (Proc.devRef .tc main_arg19) = m ((c : Thread nD τ).loc main_arg19) :=
  (W9_of m ρ c main_arg19 (by decide)).trans <| (W8_keep m ρ c main_arg19 (by decide)).trans <|
  (W7_of m ρ c main_arg19 (by decide)).trans <| (W6_keep m ρ c main_arg19 (by decide)).trans <|
  (W5_of m ρ c main_arg19 (by decide)).trans <| (W4_keep m ρ c main_arg19 (by decide)).trans <|
  (W3_of m ρ c main_arg19 (by decide)).trans <| (W2_keep m ρ c main_arg19 (by decide)).trans <|
  (W1_of m ρ c main_arg19 (by decide)).trans rfl

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W9`, the generator register at some state. -/
abbrev Tₙ (c : Dev nD) : sProp 𝕄 := iprop(StableHlo.held (c : Thread nD τ) (Pipeline.ucRefs τ sig) (W9 m ρ c) ∗ ∃ r, prngReg c r)

/-! ## The regions as segments -/

-- a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers and put back at the exit
    contents; the generator register into the class invariant and out; nothing owed; no semaphore of the
    kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers and put back at the exit
    contents; the generator register into the class invariant and out; nothing owed; no semaphore of the
    kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers and put back at the exit
    contents; the generator register into the class invariant and out; nothing owed; no semaphore of the
    kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the next segment is entered from). Its arrays split out of the unscoped buffers and put back at the exit
    contents; the generator register into the class invariant and out; nothing owed; no semaphore of the
    kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

/-- The segments' fragments of @main, in order. -/
theorem segs_progs : (segs m ρ).map Seg.prog = [
    StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()),
    StableHlo.seq hostOps4 ] := rfl

/-- @main IS the run of the segments: @main is the chain of its items, and so is the segments' run. -/
theorem main_run (c : Dev nD) : main (F := F) c = Pipeline.Seg.run (segs m ρ) := by
  rw [main_chain c, Seg.run_eq_chain, segs_progs]

-- the launch kit's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's every unscoped buffer holds the last
    boundary's contents `W9`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

/-- THE FRAME at any `F`: every final state has the argument arrays as launched — each argument is an unscoped buffer,
    and the last boundary's contents at it are the launch's (`W9_main_arg<i>`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  OrdCont.mono (θ_run defs (onTc (τ := τ) (main (F := F))) ⟨m, fun _ => 0, ρ⟩) (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c),
     (h c _ (mem_uc main_arg14 (by decide))).trans (W9_main_arg14 m ρ c),
     (h c _ (mem_uc main_arg15 (by decide))).trans (W9_main_arg15 m ρ c),
     (h c _ (mem_uc main_arg16 (by decide))).trans (W9_main_arg16 m ρ c),
     (h c _ (mem_uc main_arg17 (by decide))).trans (W9_main_arg17 m ρ c),
     (h c _ (mem_uc main_arg18 (by decide))).trans (W9_main_arg18 m ρ c),
     (h c _ (mem_uc main_arg19 (by decide))).trans (W9_main_arg19 m ρ c)⟩) (run_all m ρ)

end Cert.KernelIdeal.GenH

end
-- ==== Proof.Frames.lean ====
/- The frame claims of the program and of its idealization, each read off that program's run from the launch to
   the return (every argument array ends as launched), and the idealization claim, whose statement lists no
   rewritten operation and is the proposition `True`. -/
import proofs.«156729_j87711822119196_1_alg».proof.Defs
import proofs.«156729_j87711822119196_1_alg».proof.Proof.Gen.Kernel
import proofs.«156729_j87711822119196_1_alg».proof.Proof.Gen.KernelIdeal
import proofs.«156729_j87711822119196_1_alg».proof.Proof.Gen.Pre_finite_inputs
import proofs.«156729_j87711822119196_1_alg».proof.Proof.K.Run
import proofs.«156729_j87711822119196_1_alg».proof.Proof.KI.Run

namespace Cert.Proof.Frames

open Idealize.ShloMosaic Idealize.SL.Sem

/-- The program as printed runs from any memory, and its argument arrays end unchanged; the precondition is not used. -/
theorem frame_K : Cert.frame_Kernel := fun m ρ _ => Cert.Kernel.GenH.frame m ρ

/-- The same of the idealized program. -/
theorem frame_KI : Cert.frame_KernelIdeal := fun m ρ _ => Cert.KernelIdeal.GenH.frame m ρ

/-- The statement lists no rewritten operation: it is `True`. -/
theorem preserves : Cert.preserves_Kernel_KernelIdeal := trivial

end Cert.Proof.Frames
-- ==== Proof.KI.HostTerms.lean ====
/-
  The host side of the kernel's program, named: what the stretches of host operations between the kernel regions
  compute from the buffers they read — the neighbour sum, the folded normalisation (a scale and a shift per hidden
  unit), the weight matrices transposed, the bias vectors as one-row matrices, slice `i` of the stacked parameters —
  and the readout after the last region.
-/
import proofs.«156729_j87711822119196_1_alg».proof.Proof.Gen.KernelIdeal.Launch
import Idealize.ShloMosaic.Lib.StableHlo.Run

noncomputable section

namespace Cert.KernelIdeal.KVal

open Cert.KernelIdeal Cert.KernelIdeal.Gen Idealize.ShloMosaic Idealize.ShloMosaic.TcCoe Idealize.SL.Sem Idealize.ShloMosaic.StableHlo

variable {F : FTy → Type} [FloatOps F]

/-- The normalisation's scale per hidden unit: `g · (v + ε)^(-1/2)`, `ε` the printed single-precision word. -/
def scaleVec (g v : FVec F S128 .f32) : FVec F S128 .f32 :=
  mulf g (Host.rsqrt (addf v (broadcastInDim S128 ![] bcast_S_S128 (constant S_ .f32 0x3727C5AC#32))))

/-- The normalisation's shift per hidden unit: `be − m · scale`. -/
def shiftVec (g be m v : FVec F S128 .f32) : FVec F S128 .f32 := subf be (mulf m (scaleVec g v))

/-- The edges' source nodes (row 0 of the edge list) and destination nodes (row 1). -/
def srcVec (e : IVec S2x600000 32) : IVec S600000 32 :=
  shapeCast S600000 (extractStridedSlice S1x600000 ![0, 0] e slices_S2x600000_S1x600000_0_0) shapeCasts_S1x600000_S600000
def dstVec (e : IVec S2x600000 32) : IVec S600000 32 :=
  shapeCast S600000 (extractStridedSlice S1x600000 ![1, 0] e slices_S2x600000_S1x600000_1_0) shapeCasts_S1x600000_S600000

/-- The neighbour sum: the rows of `h` taken at the source nodes (a negative index wrapped once), added into zeros at
    the destination nodes. -/
def aggOf (h : FVec F S50000x128 .f32) (src dst : IVec S600000 32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- A weight matrix transposed and narrowed to the matrix unit's input format. -/
def wT (w : FVec F S128x128 .f32) : FVec F S128x128 .bf16 :=
  truncf .bf16 (transpose S128x128 [1, 0] w transposes_S128x128_S128x128_1_0) bitsLt_bf16_f32

/-- A vector as a one-row matrix. -/
def row (b : FVec F S128 .f32) : FVec F S1x128 .f32 := shapeCast S1x128 b shapeCasts_S128_S1x128

/-- Slice 0, 1, 2 of a stack of three matrices, and of a stack of three vectors. -/
def mat0 (a : FVec F S3x128x128 .f32) : FVec F S128x128 .f32 :=
  shapeCast S128x128 (extractStridedSlice S1x128x128 ![0, 0, 0] a slices_S3x128x128_S1x128x128_0_0_0) shapeCasts_S1x128x128_S128x128
def mat1 (a : FVec F S3x128x128 .f32) : FVec F S128x128 .f32 :=
  shapeCast S128x128 (extractStridedSlice S1x128x128 ![1, 0, 0] a slices_S3x128x128_S1x128x128_1_0_0) shapeCasts_S1x128x128_S128x128
def mat2 (a : FVec F S3x128x128 .f32) : FVec F S128x128 .f32 :=
  shapeCast S128x128 (extractStridedSlice S1x128x128 ![2, 0, 0] a slices_S3x128x128_S1x128x128_2_0_0) shapeCasts_S1x128x128_S128x128
def vec0 (a : FVec F S3x128 .f32) : FVec F S128 .f32 :=
  shapeCast S128 (extractStridedSlice S1x128 ![0, 0] a slices_S3x128_S1x128_0_0) shapeCasts_S1x128_S128
def vec1 (a : FVec F S3x128 .f32) : FVec F S128 .f32 :=
  shapeCast S128 (extractStridedSlice S1x128 ![1, 0] a slices_S3x128_S1x128_1_0) shapeCasts_S1x128_S128
def vec2 (a : FVec F S3x128 .f32) : FVec F S128 .f32 :=
  shapeCast S128 (extractStridedSlice S1x128 ![2, 0] a slices_S3x128_S1x128_2_0) shapeCasts_S1x128_S128

/-- One layer's output summed over the nodes, as a one-row matrix. -/
def pooled (o : FVec F S50000x128 .f32) : FVec F S1x128 .f32 :=
  broadcastInDim S1x128 ![1] bcast_S128_S1x128_1 (Host.reduceAdd o (constant S_ .f32 0x00000000#32) reducesTo_S50000x128_S128_d0 h_S_)

/-- The readout: the four pooled outputs side by side, times the readout matrix transposed, plus its bias. -/
def tailOf (o0 o1 o2 o3 : FVec F S50000x128 .f32) (wll : FVec F S10x512 .f32) (bll : FVec F S10 .f32) : FVec F S1x10 .f32 :=
  addf (Host.dotGeneral dot_S1x512_S512x10_S1x10_1_0_0_1_n_n none
      (concatenate S1x512 1 [⟨S1x128, pooled o0⟩, ⟨S1x128, pooled o1⟩, ⟨S1x128, pooled o2⟩, ⟨S1x128, pooled o3⟩] concatenates_S1x128_S1x128_S1x128_S1x128_S1x512_d1)
      (transpose S512x10 [1, 0] wll transposes_S10x512_S512x10_1_0))
    (broadcastInDim S1x10 ![1] bcast_S10_S1x10_1 bll)

end Cert.KernelIdeal.KVal

end
-- ==== Proof.KI.HostRead0.lean ====
/- What the first stretch of host operations leaves in the arrays region 0 reads, from the buffers it reads. -/
import proofs.«156729_j87711822119196_1_alg».proof.Proof.KI.HostTerms
import Idealize.ShloMosaic.Lib.StableHlo.Run

noncomputable section

namespace Cert.KernelIdeal.KVal

open Cert.KernelIdeal Cert.KernelIdeal.Gen Idealize.ShloMosaic Idealize.ShloMosaic.TcCoe Idealize.SL.Sem Idealize.ShloMosaic.StableHlo

variable {F : FTy → Type} [FloatOps F]

theorem s0_src (W : Valuation τ sig (Elt F)) :
    StableHlo.after hostOps0 W (Proc.devRef .tc main_v1) = srcVec (W (Proc.devRef .tc main_arg1)) := by
  after_results; rfl

theorem s0_dst (W : Valuation τ sig (Elt F)) :
    StableHlo.after hostOps0 W (Proc.devRef .tc main_v3) = dstVec (W (Proc.devRef .tc main_arg1)) := by
  after_results; rfl

set_option maxHeartbeats 1000000 in
theorem s0_agg (W : Valuation τ sig (Elt F)) :
    StableHlo.after hostOps0 W (Proc.devRef .tc main_v13) = aggOf (W (Proc.devRef .tc main_arg0)) (srcVec (W (Proc.devRef .tc main_arg1))) (dstVec (W (Proc.devRef .tc main_arg1))) := by
  after_results_simp <;> rfl

theorem s0_w1 (W : Valuation τ sig (Elt F)) :
    StableHlo.after hostOps0 W (Proc.devRef .tc main_v21) = wT (W (Proc.devRef .tc main_arg2)) := by
  after_results; rfl

theorem s0_b1 (W : Valuation τ sig (Elt F)) :
    StableHlo.after hostOps0 W (Proc.devRef .tc main_v24) = row (W (Proc.devRef .tc main_arg3)) := by
  after_results; rfl

theorem s0_sc (W : Valuation τ sig (Elt F)) :
    StableHlo.after hostOps0 W (Proc.devRef .tc main_v25) = row (scaleVec (W (Proc.devRef .tc main_arg4)) (W (Proc.devRef .tc main_arg7))) := by
  after_results; rfl

set_option maxHeartbeats 1000000 in
theorem s0_sh (W : Valuation τ sig (Elt F)) :
    StableHlo.after hostOps0 W (Proc.devRef .tc main_v26) = row (shiftVec (W (Proc.devRef .tc main_arg4)) (W (Proc.devRef .tc main_arg5)) (W (Proc.devRef .tc main_arg6)) (W (Proc.devRef .tc main_arg7))) := by
  after_results_simp <;> rfl

theorem s0_w2 (W : Valuation τ sig (Elt F)) :
    StableHlo.after hostOps0 W (Proc.devRef .tc main_v23) = wT (W (Proc.devRef .tc main_arg8)) := by
  after_results; rfl

theorem s0_b2 (W : Valuation τ sig (Elt F)) :
    StableHlo.after hostOps0 W (Proc.devRef .tc main_v27) = row (W (Proc.devRef .tc main_arg9)) := by
  after_results; rfl

end Cert.KernelIdeal.KVal

end
-- ==== Proof.KI.HostRead1.lean ====
/- What stretch 1 of host operations leaves in the arrays region 1 reads, from the buffers it reads. -/
import proofs.«156729_j87711822119196_1_alg».proof.Proof.KI.HostTerms
import Idealize.ShloMosaic.Lib.StableHlo.Run

noncomputable section

namespace Cert.KernelIdeal.KVal

open Cert.KernelIdeal Cert.KernelIdeal.Gen Idealize.ShloMosaic Idealize.ShloMosaic.TcCoe Idealize.SL.Sem Idealize.ShloMosaic.StableHlo

variable {F : FTy → Type} [FloatOps F]

set_option maxHeartbeats 1000000 in
theorem s1_agg (W : Valuation τ sig (Elt F)) :
    StableHlo.after hostOps1 W (Proc.devRef .tc main_v54) = aggOf (W (Proc.devRef .tc main_v28)) (W (Proc.devRef .tc main_v1)) (W (Proc.devRef .tc main_v3)) := by
  after_results_simp <;> rfl

set_option maxHeartbeats 1000000 in
theorem s1_w1 (W : Valuation τ sig (Elt F)) :
    StableHlo.after hostOps1 W (Proc.devRef .tc main_v62) = wT (mat0 (W (Proc.devRef .tc main_arg10))) := by
  after_results_simp <;> rfl

set_option maxHeartbeats 1000000 in
theorem s1_b1 (W : Valuation τ sig (Elt F)) :
    StableHlo.after hostOps1 W (Proc.devRef .tc main_v65) = row (vec0 (W (Proc.devRef .tc main_arg11))) := by
  after_results_simp <;> rfl

set_option maxHeartbeats 1000000 in
theorem s1_sc (W : Valuation τ sig (Elt F)) :
    StableHlo.after hostOps1 W (Proc.devRef .tc main_v66) = row (scaleVec (vec0 (W (Proc.devRef .tc main_arg12))) (vec0 (W (Proc.devRef .tc main_arg15)))) := by
  after_results_simp <;> rfl

set_option maxHeartbeats 1000000 in
theorem s1_sh (W : Valuation τ sig (Elt F)) :
    StableHlo.after hostOps1 W (Proc.devRef .tc main_v67) = row (shiftVec (vec0 (W (Proc.devRef .tc main_arg12))) (vec0 (W (Proc.devRef .tc main_arg13))) (vec0 (W (Proc.devRef .tc main_arg14))) (vec0 (W (Proc.devRef .tc main_arg15)))) := by
  after_results_simp <;> rfl

set_option maxHeartbeats 1000000 in
theorem s1_w2 (W : Valuation τ sig (Elt F)) :
    StableHlo.after hostOps1 W (Proc.devRef .tc main_v64) = wT (mat0 (W (Proc.devRef .tc main_arg16))) := by
  after_results_simp <;> rfl

set_option maxHeartbeats 1000000 in
theorem s1_b2 (W : Valuation τ sig (Elt F)) :
    StableHlo.after hostOps1 W (Proc.devRef .tc main_v68) = row (vec0 (W (Proc.devRef .tc main_arg17))) := by
  after_results_simp <;> rfl

end Cert.KernelIdeal.KVal

end
-- ==== Proof.KI.HostRead2.lean ====
/- What stretch 2 of host operations leaves in the arrays region 2 reads, from the buffers it reads. -/
import proofs.«156729_j87711822119196_1_alg».proof.Proof.KI.HostTerms
import Idealize.ShloMosaic.Lib.StableHlo.Run

noncomputable section

namespace Cert.KernelIdeal.KVal

open Cert.KernelIdeal Cert.KernelIdeal.Gen Idealize.ShloMosaic Idealize.ShloMosaic.TcCoe Idealize.SL.Sem Idealize.ShloMosaic.StableHlo

variable {F : FTy → Type} [FloatOps F]

set_option maxHeartbeats 1000000 in
theorem s2_agg (W : Valuation τ sig (Elt F)) :
    StableHlo.after hostOps2 W (Proc.devRef .tc main_v95) = aggOf (W (Proc.devRef .tc main_v69)) (W (Proc.devRef .tc main_v1)) (W (Proc.devRef .tc main_v3)) := by
  after_results_simp <;> rfl

set_option maxHeartbeats 1000000 in
theorem s2_w1 (W : Valuation τ sig (Elt F)) :
    StableHlo.after hostOps2 W (Proc.devRef .tc main_v103) = wT (mat1 (W (Proc.devRef .tc main_arg10))) := by
  after_results_simp <;> rfl

set_option maxHeartbeats 1000000 in
theorem s2_b1 (W : Valuation τ sig (Elt F)) :
    StableHlo.after hostOps2 W (Proc.devRef .tc main_v106) = row (vec1 (W (Proc.devRef .tc main_arg11))) := by
  after_results_simp <;> rfl

set_option maxHeartbeats 1000000 in
theorem s2_sc (W : Valuation τ sig (Elt F)) :
    StableHlo.after hostOps2 W (Proc.devRef .tc main_v107) = row (scaleVec (vec1 (W (Proc.devRef .tc main_arg12))) (vec1 (W (Proc.devRef .tc main_arg15)))) := by
  after_results_simp <;> rfl

set_option maxHeartbeats 1000000 in
theorem s2_sh (W : Valuation τ sig (Elt F)) :
    StableHlo.after hostOps2 W (Proc.devRef .tc main_v108) = row (shiftVec (vec1 (W (Proc.devRef .tc main_arg12))) (vec1 (W (Proc.devRef .tc main_arg13))) (vec1 (W (Proc.devRef .tc main_arg14))) (vec1 (W (Proc.devRef .tc main_arg15)))) := by
  after_results_simp <;> rfl

set_option maxHeartbeats 1000000 in
theorem s2_w2 (W : Valuation τ sig (Elt F)) :
    StableHlo.after hostOps2 W (Proc.devRef .tc main_v105) = wT (mat1 (W (Proc.devRef .tc main_arg16))) := by
  after_results_simp <;> rfl

set_option maxHeartbeats 1000000 in
theorem s2_b2 (W : Valuation τ sig (Elt F)) :
    StableHlo.after hostOps2 W (Proc.devRef .tc main_v109) = row (vec1 (W (Proc.devRef .tc main_arg17))) := by
  after_results_simp <;> rfl

end Cert.KernelIdeal.KVal

end
-- ==== Proof.KI.HostRead3.lean ====
/- What stretch 3 of host operations leaves in the arrays region 3 reads, from the buffers it reads. -/
import proofs.«156729_j87711822119196_1_alg».proof.Proof.KI.HostTerms
import Idealize.ShloMosaic.Lib.StableHlo.Run

noncomputable section

namespace Cert.KernelIdeal.KVal

open Cert.KernelIdeal Cert.KernelIdeal.Gen Idealize.ShloMosaic Idealize.ShloMosaic.TcCoe Idealize.SL.Sem Idealize.ShloMosaic.StableHlo

variable {F : FTy → Type} [FloatOps F]

set_option maxHeartbeats 1000000 in
theorem s3_agg (W : Valuation τ sig (Elt F)) :
    StableHlo.after hostOps3 W (Proc.devRef .tc main_v136) = aggOf (W (Proc.devRef .tc main_v110)) (W (Proc.devRef .tc main_v1)) (W (Proc.devRef .tc main_v3)) := by
  after_results_simp <;> rfl

set_option maxHeartbeats 1000000 in
theorem s3_w1 (W : Valuation τ sig (Elt F)) :
    StableHlo.after hostOps3 W (Proc.devRef .tc main_v144) = wT (mat2 (W (Proc.devRef .tc main_arg10))) := by
  after_results_simp <;> rfl

set_option maxHeartbeats 1000000 in
theorem s3_b1 (W : Valuation τ sig (Elt F)) :
    StableHlo.after hostOps3 W (Proc.devRef .tc main_v147) = row (vec2 (W (Proc.devRef .tc main_arg11))) := by
  after_results_simp <;> rfl

set_option maxHeartbeats 1000000 in
theorem s3_sc (W : Valuation τ sig (Elt F)) :
    StableHlo.after hostOps3 W (Proc.devRef .tc main_v148) = row (scaleVec (vec2 (W (Proc.devRef .tc main_arg12))) (vec2 (W (Proc.devRef .tc main_arg15)))) := by
  after_results_simp <;> rfl

set_option maxHeartbeats 1000000 in
theorem s3_sh (W : Valuation τ sig (Elt F)) :
    StableHlo.after hostOps3 W (Proc.devRef .tc main_v149) = row (shiftVec (vec2 (W (Proc.devRef .tc main_arg12))) (vec2 (W (Proc.devRef .tc main_arg13))) (vec2 (W (Proc.devRef .tc main_arg14))) (vec2 (W (Proc.devRef .tc main_arg15)))) := by
  after_results_simp <;> rfl

set_option maxHeartbeats 1000000 in
theorem s3_w2 (W : Valuation τ sig (Elt F)) :
    StableHlo.after hostOps3 W (Proc.devRef .tc main_v146) = wT (mat2 (W (Proc.devRef .tc main_arg16))) := by
  after_results_simp <;> rfl

set_option maxHeartbeats 1000000 in
theorem s3_b2 (W : Valuation τ sig (Elt F)) :
    StableHlo.after hostOps3 W (Proc.devRef .tc main_v150) = row (vec2 (W (Proc.devRef .tc main_arg17))) := by
  after_results_simp <;> rfl

end Cert.KernelIdeal.KVal

end
-- ==== Proof.KI.HostRead4.lean ====
/- What the last stretch of host operations leaves in the result, from the four regions' outputs and the readout's parameters. -/
import proofs.«156729_j87711822119196_1_alg».proof.Proof.KI.HostTerms
import Idealize.ShloMosaic.Lib.StableHlo.Run

noncomputable section

namespace Cert.KernelIdeal.KVal

open Cert.KernelIdeal Cert.KernelIdeal.Gen Idealize.ShloMosaic Idealize.ShloMosaic.TcCoe Idealize.SL.Sem Idealize.ShloMosaic.StableHlo

variable {F : FTy → Type} [FloatOps F]

set_option maxHeartbeats 1000000 in
theorem s4_result (W : Valuation τ sig (Elt F)) :
    StableHlo.after hostOps4 W (Proc.devRef .tc main_v164) = tailOf (W (Proc.devRef .tc main_v28)) (W (Proc.devRef .tc main_v69)) (W (Proc.devRef .tc main_v110)) (W (Proc.devRef .tc main_v151)) (W (Proc.devRef .tc main_arg18)) (W (Proc.devRef .tc main_arg19)) := by
  after_results_simp <;> rfl

end Cert.KernelIdeal.KVal

end
-- ==== Proof.KI.Chain.lean ====
/-
  The kernel's program, boundary by boundary: what each region finds in the arrays it reads, and what the last
  stretch of host operations reads, in terms of the launch memory and the regions' outputs. A buffer that no
  stretch writes and no region outputs holds its launch contents at every boundary; a region's output is kept by
  everything after it.
-/
import proofs.«156729_j87711822119196_1_alg».proof.Proof.KI.Run
import proofs.«156729_j87711822119196_1_alg».proof.Proof.KI.HostRead0
import proofs.«156729_j87711822119196_1_alg».proof.Proof.KI.HostRead1
import proofs.«156729_j87711822119196_1_alg».proof.Proof.KI.HostRead2
import proofs.«156729_j87711822119196_1_alg».proof.Proof.KI.HostRead3
import proofs.«156729_j87711822119196_1_alg».proof.Proof.KI.HostRead4

set_option maxRecDepth 16384

noncomputable section

namespace Cert.KernelIdeal.GenH

open Idealize.ShloMosaic Idealize.ShloMosaic.TcCoe Idealize.SL.Sem
open Cert.KernelIdeal Cert.KernelIdeal.Gen Cert.KernelIdeal.KVal

variable {F : FTy → Type} [FloatOps F]
variable (m : (ℓ : Loc nD τ sig) → Buf (Elt F) ℓ) (ρ : Dev nD → PrngReg)

/-! ## Buffers nothing writes before a boundary hold their launch contents there -/

theorem W1_launch (c : Dev nD) (b : Ref sig .tc) (h0 : b ∉ hostOps0_W) :
    W1 m ρ c (Proc.devRef .tc b) = W0 m ρ c (Proc.devRef .tc b) := W1_of m ρ c b h0
theorem W3_launch (c : Dev nD) (b : Ref sig .tc) (h0 : b ∉ hostOps0_W) (h1 : b ∉ hostOps1_W) (n0 : b ≠ main_v28) :
    W3 m ρ c (Proc.devRef .tc b) = W0 m ρ c (Proc.devRef .tc b) :=
  (W3_of m ρ c b h1).trans ((W2_keep m ρ c b n0).trans (W1_launch m ρ c b h0))
theorem W5_launch (c : Dev nD) (b : Ref sig .tc) (h0 : b ∉ hostOps0_W) (h1 : b ∉ hostOps1_W) (h2 : b ∉ hostOps2_W)
    (n0 : b ≠ main_v28) (n1 : b ≠ main_v69) : W5 m ρ c (Proc.devRef .tc b) = W0 m ρ c (Proc.devRef .tc b) :=
  (W5_of m ρ c b h2).trans ((W4_keep m ρ c b n1).trans (W3_launch m ρ c b h0 h1 n0))
theorem W7_launch (c : Dev nD) (b : Ref sig .tc) (h0 : b ∉ hostOps0_W) (h1 : b ∉ hostOps1_W) (h2 : b ∉ hostOps2_W)
    (h3 : b ∉ hostOps3_W) (n0 : b ≠ main_v28) (n1 : b ≠ main_v69) (n2 : b ≠ main_v110) :
    W7 m ρ c (Proc.devRef .tc b) = W0 m ρ c (Proc.devRef .tc b) :=
  (W7_of m ρ c b h3).trans ((W6_keep m ρ c b n2).trans (W5_launch m ρ c b h0 h1 h2 n0 n1))
theorem W8_launch (c : Dev nD) (b : Ref sig .tc) (h0 : b ∉ hostOps0_W) (h1 : b ∉ hostOps1_W) (h2 : b ∉ hostOps2_W)
    (h3 : b ∉ hostOps3_W) (n0 : b ≠ main_v28) (n1 : b ≠ main_v69) (n2 : b ≠ main_v110) (n3 : b ≠ main_v151) :
    W8 m ρ c (Proc.devRef .tc b) = W0 m ρ c (Proc.devRef .tc b) :=
  (W8_keep m ρ c b n3).trans (W7_launch m ρ c b h0 h1 h2 h3 n0 n1 n2)

/-! ## The edges' endpoints, computed by the first stretch, are read by every later one -/

theorem W2_src (c : Dev nD) : W2 m ρ c (Proc.devRef .tc main_v1) = srcVec (W0 m ρ c (Proc.devRef .tc main_arg1)) :=
  (W2_keep m ρ c main_v1 (by decide)).trans (s0_src (W0 m ρ c))
theorem W2_dst (c : Dev nD) : W2 m ρ c (Proc.devRef .tc main_v3) = dstVec (W0 m ρ c (Proc.devRef .tc main_arg1)) :=
  (W2_keep m ρ c main_v3 (by decide)).trans (s0_dst (W0 m ρ c))
theorem W4_src (c : Dev nD) : W4 m ρ c (Proc.devRef .tc main_v1) = srcVec (W0 m ρ c (Proc.devRef .tc main_arg1)) :=
  (W4_keep m ρ c main_v1 (by decide)).trans ((W3_of m ρ c main_v1 (by decide)).trans (W2_src m ρ c))
theorem W4_dst (c : Dev nD) : W4 m ρ c (Proc.devRef .tc main_v3) = dstVec (W0 m ρ c (Proc.devRef .tc main_arg1)) :=
  (W4_keep m ρ c main_v3 (by decide)).trans ((W3_of m ρ c main_v3 (by decide)).trans (W2_dst m ρ c))
theorem W6_src (c : Dev nD) : W6 m ρ c (Proc.devRef .tc main_v1) = srcVec (W0 m ρ c (Proc.devRef .tc main_arg1)) :=
  (W6_keep m ρ c main_v1 (by decide)).trans ((W5_of m ρ c main_v1 (by decide)).trans (W4_src m ρ c))
theorem W6_dst (c : Dev nD) : W6 m ρ c (Proc.devRef .tc main_v3) = dstVec (W0 m ρ c (Proc.devRef .tc main_arg1)) :=
  (W6_keep m ρ c main_v3 (by decide)).trans ((W5_of m ρ c main_v3 (by decide)).trans (W4_dst m ρ c))

/-! ## Each region's output is kept to the end -/

theorem W8_out0 (c : Dev nD) : W8 m ρ c (Proc.devRef .tc main_v28) = (dat0 (V1 m ρ) c).arrAt 8 cfg0.N :=
  (W8_keep m ρ c main_v28 (by decide)).trans <| (W7_of m ρ c main_v28 (by decide)).trans <|
  (W6_keep m ρ c main_v28 (by decide)).trans <| (W5_of m ρ c main_v28 (by decide)).trans <|
  (W4_keep m ρ c main_v28 (by decide)).trans <| (W3_of m ρ c main_v28 (by decide)).trans (W2_out m ρ c)
theorem W8_out1 (c : Dev nD) : W8 m ρ c (Proc.devRef .tc main_v69) = (dat1 (V3 m ρ) c).arrAt 8 cfg1.N :=
  (W8_keep m ρ c main_v69 (by decide)).trans <| (W7_of m ρ c main_v69 (by decide)).trans <|
  (W6_keep m ρ c main_v69 (by decide)).trans <| (W5_of m ρ c main_v69 (by decide)).trans (W4_out m ρ c)
theorem W8_out2 (c : Dev nD) : W8 m ρ c (Proc.devRef .tc main_v110) = (dat2 (V5 m ρ) c).arrAt 8 cfg2.N :=
  (W8_keep m ρ c main_v110 (by decide)).trans <| (W7_of m ρ c main_v110 (by decide)).trans (W6_out m ρ c)

/-- The result buffer at the end: the readout of the four regions' outputs. -/
theorem W9_result (c : Dev nD) :
    W9 m ρ c (Proc.devRef .tc main_v164) = tailOf ((dat0 (V1 m ρ) c).arrAt 8 cfg0.N) ((dat1 (V3 m ρ) c).arrAt 8 cfg1.N)
      ((dat2 (V5 m ρ) c).arrAt 8 cfg2.N) ((dat3 (V7 m ρ) c).arrAt 8 cfg3.N)
      (W0 m ρ c (Proc.devRef .tc main_arg18)) (W0 m ρ c (Proc.devRef .tc main_arg19)) := by
  refine (s4_result (W8 m ρ c)).trans ?_
  rw [W8_out0, W8_out1, W8_out2, W8_out,
    W8_launch m ρ c main_arg18 (by decide) (by decide) (by decide) (by decide) (by decide) (by decide) (by decide) (by decide),
    W8_launch m ρ c main_arg19 (by decide) (by decide) (by decide) (by decide) (by decide) (by decide) (by decide) (by decide)]

/-! ## What each region finds in its input arrays -/

theorem in0_x (c : Dev nD) : W1 m ρ c (Proc.devRef .tc main_arg0) = (W0 m ρ c (Proc.devRef .tc main_arg0)) := W1_launch m ρ c main_arg0 (by decide)
theorem in0_agg (c : Dev nD) : W1 m ρ c (Proc.devRef .tc main_v13) = aggOf (W0 m ρ c (Proc.devRef .tc main_arg0)) (srcVec (W0 m ρ c (Proc.devRef .tc main_arg1))) (dstVec (W0 m ρ c (Proc.devRef .tc main_arg1))) := s0_agg (W0 m ρ c)
theorem in0_w1 (c : Dev nD) : W1 m ρ c (Proc.devRef .tc main_v21) = wT (W0 m ρ c (Proc.devRef .tc main_arg2)) := s0_w1 (W0 m ρ c)
theorem in0_b1 (c : Dev nD) : W1 m ρ c (Proc.devRef .tc main_v24) = row (W0 m ρ c (Proc.devRef .tc main_arg3)) := s0_b1 (W0 m ρ c)
theorem in0_sc (c : Dev nD) : W1 m ρ c (Proc.devRef .tc main_v25) = row (scaleVec (W0 m ρ c (Proc.devRef .tc main_arg4)) (W0 m ρ c (Proc.devRef .tc main_arg7))) := s0_sc (W0 m ρ c)
theorem in0_sh (c : Dev nD) : W1 m ρ c (Proc.devRef .tc main_v26) = row (shiftVec (W0 m ρ c (Proc.devRef .tc main_arg4)) (W0 m ρ c (Proc.devRef .tc main_arg5)) (W0 m ρ c (Proc.devRef .tc main_arg6)) (W0 m ρ c (Proc.devRef .tc main_arg7))) := s0_sh (W0 m ρ c)
theorem in0_w2 (c : Dev nD) : W1 m ρ c (Proc.devRef .tc main_v23) = wT (W0 m ρ c (Proc.devRef .tc main_arg8)) := s0_w2 (W0 m ρ c)
theorem in0_b2 (c : Dev nD) : W1 m ρ c (Proc.devRef .tc main_v27) = row (W0 m ρ c (Proc.devRef .tc main_arg9)) := s0_b2 (W0 m ρ c)

theorem W2_arg10_1 (c : Dev nD) : W2 m ρ c (Proc.devRef .tc main_arg10) = (W0 m ρ c (Proc.devRef .tc main_arg10)) := (W2_keep m ρ c main_arg10 (by decide)).trans (W1_launch m ρ c main_arg10 (by decide))
theorem W2_arg11_1 (c : Dev nD) : W2 m ρ c (Proc.devRef .tc main_arg11) = (W0 m ρ c (Proc.devRef .tc main_arg11)) := (W2_keep m ρ c main_arg11 (by decide)).trans (W1_launch m ρ c main_arg11 (by decide))
theorem W2_arg12_1 (c : Dev nD) : W2 m ρ c (Proc.devRef .tc main_arg12) = (W0 m ρ c (Proc.devRef .tc main_arg12)) := (W2_keep m ρ c main_arg12 (by decide)).trans (W1_launch m ρ c main_arg12 (by decide))
theorem W2_arg13_1 (c : Dev nD) : W2 m ρ c (Proc.devRef .tc main_arg13) = (W0 m ρ c (Proc.devRef .tc main_arg13)) := (W2_keep m ρ c main_arg13 (by decide)).trans (W1_launch m ρ c main_arg13 (by decide))
theorem W2_arg14_1 (c : Dev nD) : W2 m ρ c (Proc.devRef .tc main_arg14) = (W0 m ρ c (Proc.devRef .tc main_arg14)) := (W2_keep m ρ c main_arg14 (by decide)).trans (W1_launch m ρ c main_arg14 (by decide))
theorem W2_arg15_1 (c : Dev nD) : W2 m ρ c (Proc.devRef .tc main_arg15) = (W0 m ρ c (Proc.devRef .tc main_arg15)) := (W2_keep m ρ c main_arg15 (by decide)).trans (W1_launch m ρ c main_arg15 (by decide))
theorem W2_arg16_1 (c : Dev nD) : W2 m ρ c (Proc.devRef .tc main_arg16) = (W0 m ρ c (Proc.devRef .tc main_arg16)) := (W2_keep m ρ c main_arg16 (by decide)).trans (W1_launch m ρ c main_arg16 (by decide))
theorem W2_arg17_1 (c : Dev nD) : W2 m ρ c (Proc.devRef .tc main_arg17) = (W0 m ρ c (Proc.devRef .tc main_arg17)) := (W2_keep m ρ c main_arg17 (by decide)).trans (W1_launch m ρ c main_arg17 (by decide))

theorem in1_x (c : Dev nD) : W3 m ρ c (Proc.devRef .tc main_v28) = (dat0 (V1 m ρ) c).arrAt 8 cfg0.N :=
  (W3_of m ρ c main_v28 (by decide)).trans (W2_out m ρ c)
theorem in1_agg (c : Dev nD) : W3 m ρ c (Proc.devRef .tc main_v54) = aggOf ((dat0 (V1 m ρ) c).arrAt 8 cfg0.N) (srcVec (W0 m ρ c (Proc.devRef .tc main_arg1))) (dstVec (W0 m ρ c (Proc.devRef .tc main_arg1))) := by
  refine (s1_agg (W2 m ρ c)).trans ?_
  rw [W2_out, W2_src, W2_dst]
theorem in1_w1 (c : Dev nD) : W3 m ρ c (Proc.devRef .tc main_v62) = wT (mat0 (W0 m ρ c (Proc.devRef .tc main_arg10))) := by
  refine (s1_w1 (W2 m ρ c)).trans ?_; rw [W2_arg10_1]
theorem in1_b1 (c : Dev nD) : W3 m ρ c (Proc.devRef .tc main_v65) = row (vec0 (W0 m ρ c (Proc.devRef .tc main_arg11))) := by
  refine (s1_b1 (W2 m ρ c)).trans ?_; rw [W2_arg11_1]
theorem in1_sc (c : Dev nD) : W3 m ρ c (Proc.devRef .tc main_v66) = row (scaleVec (vec0 (W0 m ρ c (Proc.devRef .tc main_arg12))) (vec0 (W0 m ρ c (Proc.devRef .tc main_arg15)))) := by
  refine (s1_sc (W2 m ρ c)).trans ?_; rw [W2_arg12_1, W2_arg15_1]
theorem in1_sh (c : Dev nD) : W3 m ρ c (Proc.devRef .tc main_v67) = row (shiftVec (vec0 (W0 m ρ c (Proc.devRef .tc main_arg12))) (vec0 (W0 m ρ c (Proc.devRef .tc main_arg13))) (vec0 (W0 m ρ c (Proc.devRef .tc main_arg14))) (vec0 (W0 m ρ c (Proc.devRef .tc main_arg15)))) := by
  refine (s1_sh (W2 m ρ c)).trans ?_; rw [W2_arg12_1, W2_arg13_1, W2_arg14_1, W2_arg15_1]
theorem in1_w2 (c : Dev nD) : W3 m ρ c (Proc.devRef .tc main_v64) = wT (mat0 (W0 m ρ c (Proc.devRef .tc main_arg16))) := by
  refine (s1_w2 (W2 m ρ c)).trans ?_; rw [W2_arg16_1]
theorem in1_b2 (c : Dev nD) : W3 m ρ c (Proc.devRef .tc main_v68) = row (vec0 (W0 m ρ c (Proc.devRef .tc main_arg17))) := by
  refine (s1_b2 (W2 m ρ c)).trans ?_; rw [W2_arg17_1]

theorem W4_arg10_2 (c : Dev nD) : W4 m ρ c (Proc.devRef .tc main_arg10) = (W0 m ρ c (Proc.devRef .tc main_arg10)) := (W4_keep m ρ c main_arg10 (by decide)).trans (W3_launch m ρ c main_arg10 (by decide) (by decide) (by decide))
theorem W4_arg11_2 (c : Dev nD) : W4 m ρ c (Proc.devRef .tc main_arg11) = (W0 m ρ c (Proc.devRef .tc main_arg11)) := (W4_keep m ρ c main_arg11 (by decide)).trans (W3_launch m ρ c main_arg11 (by decide) (by decide) (by decide))
theorem W4_arg12_2 (c : Dev nD) : W4 m ρ c (Proc.devRef .tc main_arg12) = (W0 m ρ c (Proc.devRef .tc main_arg12)) := (W4_keep m ρ c main_arg12 (by decide)).trans (W3_launch m ρ c main_arg12 (by decide) (by decide) (by decide))
theorem W4_arg13_2 (c : Dev nD) : W4 m ρ c (Proc.devRef .tc main_arg13) = (W0 m ρ c (Proc.devRef .tc main_arg13)) := (W4_keep m ρ c main_arg13 (by decide)).trans (W3_launch m ρ c main_arg13 (by decide) (by decide) (by decide))
theorem W4_arg14_2 (c : Dev nD) : W4 m ρ c (Proc.devRef .tc main_arg14) = (W0 m ρ c (Proc.devRef .tc main_arg14)) := (W4_keep m ρ c main_arg14 (by decide)).trans (W3_launch m ρ c main_arg14 (by decide) (by decide) (by decide))
theorem W4_arg15_2 (c : Dev nD) : W4 m ρ c (Proc.devRef .tc main_arg15) = (W0 m ρ c (Proc.devRef .tc main_arg15)) := (W4_keep m ρ c main_arg15 (by decide)).trans (W3_launch m ρ c main_arg15 (by decide) (by decide) (by decide))
theorem W4_arg16_2 (c : Dev nD) : W4 m ρ c (Proc.devRef .tc main_arg16) = (W0 m ρ c (Proc.devRef .tc main_arg16)) := (W4_keep m ρ c main_arg16 (by decide)).trans (W3_launch m ρ c main_arg16 (by decide) (by decide) (by decide))
theorem W4_arg17_2 (c : Dev nD) : W4 m ρ c (Proc.devRef .tc main_arg17) = (W0 m ρ c (Proc.devRef .tc main_arg17)) := (W4_keep m ρ c main_arg17 (by decide)).trans (W3_launch m ρ c main_arg17 (by decide) (by decide) (by decide))

theorem in2_x (c : Dev nD) : W5 m ρ c (Proc.devRef .tc main_v69) = (dat1 (V3 m ρ) c).arrAt 8 cfg1.N :=
  (W5_of m ρ c main_v69 (by decide)).trans (W4_out m ρ c)
theorem in2_agg (c : Dev nD) : W5 m ρ c (Proc.devRef .tc main_v95) = aggOf ((dat1 (V3 m ρ) c).arrAt 8 cfg1.N) (srcVec (W0 m ρ c (Proc.devRef .tc main_arg1))) (dstVec (W0 m ρ c (Proc.devRef .tc main_arg1))) := by
  refine (s2_agg (W4 m ρ c)).trans ?_
  rw [W4_out, W4_src, W4_dst]
theorem in2_w1 (c : Dev nD) : W5 m ρ c (Proc.devRef .tc main_v103) = wT (mat1 (W0 m ρ c (Proc.devRef .tc main_arg10))) := by
  refine (s2_w1 (W4 m ρ c)).trans ?_; rw [W4_arg10_2]
theorem in2_b1 (c : Dev nD) : W5 m ρ c (Proc.devRef .tc main_v106) = row (vec1 (W0 m ρ c (Proc.devRef .tc main_arg11))) := by
  refine (s2_b1 (W4 m ρ c)).trans ?_; rw [W4_arg11_2]
theorem in2_sc (c : Dev nD) : W5 m ρ c (Proc.devRef .tc main_v107) = row (scaleVec (vec1 (W0 m ρ c (Proc.devRef .tc main_arg12))) (vec1 (W0 m ρ c (Proc.devRef .tc main_arg15)))) := by
  refine (s2_sc (W4 m ρ c)).trans ?_; rw [W4_arg12_2, W4_arg15_2]
theorem in2_sh (c : Dev nD) : W5 m ρ c (Proc.devRef .tc main_v108) = row (shiftVec (vec1 (W0 m ρ c (Proc.devRef .tc main_arg12))) (vec1 (W0 m ρ c (Proc.devRef .tc main_arg13))) (vec1 (W0 m ρ c (Proc.devRef .tc main_arg14))) (vec1 (W0 m ρ c (Proc.devRef .tc main_arg15)))) := by
  refine (s2_sh (W4 m ρ c)).trans ?_; rw [W4_arg12_2, W4_arg13_2, W4_arg14_2, W4_arg15_2]
theorem in2_w2 (c : Dev nD) : W5 m ρ c (Proc.devRef .tc main_v105) = wT (mat1 (W0 m ρ c (Proc.devRef .tc main_arg16))) := by
  refine (s2_w2 (W4 m ρ c)).trans ?_; rw [W4_arg16_2]
theorem in2_b2 (c : Dev nD) : W5 m ρ c (Proc.devRef .tc main_v109) = row (vec1 (W0 m ρ c (Proc.devRef .tc main_arg17))) := by
  refine (s2_b2 (W4 m ρ c)).trans ?_; rw [W4_arg17_2]

theorem W6_arg10_3 (c : Dev nD) : W6 m ρ c (Proc.devRef .tc main_arg10) = (W0 m ρ c (Proc.devRef .tc main_arg10)) := (W6_keep m ρ c main_arg10 (by decide)).trans (W5_launch m ρ c main_arg10 (by decide) (by decide) (by decide) (by decide) (by decide))
theorem W6_arg11_3 (c : Dev nD) : W6 m ρ c (Proc.devRef .tc main_arg11) = (W0 m ρ c (Proc.devRef .tc main_arg11)) := (W6_keep m ρ c main_arg11 (by decide)).trans (W5_launch m ρ c main_arg11 (by decide) (by decide) (by decide) (by decide) (by decide))
theorem W6_arg12_3 (c : Dev nD) : W6 m ρ c (Proc.devRef .tc main_arg12) = (W0 m ρ c (Proc.devRef .tc main_arg12)) := (W6_keep m ρ c main_arg12 (by decide)).trans (W5_launch m ρ c main_arg12 (by decide) (by decide) (by decide) (by decide) (by decide))
theorem W6_arg13_3 (c : Dev nD) : W6 m ρ c (Proc.devRef .tc main_arg13) = (W0 m ρ c (Proc.devRef .tc main_arg13)) := (W6_keep m ρ c main_arg13 (by decide)).trans (W5_launch m ρ c main_arg13 (by decide) (by decide) (by decide) (by decide) (by decide))
theorem W6_arg14_3 (c : Dev nD) : W6 m ρ c (Proc.devRef .tc main_arg14) = (W0 m ρ c (Proc.devRef .tc main_arg14)) := (W6_keep m ρ c main_arg14 (by decide)).trans (W5_launch m ρ c main_arg14 (by decide) (by decide) (by decide) (by decide) (by decide))
theorem W6_arg15_3 (c : Dev nD) : W6 m ρ c (Proc.devRef .tc main_arg15) = (W0 m ρ c (Proc.devRef .tc main_arg15)) := (W6_keep m ρ c main_arg15 (by decide)).trans (W5_launch m ρ c main_arg15 (by decide) (by decide) (by decide) (by decide) (by decide))
theorem W6_arg16_3 (c : Dev nD) : W6 m ρ c (Proc.devRef .tc main_arg16) = (W0 m ρ c (Proc.devRef .tc main_arg16)) := (W6_keep m ρ c main_arg16 (by decide)).trans (W5_launch m ρ c main_arg16 (by decide) (by decide) (by decide) (by decide) (by decide))
theorem W6_arg17_3 (c : Dev nD) : W6 m ρ c (Proc.devRef .tc main_arg17) = (W0 m ρ c (Proc.devRef .tc main_arg17)) := (W6_keep m ρ c main_arg17 (by decide)).trans (W5_launch m ρ c main_arg17 (by decide) (by decide) (by decide) (by decide) (by decide))

theorem in3_x (c : Dev nD) : W7 m ρ c (Proc.devRef .tc main_v110) = (dat2 (V5 m ρ) c).arrAt 8 cfg2.N :=
  (W7_of m ρ c main_v110 (by decide)).trans (W6_out m ρ c)
theorem in3_agg (c : Dev nD) : W7 m ρ c (Proc.devRef .tc main_v136) = aggOf ((dat2 (V5 m ρ) c).arrAt 8 cfg2.N) (srcVec (W0 m ρ c (Proc.devRef .tc main_arg1))) (dstVec (W0 m ρ c (Proc.devRef .tc main_arg1))) := by
  refine (s3_agg (W6 m ρ c)).trans ?_
  rw [W6_out, W6_src, W6_dst]
theorem in3_w1 (c : Dev nD) : W7 m ρ c (Proc.devRef .tc main_v144) = wT (mat2 (W0 m ρ c (Proc.devRef .tc main_arg10))) := by
  refine (s3_w1 (W6 m ρ c)).trans ?_; rw [W6_arg10_3]
theorem in3_b1 (c : Dev nD) : W7 m ρ c (Proc.devRef .tc main_v147) = row (vec2 (W0 m ρ c (Proc.devRef .tc main_arg11))) := by
  refine (s3_b1 (W6 m ρ c)).trans ?_; rw [W6_arg11_3]
theorem in3_sc (c : Dev nD) : W7 m ρ c (Proc.devRef .tc main_v148) = row (scaleVec (vec2 (W0 m ρ c (Proc.devRef .tc main_arg12))) (vec2 (W0 m ρ c (Proc.devRef .tc main_arg15)))) := by
  refine (s3_sc (W6 m ρ c)).trans ?_; rw [W6_arg12_3, W6_arg15_3]
theorem in3_sh (c : Dev nD) : W7 m ρ c (Proc.devRef .tc main_v149) = row (shiftVec (vec2 (W0 m ρ c (Proc.devRef .tc main_arg12))) (vec2 (W0 m ρ c (Proc.devRef .tc main_arg13))) (vec2 (W0 m ρ c (Proc.devRef .tc main_arg14))) (vec2 (W0 m ρ c (Proc.devRef .tc main_arg15)))) := by
  refine (s3_sh (W6 m ρ c)).trans ?_; rw [W6_arg12_3, W6_arg13_3, W6_arg14_3, W6_arg15_3]
theorem in3_w2 (c : Dev nD) : W7 m ρ c (Proc.devRef .tc main_v146) = wT (mat2 (W0 m ρ c (Proc.devRef .tc main_arg16))) := by
  refine (s3_w2 (W6 m ρ c)).trans ?_; rw [W6_arg16_3]
theorem in3_b2 (c : Dev nD) : W7 m ρ c (Proc.devRef .tc main_v150) = row (vec2 (W0 m ρ c (Proc.devRef .tc main_arg17))) := by
  refine (s3_b2 (W6 m ρ c)).trans ?_; rw [W6_arg17_3]

end Cert.KernelIdeal.GenH

end
-- ==== Proof.LibFoldBias.lean ====
/-
  Folding a real bias through real weights, over the extended reals.

  On the extended reals multiplication does not distribute over addition in general (∞ - ∞ is read as -∞). It does when
  the second summand and the factor are real: (a + b) w = a w + b w for real b and w and ANY extended real a — adding a
  real to an infinite a leaves it, the product b w is real, so both sides are the same infinity when a is infinite and
  w ≠ 0, both are 0 when w = 0, and the finite case is the law of the reals (`add_mul_real`). Summed over a contracted
  coordinate — sums of extended reals commute and associate — this gives the dense-layer identity
  (a + b) W + c = a W + (b W + c) for a real bias b and real weights W, whatever the row a holds (`fold_bias`): a bias
  added before a linear layer can be pushed through the layer and merged with the layer's own bias without knowing the
  activations finite.
-/
import Mathlib.Data.EReal.Operations
import Mathlib.Algebra.BigOperators.Group.Finset.Basic
import Mathlib.Algebra.BigOperators.Fin

open scoped BigOperators

namespace Cert.Lib.FoldBias

/-- Multiplication by a real distributes over the sum of any extended real and a real. -/
theorem add_mul_real (a : EReal) (b w : ℝ) :
    (a + (b : EReal)) * (w : EReal) = a * (w : EReal) + (b : EReal) * (w : EReal) := by
  induction a using EReal.rec with
  | bot =>
    rcases lt_trichotomy w 0 with hw | hw | hw
    · rw [EReal.bot_add, EReal.bot_mul_coe_of_neg hw, ← EReal.coe_mul, EReal.top_add_coe]
    · subst hw; simp
    · rw [EReal.bot_add, EReal.bot_mul_coe_of_pos hw, EReal.bot_add]
  | coe a =>
    rw [← EReal.coe_add, ← EReal.coe_mul, ← EReal.coe_mul, ← EReal.coe_mul, ← EReal.coe_add, add_mul]
  | top =>
    rcases lt_trichotomy w 0 with hw | hw | hw
    · rw [EReal.top_add_coe, EReal.top_mul_coe_of_neg hw, EReal.bot_add]
    · subst hw; simp
    · rw [EReal.top_add_coe, EReal.top_mul_coe_of_pos hw, ← EReal.coe_mul, EReal.top_add_coe]

/-- A real bias folds through real weights: (a + b) W + c = a W + (b W + c), one entry, whatever the row a holds. -/
theorem fold_bias {K : Nat} (a : Fin K → EReal) (b w : Fin K → ℝ) (c : EReal) :
    ∑ k, (a k + (b k : EReal)) * (w k : EReal) + c
      = ∑ k, a k * (w k : EReal) + (∑ k, (b k : EReal) * (w k : EReal) + c) := by
  simp only [add_mul_real]
  rw [Finset.sum_add_distrib, add_assoc]

end Cert.Lib.FoldBias
-- ==== Proof.Spec.lean ====
/-
  The mathematics of one layer, on the extended reals.

  A layer takes the node features `x` and the neighbour sums `agg` (both 50000 × 128), and computes, for node `p`
  and output feature `j`,
      max (∑ k, max (pre k (∑ k', (x p k' + agg p k') · w1T k' k)) 0 · w2T k j + b2 j) 0,
  where `pre k` is the affine map applied to hidden unit `k` between the first product and the first rectifier.
  The kernel folds the normalisation into a scale and a shift, `pre k A = (A + b1 k) · s k + (be k − m k · s k)`;
  the reference subtracts the mean first, `pre k A = ((A + b1 k) − m k) · s k + be k`. The two agree whenever
  `b1 k`, `m k`, `s k`, `be k` are real numbers, whatever extended real `A` is: multiplication by a real
  distributes over the sum of an extended real and a real.
-/
import Idealize.ShloMosaic.PureOps.Ideal
import Idealize.ShloMosaic.Lib.ValueIdx
import proofs.«156729_j87711822119196_1_alg».proof.Proof.LibFoldBias

noncomputable section

namespace Cert.Gin

open Idealize.ShloMosaic Idealize.ShloMosaic.ValueIdx

/-- Node features and neighbour sums: 50000 nodes, 128 features. -/
abbrev Nodes : Type := (⟨2, ![50000, 128]⟩ : Shape).Idx → EReal
/-- A 128 × 128 weight matrix, already laid out so that entry (k', k) multiplies input feature k' into unit k. -/
abbrev Weights : Type := (⟨2, ![128, 128]⟩ : Shape).Idx → EReal

/-- The layer at node `p`, output feature `j`. -/
def layerAt (x agg : Nodes) (w1T : Weights) (pre : Fin 128 → EReal → EReal) (w2T : Weights) (b2 : Fin 128 → EReal)
    (p : Fin 50000) (j : Fin 128) : EReal :=
  max (∑ k : Fin 128, max (pre k (∑ k' : Fin 128, (x (ix2 p k') + agg (ix2 p k')) * w1T (ix2 k' k))) 0 * w2T (ix2 k j) + b2 j) 0

/-- The layer as an array. -/
def layer (x agg : Nodes) (w1T : Weights) (pre : Fin 128 → EReal → EReal) (w2T : Weights) (b2 : Fin 128 → EReal) : Nodes :=
  fun i => layerAt x agg w1T pre w2T b2 (i 0) (i 1)

theorem layer_apply (x agg : Nodes) (w1T : Weights) (pre : Fin 128 → EReal → EReal) (w2T : Weights) (b2 : Fin 128 → EReal)
    (p : Fin 50000) (j : Fin 128) : layer x agg w1T pre w2T b2 (ix2 p j) = layerAt x agg w1T pre w2T b2 p j := rfl

/-- The kernel's arrangement of the affine map: bias, then scale, then shift. -/
def preScaleShift (b1 sc sh : Fin 128 → EReal) : Fin 128 → EReal → EReal := fun k A => (A + b1 k) * sc k + sh k

/-- The reference's arrangement: bias, minus the mean, times the scale, plus the offset. -/
def preCentred (b1 m s be : Fin 128 → EReal) : Fin 128 → EReal → EReal := fun k A => ((A + b1 k) - m k) * s k + be k

/-- With a real mean, scale and offset the two arrangements are one map, at every extended real. -/
theorem pre_eq_at (A b1 : EReal) (m s be : ℝ) :
    (A + b1) * (s : EReal) + ((be : EReal) - (m : EReal) * (s : EReal)) = ((A + b1) - (m : EReal)) * (s : EReal) + (be : EReal) := by
  have h : ((A + b1) - (m : EReal)) * (s : EReal) = (A + b1) * (s : EReal) + ((-m : ℝ) : EReal) * (s : EReal) := by
    rw [sub_eq_add_neg, ← EReal.coe_neg]
    exact Cert.Lib.FoldBias.add_mul_real (A + b1) (-m) s
  rw [h, add_assoc]
  congr 1
  rw [← EReal.coe_mul, ← EReal.coe_mul, ← EReal.coe_sub, ← EReal.coe_add]
  congr 1
  ring

theorem pre_eq (b1 : Fin 128 → EReal) (m s be : Fin 128 → ℝ) :
    preScaleShift b1 (fun k => (s k : EReal)) (fun k => (be k : EReal) - (m k : EReal) * (s k : EReal))
      = preCentred b1 (fun k => (m k : EReal)) (fun k => (s k : EReal)) (fun k => (be k : EReal)) := by
  funext k A
  exact pre_eq_at A (b1 k) (m k) (s k) (be k)

end Cert.Gin

end
-- ==== Proof.LibSageLayer.lean ====
/-
  One dense graph-convolution layer read at one entry, at the ideal values (extended reals, every operation exact; a
  change of float format is the identity).

  `dense A X Wl Wr b p j` is entry (p, j) of `A Wl + X Wr + b`: the two sums over the contracted coordinate of the
  products, added, plus the bias entry. `kernel_layer_apply`: the two products, each of format-narrowed operands and
  accumulated into a zero splat, added, plus a [1, N] bias row laid along every row, is `dense`. `host_layer_apply`: the
  first product plus the bias vector (laid as one row, then along every row), plus the second product, is `dense` too —
  addition of extended reals is commutative and associative, so the bias may be added before or after the second
  product. `relu_host_apply`, `relu_kernel_apply`: the maximum with a zero (a scalar constant broadcast, or a splat of
  the zero word), read at an entry, is `max · 0`. `rowcast_apply`: a vector cast to a one-row matrix reads, at (0, j),
  the vector at j.
-/
import Idealize.ShloMosaic.Lib.ValueLayout
import Idealize.ShloMosaic.Lib.StackMember
import Idealize.ShloMosaic.Lib.KernelVsHost
import Idealize.ShloMosaic.PureOps.Ideal.Laws
import Idealize.ShloMosaic.Lib.Pipeline.Value

noncomputable section

open scoped BigOperators

namespace Cert.Sage

open Idealize.ShloMosaic Idealize.ShloMosaic.ValueIdx Idealize.ShloMosaic.StackMember

/-- Entry (p, j) of `A Wl + X Wr + b`. -/
def dense {R K N : Nat} (A X : (⟨2, ![R, K]⟩ : Shape).Idx → EReal) (Wl Wr : (⟨2, ![K, N]⟩ : Shape).Idx → EReal) (b : Fin N → EReal) (p : Fin R) (j : Fin N) : EReal :=
  (∑ k : Fin K, A (ix2 p k) * Wl (ix2 k j) + ∑ k : Fin K, X (ix2 p k) * Wr (ix2 k j)) + b j

/-- A plain [R, K] by [K, N] product into a zero accumulator, read at (p, j), whatever the operands' formats: the sum
    over the contracted coordinate of the products. -/
theorem matmul0_apply {R K N : Nat} {φ₁ φ₂ : FTy} (prec : Option ContractPrecision)
    (h : FVec Ideal ⟨2, ![R, K]⟩ φ₁) (w : FVec Ideal ⟨2, ![K, N]⟩ φ₂) (p : Fin R) (j : Fin N) :
    matmul (DotDims.plain R K N) prec h w (constant ⟨2, ![R, N]⟩ .f32 0x00000000#32) (ix2 p j)
      = ∑ k : Fin K, h (ix2 p k) * w (ix2 k j) :=
  (congrFun (matmul_zero_eq_dotGeneral _ prec h w) _).trans (dotGeneral_plain_apply prec h w p j)

/-- A vector laid as one row (axis 1 of a [1, N] matrix), read at (0, j), is the vector at j. -/
theorem broadcastInDim_vecRow_apply {α : Type} {N : Nat} (h1 : (⟨1, ![N]⟩ : Shape).BroadcastsInDim ⟨2, ![1, N]⟩ ![1])
    (bl : (⟨1, ![N]⟩ : Shape).Idx → α) (j : Fin N) :
    broadcastInDim ⟨2, ![1, N]⟩ ![1] h1 bl (ix2 (0 : Fin 1) j) = bl (ix1 j) := by
  refine broadcastInDim_apply ![1] h1 bl (ix2 (0 : Fin 1) j) (ix1 j) ?_
  intro a
  match a with
  | ⟨0, _⟩ =>
    show j.val = if N = 1 then 0 else j.val
    split
    · have := j.isLt; omega
    · rfl

/-- The kernel's layer: the two products of format-narrowed operands into zero accumulators, added, plus the bias row
    laid along every row. The dimension numbers are any record equal to the plain ones. -/
theorem kernel_layer_apply {R K N : Nat} (D : DotDims ⟨2, ![R, K]⟩ ⟨2, ![K, N]⟩ ⟨2, ![R, N]⟩) (hD : D = DotDims.plain R K N)
    (a x : FVec Ideal ⟨2, ![R, K]⟩ .f32) (wl wr : FVec Ideal ⟨2, ![K, N]⟩ .f32) (b : FVec Ideal ⟨2, ![1, N]⟩ .f32)
    (ht : FTy.bits .bf16 < FTy.bits .f32) (hb : (⟨2, ![1, N]⟩ : Shape).Broadcasts ⟨2, ![R, N]⟩) (p : Fin R) (j : Fin N) :
    addf (addf (matmul D none (truncf .bf16 a ht) (truncf .bf16 wl ht) (constant ⟨2, ![R, N]⟩ .f32 0x00000000#32))
               (matmul D none (truncf .bf16 x ht) (truncf .bf16 wr ht) (constant ⟨2, ![R, N]⟩ .f32 0x00000000#32)))
         (broadcastTo ⟨2, ![R, N]⟩ b hb) (ix2 p j)
      = dense a x wl wr (fun j => b (ix2 (0 : Fin 1) j)) p j := by
  subst hD
  rw [addf_apply, addf_apply, broadcastTo_1b_ab_apply, matmul0_apply, matmul0_apply]
  rfl

/-- The host's layer: the first product plus the bias (a vector laid as one row, the row laid along every row), plus
    the second product. The bias is added before the second product here and after it in `dense`; the two sums agree. -/
theorem host_layer_apply {R K N : Nat} (D : DotDims ⟨2, ![R, K]⟩ ⟨2, ![K, N]⟩ ⟨2, ![R, N]⟩) (hD : D = DotDims.plain R K N)
    (A X : FVec Ideal ⟨2, ![R, K]⟩ .f32) (Wl Wr : FVec Ideal ⟨2, ![K, N]⟩ .f32) (bl : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (j : Fin N) :
    addf (addf (Host.dotGeneral D none A Wl) (broadcastInDim ⟨2, ![R, N]⟩ ![0, 1] h2 (broadcastInDim ⟨2, ![1, N]⟩ ![1] h1 bl)))
         (Host.dotGeneral D none X Wr) (ix2 p j)
      = dense A X Wl Wr (fun j => bl (ix1 j)) p j := by
  subst hD
  rw [addf_apply, addf_apply, broadcastInDim_oneRow_apply, broadcastInDim_vecRow_apply, dotGeneral_plain_apply,
    dotGeneral_plain_apply]
  unfold dense
  exact add_right_comm _ _ _

/-- The maximum with a scalar zero constant broadcast to the shape, read at an entry. -/
theorem relu_host_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = max (v i) 0 := by
  rw [maximumf_apply]
  refine congrArg (max (v i)) ?_
  refine (broadcastInDim_apply ![] h (constant (F := Ideal) ⟨0, ![]⟩ .f32 0x00000000#32) i (fun a => a.elim0)
    (fun a => a.elim0)).trans ?_
  rw [constant_apply, Ideal.ofBits_zero_f32]

/-- The maximum with a splat of the zero word, read at an entry. -/
theorem relu_kernel_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- A vector cast to a one-row matrix reads, at (0, j), the vector at j. -/
theorem rowcast_apply {α : Type} {N : Nat} (bl : (⟨1, ![N]⟩ : Shape).Idx → α) (h : (⟨1, ![N]⟩ : Shape).ShapeCasts ⟨2, ![1, N]⟩) (j : Fin N) :
    shapeCast ⟨2, ![1, N]⟩ bl h (ix2 (0 : Fin 1) j) = bl (ix1 j) :=
  shapeCast_apply bl h (ix2 (0 : Fin 1) j) (ix1 j) (by
    rw [Shape.rowMajor_val_two, Shape.rowMajor_val_one]; show j.val = 0 * N + j.val; omega)

end Cert.Sage

end
-- ==== Proof.KI.Payload.lean ====
/-
  The value the body stores, read at one entry, on the extended reals.

  The body adds the node features and the neighbour sums, multiplies by the first weight matrix (into a zero
  accumulator), adds the bias row, multiplies by the scale row, adds the shift row, takes the maximum with zero,
  multiplies by the second weight matrix (into a zero accumulator), adds the second bias row and takes the maximum
  with zero. On the extended reals a change of float format is the identity, a shape cast to the same shape is the
  identity, a product into the zero accumulator is the sum over the contracted coordinate of the products, and a
  [1, 128] row broadcast to [2000, 128] reads the row's entry at the column. So entry (r, j) of the stored value is
      max (∑ k, max ((∑ k', (x r k' + agg r k') · w1 k' k + b1 k) · sc k + sh k) 0 · w2 k j + b2 j) 0.
  The four bodies differ only by one more identity shape cast on the first operand.
-/
import proofs.«156729_j87711822119196_1_alg».proof.Proof.Gen.KernelIdeal.Skeleton
import proofs.«156729_j87711822119196_1_alg».proof.Proof.Spec
import proofs.«156729_j87711822119196_1_alg».proof.Proof.LibSageLayer

noncomputable section

open scoped BigOperators

namespace Cert.KernelIdeal.GenH

open Idealize.ShloMosaic Idealize.ShloMosaic.ValueIdx
open Cert.KernelIdeal Cert.KernelIdeal.Gen

/-- The printed dimension numbers of the two products are the plain [2000, 128] × [128, 128] ones. -/
theorem dot_eq_plain : dot_S2000x128_S128x128_S2000x128_1_0_0_1_n_n = DotDims.plain 2000 128 128 := rfl

/-- The body's arithmetic with the identity shape casts removed. -/
def mlp (x agg : FVec Ideal S2000x128 .f32) (w1 : FVec Ideal S128x128 .bf16) (b1 sc sh : FVec Ideal S1x128 .f32)
    (w2 : FVec Ideal S128x128 .bf16) (b2 : FVec Ideal S1x128 .f32) : FVec Ideal S2000x128 .f32 :=
  maximumf
    (addf
      (matmul (DotDims.plain 2000 128 128) none
        (truncf .bf16
          (maximumf
            (addf
              (mulf
                (addf
                  (matmul (DotDims.plain 2000 128 128) none (truncf .bf16 (addf x agg) bitsLt_bf16_f32) w1
                    (constant S2000x128 .f32 0x00000000#32))
                  (broadcastTo S2000x128 b1 broadcasts_S1x128_S2000x128))
                (broadcastTo S2000x128 sc broadcasts_S1x128_S2000x128))
              (broadcastTo S2000x128 sh broadcasts_S1x128_S2000x128))
            (broadcast S2000x128 (Scalar.ofBits (F := Ideal) .f32 0x00000000#32)))
          bitsLt_bf16_f32)
        w2 (constant S2000x128 .f32 0x00000000#32))
      (broadcastTo S2000x128 b2 broadcasts_S1x128_S2000x128))
    (broadcast S2000x128 (Scalar.ofBits (F := Ideal) .f32 0x00000000#32))

/-- The arithmetic read at entry (r, j). -/
theorem mlp_apply (x agg : FVec Ideal S2000x128 .f32) (w1 : FVec Ideal S128x128 .bf16) (b1 sc sh : FVec Ideal S1x128 .f32)
    (w2 : FVec Ideal S128x128 .bf16) (b2 : FVec Ideal S1x128 .f32) (r : Fin 2000) (j : Fin 128) :
    mlp x agg w1 b1 sc sh w2 b2 (ix2 r j)
      = max (∑ k : Fin 128, max (((∑ k' : Fin 128, (x (ix2 r k') + agg (ix2 r k')) * w1 (ix2 k' k)) + b1 (ix2 0 k)) * sc (ix2 0 k) + sh (ix2 0 k)) 0 * w2 (ix2 k j) + b2 (ix2 0 j)) 0 := by
  unfold mlp
  rw [Cert.Sage.relu_kernel_apply, addf_apply, broadcastTo_1b_ab_apply, Cert.Sage.matmul0_apply]
  refine congrArg (fun s => max (s + b2 (ix2 0 j)) 0) ?_
  refine Finset.sum_congr rfl fun k _ => ?_
  refine congrArg (· * w2 (ix2 k j)) ?_
  rw [truncf_apply, Cert.Sage.relu_kernel_apply, addf_apply, mulf_apply, addf_apply, broadcastTo_1b_ab_apply,
    broadcastTo_1b_ab_apply, broadcastTo_1b_ab_apply, Cert.Sage.matmul0_apply]
  rfl

/-- The body of region 0 stores the arithmetic of its eight loaded blocks. -/
theorem k0_pay1_eq (v0 v1 : Vec Ideal S2000x128 .f32) (v5 : Vec Ideal S128x128 .bf16) (v8 v12 v16 : Vec Ideal S1x128 .f32)
    (v23 : Vec Ideal S128x128 .bf16) (v26 : Vec Ideal S1x128 .f32) :
    k0_pay1 (F := Ideal) v0 v1 v5 v8 v12 v16 v23 v26 = mlp v0 v1 v5 v8 v12 v16 v23 v26 := by
  unfold k0_pay1 mlp
  simp only [shapeCast_self]
  rfl

theorem k1_pay1_eq (v0 v1 : Vec Ideal S2000x128 .f32) (v5 : Vec Ideal S128x128 .bf16) (v8 v12 v16 : Vec Ideal S1x128 .f32)
    (v23 : Vec Ideal S128x128 .bf16) (v26 : Vec Ideal S1x128 .f32) :
    k1_pay1 (F := Ideal) v0 v1 v5 v8 v12 v16 v23 v26 = mlp v0 v1 v5 v8 v12 v16 v23 v26 := by
  unfold k1_pay1 mlp
  simp only [shapeCast_self]
  rfl

theorem k2_pay1_eq (v0 v1 : Vec Ideal S2000x128 .f32) (v5 : Vec Ideal S128x128 .bf16) (v8 v12 v16 : Vec Ideal S1x128 .f32)
    (v23 : Vec Ideal S128x128 .bf16) (v26 : Vec Ideal S1x128 .f32) :
    k2_pay1 (F := Ideal) v0 v1 v5 v8 v12 v16 v23 v26 = mlp v0 v1 v5 v8 v12 v16 v23 v26 := by
  unfold k2_pay1 mlp
  simp only [shapeCast_self]
  rfl

theorem k3_pay1_eq (v0 v1 : Vec Ideal S2000x128 .f32) (v5 : Vec Ideal S128x128 .bf16) (v8 v12 v16 : Vec Ideal S1x128 .f32)
    (v23 : Vec Ideal S128x128 .bf16) (v26 : Vec Ideal S1x128 .f32) :
    k3_pay1 (F := Ideal) v0 v1 v5 v8 v12 v16 v23 v26 = mlp v0 v1 v5 v8 v12 v16 v23 v26 := by
  unfold k3_pay1 mlp
  simp only [shapeCast_self]
  rfl

/-- The value region 0's body stores, read at entry (r, j). -/
theorem pay0_apply (v0 v1 : Vec Ideal S2000x128 .f32) (v5 : Vec Ideal S128x128 .bf16) (v8 v12 v16 : Vec Ideal S1x128 .f32)
    (v23 : Vec Ideal S128x128 .bf16) (v26 : Vec Ideal S1x128 .f32) (r : Fin 2000) (j : Fin 128) :
    k0_pay1 (F := Ideal) v0 v1 v5 v8 v12 v16 v23 v26 (ix2 r j)
      = max (∑ k : Fin 128, max (((∑ k' : Fin 128, (v0 (ix2 r k') + v1 (ix2 r k')) * v5 (ix2 k' k)) + v8 (ix2 0 k)) * v12 (ix2 0 k) + v16 (ix2 0 k)) 0 * v23 (ix2 k j) + v26 (ix2 0 j)) 0 :=
  (congrFun (k0_pay1_eq v0 v1 v5 v8 v12 v16 v23 v26) _).trans (mlp_apply v0 v1 v5 v8 v12 v16 v23 v26 r j)

/-- The value region 1's body stores, read at entry (r, j). -/
theorem pay1_apply (v0 v1 : Vec Ideal S2000x128 .f32) (v5 : Vec Ideal S128x128 .bf16) (v8 v12 v16 : Vec Ideal S1x128 .f32)
    (v23 : Vec Ideal S128x128 .bf16) (v26 : Vec Ideal S1x128 .f32) (r : Fin 2000) (j : Fin 128) :
    k1_pay1 (F := Ideal) v0 v1 v5 v8 v12 v16 v23 v26 (ix2 r j)
      = max (∑ k : Fin 128, max (((∑ k' : Fin 128, (v0 (ix2 r k') + v1 (ix2 r k')) * v5 (ix2 k' k)) + v8 (ix2 0 k)) * v12 (ix2 0 k) + v16 (ix2 0 k)) 0 * v23 (ix2 k j) + v26 (ix2 0 j)) 0 :=
  (congrFun (k1_pay1_eq v0 v1 v5 v8 v12 v16 v23 v26) _).trans (mlp_apply v0 v1 v5 v8 v12 v16 v23 v26 r j)

/-- The value region 2's body stores, read at entry (r, j). -/
theorem pay2_apply (v0 v1 : Vec Ideal S2000x128 .f32) (v5 : Vec Ideal S128x128 .bf16) (v8 v12 v16 : Vec Ideal S1x128 .f32)
    (v23 : Vec Ideal S128x128 .bf16) (v26 : Vec Ideal S1x128 .f32) (r : Fin 2000) (j : Fin 128) :
    k2_pay1 (F := Ideal) v0 v1 v5 v8 v12 v16 v23 v26 (ix2 r j)
      = max (∑ k : Fin 128, max (((∑ k' : Fin 128, (v0 (ix2 r k') + v1 (ix2 r k')) * v5 (ix2 k' k)) + v8 (ix2 0 k)) * v12 (ix2 0 k) + v16 (ix2 0 k)) 0 * v23 (ix2 k j) + v26 (ix2 0 j)) 0 :=
  (congrFun (k2_pay1_eq v0 v1 v5 v8 v12 v16 v23 v26) _).trans (mlp_apply v0 v1 v5 v8 v12 v16 v23 v26 r j)

/-- The value region 3's body stores, read at entry (r, j). -/
theorem pay3_apply (v0 v1 : Vec Ideal S2000x128 .f32) (v5 : Vec Ideal S128x128 .bf16) (v8 v12 v16 : Vec Ideal S1x128 .f32)
    (v23 : Vec Ideal S128x128 .bf16) (v26 : Vec Ideal S1x128 .f32) (r : Fin 2000) (j : Fin 128) :
    k3_pay1 (F := Ideal) v0 v1 v5 v8 v12 v16 v23 v26 (ix2 r j)
      = max (∑ k : Fin 128, max (((∑ k' : Fin 128, (v0 (ix2 r k') + v1 (ix2 r k')) * v5 (ix2 k' k)) + v8 (ix2 0 k)) * v12 (ix2 0 k) + v16 (ix2 0 k)) 0 * v23 (ix2 k j) + v26 (ix2 0 j)) 0 :=
  (congrFun (k3_pay1_eq v0 v1 v5 v8 v12 v16 v23 v26) _).trans (mlp_apply v0 v1 v5 v8 v12 v16 v23 v26 r j)

end Cert.KernelIdeal.GenH

end
-- ==== Proof.KI.Value0.lean ====
/-
  What region 0 leaves in its output array, as one function of the arrays it finds, on the extended reals.

  The grid has 25 points; point t reads rows 2000·t … 2000·t + 1999 of the node features and of the neighbour sums,
  the two weight matrices and the four rows whole, and writes back rows 2000·t … 2000·t + 1999 of the output. The
  stored value at row r, column j of the block is the layer at node 2000·t + r, feature j (the payload read at an
  entry). The 25 blocks tile the 50000 rows — row p lies in block p / 2000 — so the output array ends holding the
  layer of the arrays the region finds.
-/
import proofs.«156729_j87711822119196_1_alg».proof.Proof.KI.Region0
import proofs.«156729_j87711822119196_1_alg».proof.Proof.KI.Payload
import Idealize.ShloMosaic.Lib.Pipeline.Value

set_option maxRecDepth 16384

noncomputable section

open scoped BigOperators

namespace Cert.KernelIdeal.GenH

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: windows 0, 1 and 8 are at block (t, 0), the others at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The grid has 25 points. -/
theorem N0 : cfg0.N = 25 := by decide +kernel

/-- The payload at row r, column j of a block, when row r of the two row blocks is row p of the node arrays: the layer
    at node p, feature j. -/
theorem pay0_layerAt (x0 x1 : Vec Ideal S2000x128 .f32) (x2 : Vec Ideal S128x128 .bf16) (x3 x4 x5 : Vec Ideal S1x128 .f32)
    (x6 : Vec Ideal S128x128 .bf16) (x7 : Vec Ideal S1x128 .f32) (A0 A1 : Cert.Gin.Nodes) (r : Fin 2000) (j : Fin 128) (p : Fin 50000)
    (h0 : ∀ k : Fin 128, x0 (ix2 r k) = A0 (ix2 p k)) (h1 : ∀ k : Fin 128, x1 (ix2 r k) = A1 (ix2 p k)) :
    k0_pay1 (F := Ideal) x0 x1 x2 x3 x4 x5 x6 x7 (ix2 r j)
      = Cert.Gin.layerAt A0 A1 x2 (Cert.Gin.preScaleShift (fun k => x3 (ix2 0 k)) (fun k => x4 (ix2 0 k)) (fun k => x5 (ix2 0 k))) x6
          (fun j => x7 (ix2 0 j)) p j := by
  refine (pay0_apply x0 x1 x2 x3 x4 x5 x6 x7 r j).trans ?_
  unfold Cert.Gin.layerAt Cert.Gin.preScaleShift
  simp only [h0, h1]

/-- The layer of the arrays region 0 finds. -/
def G0 (c : Dev nD) : Cert.Gin.Nodes :=
  Cert.Gin.layer (V c (Pipeline.arrRef spec0 0)) (V c (Pipeline.arrRef spec0 1)) (V c (Pipeline.arrRef spec0 2))
    (Cert.Gin.preScaleShift (fun k => (V c (Pipeline.arrRef spec0 3) : (⟨2, ![1, 128]⟩ : Shape).Idx → EReal) (ix2 0 k))
      (fun k => (V c (Pipeline.arrRef spec0 4) : (⟨2, ![1, 128]⟩ : Shape).Idx → EReal) (ix2 0 k))
      (fun k => (V c (Pipeline.arrRef spec0 5) : (⟨2, ![1, 128]⟩ : Shape).Idx → EReal) (ix2 0 k)))
    (V c (Pipeline.arrRef spec0 6)) (fun j => (V c (Pipeline.arrRef spec0 7) : (⟨2, ![1, 128]⟩ : Shape).Idx → EReal) (ix2 0 j))

/-- Row r of window 0's block at point t is row 2000·t + r of its array. -/
theorem iblk0_0_apply (c : Dev nD) (t : Fin cfg0.N) (r : Fin 2000) (k : Fin 128) (p : Fin 50000) (hp : p.val = t.val * 2000 + r.val) :
    (iblk0 V c 0 t : S2000x128.Idx → EReal) (ix2 r k) = (V c (Pipeline.arrRef spec0 0) : Cert.Gin.Nodes) (ix2 p k) := by
  obtain ⟨e0, e1, -, -, -, -, -, -, -, -, -, -, -, -, -, -, -, -⟩ := idx_facts0 t
  unfold iblk0
  rw [View.read_apply]
  show V c (Pipeline.arrRef spec0 0) _ = V c (Pipeline.arrRef spec0 0) (ix2 p k)
  congr 1
  funext a
  apply Fin.ext
  match a with
  | ⟨0, _⟩ => show win0_0.index t (0 : Fin 2) * 2000 + 1 * r.val = p.val; omega
  | ⟨1, _⟩ => show win0_0.index t (1 : Fin 2) * 128 + 1 * k.val = k.val; omega

/-- Row r of window 1's block at point t is row 2000·t + r of its array. -/
theorem iblk0_1_apply (c : Dev nD) (t : Fin cfg0.N) (r : Fin 2000) (k : Fin 128) (p : Fin 50000) (hp : p.val = t.val * 2000 + r.val) :
    (iblk0 V c 1 t : S2000x128.Idx → EReal) (ix2 r k) = (V c (Pipeline.arrRef spec0 1) : Cert.Gin.Nodes) (ix2 p k) := by
  obtain ⟨-, -, e0, e1, -, -, -, -, -, -, -, -, -, -, -, -, -, -⟩ := idx_facts0 t
  unfold iblk0
  rw [View.read_apply]
  show V c (Pipeline.arrRef spec0 1) _ = V c (Pipeline.arrRef spec0 1) (ix2 p k)
  congr 1
  funext a
  apply Fin.ext
  match a with
  | ⟨0, _⟩ => show win0_1.index t (0 : Fin 2) * 2000 + 1 * r.val = p.val; omega
  | ⟨1, _⟩ => show win0_1.index t (1 : Fin 2) * 128 + 1 * k.val = k.val; omega

/-- Window 2's block is its whole array, at every point. -/
theorem iblk0_2 (c : Dev nD) (t : Fin cfg0.N) :
    (iblk0 V c 2 t : S128x128.Idx → EReal) = (V c (Pipeline.arrRef spec0 2) : Cert.Gin.Weights) := by
  obtain ⟨-, -, -, -, e0, e1, -, -, -, -, -, -, -, -, -, -, -, -⟩ := idx_facts0 t
  funext y
  unfold iblk0
  rw [View.read_apply]
  show V c (Pipeline.arrRef spec0 2) _ = V c (Pipeline.arrRef spec0 2) y
  congr 1
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3's block is its whole array, at every point. -/
theorem iblk0_3 (c : Dev nD) (t : Fin cfg0.N) :
    (iblk0 V c 3 t : S1x128.Idx → EReal) = (V c (Pipeline.arrRef spec0 3) : (⟨2, ![1, 128]⟩ : Shape).Idx → EReal) := by
  obtain ⟨-, -, -, -, -, -, e0, e1, -, -, -, -, -, -, -, -, -, -⟩ := idx_facts0 t
  funext y
  unfold iblk0
  rw [View.read_apply]
  show V c (Pipeline.arrRef spec0 3) _ = V c (Pipeline.arrRef spec0 3) y
  congr 1
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4's block is its whole array, at every point. -/
theorem iblk0_4 (c : Dev nD) (t : Fin cfg0.N) :
    (iblk0 V c 4 t : S1x128.Idx → EReal) = (V c (Pipeline.arrRef spec0 4) : (⟨2, ![1, 128]⟩ : Shape).Idx → EReal) := by
  obtain ⟨-, -, -, -, -, -, -, -, e0, e1, -, -, -, -, -, -, -, -⟩ := idx_facts0 t
  funext y
  unfold iblk0
  rw [View.read_apply]
  show V c (Pipeline.arrRef spec0 4) _ = V c (Pipeline.arrRef spec0 4) y
  congr 1
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5's block is its whole array, at every point. -/
theorem iblk0_5 (c : Dev nD) (t : Fin cfg0.N) :
    (iblk0 V c 5 t : S1x128.Idx → EReal) = (V c (Pipeline.arrRef spec0 5) : (⟨2, ![1, 128]⟩ : Shape).Idx → EReal) := by
  obtain ⟨-, -, -, -, -, -, -, -, -, -, e0, e1, -, -, -, -, -, -⟩ := idx_facts0 t
  funext y
  unfold iblk0
  rw [View.read_apply]
  show V c (Pipeline.arrRef spec0 5) _ = V c (Pipeline.arrRef spec0 5) y
  congr 1
  funext a
  apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6's block is its whole array, at every point. -/
theorem iblk0_6 (c : Dev nD) (t : Fin cfg0.N) :
    (iblk0 V c 6 t : S128x128.Idx → EReal) = (V c (Pipeline.arrRef spec0 6) : Cert.Gin.Weights) := by
  obtain ⟨-, -, -, -, -, -, -, -, -, -, -, -, e0, e1, -, -, -, -⟩ := idx_facts0 t
  funext y
  unfold iblk0
  rw [View.read_apply]
  show V c (Pipeline.arrRef spec0 6) _ = V c (Pipeline.arrRef spec0 6) y
  congr 1
  funext a
  apply Fin.ext
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- Window 7's block is its whole array, at every point. -/
theorem iblk0_7 (c : Dev nD) (t : Fin cfg0.N) :
    (iblk0 V c 7 t : S1x128.Idx → EReal) = (V c (Pipeline.arrRef spec0 7) : (⟨2, ![1, 128]⟩ : Shape).Idx → EReal) := by
  obtain ⟨-, -, -, -, -, -, -, -, -, -, -, -, -, -, e0, e1, -, -⟩ := idx_facts0 t
  funext y
  unfold iblk0
  rw [View.read_apply]
  show V c (Pipeline.arrRef spec0 7) _ = V c (Pipeline.arrRef spec0 7) y
  congr 1
  funext a
  apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- WHAT POINT t WRITES BACK is block t of the layer of the arrays the region finds. -/
theorem flushed0_eq (c : Dev nD) (dat : Dat τ (Elt Ideal) Unit ℕ (UR sig nD τ) ℕ cfg0 c) (t : Fin cfg0.N)
    (hafter : dat.after 8 t = out0_8 (iblk0 V c 0 t) (iblk0 V c 1 t) (iblk0 V c 2 t) (iblk0 V c 3 t) (iblk0 V c 4 t) (iblk0 V c 5 t) (iblk0 V c 6 t) (iblk0 V c 7 t)) :
    dat.flushed 8 t = ((cfg0.win 8).blk t).view.read (Elt Ideal) (G0 V c) := by
  show (cfg0.win 8).cut (grid0.coords t) (dat.after 8 t) = _
  rw [hafter]
  unfold out0_8
  rw [View.canon_unit_zero hz0]
  simp only [View.ld_unit_zero (S := S2000x128) hz0, View.ld_unit_zero (S := S128x128) hz0, View.ld_unit_zero (S := S1x128) hz0]
  obtain ⟨-, -, -, -, -, -, -, -, -, -, -, -, -, -, -, -, e0, e1⟩ := idx_facts0 t
  funext y
  rw [View.read_apply]
  have hy0 : (y 0).val < 2000 := (y 0).isLt
  have hy1 : (y 1).val < 128 := (y 1).isLt
  have ht : t.val < 25 := lt_of_lt_of_eq t.isLt N0
  have hemb : ((cfg0.win 8).blk t).view.emb y
      = ix2 (⟨t.val * 2000 + (y 0).val, by omega⟩ : Fin 50000) (⟨(y 1).val, hy1⟩ : Fin 128) := by
    funext a
    apply Fin.ext
    match a with
    | ⟨0, _⟩ => show win0_8.index t (0 : Fin 2) * 2000 + 1 * (y 0).val = t.val * 2000 + (y 0).val; omega
    | ⟨1, _⟩ => show win0_8.index t (1 : Fin 2) * 128 + 1 * (y 1).val = (y 1).val; omega
  have hx : (cfg0.win 8).xinj (grid0.coords t) y = ix2 (⟨(y 0).val, hy0⟩ : Fin 2000) (⟨(y 1).val, hy1⟩ : Fin 128) := by
    funext a
    match a with
    | ⟨0, _⟩ => rfl
    | ⟨1, _⟩ => rfl
  show k0_pay1 (F := Ideal) (iblk0 V c 0 t) (iblk0 V c 1 t) (iblk0 V c 2 t) (iblk0 V c 3 t) (iblk0 V c 4 t) (iblk0 V c 5 t) (iblk0 V c 6 t) (iblk0 V c 7 t)
      ((cfg0.win 8).xinj (grid0.coords t) y)
    = G0 V c (((cfg0.win 8).blk t).view.emb y)
  rw [hx, hemb]
  refine (pay0_layerAt (iblk0 V c 0 t) (iblk0 V c 1 t) (iblk0 V c 2 t) (iblk0 V c 3 t) (iblk0 V c 4 t) (iblk0 V c 5 t) (iblk0 V c 6 t) (iblk0 V c 7 t)
    (V c (Pipeline.arrRef spec0 0)) (V c (Pipeline.arrRef spec0 1)) ⟨(y 0).val, hy0⟩ ⟨(y 1).val, hy1⟩ ⟨t.val * 2000 + (y 0).val, by omega⟩
    (fun k => iblk0_0_apply V c t _ k _ rfl) (fun k => iblk0_1_apply V c t _ k _ rfl)).trans ?_
  rw [iblk0_2 V c t, iblk0_3 V c t, iblk0_4 V c t, iblk0_5 V c t, iblk0_6 V c t, iblk0_7 V c t]
  rfl

/-- An index of the output array is in point t's block iff each coordinate is in the block's range on its axis. -/
theorem mem_blk0 (t : Fin cfg0.N) (i : S50000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole (Pipeline.arrRef spec0 8)).slice (win0_8.rect t)).set ↔ _
  rw [View.set_slice_whole, Rect.mem_set_unit]
  exact Iff.rfl

/-- The 25 blocks tile the array: row p is in block p / 2000. -/
theorem cover0 (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  have hN : (i 0).val / 2000 < cfg0.N := by rw [N0]; omega
  obtain ⟨-, -, -, -, -, -, -, -, -, -, -, -, -, -, -, -, e0, e1⟩ := idx_facts0 ⟨(i 0).val / 2000, hN⟩
  refine ⟨⟨(i 0).val / 2000, hN⟩, flush0_8 _, ?_⟩
  rw [mem_blk0]
  intro a
  match a with
  | ⟨0, _⟩ =>
    show win0_8.index ⟨(i 0).val / 2000, hN⟩ (0 : Fin 2) * 2000 ≤ (i 0).val ∧ (i 0).val < win0_8.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_8.index ⟨(i 0).val / 2000, hN⟩ (1 : Fin 2) * 128 ≤ (i 1).val ∧ (i 1).val < win0_8.index ⟨(i 0).val / 2000, hN⟩ (1 : Fin 2) * 128 + 128
    omega

/-- THE OUTPUT ARRAY after the region, for any proof data whose output buffer after the body is the stored value of the
    eight blocks: the layer of the arrays the region finds. -/
theorem region0_value_of (c : Dev nD) (dat : Dat τ (Elt Ideal) Unit ℕ (UR sig nD τ) ℕ cfg0 c)
    (hafter : ∀ t, dat.after 8 t = out0_8 (iblk0 V c 0 t) (iblk0 V c 1 t) (iblk0 V c 2 t) (iblk0 V c 3 t) (iblk0 V c 4 t) (iblk0 V c 5 t) (iblk0 V c 6 t) (iblk0 V c 7 t)) :
    (dat.arrAt 8 cfg0.N : Cert.Gin.Nodes) = G0 V c :=
  dat.arrAt_eq_of_cover 8 (G0 V c) (fun t _ => flushed0_eq V c dat t (hafter t)) (cover0)

/-- THE OUTPUT ARRAY after region 0: the layer of the arrays the region finds. -/
theorem region0_value (c : Dev nD) :
    ((dat0 (F := Ideal) V c).arrAt 8 cfg0.N : Cert.Gin.Nodes)
      = Cert.Gin.layer (V c (Pipeline.arrRef spec0 0)) (V c (Pipeline.arrRef spec0 1)) (V c (Pipeline.arrRef spec0 2))
          (Cert.Gin.preScaleShift (fun k => (V c (Pipeline.arrRef spec0 3) : (⟨2, ![1, 128]⟩ : Shape).Idx → EReal) (ix2 0 k))
            (fun k => (V c (Pipeline.arrRef spec0 4) : (⟨2, ![1, 128]⟩ : Shape).Idx → EReal) (ix2 0 k))
            (fun k => (V c (Pipeline.arrRef spec0 5) : (⟨2, ![1, 128]⟩ : Shape).Idx → EReal) (ix2 0 k)))
          (V c (Pipeline.arrRef spec0 6)) (fun j => (V c (Pipeline.arrRef spec0 7) : (⟨2, ![1, 128]⟩ : Shape).Idx → EReal) (ix2 0 j)) :=
  region0_value_of V c (dat0 V c) (after0_8 V c)

end Cert.KernelIdeal.GenH

end
-- ==== Proof.KI.Value1.lean ====
/-
  What region 1 leaves in its output array, as one function of the arrays it finds, on the extended reals.

  The grid has 25 points; point t reads rows 2000·t … 2000·t + 1999 of the node features and of the neighbour sums,
  the two weight matrices and the four rows whole, and writes back rows 2000·t … 2000·t + 1999 of the output. The
  stored value at row r, column j of the block is the layer at node 2000·t + r, feature j (the payload read at an
  entry). The 25 blocks tile the 50000 rows — row p lies in block p / 2000 — so the output array ends holding the
  layer of the arrays the region finds.
-/
import proofs.«156729_j87711822119196_1_alg».proof.Proof.KI.Region1
import proofs.«156729_j87711822119196_1_alg».proof.Proof.KI.Payload
import Idealize.ShloMosaic.Lib.Pipeline.Value

set_option maxRecDepth 16384

noncomputable section

open scoped BigOperators

namespace Cert.KernelIdeal.GenH

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: windows 0, 1 and 8 are at block (t, 0), the others at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The grid has 25 points. -/
theorem N1 : cfg1.N = 25 := by decide +kernel

/-- The payload at row r, column j of a block, when row r of the two row blocks is row p of the node arrays: the layer
    at node p, feature j. -/
theorem pay1_layerAt (x0 x1 : Vec Ideal S2000x128 .f32) (x2 : Vec Ideal S128x128 .bf16) (x3 x4 x5 : Vec Ideal S1x128 .f32)
    (x6 : Vec Ideal S128x128 .bf16) (x7 : Vec Ideal S1x128 .f32) (A0 A1 : Cert.Gin.Nodes) (r : Fin 2000) (j : Fin 128) (p : Fin 50000)
    (h0 : ∀ k : Fin 128, x0 (ix2 r k) = A0 (ix2 p k)) (h1 : ∀ k : Fin 128, x1 (ix2 r k) = A1 (ix2 p k)) :
    k1_pay1 (F := Ideal) x0 x1 x2 x3 x4 x5 x6 x7 (ix2 r j)
      = Cert.Gin.layerAt A0 A1 x2 (Cert.Gin.preScaleShift (fun k => x3 (ix2 0 k)) (fun k => x4 (ix2 0 k)) (fun k => x5 (ix2 0 k))) x6
          (fun j => x7 (ix2 0 j)) p j := by
  refine (pay1_apply x0 x1 x2 x3 x4 x5 x6 x7 r j).trans ?_
  unfold Cert.Gin.layerAt Cert.Gin.preScaleShift
  simp only [h0, h1]

/-- The layer of the arrays region 1 finds. -/
def G1 (c : Dev nD) : Cert.Gin.Nodes :=
  Cert.Gin.layer (V c (Pipeline.arrRef spec1 0)) (V c (Pipeline.arrRef spec1 1)) (V c (Pipeline.arrRef spec1 2))
    (Cert.Gin.preScaleShift (fun k => (V c (Pipeline.arrRef spec1 3) : (⟨2, ![1, 128]⟩ : Shape).Idx → EReal) (ix2 0 k))
      (fun k => (V c (Pipeline.arrRef spec1 4) : (⟨2, ![1, 128]⟩ : Shape).Idx → EReal) (ix2 0 k))
      (fun k => (V c (Pipeline.arrRef spec1 5) : (⟨2, ![1, 128]⟩ : Shape).Idx → EReal) (ix2 0 k)))
    (V c (Pipeline.arrRef spec1 6)) (fun j => (V c (Pipeline.arrRef spec1 7) : (⟨2, ![1, 128]⟩ : Shape).Idx → EReal) (ix2 0 j))

/-- Row r of window 0's block at point t is row 2000·t + r of its array. -/
theorem iblk1_0_apply (c : Dev nD) (t : Fin cfg1.N) (r : Fin 2000) (k : Fin 128) (p : Fin 50000) (hp : p.val = t.val * 2000 + r.val) :
    (iblk1 V c 0 t : S2000x128.Idx → EReal) (ix2 r k) = (V c (Pipeline.arrRef spec1 0) : Cert.Gin.Nodes) (ix2 p k) := by
  obtain ⟨e0, e1, -, -, -, -, -, -, -, -, -, -, -, -, -, -, -, -⟩ := idx_facts1 t
  unfold iblk1
  rw [View.read_apply]
  show V c (Pipeline.arrRef spec1 0) _ = V c (Pipeline.arrRef spec1 0) (ix2 p k)
  congr 1
  funext a
  apply Fin.ext
  match a with
  | ⟨0, _⟩ => show win1_0.index t (0 : Fin 2) * 2000 + 1 * r.val = p.val; omega
  | ⟨1, _⟩ => show win1_0.index t (1 : Fin 2) * 128 + 1 * k.val = k.val; omega

/-- Row r of window 1's block at point t is row 2000·t + r of its array. -/
theorem iblk1_1_apply (c : Dev nD) (t : Fin cfg1.N) (r : Fin 2000) (k : Fin 128) (p : Fin 50000) (hp : p.val = t.val * 2000 + r.val) :
    (iblk1 V c 1 t : S2000x128.Idx → EReal) (ix2 r k) = (V c (Pipeline.arrRef spec1 1) : Cert.Gin.Nodes) (ix2 p k) := by
  obtain ⟨-, -, e0, e1, -, -, -, -, -, -, -, -, -, -, -, -, -, -⟩ := idx_facts1 t
  unfold iblk1
  rw [View.read_apply]
  show V c (Pipeline.arrRef spec1 1) _ = V c (Pipeline.arrRef spec1 1) (ix2 p k)
  congr 1
  funext a
  apply Fin.ext
  match a with
  | ⟨0, _⟩ => show win1_1.index t (0 : Fin 2) * 2000 + 1 * r.val = p.val; omega
  | ⟨1, _⟩ => show win1_1.index t (1 : Fin 2) * 128 + 1 * k.val = k.val; omega

/-- Window 2's block is its whole array, at every point. -/
theorem iblk1_2 (c : Dev nD) (t : Fin cfg1.N) :
    (iblk1 V c 2 t : S128x128.Idx → EReal) = (V c (Pipeline.arrRef spec1 2) : Cert.Gin.Weights) := by
  obtain ⟨-, -, -, -, e0, e1, -, -, -, -, -, -, -, -, -, -, -, -⟩ := idx_facts1 t
  funext y
  unfold iblk1
  rw [View.read_apply]
  show V c (Pipeline.arrRef spec1 2) _ = V c (Pipeline.arrRef spec1 2) y
  congr 1
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3's block is its whole array, at every point. -/
theorem iblk1_3 (c : Dev nD) (t : Fin cfg1.N) :
    (iblk1 V c 3 t : S1x128.Idx → EReal) = (V c (Pipeline.arrRef spec1 3) : (⟨2, ![1, 128]⟩ : Shape).Idx → EReal) := by
  obtain ⟨-, -, -, -, -, -, e0, e1, -, -, -, -, -, -, -, -, -, -⟩ := idx_facts1 t
  funext y
  unfold iblk1
  rw [View.read_apply]
  show V c (Pipeline.arrRef spec1 3) _ = V c (Pipeline.arrRef spec1 3) y
  congr 1
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block is its whole array, at every point. -/
theorem iblk1_4 (c : Dev nD) (t : Fin cfg1.N) :
    (iblk1 V c 4 t : S1x128.Idx → EReal) = (V c (Pipeline.arrRef spec1 4) : (⟨2, ![1, 128]⟩ : Shape).Idx → EReal) := by
  obtain ⟨-, -, -, -, -, -, -, -, e0, e1, -, -, -, -, -, -, -, -⟩ := idx_facts1 t
  funext y
  unfold iblk1
  rw [View.read_apply]
  show V c (Pipeline.arrRef spec1 4) _ = V c (Pipeline.arrRef spec1 4) y
  congr 1
  funext a
  apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5's block is its whole array, at every point. -/
theorem iblk1_5 (c : Dev nD) (t : Fin cfg1.N) :
    (iblk1 V c 5 t : S1x128.Idx → EReal) = (V c (Pipeline.arrRef spec1 5) : (⟨2, ![1, 128]⟩ : Shape).Idx → EReal) := by
  obtain ⟨-, -, -, -, -, -, -, -, -, -, e0, e1, -, -, -, -, -, -⟩ := idx_facts1 t
  funext y
  unfold iblk1
  rw [View.read_apply]
  show V c (Pipeline.arrRef spec1 5) _ = V c (Pipeline.arrRef spec1 5) y
  congr 1
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6's block is its whole array, at every point. -/
theorem iblk1_6 (c : Dev nD) (t : Fin cfg1.N) :
    (iblk1 V c 6 t : S128x128.Idx → EReal) = (V c (Pipeline.arrRef spec1 6) : Cert.Gin.Weights) := by
  obtain ⟨-, -, -, -, -, -, -, -, -, -, -, -, e0, e1, -, -, -, -⟩ := idx_facts1 t
  funext y
  unfold iblk1
  rw [View.read_apply]
  show V c (Pipeline.arrRef spec1 6) _ = V c (Pipeline.arrRef spec1 6) y
  congr 1
  funext a
  apply Fin.ext
  match a with
  | ⟨0, _⟩ => show win1_6.index t (0 : Fin 2) * 128 + 1 * (y 0).val = (y 0).val; omega
  | ⟨1, _⟩ => show win1_6.index t (1 : Fin 2) * 128 + 1 * (y 1).val = (y 1).val; omega

/-- Window 7's block is its whole array, at every point. -/
theorem iblk1_7 (c : Dev nD) (t : Fin cfg1.N) :
    (iblk1 V c 7 t : S1x128.Idx → EReal) = (V c (Pipeline.arrRef spec1 7) : (⟨2, ![1, 128]⟩ : Shape).Idx → EReal) := by
  obtain ⟨-, -, -, -, -, -, -, -, -, -, -, -, -, -, e0, e1, -, -⟩ := idx_facts1 t
  funext y
  unfold iblk1
  rw [View.read_apply]
  show V c (Pipeline.arrRef spec1 7) _ = V c (Pipeline.arrRef spec1 7) y
  congr 1
  funext a
  apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- WHAT POINT t WRITES BACK is block t of the layer of the arrays the region finds. -/
theorem flushed1_eq (c : Dev nD) (dat : Dat τ (Elt Ideal) Unit ℕ (UR sig nD τ) ℕ cfg1 c) (t : Fin cfg1.N)
    (hafter : dat.after 8 t = out1_8 (iblk1 V c 0 t) (iblk1 V c 1 t) (iblk1 V c 2 t) (iblk1 V c 3 t) (iblk1 V c 4 t) (iblk1 V c 5 t) (iblk1 V c 6 t) (iblk1 V c 7 t)) :
    dat.flushed 8 t = ((cfg1.win 8).blk t).view.read (Elt Ideal) (G1 V c) := by
  show (cfg1.win 8).cut (grid1.coords t) (dat.after 8 t) = _
  rw [hafter]
  unfold out1_8
  rw [View.canon_unit_zero hz1]
  simp only [View.ld_unit_zero (S := S2000x128) hz1, View.ld_unit_zero (S := S128x128) hz1, View.ld_unit_zero (S := S1x128) hz1]
  obtain ⟨-, -, -, -, -, -, -, -, -, -, -, -, -, -, -, -, e0, e1⟩ := idx_facts1 t
  funext y
  rw [View.read_apply]
  have hy0 : (y 0).val < 2000 := (y 0).isLt
  have hy1 : (y 1).val < 128 := (y 1).isLt
  have ht : t.val < 25 := lt_of_lt_of_eq t.isLt N1
  have hemb : ((cfg1.win 8).blk t).view.emb y
      = ix2 (⟨t.val * 2000 + (y 0).val, by omega⟩ : Fin 50000) (⟨(y 1).val, hy1⟩ : Fin 128) := by
    funext a
    apply Fin.ext
    match a with
    | ⟨0, _⟩ => show win1_8.index t (0 : Fin 2) * 2000 + 1 * (y 0).val = t.val * 2000 + (y 0).val; omega
    | ⟨1, _⟩ => show win1_8.index t (1 : Fin 2) * 128 + 1 * (y 1).val = (y 1).val; omega
  have hx : (cfg1.win 8).xinj (grid1.coords t) y = ix2 (⟨(y 0).val, hy0⟩ : Fin 2000) (⟨(y 1).val, hy1⟩ : Fin 128) := by
    funext a
    match a with
    | ⟨0, _⟩ => rfl
    | ⟨1, _⟩ => rfl
  show k1_pay1 (F := Ideal) (iblk1 V c 0 t) (iblk1 V c 1 t) (iblk1 V c 2 t) (iblk1 V c 3 t) (iblk1 V c 4 t) (iblk1 V c 5 t) (iblk1 V c 6 t) (iblk1 V c 7 t)
      ((cfg1.win 8).xinj (grid1.coords t) y)
    = G1 V c (((cfg1.win 8).blk t).view.emb y)
  rw [hx, hemb]
  refine (pay1_layerAt (iblk1 V c 0 t) (iblk1 V c 1 t) (iblk1 V c 2 t) (iblk1 V c 3 t) (iblk1 V c 4 t) (iblk1 V c 5 t) (iblk1 V c 6 t) (iblk1 V c 7 t)
    (V c (Pipeline.arrRef spec1 0)) (V c (Pipeline.arrRef spec1 1)) ⟨(y 0).val, hy0⟩ ⟨(y 1).val, hy1⟩ ⟨t.val * 2000 + (y 0).val, by omega⟩
    (fun k => iblk1_0_apply V c t _ k _ rfl) (fun k => iblk1_1_apply V c t _ k _ rfl)).trans ?_
  rw [iblk1_2 V c t, iblk1_3 V c t, iblk1_4 V c t, iblk1_5 V c t, iblk1_6 V c t, iblk1_7 V c t]
  rfl

/-- An index of the output array is in point t's block iff each coordinate is in the block's range on its axis. -/
theorem mem_blk1 (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole (Pipeline.arrRef spec1 8)).slice (win1_8.rect t)).set ↔ _
  rw [View.set_slice_whole, Rect.mem_set_unit]
  exact Iff.rfl

/-- The 25 blocks tile the array: row p is in block p / 2000. -/
theorem cover1 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have hN : (i 0).val / 2000 < cfg1.N := by rw [N1]; omega
  obtain ⟨-, -, -, -, -, -, -, -, -, -, -, -, -, -, -, -, e0, e1⟩ := idx_facts1 ⟨(i 0).val / 2000, hN⟩
  refine ⟨⟨(i 0).val / 2000, hN⟩, flush1_8 _, ?_⟩
  rw [mem_blk1]
  intro a
  match a with
  | ⟨0, _⟩ =>
    show win1_8.index ⟨(i 0).val / 2000, hN⟩ (0 : Fin 2) * 2000 ≤ (i 0).val ∧ (i 0).val < win1_8.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win1_8.index ⟨(i 0).val / 2000, hN⟩ (1 : Fin 2) * 128 ≤ (i 1).val ∧ (i 1).val < win1_8.index ⟨(i 0).val / 2000, hN⟩ (1 : Fin 2) * 128 + 128
    omega

/-- THE OUTPUT ARRAY after the region, for any proof data whose output buffer after the body is the stored value of the
    eight blocks: the layer of the arrays the region finds. -/
theorem region1_value_of (c : Dev nD) (dat : Dat τ (Elt Ideal) Unit ℕ (UR sig nD τ) ℕ cfg1 c)
    (hafter : ∀ t, dat.after 8 t = out1_8 (iblk1 V c 0 t) (iblk1 V c 1 t) (iblk1 V c 2 t) (iblk1 V c 3 t) (iblk1 V c 4 t) (iblk1 V c 5 t) (iblk1 V c 6 t) (iblk1 V c 7 t)) :
    (dat.arrAt 8 cfg1.N : Cert.Gin.Nodes) = G1 V c :=
  dat.arrAt_eq_of_cover 8 (G1 V c) (fun t _ => flushed1_eq V c dat t (hafter t)) (cover1)

/-- THE OUTPUT ARRAY after region 1: the layer of the arrays the region finds. -/
theorem region1_value (c : Dev nD) :
    ((dat1 (F := Ideal) V c).arrAt 8 cfg1.N : Cert.Gin.Nodes)
      = Cert.Gin.layer (V c (Pipeline.arrRef spec1 0)) (V c (Pipeline.arrRef spec1 1)) (V c (Pipeline.arrRef spec1 2))
          (Cert.Gin.preScaleShift (fun k => (V c (Pipeline.arrRef spec1 3) : (⟨2, ![1, 128]⟩ : Shape).Idx → EReal) (ix2 0 k))
            (fun k => (V c (Pipeline.arrRef spec1 4) : (⟨2, ![1, 128]⟩ : Shape).Idx → EReal) (ix2 0 k))
            (fun k => (V c (Pipeline.arrRef spec1 5) : (⟨2, ![1, 128]⟩ : Shape).Idx → EReal) (ix2 0 k)))
          (V c (Pipeline.arrRef spec1 6)) (fun j => (V c (Pipeline.arrRef spec1 7) : (⟨2, ![1, 128]⟩ : Shape).Idx → EReal) (ix2 0 j)) :=
  region1_value_of V c (dat1 V c) (after1_8 V c)

end Cert.KernelIdeal.GenH

end
-- ==== Proof.KI.Value2.lean ====
/-
  What region 2 leaves in its output array, as one function of the arrays it finds, on the extended reals.

  The grid has 25 points; point t reads rows 2000·t … 2000·t + 1999 of the node features and of the neighbour sums,
  the two weight matrices and the four rows whole, and writes back rows 2000·t … 2000·t + 1999 of the output. The
  stored value at row r, column j of the block is the layer at node 2000·t + r, feature j (the payload read at an
  entry). The 25 blocks tile the 50000 rows — row p lies in block p / 2000 — so the output array ends holding the
  layer of the arrays the region finds.
-/
import proofs.«156729_j87711822119196_1_alg».proof.Proof.KI.Region2
import proofs.«156729_j87711822119196_1_alg».proof.Proof.KI.Payload
import Idealize.ShloMosaic.Lib.Pipeline.Value

set_option maxRecDepth 16384

noncomputable section

open scoped BigOperators

namespace Cert.KernelIdeal.GenH

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: windows 0, 1 and 8 are at block (t, 0), the others at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- The grid has 25 points. -/
theorem N2 : cfg2.N = 25 := by decide +kernel

/-- The payload at row r, column j of a block, when row r of the two row blocks is row p of the node arrays: the layer
    at node p, feature j. -/
theorem pay2_layerAt (x0 x1 : Vec Ideal S2000x128 .f32) (x2 : Vec Ideal S128x128 .bf16) (x3 x4 x5 : Vec Ideal S1x128 .f32)
    (x6 : Vec Ideal S128x128 .bf16) (x7 : Vec Ideal S1x128 .f32) (A0 A1 : Cert.Gin.Nodes) (r : Fin 2000) (j : Fin 128) (p : Fin 50000)
    (h0 : ∀ k : Fin 128, x0 (ix2 r k) = A0 (ix2 p k)) (h1 : ∀ k : Fin 128, x1 (ix2 r k) = A1 (ix2 p k)) :
    k2_pay1 (F := Ideal) x0 x1 x2 x3 x4 x5 x6 x7 (ix2 r j)
      = Cert.Gin.layerAt A0 A1 x2 (Cert.Gin.preScaleShift (fun k => x3 (ix2 0 k)) (fun k => x4 (ix2 0 k)) (fun k => x5 (ix2 0 k))) x6
          (fun j => x7 (ix2 0 j)) p j := by
  refine (pay2_apply x0 x1 x2 x3 x4 x5 x6 x7 r j).trans ?_
  unfold Cert.Gin.layerAt Cert.Gin.preScaleShift
  simp only [h0, h1]

/-- The layer of the arrays region 2 finds. -/
def G2 (c : Dev nD) : Cert.Gin.Nodes :=
  Cert.Gin.layer (V c (Pipeline.arrRef spec2 0)) (V c (Pipeline.arrRef spec2 1)) (V c (Pipeline.arrRef spec2 2))
    (Cert.Gin.preScaleShift (fun k => (V c (Pipeline.arrRef spec2 3) : (⟨2, ![1, 128]⟩ : Shape).Idx → EReal) (ix2 0 k))
      (fun k => (V c (Pipeline.arrRef spec2 4) : (⟨2, ![1, 128]⟩ : Shape).Idx → EReal) (ix2 0 k))
      (fun k => (V c (Pipeline.arrRef spec2 5) : (⟨2, ![1, 128]⟩ : Shape).Idx → EReal) (ix2 0 k)))
    (V c (Pipeline.arrRef spec2 6)) (fun j => (V c (Pipeline.arrRef spec2 7) : (⟨2, ![1, 128]⟩ : Shape).Idx → EReal) (ix2 0 j))

/-- Row r of window 0's block at point t is row 2000·t + r of its array. -/
theorem iblk2_0_apply (c : Dev nD) (t : Fin cfg2.N) (r : Fin 2000) (k : Fin 128) (p : Fin 50000) (hp : p.val = t.val * 2000 + r.val) :
    (iblk2 V c 0 t : S2000x128.Idx → EReal) (ix2 r k) = (V c (Pipeline.arrRef spec2 0) : Cert.Gin.Nodes) (ix2 p k) := by
  obtain ⟨e0, e1, -, -, -, -, -, -, -, -, -, -, -, -, -, -, -, -⟩ := idx_facts2 t
  unfold iblk2
  rw [View.read_apply]
  show V c (Pipeline.arrRef spec2 0) _ = V c (Pipeline.arrRef spec2 0) (ix2 p k)
  congr 1
  funext a
  apply Fin.ext
  match a with
  | ⟨0, _⟩ => show win2_0.index t (0 : Fin 2) * 2000 + 1 * r.val = p.val; omega
  | ⟨1, _⟩ => show win2_0.index t (1 : Fin 2) * 128 + 1 * k.val = k.val; omega

/-- Row r of window 1's block at point t is row 2000·t + r of its array. -/
theorem iblk2_1_apply (c : Dev nD) (t : Fin cfg2.N) (r : Fin 2000) (k : Fin 128) (p : Fin 50000) (hp : p.val = t.val * 2000 + r.val) :
    (iblk2 V c 1 t : S2000x128.Idx → EReal) (ix2 r k) = (V c (Pipeline.arrRef spec2 1) : Cert.Gin.Nodes) (ix2 p k) := by
  obtain ⟨-, -, e0, e1, -, -, -, -, -, -, -, -, -, -, -, -, -, -⟩ := idx_facts2 t
  unfold iblk2
  rw [View.read_apply]
  show V c (Pipeline.arrRef spec2 1) _ = V c (Pipeline.arrRef spec2 1) (ix2 p k)
  congr 1
  funext a
  apply Fin.ext
  match a with
  | ⟨0, _⟩ => show win2_1.index t (0 : Fin 2) * 2000 + 1 * r.val = p.val; omega
  | ⟨1, _⟩ => show win2_1.index t (1 : Fin 2) * 128 + 1 * k.val = k.val; omega

/-- Window 2's block is its whole array, at every point. -/
theorem iblk2_2 (c : Dev nD) (t : Fin cfg2.N) :
    (iblk2 V c 2 t : S128x128.Idx → EReal) = (V c (Pipeline.arrRef spec2 2) : Cert.Gin.Weights) := by
  obtain ⟨-, -, -, -, e0, e1, -, -, -, -, -, -, -, -, -, -, -, -⟩ := idx_facts2 t
  funext y
  unfold iblk2
  rw [View.read_apply]
  show V c (Pipeline.arrRef spec2 2) _ = V c (Pipeline.arrRef spec2 2) y
  congr 1
  funext a
  apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 3's block is its whole array, at every point. -/
theorem iblk2_3 (c : Dev nD) (t : Fin cfg2.N) :
    (iblk2 V c 3 t : S1x128.Idx → EReal) = (V c (Pipeline.arrRef spec2 3) : (⟨2, ![1, 128]⟩ : Shape).Idx → EReal) := by
  obtain ⟨-, -, -, -, -, -, e0, e1, -, -, -, -, -, -, -, -, -, -⟩ := idx_facts2 t
  funext y
  unfold iblk2
  rw [View.read_apply]
  show V c (Pipeline.arrRef spec2 3) _ = V c (Pipeline.arrRef spec2 3) y
  congr 1
  funext a
  apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4's block is its whole array, at every point. -/
theorem iblk2_4 (c : Dev nD) (t : Fin cfg2.N) :
    (iblk2 V c 4 t : S1x128.Idx → EReal) = (V c (Pipeline.arrRef spec2 4) : (⟨2, ![1, 128]⟩ : Shape).Idx → EReal) := by
  obtain ⟨-, -, -, -, -, -, -, -, e0, e1, -, -, -, -, -, -, -, -⟩ := idx_facts2 t
  funext y
  unfold iblk2
  rw [View.read_apply]
  show V c (Pipeline.arrRef spec2 4) _ = V c (Pipeline.arrRef spec2 4) y
  congr 1
  funext a
  apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5's block is its whole array, at every point. -/
theorem iblk2_5 (c : Dev nD) (t : Fin cfg2.N) :
    (iblk2 V c 5 t : S1x128.Idx → EReal) = (V c (Pipeline.arrRef spec2 5) : (⟨2, ![1, 128]⟩ : Shape).Idx → EReal) := by
  obtain ⟨-, -, -, -, -, -, -, -, -, -, e0, e1, -, -, -, -, -, -⟩ := idx_facts2 t
  funext y
  unfold iblk2
  rw [View.read_apply]
  show V c (Pipeline.arrRef spec2 5) _ = V c (Pipeline.arrRef spec2 5) y
  congr 1
  funext a
  apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- Window 6's block is its whole array, at every point. -/
theorem iblk2_6 (c : Dev nD) (t : Fin cfg2.N) :
    (iblk2 V c 6 t : S128x128.Idx → EReal) = (V c (Pipeline.arrRef spec2 6) : Cert.Gin.Weights) := by
  obtain ⟨-, -, -, -, -, -, -, -, -, -, -, -, e0, e1, -, -, -, -⟩ := idx_facts2 t
  funext y
  unfold iblk2
  rw [View.read_apply]
  show V c (Pipeline.arrRef spec2 6) _ = V c (Pipeline.arrRef spec2 6) y
  congr 1
  funext a
  apply Fin.ext
  match a with
  | ⟨0, _⟩ => show win2_6.index t (0 : Fin 2) * 128 + 1 * (y 0).val = (y 0).val; omega
  | ⟨1, _⟩ => show win2_6.index t (1 : Fin 2) * 128 + 1 * (y 1).val = (y 1).val; omega

/-- Window 7's block is its whole array, at every point. -/
theorem iblk2_7 (c : Dev nD) (t : Fin cfg2.N) :
    (iblk2 V c 7 t : S1x128.Idx → EReal) = (V c (Pipeline.arrRef spec2 7) : (⟨2, ![1, 128]⟩ : Shape).Idx → EReal) := by
  obtain ⟨-, -, -, -, -, -, -, -, -, -, -, -, -, -, e0, e1, -, -⟩ := idx_facts2 t
  funext y
  unfold iblk2
  rw [View.read_apply]
  show V c (Pipeline.arrRef spec2 7) _ = V c (Pipeline.arrRef spec2 7) y
  congr 1
  funext a
  apply Fin.ext
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- WHAT POINT t WRITES BACK is block t of the layer of the arrays the region finds. -/
theorem flushed2_eq (c : Dev nD) (dat : Dat τ (Elt Ideal) Unit ℕ (UR sig nD τ) ℕ cfg2 c) (t : Fin cfg2.N)
    (hafter : dat.after 8 t = out2_8 (iblk2 V c 0 t) (iblk2 V c 1 t) (iblk2 V c 2 t) (iblk2 V c 3 t) (iblk2 V c 4 t) (iblk2 V c 5 t) (iblk2 V c 6 t) (iblk2 V c 7 t)) :
    dat.flushed 8 t = ((cfg2.win 8).blk t).view.read (Elt Ideal) (G2 V c) := by
  show (cfg2.win 8).cut (grid2.coords t) (dat.after 8 t) = _
  rw [hafter]
  unfold out2_8
  rw [View.canon_unit_zero hz2]
  simp only [View.ld_unit_zero (S := S2000x128) hz2, View.ld_unit_zero (S := S128x128) hz2, View.ld_unit_zero (S := S1x128) hz2]
  obtain ⟨-, -, -, -, -, -, -, -, -, -, -, -, -, -, -, -, e0, e1⟩ := idx_facts2 t
  funext y
  rw [View.read_apply]
  have hy0 : (y 0).val < 2000 := (y 0).isLt
  have hy1 : (y 1).val < 128 := (y 1).isLt
  have ht : t.val < 25 := lt_of_lt_of_eq t.isLt N2
  have hemb : ((cfg2.win 8).blk t).view.emb y
      = ix2 (⟨t.val * 2000 + (y 0).val, by omega⟩ : Fin 50000) (⟨(y 1).val, hy1⟩ : Fin 128) := by
    funext a
    apply Fin.ext
    match a with
    | ⟨0, _⟩ => show win2_8.index t (0 : Fin 2) * 2000 + 1 * (y 0).val = t.val * 2000 + (y 0).val; omega
    | ⟨1, _⟩ => show win2_8.index t (1 : Fin 2) * 128 + 1 * (y 1).val = (y 1).val; omega
  have hx : (cfg2.win 8).xinj (grid2.coords t) y = ix2 (⟨(y 0).val, hy0⟩ : Fin 2000) (⟨(y 1).val, hy1⟩ : Fin 128) := by
    funext a
    match a with
    | ⟨0, _⟩ => rfl
    | ⟨1, _⟩ => rfl
  show k2_pay1 (F := Ideal) (iblk2 V c 0 t) (iblk2 V c 1 t) (iblk2 V c 2 t) (iblk2 V c 3 t) (iblk2 V c 4 t) (iblk2 V c 5 t) (iblk2 V c 6 t) (iblk2 V c 7 t)
      ((cfg2.win 8).xinj (grid2.coords t) y)
    = G2 V c (((cfg2.win 8).blk t).view.emb y)
  rw [hx, hemb]
  refine (pay2_layerAt (iblk2 V c 0 t) (iblk2 V c 1 t) (iblk2 V c 2 t) (iblk2 V c 3 t) (iblk2 V c 4 t) (iblk2 V c 5 t) (iblk2 V c 6 t) (iblk2 V c 7 t)
    (V c (Pipeline.arrRef spec2 0)) (V c (Pipeline.arrRef spec2 1)) ⟨(y 0).val, hy0⟩ ⟨(y 1).val, hy1⟩ ⟨t.val * 2000 + (y 0).val, by omega⟩
    (fun k => iblk2_0_apply V c t _ k _ rfl) (fun k => iblk2_1_apply V c t _ k _ rfl)).trans ?_
  rw [iblk2_2 V c t, iblk2_3 V c t, iblk2_4 V c t, iblk2_5 V c t, iblk2_6 V c t, iblk2_7 V c t]
  rfl

/-- An index of the output array is in point t's block iff each coordinate is in the block's range on its axis. -/
theorem mem_blk2 (t : Fin cfg2.N) (i : S50000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole (Pipeline.arrRef spec2 8)).slice (win2_8.rect t)).set ↔ _
  rw [View.set_slice_whole, Rect.mem_set_unit]
  exact Iff.rfl

/-- The 25 blocks tile the array: row p is in block p / 2000. -/
theorem cover2 (i : S50000x128.Idx) : ∃ t : Fin cfg2.N, (cfg2.win 8).flush t = true ∧ i ∈ ((cfg2.win 8).blk t).view.set := by
  have hi0 : (i 0).val < 50000 := (i 0).isLt
  have hi1 : (i 1).val < 128 := (i 1).isLt
  have hN : (i 0).val / 2000 < cfg2.N := by rw [N2]; omega
  obtain ⟨-, -, -, -, -, -, -, -, -, -, -, -, -, -, -, -, e0, e1⟩ := idx_facts2 ⟨(i 0).val / 2000, hN⟩
  refine ⟨⟨(i 0).val / 2000, hN⟩, flush2_8 _, ?_⟩
  rw [mem_blk2]
  intro a
  match a with
  | ⟨0, _⟩ =>
    show win2_8.index ⟨(i 0).val / 2000, hN⟩ (0 : Fin 2) * 2000 ≤ (i 0).val ∧ (i 0).val < win2_8.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win2_8.index ⟨(i 0).val / 2000, hN⟩ (1 : Fin 2) * 128 ≤ (i 1).val ∧ (i 1).val < win2_8.index ⟨(i 0).val / 2000, hN⟩ (1 : Fin 2) * 128 + 128
    omega

/-- THE OUTPUT ARRAY after the region, for any proof data whose output buffer after the body is the stored value of the
    eight blocks: the layer of the arrays the region finds. -/
theorem region2_value_of (c : Dev nD) (dat : Dat τ (Elt Ideal) Unit ℕ (UR sig nD τ) ℕ cfg2 c)
    (hafter : ∀ t, dat.after 8 t = out2_8 (iblk2 V c 0 t) (iblk2 V c 1 t) (iblk2 V c 2 t) (iblk2 V c 3 t) (iblk2 V c 4 t) (iblk2 V c 5 t) (iblk2 V c 6 t) (iblk2 V c 7 t)) :
    (dat.arrAt 8 cfg2.N : Cert.Gin.Nodes) = G2 V c :=
  dat.arrAt_eq_of_cover 8 (G2 V c) (fun t _ => flushed2_eq V c dat t (hafter t)) (cover2)

/-- THE OUTPUT ARRAY after region 2: the layer of the arrays the region finds. -/
theorem region2_value (c : Dev nD) :
    ((dat2 (F := Ideal) V c).arrAt 8 cfg2.N : Cert.Gin.Nodes)
      = Cert.Gin.layer (V c (Pipeline.arrRef spec2 0)) (V c (Pipeline.arrRef spec2 1)) (V c (Pipeline.arrRef spec2 2))
          (Cert.Gin.preScaleShift (fun k => (V c (Pipeline.arrRef spec2 3) : (⟨2, ![1, 128]⟩ : Shape).Idx → EReal) (ix2 0 k))
            (fun k => (V c (Pipeline.arrRef spec2 4) : (⟨2, ![1, 128]⟩ : Shape).Idx → EReal) (ix2 0 k))
            (fun k => (V c (Pipeline.arrRef spec2 5) : (⟨2, ![1, 128]⟩ : Shape).Idx → EReal) (ix2 0 k)))
          (V c (Pipeline.arrRef spec2 6)) (fun j => (V c (Pipeline.arrRef spec2 7) : (⟨2, ![1, 128]⟩ : Shape).Idx → EReal) (ix2 0 j)) :=
  region2_value_of V c (dat2 V c) (after2_8 V c)

end Cert.KernelIdeal.GenH

end
-- ==== Proof.KI.Value3.lean ====
/-
  What region 3 leaves in its output array, as one function of the arrays it finds, on the extended reals.

  The grid has 25 points; point t reads rows 2000·t … 2000·t + 1999 of the node features and of the neighbour sums,
  the two weight matrices and the four rows whole, and writes back rows 2000·t … 2000·t + 1999 of the output. The
  stored value at row r, column j of the block is the layer at node 2000·t + r, feature j (the payload read at an
  entry). The 25 blocks tile the 50000 rows — row p lies in block p / 2000 — so the output array ends holding the
  layer of the arrays the region finds.
-/
import proofs.«156729_j87711822119196_1_alg».proof.Proof.KI.Region3
import proofs.«156729_j87711822119196_1_alg».proof.Proof.KI.Payload
import Idealize.ShloMosaic.Lib.Pipeline.Value

set_option maxRecDepth 16384

noncomputable section

open scoped BigOperators

namespace Cert.KernelIdeal.GenH

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: windows 0, 1 and 8 are at block (t, 0), the others at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- The grid has 25 points. -/
theorem N3 : cfg3.N = 25 := by decide +kernel

/-- The payload at row r, column j of a block, when row r of the two row blocks is row p of the node arrays: the layer
    at node p, feature j. -/
theorem pay3_layerAt (x0 x1 : Vec Ideal S2000x128 .f32) (x2 : Vec Ideal S128x128 .bf16) (x3 x4 x5 : Vec Ideal S1x128 .f32)
    (x6 : Vec Ideal S128x128 .bf16) (x7 : Vec Ideal S1x128 .f32) (A0 A1 : Cert.Gin.Nodes) (r : Fin 2000) (j : Fin 128) (p : Fin 50000)
    (h0 : ∀ k : Fin 128, x0 (ix2 r k) = A0 (ix2 p k)) (h1 : ∀ k : Fin 128, x1 (ix2 r k) = A1 (ix2 p k)) :
    k3_pay1 (F := Ideal) x0 x1 x2 x3 x4 x5 x6 x7 (ix2 r j)
      = Cert.Gin.layerAt A0 A1 x2 (Cert.Gin.preScaleShift (fun k => x3 (ix2 0 k)) (fun k => x4 (ix2 0 k)) (fun k => x5 (ix2 0 k))) x6
          (fun j => x7 (ix2 0 j)) p j := by
  refine (pay3_apply x0 x1 x2 x3 x4 x5 x6 x7 r j).trans ?_
  unfold Cert.Gin.layerAt Cert.Gin.preScaleShift
  simp only [h0, h1]

/-- The layer of the arrays region 3 finds. -/
def G3 (c : Dev nD) : Cert.Gin.Nodes :=
  Cert.Gin.layer (V c (Pipeline.arrRef spec3 0)) (V c (Pipeline.arrRef spec3 1)) (V c (Pipeline.arrRef spec3 2))
    (Cert.Gin.preScaleShift (fun k => (V c (Pipeline.arrRef spec3 3) : (⟨2, ![1, 128]⟩ : Shape).Idx → EReal) (ix2 0 k))
      (fun k => (V c (Pipeline.arrRef spec3 4) : (⟨2, ![1, 128]⟩ : Shape).Idx → EReal) (ix2 0 k))
      (fun k => (V c (Pipeline.arrRef spec3 5) : (⟨2, ![1, 128]⟩ : Shape).Idx → EReal) (ix2 0 k)))
    (V c (Pipeline.arrRef spec3 6)) (fun j => (V c (Pipeline.arrRef spec3 7) : (⟨2, ![1, 128]⟩ : Shape).Idx → EReal) (ix2 0 j))

/-- Row r of window 0's block at point t is row 2000·t + r of its array. -/
theorem iblk3_0_apply (c : Dev nD) (t : Fin cfg3.N) (r : Fin 2000) (k : Fin 128) (p : Fin 50000) (hp : p.val = t.val * 2000 + r.val) :
    (iblk3 V c 0 t : S2000x128.Idx → EReal) (ix2 r k) = (V c (Pipeline.arrRef spec3 0) : Cert.Gin.Nodes) (ix2 p k) := by
  obtain ⟨e0, e1, -, -, -, -, -, -, -, -, -, -, -, -, -, -, -, -⟩ := idx_facts3 t
  unfold iblk3
  rw [View.read_apply]
  show V c (Pipeline.arrRef spec3 0) _ = V c (Pipeline.arrRef spec3 0) (ix2 p k)
  congr 1
  funext a
  apply Fin.ext
  match a with
  | ⟨0, _⟩ => show win3_0.index t (0 : Fin 2) * 2000 + 1 * r.val = p.val; omega
  | ⟨1, _⟩ => show win3_0.index t (1 : Fin 2) * 128 + 1 * k.val = k.val; omega

/-- Row r of window 1's block at point t is row 2000·t + r of its array. -/
theorem iblk3_1_apply (c : Dev nD) (t : Fin cfg3.N) (r : Fin 2000) (k : Fin 128) (p : Fin 50000) (hp : p.val = t.val * 2000 + r.val) :
    (iblk3 V c 1 t : S2000x128.Idx → EReal) (ix2 r k) = (V c (Pipeline.arrRef spec3 1) : Cert.Gin.Nodes) (ix2 p k) := by
  obtain ⟨-, -, e0, e1, -, -, -, -, -, -, -, -, -, -, -, -, -, -⟩ := idx_facts3 t
  unfold iblk3
  rw [View.read_apply]
  show V c (Pipeline.arrRef spec3 1) _ = V c (Pipeline.arrRef spec3 1) (ix2 p k)
  congr 1
  funext a
  apply Fin.ext
  match a with
  | ⟨0, _⟩ => show win3_1.index t (0 : Fin 2) * 2000 + 1 * r.val = p.val; omega
  | ⟨1, _⟩ => show win3_1.index t (1 : Fin 2) * 128 + 1 * k.val = k.val; omega

/-- Window 2's block is its whole array, at every point. -/
theorem iblk3_2 (c : Dev nD) (t : Fin cfg3.N) :
    (iblk3 V c 2 t : S128x128.Idx → EReal) = (V c (Pipeline.arrRef spec3 2) : Cert.Gin.Weights) := by
  obtain ⟨-, -, -, -, e0, e1, -, -, -, -, -, -, -, -, -, -, -, -⟩ := idx_facts3 t
  funext y
  unfold iblk3
  rw [View.read_apply]
  show V c (Pipeline.arrRef spec3 2) _ = V c (Pipeline.arrRef spec3 2) y
  congr 1
  funext a
  apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- Window 3's block is its whole array, at every point. -/
theorem iblk3_3 (c : Dev nD) (t : Fin cfg3.N) :
    (iblk3 V c 3 t : S1x128.Idx → EReal) = (V c (Pipeline.arrRef spec3 3) : (⟨2, ![1, 128]⟩ : Shape).Idx → EReal) := by
  obtain ⟨-, -, -, -, -, -, e0, e1, -, -, -, -, -, -, -, -, -, -⟩ := idx_facts3 t
  funext y
  unfold iblk3
  rw [View.read_apply]
  show V c (Pipeline.arrRef spec3 3) _ = V c (Pipeline.arrRef spec3 3) y
  congr 1
  funext a
  apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4's block is its whole array, at every point. -/
theorem iblk3_4 (c : Dev nD) (t : Fin cfg3.N) :
    (iblk3 V c 4 t : S1x128.Idx → EReal) = (V c (Pipeline.arrRef spec3 4) : (⟨2, ![1, 128]⟩ : Shape).Idx → EReal) := by
  obtain ⟨-, -, -, -, -, -, -, -, e0, e1, -, -, -, -, -, -, -, -⟩ := idx_facts3 t
  funext y
  unfold iblk3
  rw [View.read_apply]
  show V c (Pipeline.arrRef spec3 4) _ = V c (Pipeline.arrRef spec3 4) y
  congr 1
  funext a
  apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Window 5's block is its whole array, at every point. -/
theorem iblk3_5 (c : Dev nD) (t : Fin cfg3.N) :
    (iblk3 V c 5 t : S1x128.Idx → EReal) = (V c (Pipeline.arrRef spec3 5) : (⟨2, ![1, 128]⟩ : Shape).Idx → EReal) := by
  obtain ⟨-, -, -, -, -, -, -, -, -, -, e0, e1, -, -, -, -, -, -⟩ := idx_facts3 t
  funext y
  unfold iblk3
  rw [View.read_apply]
  show V c (Pipeline.arrRef spec3 5) _ = V c (Pipeline.arrRef spec3 5) y
  congr 1
  funext a
  apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- Window 6's block is its whole array, at every point. -/
theorem iblk3_6 (c : Dev nD) (t : Fin cfg3.N) :
    (iblk3 V c 6 t : S128x128.Idx → EReal) = (V c (Pipeline.arrRef spec3 6) : Cert.Gin.Weights) := by
  obtain ⟨-, -, -, -, -, -, -, -, -, -, -, -, e0, e1, -, -, -, -⟩ := idx_facts3 t
  funext y
  unfold iblk3
  rw [View.read_apply]
  show V c (Pipeline.arrRef spec3 6) _ = V c (Pipeline.arrRef spec3 6) y
  congr 1
  funext a
  apply Fin.ext
  match a with
  | ⟨0, _⟩ => show win3_6.index t (0 : Fin 2) * 128 + 1 * (y 0).val = (y 0).val; omega
  | ⟨1, _⟩ => show win3_6.index t (1 : Fin 2) * 128 + 1 * (y 1).val = (y 1).val; omega

/-- Window 7's block is its whole array, at every point. -/
theorem iblk3_7 (c : Dev nD) (t : Fin cfg3.N) :
    (iblk3 V c 7 t : S1x128.Idx → EReal) = (V c (Pipeline.arrRef spec3 7) : (⟨2, ![1, 128]⟩ : Shape).Idx → EReal) := by
  obtain ⟨-, -, -, -, -, -, -, -, -, -, -, -, -, -, e0, e1, -, -⟩ := idx_facts3 t
  funext y
  unfold iblk3
  rw [View.read_apply]
  show V c (Pipeline.arrRef spec3 7) _ = V c (Pipeline.arrRef spec3 7) y
  congr 1
  funext a
  apply Fin.ext
  match a with
  | ⟨0, _⟩ => show win3_7.index t (0 : Fin 2) * 1 + 1 * (y 0).val = (y 0).val; omega
  | ⟨1, _⟩ => show win3_7.index t (1 : Fin 2) * 128 + 1 * (y 1).val = (y 1).val; omega

/-- WHAT POINT t WRITES BACK is block t of the layer of the arrays the region finds. -/
theorem flushed3_eq (c : Dev nD) (dat : Dat τ (Elt Ideal) Unit ℕ (UR sig nD τ) ℕ cfg3 c) (t : Fin cfg3.N)
    (hafter : dat.after 8 t = out3_8 (iblk3 V c 0 t) (iblk3 V c 1 t) (iblk3 V c 2 t) (iblk3 V c 3 t) (iblk3 V c 4 t) (iblk3 V c 5 t) (iblk3 V c 6 t) (iblk3 V c 7 t)) :
    dat.flushed 8 t = ((cfg3.win 8).blk t).view.read (Elt Ideal) (G3 V c) := by
  show (cfg3.win 8).cut (grid3.coords t) (dat.after 8 t) = _
  rw [hafter]
  unfold out3_8
  rw [View.canon_unit_zero hz3]
  simp only [View.ld_unit_zero (S := S2000x128) hz3, View.ld_unit_zero (S := S128x128) hz3, View.ld_unit_zero (S := S1x128) hz3]
  obtain ⟨-, -, -, -, -, -, -, -, -, -, -, -, -, -, -, -, e0, e1⟩ := idx_facts3 t
  funext y
  rw [View.read_apply]
  have hy0 : (y 0).val < 2000 := (y 0).isLt
  have hy1 : (y 1).val < 128 := (y 1).isLt
  have ht : t.val < 25 := lt_of_lt_of_eq t.isLt N3
  have hemb : ((cfg3.win 8).blk t).view.emb y
      = ix2 (⟨t.val * 2000 + (y 0).val, by omega⟩ : Fin 50000) (⟨(y 1).val, hy1⟩ : Fin 128) := by
    funext a
    apply Fin.ext
    match a with
    | ⟨0, _⟩ => show win3_8.index t (0 : Fin 2) * 2000 + 1 * (y 0).val = t.val * 2000 + (y 0).val; omega
    | ⟨1, _⟩ => show win3_8.index t (1 : Fin 2) * 128 + 1 * (y 1).val = (y 1).val; omega
  have hx : (cfg3.win 8).xinj (grid3.coords t) y = ix2 (⟨(y 0).val, hy0⟩ : Fin 2000) (⟨(y 1).val, hy1⟩ : Fin 128) := by
    funext a
    match a with
    | ⟨0, _⟩ => rfl
    | ⟨1, _⟩ => rfl
  show k3_pay1 (F := Ideal) (iblk3 V c 0 t) (iblk3 V c 1 t) (iblk3 V c 2 t) (iblk3 V c 3 t) (iblk3 V c 4 t) (iblk3 V c 5 t) (iblk3 V c 6 t) (iblk3 V c 7 t)
      ((cfg3.win 8).xinj (grid3.coords t) y)
    = G3 V c (((cfg3.win 8).blk t).view.emb y)
  rw [hx, hemb]
  refine (pay3_layerAt (iblk3 V c 0 t) (iblk3 V c 1 t) (iblk3 V c 2 t) (iblk3 V c 3 t) (iblk3 V c 4 t) (iblk3 V c 5 t) (iblk3 V c 6 t) (iblk3 V c 7 t)
    (V c (Pipeline.arrRef spec3 0)) (V c (Pipeline.arrRef spec3 1)) ⟨(y 0).val, hy0⟩ ⟨(y 1).val, hy1⟩ ⟨t.val * 2000 + (y 0).val, by omega⟩
    (fun k => iblk3_0_apply V c t _ k _ rfl) (fun k => iblk3_1_apply V c t _ k _ rfl)).trans ?_
  rw [iblk3_2 V c t, iblk3_3 V c t, iblk3_4 V c t, iblk3_5 V c t, iblk3_6 V c t, iblk3_7 V c t]
  rfl

/-- An index of the output array is in point t's block iff each coordinate is in the block's range on its axis. -/
theorem mem_blk3 (t : Fin cfg3.N) (i : S50000x128.Idx) :
    i ∈ ((cfg3.win 8).blk t).view.set ↔ ∀ a : Fin 2, win3_8.index t a * S2000x128.size a ≤ (i a).val ∧ (i a).val < win3_8.index t a * S2000x128.size a + S2000x128.size a := by
  show i ∈ ((View.whole (Pipeline.arrRef spec3 8)).slice (win3_8.rect t)).set ↔ _
  rw [View.set_slice_whole, Rect.mem_set_unit]
  exact Iff.rfl

/-- The 25 blocks tile the array: row p is in block p / 2000. -/
theorem cover3 (i : S50000x128.Idx) : ∃ t : Fin cfg3.N, (cfg3.win 8).flush t = true ∧ i ∈ ((cfg3.win 8).blk t).view.set := by
  have hi0 : (i 0).val < 50000 := (i 0).isLt
  have hi1 : (i 1).val < 128 := (i 1).isLt
  have hN : (i 0).val / 2000 < cfg3.N := by rw [N3]; omega
  obtain ⟨-, -, -, -, -, -, -, -, -, -, -, -, -, -, -, -, e0, e1⟩ := idx_facts3 ⟨(i 0).val / 2000, hN⟩
  refine ⟨⟨(i 0).val / 2000, hN⟩, flush3_8 _, ?_⟩
  rw [mem_blk3]
  intro a
  match a with
  | ⟨0, _⟩ =>
    show win3_8.index ⟨(i 0).val / 2000, hN⟩ (0 : Fin 2) * 2000 ≤ (i 0).val ∧ (i 0).val < win3_8.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win3_8.index ⟨(i 0).val / 2000, hN⟩ (1 : Fin 2) * 128 ≤ (i 1).val ∧ (i 1).val < win3_8.index ⟨(i 0).val / 2000, hN⟩ (1 : Fin 2) * 128 + 128
    omega

/-- THE OUTPUT ARRAY after the region, for any proof data whose output buffer after the body is the stored value of the
    eight blocks: the layer of the arrays the region finds. -/
theorem region3_value_of (c : Dev nD) (dat : Dat τ (Elt Ideal) Unit ℕ (UR sig nD τ) ℕ cfg3 c)
    (hafter : ∀ t, dat.after 8 t = out3_8 (iblk3 V c 0 t) (iblk3 V c 1 t) (iblk3 V c 2 t) (iblk3 V c 3 t) (iblk3 V c 4 t) (iblk3 V c 5 t) (iblk3 V c 6 t) (iblk3 V c 7 t)) :
    (dat.arrAt 8 cfg3.N : Cert.Gin.Nodes) = G3 V c :=
  dat.arrAt_eq_of_cover 8 (G3 V c) (fun t _ => flushed3_eq V c dat t (hafter t)) (cover3)

/-- THE OUTPUT ARRAY after region 3: the layer of the arrays the region finds. -/
theorem region3_value (c : Dev nD) :
    ((dat3 (F := Ideal) V c).arrAt 8 cfg3.N : Cert.Gin.Nodes)
      = Cert.Gin.layer (V c (Pipeline.arrRef spec3 0)) (V c (Pipeline.arrRef spec3 1)) (V c (Pipeline.arrRef spec3 2))
          (Cert.Gin.preScaleShift (fun k => (V c (Pipeline.arrRef spec3 3) : (⟨2, ![1, 128]⟩ : Shape).Idx → EReal) (ix2 0 k))
            (fun k => (V c (Pipeline.arrRef spec3 4) : (⟨2, ![1, 128]⟩ : Shape).Idx → EReal) (ix2 0 k))
            (fun k => (V c (Pipeline.arrRef spec3 5) : (⟨2, ![1, 128]⟩ : Shape).Idx → EReal) (ix2 0 k)))
          (V c (Pipeline.arrRef spec3 6)) (fun j => (V c (Pipeline.arrRef spec3 7) : (⟨2, ![1, 128]⟩ : Shape).Idx → EReal) (ix2 0 j)) :=
  region3_value_of V c (dat3 V c) (after3_8 V c)

end Cert.KernelIdeal.GenH

end
-- ==== Proof.Bridge.lean ====
/-
  The two arrangements of the normalisation agree on real parameters.

  The scale of hidden unit `k` is `g k · (v k + ε)^(-1/2)`. With `g k` real, `v k` a non-negative real and `ε` the
  positive real the printed word denotes, `v k + ε` is a positive real, its inverse square root is real, and so is
  the scale. The kernel's shift `be k − m k · scale k` is then real as well, and the layer computed with
  (bias, scale, shift) is the layer computed with (bias, mean, scale, offset): `Cert.Gin.pre_eq_at`.
-/
import proofs.«156729_j87711822119196_1_alg».proof.Proof.Spec
import Idealize.ShloMosaic.Lib.ValueIdx
import Idealize.ShloMosaic.Lib.Pipeline.Value

noncomputable section

namespace Cert.Gin

open Idealize.ShloMosaic Idealize.ShloMosaic.ValueIdx

/-- A vector of 128 extended reals. -/
abbrev Vec128 : Type := (⟨1, ![128]⟩ : Shape).Idx → EReal

/-- The printed `ε` (the single-precision word nearest to 1e-5) denotes a positive real. -/
theorem eps_pos : ∃ r : ℝ, 0 < r ∧ Ideal.ofBits .f32 0x3727C5AC#32 = (r : EReal) := by
  refine ⟨10995116 / 2 ^ 40, by norm_num, ?_⟩
  simp [Ideal.ofBits, Ideal.ieee, -EReal.coe_mul]
  norm_num

/-- The scale vector `g · rsqrt (v + ε)` as the programs spell it. -/
def scale (g v : Vec128) (h : (⟨0, ![]⟩ : Shape).BroadcastsInDim ⟨1, ![128]⟩ ![]) : Vec128 :=
  mulf g (Host.rsqrt (addf v (broadcastInDim ⟨1, ![128]⟩ ![] h (constant (F := Ideal) ⟨0, ![]⟩ .f32 0x3727C5AC#32))))

/-- The shift vector `be − m · scale` as the kernel's program spells it. -/
def shift (g be m v : Vec128) (h : (⟨0, ![]⟩ : Shape).BroadcastsInDim ⟨1, ![128]⟩ ![]) : Vec128 :=
  subf (F := Ideal) (φ := .f32) be (mulf (F := Ideal) (φ := .f32) m (scale g v h))

/-- With `g` real and `v` real and non-negative, every entry of the scale is real. -/
theorem scale_real (g v : Vec128) (h : (⟨0, ![]⟩ : Shape).BroadcastsInDim ⟨1, ![128]⟩ ![])
    (hg : ∀ i, ∃ r : ℝ, g i = (r : EReal)) (hv : ∀ i, ∃ r : ℝ, 0 ≤ r ∧ v i = (r : EReal)) (i : (⟨1, ![128]⟩ : Shape).Idx) :
    ∃ s : ℝ, scale g v h i = (s : EReal) := by
  obtain ⟨rg, hrg⟩ := hg i
  obtain ⟨rv, hrv0, hrv⟩ := hv i
  obtain ⟨e, he0, he⟩ := eps_pos
  have hb : broadcastInDim ⟨1, ![128]⟩ ![] h (constant (F := Ideal) ⟨0, ![]⟩ .f32 0x3727C5AC#32) i = (e : EReal) := by
    refine (broadcastInDim_apply ![] h (constant (F := Ideal) ⟨0, ![]⟩ .f32 0x3727C5AC#32) i (fun a => a.elim0)
      (fun a => a.elim0)).trans ?_
    rw [constant_apply, he]
  have hpos : 0 < rv + e := by linarith
  refine ⟨rg * (Real.sqrt (rv + e))⁻¹, ?_⟩
  show g i * Ideal.rsqrt (v i + broadcastInDim ⟨1, ![128]⟩ ![] h (constant (F := Ideal) ⟨0, ![]⟩ .f32 0x3727C5AC#32) i) = _
  rw [hb, hrg, hrv, ← EReal.coe_add, Ideal.rsqrt_coe, if_neg (not_lt.mpr hpos.le), if_neg hpos.ne', ← EReal.coe_mul]

/-- One layer in the kernel's arrangement (bias, scale, shift `be − m · scale`) is the layer in the reference's
    (bias, mean, scale, offset), for real `g`, `be`, `m` and real non-negative `v`; the features, the neighbour sums,
    the weights and the biases are any extended reals. -/
theorem layer_bridge (x agg : Nodes) (w1T w2T : Weights) (b1 g be m v b2 : Vec128)
    (h : (⟨0, ![]⟩ : Shape).BroadcastsInDim ⟨1, ![128]⟩ ![])
    (hg : ∀ i, ∃ r : ℝ, g i = (r : EReal)) (hbe : ∀ i, ∃ r : ℝ, be i = (r : EReal)) (hm : ∀ i, ∃ r : ℝ, m i = (r : EReal))
    (hv : ∀ i, ∃ r : ℝ, 0 ≤ r ∧ v i = (r : EReal)) :
    layer x agg w1T (preScaleShift (fun k => b1 (ix1 k)) (fun k => scale g v h (ix1 k))
        (fun k => shift g be m v h (ix1 k))) w2T (fun j => b2 (ix1 j))
      = layer x agg w1T (preCentred (fun k => b1 (ix1 k)) (fun k => m (ix1 k)) (fun k => scale g v h (ix1 k))
        (fun k => be (ix1 k))) w2T (fun j => b2 (ix1 j)) := by
  refine congrArg (fun pre => layer x agg w1T pre w2T (fun j => b2 (ix1 j))) ?_
  funext k A
  obtain ⟨s, hs⟩ := scale_real g v h hg hv (ix1 k)
  obtain ⟨rbe, hrbe⟩ := hbe (ix1 k)
  obtain ⟨rm, hrm⟩ := hm (ix1 k)
  show (A + b1 (ix1 k)) * scale g v h (ix1 k) + (be (ix1 k) - m (ix1 k) * scale g v h (ix1 k))
    = ((A + b1 (ix1 k)) - m (ix1 k)) * scale g v h (ix1 k) + be (ix1 k)
  rw [hs, hrbe, hrm]
  exact pre_eq_at A (b1 (ix1 k)) rm s rbe

end Cert.Gin

end
-- ==== Proof.KI.LayerForm.lean ====
/-
  The value of one kernel region as the layer of the specification. Each region's stored block is the layer at
  (features, neighbour sum, first weights transposed, bias, scale, shift, second weights transposed, second bias),
  the vectors arriving as one-row matrices and the weights narrowed to the matrix unit's input format. At the
  extended reals the change of format is the identity and a one-row matrix at (0, k) is the vector at k, so this is
  the layer in the arrangement (bias, scale, shift); for real normalisation parameters and a real non-negative
  variance it is the layer in the arrangement (bias, mean, scale, offset). A slice of a stack of vectors reads the
  stack at an index, so what holds of every entry of the stack holds of every entry of the slice.
-/
import proofs.«156729_j87711822119196_1_alg».proof.Proof.KI.HostTerms
import proofs.«156729_j87711822119196_1_alg».proof.Proof.Bridge
import proofs.«156729_j87711822119196_1_alg».proof.Proof.LibSageLayer

noncomputable section

namespace Cert.KernelIdeal.KVal

open Cert.KernelIdeal Cert.KernelIdeal.Gen Idealize.ShloMosaic Idealize.ShloMosaic.TcCoe Idealize.SL.Sem Idealize.ShloMosaic.StableHlo
open Idealize.ShloMosaic.ValueIdx

/-- The form each kernel region's value arrives in: the layer with the weights transposed and narrowed, and the
    bias, scale and shift read off one-row matrices. -/
def kLayer (h : FVec Ideal S50000x128 .f32) (src dst : IVec S600000 32) (W1 : FVec Ideal S128x128 .f32)
    (b1 g be mm v : FVec Ideal S128 .f32) (W2 : FVec Ideal S128x128 .f32) (b2 : FVec Ideal S128 .f32) : Cert.Gin.Nodes :=
  Cert.Gin.layer h (aggOf h src dst) (wT W1)
    (Cert.Gin.preScaleShift (fun k => row b1 (ix2 0 k)) (fun k => row (scaleVec g v) (ix2 0 k))
      (fun k => row (shiftVec g be mm v) (ix2 0 k)))
    (wT W2) (fun j => row b2 (ix2 0 j))

/-- A vector as a one-row matrix reads, at (0, k), the vector at k. -/
theorem row_apply (b : FVec Ideal S128 .f32) : (fun k : Fin 128 => row b (ix2 0 k)) = fun k => b (ix1 k) :=
  funext fun k => Cert.Sage.rowcast_apply b shapeCasts_S128_S1x128 k

/-- At the extended reals the narrowed transposed weights are the transposed weights. -/
theorem wT_eq (W : FVec Ideal S128x128 .f32) : wT W = transpose S128x128 [1, 0] W transposes_S128x128_S128x128_1_0 := rfl

/-- The region's value is the layer in the reference's arrangement (bias, mean, scale, offset), for real scale,
    offset and mean parameters and a real non-negative variance. -/
theorem kLayer_eq (h : FVec Ideal S50000x128 .f32) (src dst : IVec S600000 32) (W1 : FVec Ideal S128x128 .f32)
    (b1 g be mm v : FVec Ideal S128 .f32) (W2 : FVec Ideal S128x128 .f32) (b2 : FVec Ideal S128 .f32)
    (hg : ∀ i, ∃ r : ℝ, g i = (r : EReal)) (hbe : ∀ i, ∃ r : ℝ, be i = (r : EReal)) (hm : ∀ i, ∃ r : ℝ, mm i = (r : EReal))
    (hv : ∀ i, ∃ r : ℝ, 0 ≤ r ∧ v i = (r : EReal)) :
    kLayer h src dst W1 b1 g be mm v W2 b2
      = Cert.Gin.layer h (aggOf h src dst) (transpose S128x128 [1, 0] W1 transposes_S128x128_S128x128_1_0)
          (Cert.Gin.preCentred (fun k => b1 (ix1 k)) (fun k => mm (ix1 k)) (fun k => scaleVec g v (ix1 k)) (fun k => be (ix1 k)))
          (transpose S128x128 [1, 0] W2 transposes_S128x128_S128x128_1_0) (fun j => b2 (ix1 j)) := by
  unfold kLayer
  rw [row_apply b1, row_apply (scaleVec g v), row_apply (shiftVec g be mm v), row_apply b2, wT_eq, wT_eq]
  exact Cert.Gin.layer_bridge h (aggOf h src dst) (transpose S128x128 [1, 0] W1 transposes_S128x128_S128x128_1_0)
    (transpose S128x128 [1, 0] W2 transposes_S128x128_S128x128_1_0) b1 g be mm v b2 bcast_S_S128 hg hbe hm hv

/-! Slices of a stack of three vectors: each entry of a slice is an entry of the stack. -/

theorem vec0_real (a : FVec Ideal S3x128 .f32) (ha : ∀ j, ∃ r : ℝ, a j = (r : EReal)) : ∀ j, ∃ r : ℝ, vec0 a j = (r : EReal) :=
  fun j => ha _
theorem vec1_real (a : FVec Ideal S3x128 .f32) (ha : ∀ j, ∃ r : ℝ, a j = (r : EReal)) : ∀ j, ∃ r : ℝ, vec1 a j = (r : EReal) :=
  fun j => ha _
theorem vec2_real (a : FVec Ideal S3x128 .f32) (ha : ∀ j, ∃ r : ℝ, a j = (r : EReal)) : ∀ j, ∃ r : ℝ, vec2 a j = (r : EReal) :=
  fun j => ha _
theorem vec0_nonneg (a : FVec Ideal S3x128 .f32) (ha : ∀ j, ∃ r : ℝ, 0 ≤ r ∧ a j = (r : EReal)) :
    ∀ j, ∃ r : ℝ, 0 ≤ r ∧ vec0 a j = (r : EReal) := fun j => ha _
theorem vec1_nonneg (a : FVec Ideal S3x128 .f32) (ha : ∀ j, ∃ r : ℝ, 0 ≤ r ∧ a j = (r : EReal)) :
    ∀ j, ∃ r : ℝ, 0 ≤ r ∧ vec1 a j = (r : EReal) := fun j => ha _
theorem vec2_nonneg (a : FVec Ideal S3x128 .f32) (ha : ∀ j, ∃ r : ℝ, 0 ≤ r ∧ a j = (r : EReal)) :
    ∀ j, ∃ r : ℝ, 0 ≤ r ∧ vec2 a j = (r : EReal) := fun j => ha _

end Cert.KernelIdeal.KVal

end
-- ==== Proof.KI.ResForm.lean ====
/-
  The kernel's result as one function of its twenty arguments: the readout of four nested layers, layer 0 over the
  first parameter set, layers 1–3 over slices 0–2 of the stacked parameters, every layer's neighbour sum taken along
  the same edge list.
-/
import proofs.«156729_j87711822119196_1_alg».proof.Proof.KI.LayerForm

noncomputable section

namespace Cert.KernelIdeal.KVal

open Idealize.ShloMosaic Idealize.ShloMosaic.ValueIdx Cert.KernelIdeal

/-- The four layers' outputs and the result, as functions of the arguments. -/
def kOut0 (a0 : FVec Ideal S50000x128 .f32) (a1 : IVec S2x600000 32) (a2 : FVec Ideal S128x128 .f32) (a3 : FVec Ideal S128 .f32) (a4 : FVec Ideal S128 .f32) (a5 : FVec Ideal S128 .f32) (a6 : FVec Ideal S128 .f32) (a7 : FVec Ideal S128 .f32) (a8 : FVec Ideal S128x128 .f32) (a9 : FVec Ideal S128 .f32) : Cert.Gin.Nodes :=
  kLayer a0 (srcVec a1) (dstVec a1) a2 a3 a4 a5 a6 a7 a8 a9
def kOut1 (h : Cert.Gin.Nodes) (a1 : IVec S2x600000 32) (a10 : FVec Ideal S3x128x128 .f32) (a11 : FVec Ideal S3x128 .f32) (a12 : FVec Ideal S3x128 .f32) (a13 : FVec Ideal S3x128 .f32) (a14 : FVec Ideal S3x128 .f32) (a15 : FVec Ideal S3x128 .f32) (a16 : FVec Ideal S3x128x128 .f32) (a17 : FVec Ideal S3x128 .f32) : Cert.Gin.Nodes :=
  kLayer h (srcVec a1) (dstVec a1) (mat0 a10) (vec0 a11) (vec0 a12) (vec0 a13) (vec0 a14) (vec0 a15) (mat0 a16) (vec0 a17)
def kOut2 (h : Cert.Gin.Nodes) (a1 : IVec S2x600000 32) (a10 : FVec Ideal S3x128x128 .f32) (a11 : FVec Ideal S3x128 .f32) (a12 : FVec Ideal S3x128 .f32) (a13 : FVec Ideal S3x128 .f32) (a14 : FVec Ideal S3x128 .f32) (a15 : FVec Ideal S3x128 .f32) (a16 : FVec Ideal S3x128x128 .f32) (a17 : FVec Ideal S3x128 .f32) : Cert.Gin.Nodes :=
  kLayer h (srcVec a1) (dstVec a1) (mat1 a10) (vec1 a11) (vec1 a12) (vec1 a13) (vec1 a14) (vec1 a15) (mat1 a16) (vec1 a17)
def kOut3 (h : Cert.Gin.Nodes) (a1 : IVec S2x600000 32) (a10 : FVec Ideal S3x128x128 .f32) (a11 : FVec Ideal S3x128 .f32) (a12 : FVec Ideal S3x128 .f32) (a13 : FVec Ideal S3x128 .f32) (a14 : FVec Ideal S3x128 .f32) (a15 : FVec Ideal S3x128 .f32) (a16 : FVec Ideal S3x128x128 .f32) (a17 : FVec Ideal S3x128 .f32) : Cert.Gin.Nodes :=
  kLayer h (srcVec a1) (dstVec a1) (mat2 a10) (vec2 a11) (vec2 a12) (vec2 a13) (vec2 a14) (vec2 a15) (mat2 a16) (vec2 a17)
def kRes (a0 : FVec Ideal S50000x128 .f32) (a1 : IVec S2x600000 32) (a2 : FVec Ideal S128x128 .f32) (a3 : FVec Ideal S128 .f32) (a4 : FVec Ideal S128 .f32) (a5 : FVec Ideal S128 .f32) (a6 : FVec Ideal S128 .f32) (a7 : FVec Ideal S128 .f32) (a8 : FVec Ideal S128x128 .f32) (a9 : FVec Ideal S128 .f32) (a10 : FVec Ideal S3x128x128 .f32) (a11 : FVec Ideal S3x128 .f32) (a12 : FVec Ideal S3x128 .f32) (a13 : FVec Ideal S3x128 .f32) (a14 : FVec Ideal S3x128 .f32) (a15 : FVec Ideal S3x128 .f32) (a16 : FVec Ideal S3x128x128 .f32) (a17 : FVec Ideal S3x128 .f32) (a18 : FVec Ideal S10x512 .f32) (a19 : FVec Ideal S10 .f32) : FVec Ideal S1x10 .f32 :=
  tailOf (kOut0 a0 a1 a2 a3 a4 a5 a6 a7 a8 a9)
    (kOut1 (kOut0 a0 a1 a2 a3 a4 a5 a6 a7 a8 a9) a1 a10 a11 a12 a13 a14 a15 a16 a17)
    (kOut2 (kOut1 (kOut0 a0 a1 a2 a3 a4 a5 a6 a7 a8 a9) a1 a10 a11 a12 a13 a14 a15 a16 a17) a1 a10 a11 a12 a13 a14 a15 a16 a17)
    (kOut3 (kOut2 (kOut1 (kOut0 a0 a1 a2 a3 a4 a5 a6 a7 a8 a9) a1 a10 a11 a12 a13 a14 a15 a16 a17) a1 a10 a11 a12 a13 a14 a15 a16 a17) a1 a10 a11 a12 a13 a14 a15 a16 a17)
    a18 a19
end Cert.KernelIdeal.KVal

end
-- ==== Proof.KI.Result.lean ====
/-
  The kernel's result buffer at the end of the run, as the function `kRes` of the launch arguments: each region's
  closed form, read at what the region finds in its input arrays, is the next layer of the previous output.
-/
import proofs.«156729_j87711822119196_1_alg».proof.Proof.KI.Chain
import proofs.«156729_j87711822119196_1_alg».proof.Proof.KI.Value0
import proofs.«156729_j87711822119196_1_alg».proof.Proof.KI.Value1
import proofs.«156729_j87711822119196_1_alg».proof.Proof.KI.Value2
import proofs.«156729_j87711822119196_1_alg».proof.Proof.KI.Value3
import proofs.«156729_j87711822119196_1_alg».proof.Proof.KI.ResForm

set_option maxRecDepth 16384

noncomputable section

namespace Cert.KernelIdeal.GenH

open Idealize.ShloMosaic Idealize.ShloMosaic.TcCoe Idealize.SL.Sem Idealize.ShloMosaic.ValueIdx
open Cert.KernelIdeal Cert.KernelIdeal.Gen Cert.KernelIdeal.KVal

variable (m : (ℓ : Loc nD τ sig) → Buf (Elt Ideal) ℓ) (ρ : Dev nD → PrngReg)

/-- Region 0 leaves layer 0 of the arguments. -/
theorem out0_eq (c : Dev nD) :
    ((dat0 (F := Ideal) (V1 m ρ) c).arrAt 8 cfg0.N : Cert.Gin.Nodes) = kOut0 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) := by
  refine (region0_value (V1 m ρ) c).trans ?_
  show Cert.Gin.layer (W1 m ρ c (Proc.devRef .tc main_arg0)) (W1 m ρ c (Proc.devRef .tc main_v13)) (W1 m ρ c (Proc.devRef .tc main_v21))
      (Cert.Gin.preScaleShift (fun k => (W1 m ρ c (Proc.devRef .tc main_v24) : (⟨2, ![1, 128]⟩ : Shape).Idx → EReal) (ix2 0 k))
        (fun k => (W1 m ρ c (Proc.devRef .tc main_v25) : (⟨2, ![1, 128]⟩ : Shape).Idx → EReal) (ix2 0 k))
        (fun k => (W1 m ρ c (Proc.devRef .tc main_v26) : (⟨2, ![1, 128]⟩ : Shape).Idx → EReal) (ix2 0 k)))
      (W1 m ρ c (Proc.devRef .tc main_v23)) (fun j => (W1 m ρ c (Proc.devRef .tc main_v27) : (⟨2, ![1, 128]⟩ : Shape).Idx → EReal) (ix2 0 j)) = _
  rw [in0_x, in0_agg, in0_w1, in0_b1, in0_sc, in0_sh, in0_w2, in0_b2]
  rfl

/-- Region 1 leaves layer 1 of region 0's output. -/
theorem out1_eq (c : Dev nD) :
    ((dat1 (F := Ideal) (V3 m ρ) c).arrAt 8 cfg1.N : Cert.Gin.Nodes) = kOut1 (kOut0 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9))) (W0 m ρ c (Proc.devRef .tc main_arg1)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) := by
  refine (region1_value (V3 m ρ) c).trans ?_
  show Cert.Gin.layer (W3 m ρ c (Proc.devRef .tc main_v28)) (W3 m ρ c (Proc.devRef .tc main_v54)) (W3 m ρ c (Proc.devRef .tc main_v62))
      (Cert.Gin.preScaleShift (fun k => (W3 m ρ c (Proc.devRef .tc main_v65) : (⟨2, ![1, 128]⟩ : Shape).Idx → EReal) (ix2 0 k))
        (fun k => (W3 m ρ c (Proc.devRef .tc main_v66) : (⟨2, ![1, 128]⟩ : Shape).Idx → EReal) (ix2 0 k))
        (fun k => (W3 m ρ c (Proc.devRef .tc main_v67) : (⟨2, ![1, 128]⟩ : Shape).Idx → EReal) (ix2 0 k)))
      (W3 m ρ c (Proc.devRef .tc main_v64)) (fun j => (W3 m ρ c (Proc.devRef .tc main_v68) : (⟨2, ![1, 128]⟩ : Shape).Idx → EReal) (ix2 0 j)) = _
  rw [in1_x, in1_agg, in1_w1, in1_b1, in1_sc, in1_sh, in1_w2, in1_b2, out0_eq]
  rfl

/-- Region 2 leaves layer 2 of region 1's output. -/
theorem out2_eq (c : Dev nD) :
    ((dat2 (F := Ideal) (V5 m ρ) c).arrAt 8 cfg2.N : Cert.Gin.Nodes) = kOut2 (kOut1 (kOut0 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9))) (W0 m ρ c (Proc.devRef .tc main_arg1)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17))) (W0 m ρ c (Proc.devRef .tc main_arg1)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) := by
  refine (region2_value (V5 m ρ) c).trans ?_
  show Cert.Gin.layer (W5 m ρ c (Proc.devRef .tc main_v69)) (W5 m ρ c (Proc.devRef .tc main_v95)) (W5 m ρ c (Proc.devRef .tc main_v103))
      (Cert.Gin.preScaleShift (fun k => (W5 m ρ c (Proc.devRef .tc main_v106) : (⟨2, ![1, 128]⟩ : Shape).Idx → EReal) (ix2 0 k))
        (fun k => (W5 m ρ c (Proc.devRef .tc main_v107) : (⟨2, ![1, 128]⟩ : Shape).Idx → EReal) (ix2 0 k))
        (fun k => (W5 m ρ c (Proc.devRef .tc main_v108) : (⟨2, ![1, 128]⟩ : Shape).Idx → EReal) (ix2 0 k)))
      (W5 m ρ c (Proc.devRef .tc main_v105)) (fun j => (W5 m ρ c (Proc.devRef .tc main_v109) : (⟨2, ![1, 128]⟩ : Shape).Idx → EReal) (ix2 0 j)) = _
  rw [in2_x, in2_agg, in2_w1, in2_b1, in2_sc, in2_sh, in2_w2, in2_b2, out1_eq]
  rfl

/-- Region 3 leaves layer 3 of region 2's output. -/
theorem out3_eq (c : Dev nD) :
    ((dat3 (F := Ideal) (V7 m ρ) c).arrAt 8 cfg3.N : Cert.Gin.Nodes) = kOut3 (kOut2 (kOut1 (kOut0 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9))) (W0 m ρ c (Proc.devRef .tc main_arg1)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17))) (W0 m ρ c (Proc.devRef .tc main_arg1)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17))) (W0 m ρ c (Proc.devRef .tc main_arg1)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) := by
  refine (region3_value (V7 m ρ) c).trans ?_
  show Cert.Gin.layer (W7 m ρ c (Proc.devRef .tc main_v110)) (W7 m ρ c (Proc.devRef .tc main_v136)) (W7 m ρ c (Proc.devRef .tc main_v144))
      (Cert.Gin.preScaleShift (fun k => (W7 m ρ c (Proc.devRef .tc main_v147) : (⟨2, ![1, 128]⟩ : Shape).Idx → EReal) (ix2 0 k))
        (fun k => (W7 m ρ c (Proc.devRef .tc main_v148) : (⟨2, ![1, 128]⟩ : Shape).Idx → EReal) (ix2 0 k))
        (fun k => (W7 m ρ c (Proc.devRef .tc main_v149) : (⟨2, ![1, 128]⟩ : Shape).Idx → EReal) (ix2 0 k)))
      (W7 m ρ c (Proc.devRef .tc main_v146)) (fun j => (W7 m ρ c (Proc.devRef .tc main_v150) : (⟨2, ![1, 128]⟩ : Shape).Idx → EReal) (ix2 0 j)) = _
  rw [in3_x, in3_agg, in3_w1, in3_b1, in3_sc, in3_sh, in3_w2, in3_b2, out2_eq]
  rfl

/-- The result buffer at the end of the run. -/
theorem kernel_result (c : Dev nD) :
    (W9 m ρ c (Proc.devRef .tc main_v164) : FVec Ideal S1x10 .f32) = kRes (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) (W0 m ρ c (Proc.devRef .tc main_arg18)) (W0 m ρ c (Proc.devRef .tc main_arg19)) := by
  refine (W9_result m ρ c).trans ?_
  rw [out0_eq, out1_eq, out2_eq, out3_eq]
  rfl

end Cert.KernelIdeal.GenH

end
-- ==== Proof.KI.ValueRun.lean ====
/-
  The kernel's run with its result named: every weakly fair execution ends with the result buffer at `kRes` of the
  launch arguments and every argument array as launched.
-/
import proofs.«156729_j87711822119196_1_alg».proof.Proof.KI.Result

set_option maxRecDepth 16384

noncomputable section

namespace Cert.KernelIdeal.GenH

open Idealize.ShloMosaic Idealize.ShloMosaic.TcCoe Idealize.SL.Sem
open Cert.KernelIdeal Cert.KernelIdeal.Gen Cert.KernelIdeal.KVal

variable (m : (ℓ : Loc nD τ sig) → Buf (Elt Ideal) ℓ) (ρ : Dev nD → PrngReg)

theorem value_run : θ_run defs (onTc (τ := τ) (main (F := Ideal))) ⟨m, fun _ => 0, ρ⟩ (fun r => ∀ c : Dev nD,
      r.2.mem ((c.tc : Thread nD τ).loc main_v164) = kRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  OrdCont.mono (θ_run defs (onTc (τ := τ) (main (F := Ideal))) ⟨m, fun _ => 0, ρ⟩) (fun r h c =>
    ⟨(h c _ (mem_uc main_v164 (by decide))).trans (kernel_result m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c),
     (h c _ (mem_uc main_arg14 (by decide))).trans (W9_main_arg14 m ρ c),
     (h c _ (mem_uc main_arg15 (by decide))).trans (W9_main_arg15 m ρ c),
     (h c _ (mem_uc main_arg16 (by decide))).trans (W9_main_arg16 m ρ c),
     (h c _ (mem_uc main_arg17 (by decide))).trans (W9_main_arg17 m ρ c),
     (h c _ (mem_uc main_arg18 (by decide))).trans (W9_main_arg18 m ρ c),
     (h c _ (mem_uc main_arg19 (by decide))).trans (W9_main_arg19 m ρ c)⟩) (run_all m ρ)

end Cert.KernelIdeal.GenH

end
-- ==== Proof.Ref.Stages.lean ====
/-
  The reference's stages as functions of arrays, at any float values.

  The neighbour sum `aggR h e`: the rows of the node array gathered at the source of each edge (a negative source wrapped
  by the number of nodes) and added, into an array of zeros, at the destination of each edge; the gather and the scatter
  stay whole.  The dense part `denseR` of a layer:
      relu (relu ((((h + a) · W1ᵀ + b1) − m) · (g · rsqrt (v + ε)) + be) · W2ᵀ + b2),
  every vector laid as one row and the row along every node, relu the maximum with an array of zeros.  A layer
  `layerR h e …` is the dense part of `h` and its neighbour sum.  Layers 1 to 3 take their parameters as slice
  `i` of the stacked parameter arrays.  The readout `tailR`: each layer's output summed over the nodes from zero, laid
  as one row, the four rows joined along the feature axis, times the transposed readout weights, plus the readout bias
  as one row.  `resR` composes them as the reference does.
-/
import proofs.«156729_j87711822119196_1_alg».proof.Proof.Gen.ReferenceIdeal

noncomputable section

namespace Cert.ReferenceIdeal.RefValue

open Cert.ReferenceIdeal Cert.ReferenceIdeal.Gen Idealize.ShloMosaic

variable {F : FTy → Type} [FloatOps F]

/-- Row 0 of the edge array as a vector: the source node of each edge. -/
def srcRow (e : (⟨S2x600000, .i32⟩ : BufTy).Contents (Elt F)) : (⟨S600000, .i32⟩ : BufTy).Contents (Elt F) :=
  shapeCast S600000 (extractStridedSlice S1x600000 ![0, 0] e slices_S2x600000_S1x600000_0_0) shapeCasts_S1x600000_S600000

/-- Row 1 of the edge array as a vector: the destination node of each edge. -/
def dstRow (e : (⟨S2x600000, .i32⟩ : BufTy).Contents (Elt F)) : (⟨S600000, .i32⟩ : BufTy).Contents (Elt F) :=
  shapeCast S600000 (extractStridedSlice S1x600000 ![1, 0] e slices_S2x600000_S1x600000_1_0) shapeCasts_S1x600000_S600000

/-- The node array of zeros. -/
def zerosR : (⟨S50000x128, .f32⟩ : BufTy).Contents (Elt F) :=
  broadcastInDim S50000x128 ![] bcast_S_S50000x128 (constant S_ .f32 0x00000000#32)

/-- The neighbour sum from the source and destination vectors: the rows of `h` taken at the source nodes (a negative
    index wrapped once), added into zeros at the destination nodes. -/
def aggOf (h : (⟨S50000x128, .f32⟩ : BufTy).Contents (Elt F)) (src dst : (⟨S600000, .i32⟩ : BufTy).Contents (Elt F)) : (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- The neighbour sum of the node array `h` over the edges `e`. -/
def aggR (h : (⟨S50000x128, .f32⟩ : BufTy).Contents (Elt F)) (e : (⟨S2x600000, .i32⟩ : BufTy).Contents (Elt F)) : (⟨S50000x128, .f32⟩ : BufTy).Contents (Elt F) :=
  aggOf h (srcRow (F := F) e) (dstRow (F := F) e)

/-- A vector over the features laid as one row, the row laid along every node. -/
def rowsR (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- The normalisation's scale: `g · rsqrt (v + ε)`. -/
def scaleR (g v : (⟨S128, .f32⟩ : BufTy).Contents (Elt F)) : (⟨S128, .f32⟩ : BufTy).Contents (Elt F) :=
  mulf g (Host.rsqrt (addf v (broadcastInDim S128 ![] bcast_S_S128 (constant S_ .f32 0x3727C5AC#32))))

/-- The first rectified stage of a layer, from its input `h` and neighbour sum `a`. -/
def hiddenR (h a : (⟨S50000x128, .f32⟩ : BufTy).Contents (Elt F)) (W1 : (⟨S128x128, .f32⟩ : BufTy).Contents (Elt F)) (b1 g be m v : (⟨S128, .f32⟩ : BufTy).Contents (Elt F)) :
    (⟨S50000x128, .f32⟩ : BufTy).Contents (Elt F) :=
  maximumf
    (addf (mulf (subf (addf (Host.dotGeneral dot_S50000x128_S128x128_S50000x128_1_0_0_1_n_n none (addf h a)
        (transpose S128x128 [1, 0] W1 transposes_S128x128_S128x128_1_0)) (rowsR b1)) (rowsR m)) (rowsR (scaleR g v))) (rowsR be))
    (zerosR (F := F))

/-- The dense part of a layer, from its input `h` and neighbour sum `a`. -/
def denseR (h a : (⟨S50000x128, .f32⟩ : BufTy).Contents (Elt F)) (W1 : (⟨S128x128, .f32⟩ : BufTy).Contents (Elt F)) (b1 g be m v : (⟨S128, .f32⟩ : BufTy).Contents (Elt F))
    (W2 : (⟨S128x128, .f32⟩ : BufTy).Contents (Elt F)) (b2 : (⟨S128, .f32⟩ : BufTy).Contents (Elt F)) : (⟨S50000x128, .f32⟩ : BufTy).Contents (Elt F) :=
  maximumf
    (addf (Host.dotGeneral dot_S50000x128_S128x128_S50000x128_1_0_0_1_n_n none (hiddenR h a W1 b1 g be m v)
        (transpose S128x128 [1, 0] W2 transposes_S128x128_S128x128_1_0)) (rowsR b2))
    (zerosR (F := F))

/-- A layer: the dense part of the input and its neighbour sum. -/
def layerR (h : (⟨S50000x128, .f32⟩ : BufTy).Contents (Elt F)) (e : (⟨S2x600000, .i32⟩ : BufTy).Contents (Elt F)) (W1 : (⟨S128x128, .f32⟩ : BufTy).Contents (Elt F))
    (b1 g be m v : (⟨S128, .f32⟩ : BufTy).Contents (Elt F)) (W2 : (⟨S128x128, .f32⟩ : BufTy).Contents (Elt F)) (b2 : (⟨S128, .f32⟩ : BufTy).Contents (Elt F)) : (⟨S50000x128, .f32⟩ : BufTy).Contents (Elt F) :=
  denseR h (aggR h e) W1 b1 g be m v W2 b2

/-- Slice 0, 1, 2 of a stacked weight array. -/
def sliceW0 (w : (⟨S3x128x128, .f32⟩ : BufTy).Contents (Elt F)) : (⟨S128x128, .f32⟩ : BufTy).Contents (Elt F) :=
  shapeCast S128x128 (extractStridedSlice S1x128x128 ![0, 0, 0] w slices_S3x128x128_S1x128x128_0_0_0) shapeCasts_S1x128x128_S128x128
@[inherit_doc sliceW0]
def sliceW1 (w : (⟨S3x128x128, .f32⟩ : BufTy).Contents (Elt F)) : (⟨S128x128, .f32⟩ : BufTy).Contents (Elt F) :=
  shapeCast S128x128 (extractStridedSlice S1x128x128 ![1, 0, 0] w slices_S3x128x128_S1x128x128_1_0_0) shapeCasts_S1x128x128_S128x128
@[inherit_doc sliceW0]
def sliceW2 (w : (⟨S3x128x128, .f32⟩ : BufTy).Contents (Elt F)) : (⟨S128x128, .f32⟩ : BufTy).Contents (Elt F) :=
  shapeCast S128x128 (extractStridedSlice S1x128x128 ![2, 0, 0] w slices_S3x128x128_S1x128x128_2_0_0) shapeCasts_S1x128x128_S128x128

/-- Slice 0, 1, 2 of a stacked vector array. -/
def sliceV0 (b : (⟨S3x128, .f32⟩ : BufTy).Contents (Elt F)) : (⟨S128, .f32⟩ : BufTy).Contents (Elt F) :=
  shapeCast S128 (extractStridedSlice S1x128 ![0, 0] b slices_S3x128_S1x128_0_0) shapeCasts_S1x128_S128
@[inherit_doc sliceV0]
def sliceV1 (b : (⟨S3x128, .f32⟩ : BufTy).Contents (Elt F)) : (⟨S128, .f32⟩ : BufTy).Contents (Elt F) :=
  shapeCast S128 (extractStridedSlice S1x128 ![1, 0] b slices_S3x128_S1x128_1_0) shapeCasts_S1x128_S128
@[inherit_doc sliceV0]
def sliceV2 (b : (⟨S3x128, .f32⟩ : BufTy).Contents (Elt F)) : (⟨S128, .f32⟩ : BufTy).Contents (Elt F) :=
  shapeCast S128 (extractStridedSlice S1x128 ![2, 0] b slices_S3x128_S1x128_2_0) shapeCasts_S1x128_S128

/-- The sum over the nodes of one layer's output, from zero, laid as one row. -/
def pooledR (o : (⟨S50000x128, .f32⟩ : BufTy).Contents (Elt F)) : (⟨S1x128, .f32⟩ : BufTy).Contents (Elt F) :=
  broadcastInDim S1x128 ![1] bcast_S128_S1x128_1
    (Host.reduceAdd o (constant S_ .f32 0x00000000#32) reducesTo_S50000x128_S128_d0 h_S_)

/-- The readout of the four layers' outputs. -/
def tailR (o0 o1 o2 o3 : (⟨S50000x128, .f32⟩ : BufTy).Contents (Elt F)) (wll : (⟨S10x512, .f32⟩ : BufTy).Contents (Elt F)) (bll : (⟨S10, .f32⟩ : BufTy).Contents (Elt F)) : (⟨S1x10, .f32⟩ : BufTy).Contents (Elt F) :=
  addf (Host.dotGeneral dot_S1x512_S512x10_S1x10_1_0_0_1_n_n none
      (concatenate S1x512 1 [⟨S1x128, pooledR o0⟩, ⟨S1x128, pooledR o1⟩, ⟨S1x128, pooledR o2⟩, ⟨S1x128, pooledR o3⟩]
        concatenates_S1x128_S1x128_S1x128_S1x128_S1x512_d1)
      (transpose S512x10 [1, 0] wll transposes_S10x512_S512x10_1_0))
    (broadcastInDim S1x10 ![1] bcast_S10_S1x10_1 bll)

/-- The four layers' outputs and the result, composed as the reference composes them: layer 0 on the arguments, layers 1
    to 3 on the previous output and slice 0, 1, 2 of the stacked parameters, the readout of the four outputs. -/
def out0R (x0 : (⟨S50000x128, .f32⟩ : BufTy).Contents (Elt F)) (x1 : (⟨S2x600000, .i32⟩ : BufTy).Contents (Elt F)) (x2 : (⟨S128x128, .f32⟩ : BufTy).Contents (Elt F))
    (x3 x4 x5 x6 x7 : (⟨S128, .f32⟩ : BufTy).Contents (Elt F)) (x8 : (⟨S128x128, .f32⟩ : BufTy).Contents (Elt F)) (x9 : (⟨S128, .f32⟩ : BufTy).Contents (Elt F)) : (⟨S50000x128, .f32⟩ : BufTy).Contents (Elt F) :=
  layerR x0 x1 x2 x3 x4 x5 x6 x7 x8 x9
@[inherit_doc out0R]
def out1R (x0 : (⟨S50000x128, .f32⟩ : BufTy).Contents (Elt F)) (x1 : (⟨S2x600000, .i32⟩ : BufTy).Contents (Elt F)) (x2 : (⟨S128x128, .f32⟩ : BufTy).Contents (Elt F))
    (x3 x4 x5 x6 x7 : (⟨S128, .f32⟩ : BufTy).Contents (Elt F)) (x8 : (⟨S128x128, .f32⟩ : BufTy).Contents (Elt F)) (x9 : (⟨S128, .f32⟩ : BufTy).Contents (Elt F))
    (x10 : (⟨S3x128x128, .f32⟩ : BufTy).Contents (Elt F)) (x11 x12 x13 x14 x15 : (⟨S3x128, .f32⟩ : BufTy).Contents (Elt F)) (x16 : (⟨S3x128x128, .f32⟩ : BufTy).Contents (Elt F))
    (x17 : (⟨S3x128, .f32⟩ : BufTy).Contents (Elt F)) : (⟨S50000x128, .f32⟩ : BufTy).Contents (Elt F) :=
  layerR (out0R x0 x1 x2 x3 x4 x5 x6 x7 x8 x9) x1 (sliceW0 x10) (sliceV0 x11) (sliceV0 x12) (sliceV0 x13)
    (sliceV0 x14) (sliceV0 x15) (sliceW0 x16) (sliceV0 x17)
@[inherit_doc out0R]
def out2R (x0 : (⟨S50000x128, .f32⟩ : BufTy).Contents (Elt F)) (x1 : (⟨S2x600000, .i32⟩ : BufTy).Contents (Elt F)) (x2 : (⟨S128x128, .f32⟩ : BufTy).Contents (Elt F))
    (x3 x4 x5 x6 x7 : (⟨S128, .f32⟩ : BufTy).Contents (Elt F)) (x8 : (⟨S128x128, .f32⟩ : BufTy).Contents (Elt F)) (x9 : (⟨S128, .f32⟩ : BufTy).Contents (Elt F))
    (x10 : (⟨S3x128x128, .f32⟩ : BufTy).Contents (Elt F)) (x11 x12 x13 x14 x15 : (⟨S3x128, .f32⟩ : BufTy).Contents (Elt F)) (x16 : (⟨S3x128x128, .f32⟩ : BufTy).Contents (Elt F))
    (x17 : (⟨S3x128, .f32⟩ : BufTy).Contents (Elt F)) : (⟨S50000x128, .f32⟩ : BufTy).Contents (Elt F) :=
  layerR (out1R x0 x1 x2 x3 x4 x5 x6 x7 x8 x9 x10 x11 x12 x13 x14 x15 x16 x17) x1 (sliceW1 x10) (sliceV1 x11) (sliceV1 x12) (sliceV1 x13)
    (sliceV1 x14) (sliceV1 x15) (sliceW1 x16) (sliceV1 x17)
@[inherit_doc out0R]
def out3R (x0 : (⟨S50000x128, .f32⟩ : BufTy).Contents (Elt F)) (x1 : (⟨S2x600000, .i32⟩ : BufTy).Contents (Elt F)) (x2 : (⟨S128x128, .f32⟩ : BufTy).Contents (Elt F))
    (x3 x4 x5 x6 x7 : (⟨S128, .f32⟩ : BufTy).Contents (Elt F)) (x8 : (⟨S128x128, .f32⟩ : BufTy).Contents (Elt F)) (x9 : (⟨S128, .f32⟩ : BufTy).Contents (Elt F))
    (x10 : (⟨S3x128x128, .f32⟩ : BufTy).Contents (Elt F)) (x11 x12 x13 x14 x15 : (⟨S3x128, .f32⟩ : BufTy).Contents (Elt F)) (x16 : (⟨S3x128x128, .f32⟩ : BufTy).Contents (Elt F))
    (x17 : (⟨S3x128, .f32⟩ : BufTy).Contents (Elt F)) : (⟨S50000x128, .f32⟩ : BufTy).Contents (Elt F) :=
  layerR (out2R x0 x1 x2 x3 x4 x5 x6 x7 x8 x9 x10 x11 x12 x13 x14 x15 x16 x17) x1 (sliceW2 x10) (sliceV2 x11) (sliceV2 x12) (sliceV2 x13)
    (sliceV2 x14) (sliceV2 x15) (sliceW2 x16) (sliceV2 x17)
@[inherit_doc out0R]
def resR (x0 : (⟨S50000x128, .f32⟩ : BufTy).Contents (Elt F)) (x1 : (⟨S2x600000, .i32⟩ : BufTy).Contents (Elt F)) (x2 : (⟨S128x128, .f32⟩ : BufTy).Contents (Elt F))
    (x3 x4 x5 x6 x7 : (⟨S128, .f32⟩ : BufTy).Contents (Elt F)) (x8 : (⟨S128x128, .f32⟩ : BufTy).Contents (Elt F)) (x9 : (⟨S128, .f32⟩ : BufTy).Contents (Elt F))
    (x10 : (⟨S3x128x128, .f32⟩ : BufTy).Contents (Elt F)) (x11 x12 x13 x14 x15 : (⟨S3x128, .f32⟩ : BufTy).Contents (Elt F)) (x16 : (⟨S3x128x128, .f32⟩ : BufTy).Contents (Elt F))
    (x17 : (⟨S3x128, .f32⟩ : BufTy).Contents (Elt F)) (x18 : (⟨S10x512, .f32⟩ : BufTy).Contents (Elt F)) (x19 : (⟨S10, .f32⟩ : BufTy).Contents (Elt F)) : (⟨S1x10, .f32⟩ : BufTy).Contents (Elt F) :=
  tailR (out0R x0 x1 x2 x3 x4 x5 x6 x7 x8 x9) (out1R x0 x1 x2 x3 x4 x5 x6 x7 x8 x9 x10 x11 x12 x13 x14 x15 x16 x17)
    (out2R x0 x1 x2 x3 x4 x5 x6 x7 x8 x9 x10 x11 x12 x13 x14 x15 x16 x17)
    (out3R x0 x1 x2 x3 x4 x5 x6 x7 x8 x9 x10 x11 x12 x13 x14 x15 x16 x17) x18 x19

end Cert.ReferenceIdeal.RefValue

end
-- ==== Proof.Ref.LayerValue.lean ====
/-
  The dense part of a layer of the reference, at the ideal values, is the shared layer: at node p and feature j
      max (∑ k, max (((∑ k', (h p k' + a p k') · W1ᵀ k' k + b1 k) − m k) · s k + be k) 0 · W2ᵀ k j + b2 j) 0,
  with W1ᵀ, W2ᵀ the transposed weight arrays and s = g · rsqrt (v + ε).  One statement serves the four layers: the
  input, the neighbour sum and the parameters are any arrays.
-/
import proofs.«156729_j87711822119196_1_alg».proof.Proof.Ref.Stages
import proofs.«156729_j87711822119196_1_alg».proof.Proof.Spec
import proofs.«156729_j87711822119196_1_alg».proof.Proof.LibSageLayer

noncomputable section

open scoped BigOperators

namespace Cert.ReferenceIdeal.RefValue

open Cert.ReferenceIdeal Cert.ReferenceIdeal.Gen Idealize.ShloMosaic Idealize.ShloMosaic.ValueIdx Idealize.ShloMosaic.StackMember

/-- The layers' product is the plain [50000, 128] by [128, 128] one. -/
theorem dot_plain : dot_S50000x128_S128x128_S50000x128_1_0_0_1_n_n = DotDims.plain 50000 128 128 := rfl

/-- A vector laid along every node reads, at (p, k), the vector at k. -/
theorem rowsR_apply (b : FVec Ideal S128 .f32) (p : Fin 50000) (k : Fin 128) :
    rowsR (F := Ideal) b (ix2 p k) = b (ix1 k) := by
  unfold rowsR
  rw [broadcastInDim_oneRow_apply, Cert.Sage.broadcastInDim_vecRow_apply]

/-- The maximum with the array of zeros, at an entry. -/
theorem relu_apply (x : FVec Ideal S50000x128 .f32) (i : S50000x128.Idx) :
    maximumf x (zerosR (F := Ideal)) i = max (x i) 0 := by
  unfold zerosR
  exact Cert.Sage.relu_host_apply x _ i

/-- The first rectified stage at node p, hidden unit k. -/
theorem hiddenR_apply (h a : FVec Ideal S50000x128 .f32) (W1 : FVec Ideal S128x128 .f32)
    (b1 g be m v : FVec Ideal S128 .f32) (p : Fin 50000) (k : Fin 128) :
    hiddenR (F := Ideal) h a W1 b1 g be m v (ix2 p k)
      = max ((((∑ k' : Fin 128, (h (ix2 p k') + a (ix2 p k')) * transpose S128x128 [1, 0] W1 transposes_S128x128_S128x128_1_0 (ix2 k' k))
              + b1 (ix1 k)) - m (ix1 k)) * scaleR (F := Ideal) g v (ix1 k) + be (ix1 k)) 0 := by
  unfold hiddenR
  rw [relu_apply, addf_apply, mulf_apply, subf_apply, addf_apply, rowsR_apply, rowsR_apply, rowsR_apply, rowsR_apply, dot_plain,
    dotGeneral_plain_apply]
  simp only [addf_apply]

/-- The second rectified stage at node p, feature j, from the first. -/
theorem denseR_apply (h a : FVec Ideal S50000x128 .f32) (W1 : FVec Ideal S128x128 .f32)
    (b1 g be m v : FVec Ideal S128 .f32)
    (W2 : FVec Ideal S128x128 .f32) (b2 : FVec Ideal S128 .f32) (p : Fin 50000) (j : Fin 128) :
    denseR (F := Ideal) h a W1 b1 g be m v W2 b2 (ix2 p j)
      = max ((∑ k : Fin 128, hiddenR (F := Ideal) h a W1 b1 g be m v (ix2 p k)
                * transpose S128x128 [1, 0] W2 transposes_S128x128_S128x128_1_0 (ix2 k j)) + b2 (ix1 j)) 0 := by
  unfold denseR
  rw [relu_apply, addf_apply, rowsR_apply, dot_plain, dotGeneral_plain_apply]

/-- The dense part of a layer is the shared layer of its input, its neighbour sum and its parameters. -/
theorem denseR_eq_layer (h a : FVec Ideal S50000x128 .f32) (W1 : FVec Ideal S128x128 .f32)
    (b1 g be m v : FVec Ideal S128 .f32)
    (W2 : FVec Ideal S128x128 .f32) (b2 : FVec Ideal S128 .f32) :
    denseR (F := Ideal) h a W1 b1 g be m v W2 b2
      = Cert.Gin.layer h a (transpose S128x128 [1, 0] W1 transposes_S128x128_S128x128_1_0)
          (Cert.Gin.preCentred (fun k => b1 (ix1 k)) (fun k => m (ix1 k)) (fun k => scaleR (F := Ideal) g v (ix1 k)) (fun k => be (ix1 k)))
          (transpose S128x128 [1, 0] W2 transposes_S128x128_S128x128_1_0) (fun j => b2 (ix1 j)) := by
  funext i
  obtain ⟨p, j, rfl⟩ : ∃ (p : Fin 50000) (j : Fin 128), i = ix2 p j := ⟨i 0, i 1, eq_ix2 i⟩
  rw [Cert.Gin.layer_apply, denseR_apply]
  simp only [hiddenR_apply]
  rfl

/-- A layer of the reference is the shared layer of its input and the input's neighbour sum. -/
theorem layerR_eq_layer (h : FVec Ideal S50000x128 .f32) (e : IVec S2x600000 32) (W1 : FVec Ideal S128x128 .f32)
    (b1 g be m v : FVec Ideal S128 .f32) (W2 : FVec Ideal S128x128 .f32) (b2 : FVec Ideal S128 .f32) :
    layerR (F := Ideal) h e W1 b1 g be m v W2 b2
      = Cert.Gin.layer h (aggR (F := Ideal) h e) (transpose S128x128 [1, 0] W1 transposes_S128x128_S128x128_1_0)
          (Cert.Gin.preCentred (fun k => b1 (ix1 k)) (fun k => m (ix1 k)) (fun k => scaleR (F := Ideal) g v (ix1 k)) (fun k => be (ix1 k)))
          (transpose S128x128 [1, 0] W2 transposes_S128x128_S128x128_1_0) (fun j => b2 (ix1 j)) :=
  denseR_eq_layer h (aggR (F := Ideal) h e) W1 b1 g be m v W2 b2

end Cert.ReferenceIdeal.RefValue

end
-- ==== Proof.Cross.lean ====
/-
  The reference's program and the kernel's program spell their host terms — the edges' source and destination rows, the
  neighbour sum, the normalisation's scale, slice `i` of a stacked parameter array, the readout — identically, each
  over its own copies of the shape abbreviations, the dimension records and the side conditions' proofs. A shape
  abbreviation unfolds to the same literal in both, a dimension record's only non-data field is a proof, and so are
  the side conditions: each identification holds by definition.
-/
import proofs.«156729_j87711822119196_1_alg».proof.Proof.KI.HostTerms
import proofs.«156729_j87711822119196_1_alg».proof.Proof.Ref.Stages
import Idealize.ShloMosaic.PureOps.Ideal

noncomputable section

namespace Cert.Cross

open Idealize.ShloMosaic Idealize.SL.Sem

/-! ## The dimension records -/

theorem gatherDims_eq : Cert.ReferenceIdeal.gather_S50000x128_S600000x1_S600000x128_1_0_n_n_0_1_1128
    = Cert.KernelIdeal.gather_S50000x128_S600000x1_S600000x128_1_0_n_n_0_1_1128 := rfl
theorem scatterDims_eq : Cert.ReferenceIdeal.scatter_S50000x128_S600000x1_S600000x128_1_0_0_1
    = Cert.KernelIdeal.scatter_S50000x128_S600000x1_S600000x128_1_0_0_1 := rfl
theorem dotDims_eq : Cert.ReferenceIdeal.dot_S1x512_S512x10_S1x10_1_0_0_1_n_n
    = Cert.KernelIdeal.dot_S1x512_S512x10_S1x10_1_0_0_1_n_n := rfl

/-! ## The host terms -/

/-- The edges' source nodes, and destination nodes. -/
theorem srcRow_eq (e : IVec Cert.KernelIdeal.S2x600000 32) : Cert.ReferenceIdeal.RefValue.srcRow (F := Ideal) e = Cert.KernelIdeal.KVal.srcVec e := rfl
theorem dstRow_eq (e : IVec Cert.KernelIdeal.S2x600000 32) : Cert.ReferenceIdeal.RefValue.dstRow (F := Ideal) e = Cert.KernelIdeal.KVal.dstVec e := rfl

/-- The neighbour sum from the source and destination vectors. -/
theorem aggOf_eq (h : FVec Ideal Cert.KernelIdeal.S50000x128 .f32) (src dst : IVec Cert.KernelIdeal.S600000 32) :
    Cert.ReferenceIdeal.RefValue.aggOf (F := Ideal) h src dst = Cert.KernelIdeal.KVal.aggOf (F := Ideal) h src dst := by
  unfold Cert.ReferenceIdeal.RefValue.aggOf Cert.KernelIdeal.KVal.aggOf
  rw [gatherDims_eq, scatterDims_eq]

/-- The neighbour sum over the edge list. -/
theorem aggR_eq (h : FVec Ideal Cert.KernelIdeal.S50000x128 .f32) (e : IVec Cert.KernelIdeal.S2x600000 32) :
    Cert.ReferenceIdeal.RefValue.aggR (F := Ideal) h e = Cert.KernelIdeal.KVal.aggOf (F := Ideal) h (Cert.KernelIdeal.KVal.srcVec e) (Cert.KernelIdeal.KVal.dstVec e) := by
  unfold Cert.ReferenceIdeal.RefValue.aggR
  rw [srcRow_eq, dstRow_eq]
  exact aggOf_eq h _ _

/-- The normalisation's scale. -/
theorem scaleR_eq (g v : FVec Ideal Cert.KernelIdeal.S128 .f32) :
    Cert.ReferenceIdeal.RefValue.scaleR (F := Ideal) g v = Cert.KernelIdeal.KVal.scaleVec g v := rfl

/-- Slice `i` of a stack of three matrices, and of a stack of three vectors. -/
theorem sliceW0_eq (a : FVec Ideal Cert.KernelIdeal.S3x128x128 .f32) : Cert.ReferenceIdeal.RefValue.sliceW0 (F := Ideal) a = Cert.KernelIdeal.KVal.mat0 a := rfl
theorem sliceW1_eq (a : FVec Ideal Cert.KernelIdeal.S3x128x128 .f32) : Cert.ReferenceIdeal.RefValue.sliceW1 (F := Ideal) a = Cert.KernelIdeal.KVal.mat1 a := rfl
theorem sliceW2_eq (a : FVec Ideal Cert.KernelIdeal.S3x128x128 .f32) : Cert.ReferenceIdeal.RefValue.sliceW2 (F := Ideal) a = Cert.KernelIdeal.KVal.mat2 a := rfl
theorem sliceV0_eq (a : FVec Ideal Cert.KernelIdeal.S3x128 .f32) : Cert.ReferenceIdeal.RefValue.sliceV0 (F := Ideal) a = Cert.KernelIdeal.KVal.vec0 a := rfl
theorem sliceV1_eq (a : FVec Ideal Cert.KernelIdeal.S3x128 .f32) : Cert.ReferenceIdeal.RefValue.sliceV1 (F := Ideal) a = Cert.KernelIdeal.KVal.vec1 a := rfl
theorem sliceV2_eq (a : FVec Ideal Cert.KernelIdeal.S3x128 .f32) : Cert.ReferenceIdeal.RefValue.sliceV2 (F := Ideal) a = Cert.KernelIdeal.KVal.vec2 a := rfl

/-- One layer's output summed over the nodes, as a one-row matrix. -/
theorem pooledR_eq (o : FVec Ideal Cert.KernelIdeal.S50000x128 .f32) : Cert.ReferenceIdeal.RefValue.pooledR (F := Ideal) o = Cert.KernelIdeal.KVal.pooled o := rfl

/-- The readout. -/
theorem tailR_eq (o0 o1 o2 o3 : FVec Ideal Cert.KernelIdeal.S50000x128 .f32) (wll : FVec Ideal Cert.KernelIdeal.S10x512 .f32) (bll : FVec Ideal Cert.KernelIdeal.S10 .f32) :
    Cert.ReferenceIdeal.RefValue.tailR (F := Ideal) o0 o1 o2 o3 wll bll = Cert.KernelIdeal.KVal.tailOf o0 o1 o2 o3 wll bll := by
  unfold Cert.ReferenceIdeal.RefValue.tailR Cert.KernelIdeal.KVal.tailOf
  rw [dotDims_eq, pooledR_eq, pooledR_eq, pooledR_eq, pooledR_eq]

/-- A weight matrix transposed, whatever the proofs of the side condition. -/
theorem transpose_eq' (W : FVec Ideal Cert.KernelIdeal.S128x128 .f32)
    (hR : Cert.ReferenceIdeal.S128x128.Transposes [1, 0] Cert.ReferenceIdeal.S128x128) (hK : Cert.KernelIdeal.S128x128.Transposes [1, 0] Cert.KernelIdeal.S128x128) :
    transpose Cert.ReferenceIdeal.S128x128 [1, 0] W hR = transpose Cert.KernelIdeal.S128x128 [1, 0] W hK := rfl
theorem transpose_eq (W : FVec Ideal Cert.KernelIdeal.S128x128 .f32) :
    transpose Cert.ReferenceIdeal.S128x128 [1, 0] W Cert.ReferenceIdeal.Gen.transposes_S128x128_S128x128_1_0
      = transpose Cert.KernelIdeal.S128x128 [1, 0] W Cert.KernelIdeal.Gen.transposes_S128x128_S128x128_1_0 := rfl

end Cert.Cross

end
-- ==== Proof.ResBridge.lean ====
/-
  The kernel's result and the reference's result are one array. Each of the four layers, in the form the kernel's
  regions deliver it, is the reference's layer on the same input: both are the layer of the specification on the
  input, its neighbour sum, the transposed weights and the normalisation's parameters, in the arrangement
  (bias, mean, scale, offset) — the kernel's after folding the scale and the shift back, which needs the scale,
  offset and mean parameters real and the variance real and at least 0 — and the two programs spell the neighbour
  sum, the scale, the slices of the stacked parameters and the readout identically. The layers nest, so the four
  outputs agree in order, and the readouts of equal outputs agree.
-/
import proofs.«156729_j87711822119196_1_alg».proof.Proof.KI.ResForm
import proofs.«156729_j87711822119196_1_alg».proof.Proof.Ref.LayerValue
import proofs.«156729_j87711822119196_1_alg».proof.Proof.Cross

noncomputable section

namespace Cert.KernelIdeal.KVal

open Cert.KernelIdeal Cert.KernelIdeal.Gen Idealize.ShloMosaic Idealize.ShloMosaic.TcCoe Idealize.SL.Sem Idealize.ShloMosaic.StableHlo
open Idealize.ShloMosaic.ValueIdx
open Cert.ReferenceIdeal.RefValue (layerR out0R out1R out2R out3R resR)

/-- One layer in the kernel's form is the reference's layer on the same input, edges and parameters. -/
theorem layer_cross (h : FVec Ideal S50000x128 .f32) (e : IVec S2x600000 32) (W1 : FVec Ideal S128x128 .f32)
    (b1 g be mm v : FVec Ideal S128 .f32) (W2 : FVec Ideal S128x128 .f32) (b2 : FVec Ideal S128 .f32)
    (hg : ∀ i, ∃ r : ℝ, g i = (r : EReal)) (hbe : ∀ i, ∃ r : ℝ, be i = (r : EReal)) (hm : ∀ i, ∃ r : ℝ, mm i = (r : EReal))
    (hv : ∀ i, ∃ r : ℝ, 0 ≤ r ∧ v i = (r : EReal)) :
    kLayer h (srcVec e) (dstVec e) W1 b1 g be mm v W2 b2 = layerR (F := Ideal) h e W1 b1 g be mm v W2 b2 := by
  rw [kLayer_eq h (srcVec e) (dstVec e) W1 b1 g be mm v W2 b2 hg hbe hm hv,
    Cert.ReferenceIdeal.RefValue.layerR_eq_layer h e W1 b1 g be mm v W2 b2,
    Cert.Cross.aggR_eq, Cert.Cross.scaleR_eq, Cert.Cross.transpose_eq, Cert.Cross.transpose_eq]

/-- The kernel's result is the reference's result, for real scale, offset and mean parameters and real non-negative
    variances (arguments 4 … 7 of the first layer, 12 … 15 of the three stacked ones; the biases 3 and 11 come along). -/
theorem kRes_eq_resR (a0 : FVec Ideal S50000x128 .f32) (a1 : IVec S2x600000 32) (a2 : FVec Ideal S128x128 .f32)
    (a3 a4 a5 a6 a7 : FVec Ideal S128 .f32) (a8 : FVec Ideal S128x128 .f32) (a9 : FVec Ideal S128 .f32)
    (a10 : FVec Ideal S3x128x128 .f32) (a11 a12 a13 a14 a15 : FVec Ideal S3x128 .f32)
    (a16 : FVec Ideal S3x128x128 .f32) (a17 : FVec Ideal S3x128 .f32)
    (a18 : FVec Ideal S10x512 .f32) (a19 : FVec Ideal S10 .f32)
    (hf : (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, 0 ≤ r ∧ a7 i = (r : EReal))
      ∧ (∀ i, ∃ r : ℝ, a11 i = (r : EReal)) ∧ (∀ i, ∃ r : ℝ, a12 i = (r : EReal)) ∧ (∀ i, ∃ r : ℝ, a13 i = (r : EReal))
      ∧ (∀ i, ∃ r : ℝ, a14 i = (r : EReal)) ∧ (∀ i, ∃ r : ℝ, 0 ≤ r ∧ a15 i = (r : EReal))) :
    kRes a0 a1 a2 a3 a4 a5 a6 a7 a8 a9 a10 a11 a12 a13 a14 a15 a16 a17 a18 a19 = resR (F := Ideal) a0 a1 a2 a3 a4 a5 a6 a7 a8 a9 a10 a11 a12 a13 a14 a15 a16 a17 a18 a19 := by
  obtain ⟨h3, h4, h5, h6, h7, h11, h12, h13, h14, h15⟩ := hf
  have e0 : kOut0 a0 a1 a2 a3 a4 a5 a6 a7 a8 a9 = out0R (F := Ideal) a0 a1 a2 a3 a4 a5 a6 a7 a8 a9 :=
    layer_cross a0 a1 a2 a3 a4 a5 a6 a7 a8 a9 h4 h5 h6 h7
  have e1 : kOut1 (out0R (F := Ideal) a0 a1 a2 a3 a4 a5 a6 a7 a8 a9) a1 a10 a11 a12 a13 a14 a15 a16 a17 = out1R (F := Ideal) a0 a1 a2 a3 a4 a5 a6 a7 a8 a9 a10 a11 a12 a13 a14 a15 a16 a17 :=
    layer_cross (out0R (F := Ideal) a0 a1 a2 a3 a4 a5 a6 a7 a8 a9) a1 (mat0 a10) (vec0 a11) (vec0 a12) (vec0 a13) (vec0 a14) (vec0 a15) (mat0 a16) (vec0 a17)
      (vec0_real a12 h12) (vec0_real a13 h13) (vec0_real a14 h14) (vec0_nonneg a15 h15)
  have e2 : kOut2 (out1R (F := Ideal) a0 a1 a2 a3 a4 a5 a6 a7 a8 a9 a10 a11 a12 a13 a14 a15 a16 a17) a1 a10 a11 a12 a13 a14 a15 a16 a17 = out2R (F := Ideal) a0 a1 a2 a3 a4 a5 a6 a7 a8 a9 a10 a11 a12 a13 a14 a15 a16 a17 :=
    layer_cross (out1R (F := Ideal) a0 a1 a2 a3 a4 a5 a6 a7 a8 a9 a10 a11 a12 a13 a14 a15 a16 a17) a1 (mat1 a10) (vec1 a11) (vec1 a12) (vec1 a13) (vec1 a14) (vec1 a15) (mat1 a16) (vec1 a17)
      (vec1_real a12 h12) (vec1_real a13 h13) (vec1_real a14 h14) (vec1_nonneg a15 h15)
  have e3 : kOut3 (out2R (F := Ideal) a0 a1 a2 a3 a4 a5 a6 a7 a8 a9 a10 a11 a12 a13 a14 a15 a16 a17) a1 a10 a11 a12 a13 a14 a15 a16 a17 = out3R (F := Ideal) a0 a1 a2 a3 a4 a5 a6 a7 a8 a9 a10 a11 a12 a13 a14 a15 a16 a17 :=
    layer_cross (out2R (F := Ideal) a0 a1 a2 a3 a4 a5 a6 a7 a8 a9 a10 a11 a12 a13 a14 a15 a16 a17) a1 (mat2 a10) (vec2 a11) (vec2 a12) (vec2 a13) (vec2 a14) (vec2 a15) (mat2 a16) (vec2 a17)
      (vec2_real a12 h12) (vec2_real a13 h13) (vec2_real a14 h14) (vec2_nonneg a15 h15)
  unfold kRes
  rw [e0, e1, e2, e3]
  exact (Cert.Cross.tailR_eq _ _ _ _ a18 a19).symm

end Cert.KernelIdeal.KVal

end
-- ==== Proof.PreFacts.lean ====
/-
  THE PRECONDITION DECODED. The claim's precondition is the conjunction of 21 tests over the
  twenty arguments: for each float argument "every |x| is below +∞", and for the two variance arguments
  (7 and 15) "every x is at least 0". Each test is a reduction by `and` over all axes of an elementwise
  comparison against a broadcast constant, so the whole being 1 gives each comparison at each index. At the
  extended reals |x| = max x (-x) below ⊤ excludes both infinities (and the junk value ⊥), so x is a real;
  and a real that is at least 0 as an extended real is at least 0 as a real.
-/
import proofs.«156729_j87711822119196_1_alg».proof.Pre_finite_inputs
import proofs.«156729_j87711822119196_1_alg».proof.Proof.Gen.Pre_finite_inputs
import Idealize.ShloMosaic.Lib.ReduceAll
import Idealize.ShloMosaic.Lib.ValueIdx
import Idealize.ShloMosaic.PureOps.Ideal

noncomputable section

namespace Cert.Gin.PreFacts

open Idealize.ShloMosaic Idealize.ShloMosaic.ValueIdx
open Cert.Pre_finite_inputs

/-- The scalar shape has one index. -/
instance : Subsingleton S_.Idx := ⟨fun a b => funext fun d => d.elim0⟩

/-- The f32 pattern with all-ones exponent and zero significand is +∞. -/
theorem ofBits_inf_f32 : Ideal.ofBits .f32 0x7F800000#32 = (⊤ : EReal) := by
  simp [Ideal.ofBits, Ideal.ieee]

/-- The all-zero f32 pattern is 0. -/
theorem ofBits_zero_f32' : Ideal.ofBits .f32 0x00000000#32 = (0 : EReal) := by
  simp [Ideal.ofBits, Ideal.ieee]

/-- |x| < +∞ on the extended reals says x is a real. -/
theorem real_of_abs_lt_top (x : EReal) (h : Ideal.cmp .olt (max x (-x)) (⊤ : EReal) = 1#1) : ∃ r : ℝ, x = (r : EReal) := by
  induction x using EReal.rec with
  | bot => simp [Ideal.cmp] at h
  | top => simp [Ideal.cmp] at h
  | coe r => exact ⟨r, rfl⟩

/-- x ≥ 0 on the extended reals, for a real x, says 0 ≤ x on the reals. -/
theorem nonneg_of_ge_zero (r : ℝ) (h : Ideal.cmp .oge ((r : EReal)) (0 : EReal) = 1#1) : 0 ≤ r := by
  by_contra hn
  simp [Ideal.cmp, hn] at h

/-- The printed test "all |x| < +inf" being one says every entry is a real. -/
theorem finite_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ix0 = 1#1) :
    ∀ i, ∃ r : ℝ, x i = (r : EReal) := by
  intro i
  have h := Host.reduce_andi_all _ _ hr hu ix0 e i
  apply real_of_abs_lt_top
  rw [← ofBits_inf_f32]
  exact h

/-- The printed test "all x ≥ 0" being one says every entry is at least zero. -/
theorem nonneg_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .oge x (broadcastInDim s ![] hb (constant (F := Ideal) S_ .f32 0x00000000#32)))
          (constantI S_ 1 1#1) hr hu ix0 = 1#1) :
    ∀ i, Ideal.cmp .oge (x i) (0 : EReal) = 1#1 := by
  intro i
  have h := Host.reduce_andi_all _ _ hr hu ix0 e i
  rw [← ofBits_zero_f32']
  exact h

/-- Finite and at least zero, from the two printed tests. -/
theorem nonneg_real_of_all {s : Shape} {axes : List (Fin s.rank)} (x : FVec Ideal s .f32)
    (hb hb' : S_.BroadcastsInDim s (![] : Fin 0 → Fin s.rank)) (hr hr' : s.ReducesTo axes S_) (hu hu' : 0 < S_.numel)
    (e : Host.reduce IntOp.andi (cmpf .olt (Host.absf x) (broadcastInDim s ![] hb (constant (F := Ideal) S_ .f32 0x7F800000#32)))
          (constantI S_ 1 1#1) hr hu ix0 = 1#1)
    (g : Host.reduce IntOp.andi (cmpf .oge x (broadcastInDim s ![] hb' (constant (F := Ideal) S_ .f32 0x00000000#32)))
          (constantI S_ 1 1#1) hr' hu' ix0 = 1#1) :
    ∀ i, ∃ r : ℝ, 0 ≤ r ∧ x i = (r : EReal) := by
  intro i
  obtain ⟨r, hx⟩ := finite_of_all x hb hr hu e i
  have h0 := nonneg_of_all x hb' hr' hu' g i
  rw [hx] at h0
  exact ⟨r, nonneg_of_ge_zero r h0, hx⟩

/-- THE PRECONDITION DECODED, all of it: the ten facts the layer parameters need (biases, scales, shifts, means
    real; variances real and at least 0), then the remaining nine float arguments real, in argument order. -/
theorem pre_all [Cert.Pre_finite_inputs.Facts]
    (a0 : FVec Ideal S50000x128 .f32) (a1 : IVec S2x600000 32) (a2 : FVec Ideal S128x128 .f32)
    (a3 a4 a5 a6 a7 : FVec Ideal S128 .f32) (a8 : FVec Ideal S128x128 .f32) (a9 : FVec Ideal S128 .f32)
    (a10 : FVec Ideal S3x128x128 .f32) (a11 a12 a13 a14 a15 : FVec Ideal S3x128 .f32)
    (a16 : FVec Ideal S3x128x128 .f32) (a17 : FVec Ideal S3x128 .f32) (a18 : FVec Ideal S10x512 .f32)
    (a19 : FVec Ideal S10 .f32)
    (h : Cert.Pre_finite_inputs.fn (F := Ideal) a0 a1 a2 a3 a4 a5 a6 a7 a8 a9 a10 a11 a12 a13 a14 a15 a16 a17 a18 a19 = fun _ => 1#1) :
    ((∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, 0 ≤ r ∧ a7 i = (r : EReal))
      ∧ (∀ i, ∃ r : ℝ, a11 i = (r : EReal)) ∧ (∀ i, ∃ r : ℝ, a12 i = (r : EReal)) ∧ (∀ i, ∃ r : ℝ, a13 i = (r : EReal))
      ∧ (∀ i, ∃ r : ℝ, a14 i = (r : EReal)) ∧ (∀ i, ∃ r : ℝ, 0 ≤ r ∧ a15 i = (r : EReal)))
    ∧ ((∀ i, ∃ r : ℝ, a0 i = (r : EReal)) ∧ (∀ i, ∃ r : ℝ, a2 i = (r : EReal)) ∧ (∀ i, ∃ r : ℝ, a8 i = (r : EReal))
      ∧ (∀ i, ∃ r : ℝ, a9 i = (r : EReal)) ∧ (∀ i, ∃ r : ℝ, a10 i = (r : EReal)) ∧ (∀ i, ∃ r : ℝ, a16 i = (r : EReal))
      ∧ (∀ i, ∃ r : ℝ, a17 i = (r : EReal)) ∧ (∀ i, ∃ r : ℝ, a18 i = (r : EReal)) ∧ (∀ i, ∃ r : ℝ, a19 i = (r : EReal))) := by
  -- the claim at the scalar result's one index, the printed chain unfolded, the conjunction split
  have e := congrFun h ix0
  dsimp only [fn, fn_part1, fn_part2, fn_part3, fn_part4, fn_part5] at e
  simp only [andi, IntOp.andi_eq_one] at e
  obtain ⟨⟨⟨⟨⟨⟨⟨⟨⟨⟨⟨⟨⟨⟨⟨⟨⟨⟨⟨⟨t0, t2⟩, t3⟩, t4⟩, t5⟩, t6⟩, t7⟩, t8⟩, t9⟩, t10⟩, t11⟩, t12⟩, t13⟩, t14⟩, t15⟩, t16⟩, t17⟩, t18⟩, t19⟩, g7⟩, g15⟩ := e
  exact ⟨⟨finite_of_all a3 _ _ _ t3, finite_of_all a4 _ _ _ t4, finite_of_all a5 _ _ _ t5, finite_of_all a6 _ _ _ t6,
      nonneg_real_of_all a7 _ _ _ _ _ _ t7 g7,
      finite_of_all a11 _ _ _ t11, finite_of_all a12 _ _ _ t12, finite_of_all a13 _ _ _ t13, finite_of_all a14 _ _ _ t14,
      nonneg_real_of_all a15 _ _ _ _ _ _ t15 g15⟩,
    ⟨finite_of_all a0 _ _ _ t0, finite_of_all a2 _ _ _ t2, finite_of_all a8 _ _ _ t8, finite_of_all a9 _ _ _ t9,
      finite_of_all a10 _ _ _ t10, finite_of_all a16 _ _ _ t16, finite_of_all a17 _ _ _ t17, finite_of_all a18 _ _ _ t18,
      finite_of_all a19 _ _ _ t19⟩⟩

/-- THE PRECONDITION DECODED, the ten facts the layer parameters need: argument 3 (first bias), 4 (scale), 5 (shift),
    6 (mean) real and 7 (variance) real and at least 0; likewise 11 … 15 for the three stacked layers. -/
theorem pre_facts [Cert.Pre_finite_inputs.Facts]
    (a0 : FVec Ideal S50000x128 .f32) (a1 : IVec S2x600000 32) (a2 : FVec Ideal S128x128 .f32)
    (a3 a4 a5 a6 a7 : FVec Ideal S128 .f32) (a8 : FVec Ideal S128x128 .f32) (a9 : FVec Ideal S128 .f32)
    (a10 : FVec Ideal S3x128x128 .f32) (a11 a12 a13 a14 a15 : FVec Ideal S3x128 .f32)
    (a16 : FVec Ideal S3x128x128 .f32) (a17 : FVec Ideal S3x128 .f32) (a18 : FVec Ideal S10x512 .f32)
    (a19 : FVec Ideal S10 .f32)
    (h : Cert.Pre_finite_inputs.fn (F := Ideal) a0 a1 a2 a3 a4 a5 a6 a7 a8 a9 a10 a11 a12 a13 a14 a15 a16 a17 a18 a19 = fun _ => 1#1) :
    (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, 0 ≤ r ∧ a7 i = (r : EReal))
      ∧ (∀ i, ∃ r : ℝ, a11 i = (r : EReal)) ∧ (∀ i, ∃ r : ℝ, a12 i = (r : EReal)) ∧ (∀ i, ∃ r : ℝ, a13 i = (r : EReal))
      ∧ (∀ i, ∃ r : ℝ, a14 i = (r : EReal)) ∧ (∀ i, ∃ r : ℝ, 0 ≤ r ∧ a15 i = (r : EReal)) :=
  (pre_all a0 a1 a2 a3 a4 a5 a6 a7 a8 a9 a10 a11 a12 a13 a14 a15 a16 a17 a18 a19 h).1

/-- THE PRECONDITION DECODED, the rest: the other nine float arguments (0, 2, 8, 9, 10, 16, 17, 18, 19) real. -/
theorem pre_facts_rest [Cert.Pre_finite_inputs.Facts]
    (a0 : FVec Ideal S50000x128 .f32) (a1 : IVec S2x600000 32) (a2 : FVec Ideal S128x128 .f32)
    (a3 a4 a5 a6 a7 : FVec Ideal S128 .f32) (a8 : FVec Ideal S128x128 .f32) (a9 : FVec Ideal S128 .f32)
    (a10 : FVec Ideal S3x128x128 .f32) (a11 a12 a13 a14 a15 : FVec Ideal S3x128 .f32)
    (a16 : FVec Ideal S3x128x128 .f32) (a17 : FVec Ideal S3x128 .f32) (a18 : FVec Ideal S10x512 .f32)
    (a19 : FVec Ideal S10 .f32)
    (h : Cert.Pre_finite_inputs.fn (F := Ideal) a0 a1 a2 a3 a4 a5 a6 a7 a8 a9 a10 a11 a12 a13 a14 a15 a16 a17 a18 a19 = fun _ => 1#1) :
    (∀ i, ∃ r : ℝ, a0 i = (r : EReal)) ∧ (∀ i, ∃ r : ℝ, a2 i = (r : EReal)) ∧ (∀ i, ∃ r : ℝ, a8 i = (r : EReal))
      ∧ (∀ i, ∃ r : ℝ, a9 i = (r : EReal)) ∧ (∀ i, ∃ r : ℝ, a10 i = (r : EReal)) ∧ (∀ i, ∃ r : ℝ, a16 i = (r : EReal))
      ∧ (∀ i, ∃ r : ℝ, a17 i = (r : EReal)) ∧ (∀ i, ∃ r : ℝ, a18 i = (r : EReal)) ∧ (∀ i, ∃ r : ℝ, a19 i = (r : EReal)) :=
  (pre_all a0 a1 a2 a3 a4 a5 a6 a7 a8 a9 a10 a11 a12 a13 a14 a15 a16 a17 a18 a19 h).2

end Cert.Gin.PreFacts

end
-- ==== Proof.Ref.Ops.lean ====
/-
  The reference's @main as a straight line of its 257 host operations, in twelve stretches: for each of the four layers
  the parameter slices (layers 1 to 3), the neighbour sum, the dense part; then the readout.  The line is @main; nothing
  is scoped; every operation's buffers are TensorCore buffers; no operation allocates.
-/
import proofs.«156729_j87711822119196_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Layer 0: the edge columns, the gather's and the scatter's index columns, the neighbour sum of the input. -/
def opsA0 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- Layer 0: the dense part. -/
def opsB0 : List (HloOp τ sig (Elt F)) :=
  [ binary main_arg0 main_v13 main_v14 (addf : (⟨S50000x128, .f32⟩ : BufTy).Contents (Elt F) → (⟨S50000x128, .f32⟩ : BufTy).Contents (Elt F) → (⟨S50000x128, .f32⟩ : BufTy).Contents (Elt F)),
    unary main_arg2 main_v15 ((transpose S128x128 [1, 0] · transposes_S128x128_S128x128_1_0) : (⟨S128x128, .f32⟩ : BufTy).Contents (Elt F) → (⟨S128x128, .f32⟩ : BufTy).Contents (Elt F)),
    binary main_v14 main_v15 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v17 (broadcastInDim S1x128 ![1] bcast_S128_S1x128_1 : (⟨S128, .f32⟩ : BufTy).Contents (Elt F) → (⟨S1x128, .f32⟩ : BufTy).Contents (Elt F)),
    unary main_v17 main_v18 (broadcastInDim S50000x128 ![0, 1] bcast_S1x128_S50000x128_0_1 : (⟨S1x128, .f32⟩ : BufTy).Contents (Elt F) → (⟨S50000x128, .f32⟩ : BufTy).Contents (Elt F)),
    binary main_v16 main_v18 main_v19 (addf : (⟨S50000x128, .f32⟩ : BufTy).Contents (Elt F) → (⟨S50000x128, .f32⟩ : BufTy).Contents (Elt F) → (⟨S50000x128, .f32⟩ : BufTy).Contents (Elt F)),
    unary main_arg6 main_v20 (broadcastInDim S1x128 ![1] bcast_S128_S1x128_1 : (⟨S128, .f32⟩ : BufTy).Contents (Elt F) → (⟨S1x128, .f32⟩ : BufTy).Contents (Elt F)),
    unary main_v20 main_v21 (broadcastInDim S50000x128 ![0, 1] bcast_S1x128_S50000x128_0_1 : (⟨S1x128, .f32⟩ : BufTy).Contents (Elt F) → (⟨S50000x128, .f32⟩ : BufTy).Contents (Elt F)),
    binary main_v19 main_v21 main_v22 (subf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3727C5AC#32),
    unary main_cst_1 main_v23 (broadcastInDim S128 ![] bcast_S_S128 : (⟨S_, .f32⟩ : BufTy).Contents (Elt F) → (⟨S128, .f32⟩ : BufTy).Contents (Elt F)),
    binary main_arg7 main_v23 main_v24 (addf : (⟨S128, .f32⟩ : BufTy).Contents (Elt F) → (⟨S128, .f32⟩ : BufTy).Contents (Elt F) → (⟨S128, .f32⟩ : BufTy).Contents (Elt F)),
    unary main_v24 main_v25 (Host.rsqrt : (⟨S128, .f32⟩ : BufTy).Contents (Elt F) → (⟨S128, .f32⟩ : BufTy).Contents (Elt F)),
    binary main_arg4 main_v25 main_v26 (mulf : (⟨S128, .f32⟩ : BufTy).Contents (Elt F) → (⟨S128, .f32⟩ : BufTy).Contents (Elt F) → (⟨S128, .f32⟩ : BufTy).Contents (Elt F)),
    unary main_v26 main_v27 (broadcastInDim S1x128 ![1] bcast_S128_S1x128_1 : (⟨S128, .f32⟩ : BufTy).Contents (Elt F) → (⟨S1x128, .f32⟩ : BufTy).Contents (Elt F)),
    unary main_v27 main_v28 (broadcastInDim S50000x128 ![0, 1] bcast_S1x128_S50000x128_0_1 : (⟨S1x128, .f32⟩ : BufTy).Contents (Elt F) → (⟨S50000x128, .f32⟩ : BufTy).Contents (Elt F)),
    binary main_v22 main_v28 main_v29 (mulf : (⟨S50000x128, .f32⟩ : BufTy).Contents (Elt F) → (⟨S50000x128, .f32⟩ : BufTy).Contents (Elt F) → (⟨S50000x128, .f32⟩ : BufTy).Contents (Elt F)),
    unary main_arg5 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v29 main_v31 main_v32 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v32) (TRef.of (T := ⟨S50000x128, .f32⟩) main_call0_v0) (TRef.of (T := ⟨S50000x128, .f32⟩) main_v33) maximumf,
    unary main_arg8 main_v34 ((transpose S128x128 [1, 0] · transposes_S128x128_S128x128_1_0) : (⟨S128x128, .f32⟩ : BufTy).Contents (Elt F) → (⟨S128x128, .f32⟩ : BufTy).Contents (Elt F)),
    binary main_v33 main_v34 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_v35 main_v37 main_v38 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v38) (TRef.of (T := ⟨S50000x128, .f32⟩) main_call1_v0) (TRef.of (T := ⟨S50000x128, .f32⟩) main_v39) maximumf ]

/-- Layer 1: slice 0 of the stacked parameters. -/
def opsP1 : List (HloOp τ sig (Elt F)) :=
  [ unary main_arg10 main_v40 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v40 main_v41 rfl shapeCasts_S1x128x128_S128x128,
    unary main_arg11 main_v42 ((extractStridedSlice S1x128 ![0, 0] · slices_S3x128_S1x128_0_0) : (⟨S3x128, .f32⟩ : BufTy).Contents (Elt F) → (⟨S1x128, .f32⟩ : BufTy).Contents (Elt F)),
    reshape main_v42 main_v43 rfl shapeCasts_S1x128_S128,
    unary main_arg12 main_v44 ((extractStridedSlice S1x128 ![0, 0] · slices_S3x128_S1x128_0_0) : (⟨S3x128, .f32⟩ : BufTy).Contents (Elt F) → (⟨S1x128, .f32⟩ : BufTy).Contents (Elt F)),
    reshape main_v44 main_v45 rfl shapeCasts_S1x128_S128,
    unary main_arg13 main_v46 ((extractStridedSlice S1x128 ![0, 0] · slices_S3x128_S1x128_0_0) : (⟨S3x128, .f32⟩ : BufTy).Contents (Elt F) → (⟨S1x128, .f32⟩ : BufTy).Contents (Elt F)),
    reshape main_v46 main_v47 rfl shapeCasts_S1x128_S128,
    unary main_arg14 main_v48 ((extractStridedSlice S1x128 ![0, 0] · slices_S3x128_S1x128_0_0) : (⟨S3x128, .f32⟩ : BufTy).Contents (Elt F) → (⟨S1x128, .f32⟩ : BufTy).Contents (Elt F)),
    reshape main_v48 main_v49 rfl shapeCasts_S1x128_S128,
    unary main_arg15 main_v50 ((extractStridedSlice S1x128 ![0, 0] · slices_S3x128_S1x128_0_0) : (⟨S3x128, .f32⟩ : BufTy).Contents (Elt F) → (⟨S1x128, .f32⟩ : BufTy).Contents (Elt F)),
    reshape main_v50 main_v51 rfl shapeCasts_S1x128_S128,
    unary main_arg16 main_v52 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v52 main_v53 rfl shapeCasts_S1x128x128_S128x128,
    unary main_arg17 main_v54 ((extractStridedSlice S1x128 ![0, 0] · slices_S3x128_S1x128_0_0) : (⟨S3x128, .f32⟩ : BufTy).Contents (Elt F) → (⟨S1x128, .f32⟩ : BufTy).Contents (Elt F)),
    reshape main_v54 main_v55 rfl shapeCasts_S1x128_S128 ]

/-- Layer 1: the neighbour sum of layer 0's output. -/
def opsA1 : List (HloOp τ sig (Elt F)) :=
  [ unary main_arg1 main_v56 ((extractStridedSlice S1x600000 ![0, 0] · slices_S2x600000_S1x600000_0_0) : (⟨S2x600000, .i32⟩ : BufTy).Contents (Elt F) → (⟨S1x600000, .i32⟩ : BufTy).Contents (Elt F)),
    reshape main_v56 main_v57 rfl shapeCasts_S1x600000_S600000,
    unary main_arg1 main_v58 ((extractStridedSlice S1x600000 ![1, 0] · slices_S2x600000_S1x600000_1_0) : (⟨S2x600000, .i32⟩ : BufTy).Contents (Elt F) → (⟨S1x600000, .i32⟩ : BufTy).Contents (Elt F)),
    reshape main_v58 main_v59 rfl shapeCasts_S1x600000_S600000,
    nullary main_c_2 (constantI S_ 32 0#32),
    unary main_c_2 main_v60 (broadcastInDim S600000 ![] bcast_S_S600000 : (⟨S_, .i32⟩ : BufTy).Contents (Elt F) → (⟨S600000, .i32⟩ : BufTy).Contents (Elt F)),
    binary main_v57 main_v60 main_v61 (cmpi .slt : (⟨S600000, .i32⟩ : BufTy).Contents (Elt F) → (⟨S600000, .i32⟩ : BufTy).Contents (Elt F) → (⟨S600000, .i1⟩ : BufTy).Contents (Elt F)),
    nullary main_c_3 (constantI S_ 32 50000#32),
    unary main_c_3 main_v62 (broadcastInDim S600000 ![] bcast_S_S600000 : (⟨S_, .i32⟩ : BufTy).Contents (Elt F) → (⟨S600000, .i32⟩ : BufTy).Contents (Elt F)),
    binary main_v57 main_v62 main_v63 (addi : (⟨S600000, .i32⟩ : BufTy).Contents (Elt F) → (⟨S600000, .i32⟩ : BufTy).Contents (Elt F) → (⟨S600000, .i32⟩ : BufTy).Contents (Elt F)),
    ternary main_v61 main_v63 main_v57 main_v64 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v64 main_v65 (broadcastInDim S600000x1 ![0] bcast_S600000_S600000x1_0 : (⟨S600000, .i32⟩ : BufTy).Contents (Elt F) → (⟨S600000x1, .i32⟩ : BufTy).Contents (Elt F)),
    binary main_v39 main_v65 main_v66 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_4 (constant S_ .f32 0x00000000#32),
    unary main_cst_4 main_v67 (broadcastInDim S50000x128 ![] bcast_S_S50000x128 : (⟨S_, .f32⟩ : BufTy).Contents (Elt F) → (⟨S50000x128, .f32⟩ : BufTy).Contents (Elt F)),
    unary main_v59 main_v68 (broadcastInDim S600000x1 ![0] bcast_S600000_S600000x1_0 : (⟨S600000, .i32⟩ : BufTy).Contents (Elt F) → (⟨S600000x1, .i32⟩ : BufTy).Contents (Elt F)),
    ternary main_v67 main_v68 main_v66 main_v69 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- Layer 1: the dense part. -/
def opsB1 : List (HloOp τ sig (Elt F)) :=
  [ binary main_v39 main_v69 main_v70 (addf : (⟨S50000x128, .f32⟩ : BufTy).Contents (Elt F) → (⟨S50000x128, .f32⟩ : BufTy).Contents (Elt F) → (⟨S50000x128, .f32⟩ : BufTy).Contents (Elt F)),
    unary main_v41 main_v71 ((transpose S128x128 [1, 0] · transposes_S128x128_S128x128_1_0) : (⟨S128x128, .f32⟩ : BufTy).Contents (Elt F) → (⟨S128x128, .f32⟩ : BufTy).Contents (Elt F)),
    binary main_v70 main_v71 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v43 main_v73 (broadcastInDim S1x128 ![1] bcast_S128_S1x128_1 : (⟨S128, .f32⟩ : BufTy).Contents (Elt F) → (⟨S1x128, .f32⟩ : BufTy).Contents (Elt F)),
    unary main_v73 main_v74 (broadcastInDim S50000x128 ![0, 1] bcast_S1x128_S50000x128_0_1 : (⟨S1x128, .f32⟩ : BufTy).Contents (Elt F) → (⟨S50000x128, .f32⟩ : BufTy).Contents (Elt F)),
    binary main_v72 main_v74 main_v75 (addf : (⟨S50000x128, .f32⟩ : BufTy).Contents (Elt F) → (⟨S50000x128, .f32⟩ : BufTy).Contents (Elt F) → (⟨S50000x128, .f32⟩ : BufTy).Contents (Elt F)),
    unary main_v49 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v75 main_v77 main_v78 (subf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3727C5AC#32),
    unary main_cst_5 main_v79 (broadcastInDim S128 ![] bcast_S_S128 : (⟨S_, .f32⟩ : BufTy).Contents (Elt F) → (⟨S128, .f32⟩ : BufTy).Contents (Elt F)),
    binary main_v51 main_v79 main_v80 (addf : (⟨S128, .f32⟩ : BufTy).Contents (Elt F) → (⟨S128, .f32⟩ : BufTy).Contents (Elt F) → (⟨S128, .f32⟩ : BufTy).Contents (Elt F)),
    unary main_v80 main_v81 (Host.rsqrt : (⟨S128, .f32⟩ : BufTy).Contents (Elt F) → (⟨S128, .f32⟩ : BufTy).Contents (Elt F)),
    binary main_v45 main_v81 main_v82 (mulf : (⟨S128, .f32⟩ : BufTy).Contents (Elt F) → (⟨S128, .f32⟩ : BufTy).Contents (Elt F) → (⟨S128, .f32⟩ : BufTy).Contents (Elt F)),
    unary main_v82 main_v83 (broadcastInDim S1x128 ![1] bcast_S128_S1x128_1 : (⟨S128, .f32⟩ : BufTy).Contents (Elt F) → (⟨S1x128, .f32⟩ : BufTy).Contents (Elt F)),
    unary main_v83 main_v84 (broadcastInDim S50000x128 ![0, 1] bcast_S1x128_S50000x128_0_1 : (⟨S1x128, .f32⟩ : BufTy).Contents (Elt F) → (⟨S50000x128, .f32⟩ : BufTy).Contents (Elt F)),
    binary main_v78 main_v84 main_v85 (mulf : (⟨S50000x128, .f32⟩ : BufTy).Contents (Elt F) → (⟨S50000x128, .f32⟩ : BufTy).Contents (Elt F) → (⟨S50000x128, .f32⟩ : BufTy).Contents (Elt F)),
    unary main_v47 main_v86 (broadcastInDim S1x128 ![1] bcast_S128_S1x128_1 : (⟨S128, .f32⟩ : BufTy).Contents (Elt F) → (⟨S1x128, .f32⟩ : BufTy).Contents (Elt F)),
    unary main_v86 main_v87 (broadcastInDim S50000x128 ![0, 1] bcast_S1x128_S50000x128_0_1 : (⟨S1x128, .f32⟩ : BufTy).Contents (Elt F) → (⟨S50000x128, .f32⟩ : BufTy).Contents (Elt F)),
    binary main_v85 main_v87 main_v88 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v88) (TRef.of (T := ⟨S50000x128, .f32⟩) main_call2_v0) (TRef.of (T := ⟨S50000x128, .f32⟩) main_v89) maximumf,
    unary main_v53 main_v90 ((transpose S128x128 [1, 0] · transposes_S128x128_S128x128_1_0) : (⟨S128x128, .f32⟩ : BufTy).Contents (Elt F) → (⟨S128x128, .f32⟩ : BufTy).Contents (Elt F)),
    binary main_v89 main_v90 main_v91 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v55 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v91 main_v93 main_v94 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v94) (TRef.of (T := ⟨S50000x128, .f32⟩) main_call3_v0) (TRef.of (T := ⟨S50000x128, .f32⟩) main_v95) maximumf ]

/-- Layer 2: slice 1 of the stacked parameters. -/
def opsP2 : List (HloOp τ sig (Elt F)) :=
  [ unary main_arg10 main_v96 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v96 main_v97 rfl shapeCasts_S1x128x128_S128x128,
    unary main_arg11 main_v98 ((extractStridedSlice S1x128 ![1, 0] · slices_S3x128_S1x128_1_0) : (⟨S3x128, .f32⟩ : BufTy).Contents (Elt F) → (⟨S1x128, .f32⟩ : BufTy).Contents (Elt F)),
    reshape main_v98 main_v99 rfl shapeCasts_S1x128_S128,
    unary main_arg12 main_v100 ((extractStridedSlice S1x128 ![1, 0] · slices_S3x128_S1x128_1_0) : (⟨S3x128, .f32⟩ : BufTy).Contents (Elt F) → (⟨S1x128, .f32⟩ : BufTy).Contents (Elt F)),
    reshape main_v100 main_v101 rfl shapeCasts_S1x128_S128,
    unary main_arg13 main_v102 ((extractStridedSlice S1x128 ![1, 0] · slices_S3x128_S1x128_1_0) : (⟨S3x128, .f32⟩ : BufTy).Contents (Elt F) → (⟨S1x128, .f32⟩ : BufTy).Contents (Elt F)),
    reshape main_v102 main_v103 rfl shapeCasts_S1x128_S128,
    unary main_arg14 main_v104 ((extractStridedSlice S1x128 ![1, 0] · slices_S3x128_S1x128_1_0) : (⟨S3x128, .f32⟩ : BufTy).Contents (Elt F) → (⟨S1x128, .f32⟩ : BufTy).Contents (Elt F)),
    reshape main_v104 main_v105 rfl shapeCasts_S1x128_S128,
    unary main_arg15 main_v106 ((extractStridedSlice S1x128 ![1, 0] · slices_S3x128_S1x128_1_0) : (⟨S3x128, .f32⟩ : BufTy).Contents (Elt F) → (⟨S1x128, .f32⟩ : BufTy).Contents (Elt F)),
    reshape main_v106 main_v107 rfl shapeCasts_S1x128_S128,
    unary main_arg16 main_v108 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v108 main_v109 rfl shapeCasts_S1x128x128_S128x128,
    unary main_arg17 main_v110 ((extractStridedSlice S1x128 ![1, 0] · slices_S3x128_S1x128_1_0) : (⟨S3x128, .f32⟩ : BufTy).Contents (Elt F) → (⟨S1x128, .f32⟩ : BufTy).Contents (Elt F)),
    reshape main_v110 main_v111 rfl shapeCasts_S1x128_S128 ]

/-- Layer 2: the neighbour sum of layer 1's output. -/
def opsA2 : List (HloOp τ sig (Elt F)) :=
  [ unary main_arg1 main_v112 ((extractStridedSlice S1x600000 ![0, 0] · slices_S2x600000_S1x600000_0_0) : (⟨S2x600000, .i32⟩ : BufTy).Contents (Elt F) → (⟨S1x600000, .i32⟩ : BufTy).Contents (Elt F)),
    reshape main_v112 main_v113 rfl shapeCasts_S1x600000_S600000,
    unary main_arg1 main_v114 ((extractStridedSlice S1x600000 ![1, 0] · slices_S2x600000_S1x600000_1_0) : (⟨S2x600000, .i32⟩ : BufTy).Contents (Elt F) → (⟨S1x600000, .i32⟩ : BufTy).Contents (Elt F)),
    reshape main_v114 main_v115 rfl shapeCasts_S1x600000_S600000,
    nullary main_c_6 (constantI S_ 32 0#32),
    unary main_c_6 main_v116 (broadcastInDim S600000 ![] bcast_S_S600000 : (⟨S_, .i32⟩ : BufTy).Contents (Elt F) → (⟨S600000, .i32⟩ : BufTy).Contents (Elt F)),
    binary main_v113 main_v116 main_v117 (cmpi .slt : (⟨S600000, .i32⟩ : BufTy).Contents (Elt F) → (⟨S600000, .i32⟩ : BufTy).Contents (Elt F) → (⟨S600000, .i1⟩ : BufTy).Contents (Elt F)),
    nullary main_c_7 (constantI S_ 32 50000#32),
    unary main_c_7 main_v118 (broadcastInDim S600000 ![] bcast_S_S600000 : (⟨S_, .i32⟩ : BufTy).Contents (Elt F) → (⟨S600000, .i32⟩ : BufTy).Contents (Elt F)),
    binary main_v113 main_v118 main_v119 (addi : (⟨S600000, .i32⟩ : BufTy).Contents (Elt F) → (⟨S600000, .i32⟩ : BufTy).Contents (Elt F) → (⟨S600000, .i32⟩ : BufTy).Contents (Elt F)),
    ternary main_v117 main_v119 main_v113 main_v120 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v120 main_v121 (broadcastInDim S600000x1 ![0] bcast_S600000_S600000x1_0 : (⟨S600000, .i32⟩ : BufTy).Contents (Elt F) → (⟨S600000x1, .i32⟩ : BufTy).Contents (Elt F)),
    binary main_v95 main_v121 main_v122 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_8 (constant S_ .f32 0x00000000#32),
    unary main_cst_8 main_v123 (broadcastInDim S50000x128 ![] bcast_S_S50000x128 : (⟨S_, .f32⟩ : BufTy).Contents (Elt F) → (⟨S50000x128, .f32⟩ : BufTy).Contents (Elt F)),
    unary main_v115 main_v124 (broadcastInDim S600000x1 ![0] bcast_S600000_S600000x1_0 : (⟨S600000, .i32⟩ : BufTy).Contents (Elt F) → (⟨S600000x1, .i32⟩ : BufTy).Contents (Elt F)),
    ternary main_v123 main_v124 main_v122 main_v125 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- Layer 2: the dense part. -/
def opsB2 : List (HloOp τ sig (Elt F)) :=
  [ binary main_v95 main_v125 main_v126 (addf : (⟨S50000x128, .f32⟩ : BufTy).Contents (Elt F) → (⟨S50000x128, .f32⟩ : BufTy).Contents (Elt F) → (⟨S50000x128, .f32⟩ : BufTy).Contents (Elt F)),
    unary main_v97 main_v127 ((transpose S128x128 [1, 0] · transposes_S128x128_S128x128_1_0) : (⟨S128x128, .f32⟩ : BufTy).Contents (Elt F) → (⟨S128x128, .f32⟩ : BufTy).Contents (Elt F)),
    binary main_v126 main_v127 main_v128 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v99 main_v129 (broadcastInDim S1x128 ![1] bcast_S128_S1x128_1 : (⟨S128, .f32⟩ : BufTy).Contents (Elt F) → (⟨S1x128, .f32⟩ : BufTy).Contents (Elt F)),
    unary main_v129 main_v130 (broadcastInDim S50000x128 ![0, 1] bcast_S1x128_S50000x128_0_1 : (⟨S1x128, .f32⟩ : BufTy).Contents (Elt F) → (⟨S50000x128, .f32⟩ : BufTy).Contents (Elt F)),
    binary main_v128 main_v130 main_v131 (addf : (⟨S50000x128, .f32⟩ : BufTy).Contents (Elt F) → (⟨S50000x128, .f32⟩ : BufTy).Contents (Elt F) → (⟨S50000x128, .f32⟩ : BufTy).Contents (Elt F)),
    unary main_v105 main_v132 (broadcastInDim S1x128 ![1] bcast_S128_S1x128_1 : (⟨S128, .f32⟩ : BufTy).Contents (Elt F) → (⟨S1x128, .f32⟩ : BufTy).Contents (Elt F)),
    unary main_v132 main_v133 (broadcastInDim S50000x128 ![0, 1] bcast_S1x128_S50000x128_0_1 : (⟨S1x128, .f32⟩ : BufTy).Contents (Elt F) → (⟨S50000x128, .f32⟩ : BufTy).Contents (Elt F)),
    binary main_v131 main_v133 main_v134 (subf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x3727C5AC#32),
    unary main_cst_9 main_v135 (broadcastInDim S128 ![] bcast_S_S128 : (⟨S_, .f32⟩ : BufTy).Contents (Elt F) → (⟨S128, .f32⟩ : BufTy).Contents (Elt F)),
    binary main_v107 main_v135 main_v136 (addf : (⟨S128, .f32⟩ : BufTy).Contents (Elt F) → (⟨S128, .f32⟩ : BufTy).Contents (Elt F) → (⟨S128, .f32⟩ : BufTy).Contents (Elt F)),
    unary main_v136 main_v137 (Host.rsqrt : (⟨S128, .f32⟩ : BufTy).Contents (Elt F) → (⟨S128, .f32⟩ : BufTy).Contents (Elt F)),
    binary main_v101 main_v137 main_v138 (mulf : (⟨S128, .f32⟩ : BufTy).Contents (Elt F) → (⟨S128, .f32⟩ : BufTy).Contents (Elt F) → (⟨S128, .f32⟩ : BufTy).Contents (Elt F)),
    unary main_v138 main_v139 (broadcastInDim S1x128 ![1] bcast_S128_S1x128_1 : (⟨S128, .f32⟩ : BufTy).Contents (Elt F) → (⟨S1x128, .f32⟩ : BufTy).Contents (Elt F)),
    unary main_v139 main_v140 (broadcastInDim S50000x128 ![0, 1] bcast_S1x128_S50000x128_0_1 : (⟨S1x128, .f32⟩ : BufTy).Contents (Elt F) → (⟨S50000x128, .f32⟩ : BufTy).Contents (Elt F)),
    binary main_v134 main_v140 main_v141 (mulf : (⟨S50000x128, .f32⟩ : BufTy).Contents (Elt F) → (⟨S50000x128, .f32⟩ : BufTy).Contents (Elt F) → (⟨S50000x128, .f32⟩ : BufTy).Contents (Elt F)),
    unary main_v103 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v141 main_v143 main_v144 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v144) (TRef.of (T := ⟨S50000x128, .f32⟩) main_call4_v0) (TRef.of (T := ⟨S50000x128, .f32⟩) main_v145) maximumf,
    unary main_v109 main_v146 ((transpose S128x128 [1, 0] · transposes_S128x128_S128x128_1_0) : (⟨S128x128, .f32⟩ : BufTy).Contents (Elt F) → (⟨S128x128, .f32⟩ : BufTy).Contents (Elt F)),
    binary main_v145 main_v146 main_v147 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v111 main_v148 (broadcastInDim S1x128 ![1] bcast_S128_S1x128_1 : (⟨S128, .f32⟩ : BufTy).Contents (Elt F) → (⟨S1x128, .f32⟩ : BufTy).Contents (Elt F)),
    unary main_v148 main_v149 (broadcastInDim S50000x128 ![0, 1] bcast_S1x128_S50000x128_0_1 : (⟨S1x128, .f32⟩ : BufTy).Contents (Elt F) → (⟨S50000x128, .f32⟩ : BufTy).Contents (Elt F)),
    binary main_v147 main_v149 main_v150 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v150) (TRef.of (T := ⟨S50000x128, .f32⟩) main_call5_v0) (TRef.of (T := ⟨S50000x128, .f32⟩) main_v151) maximumf ]

/-- Layer 3: slice 2 of the stacked parameters. -/
def opsP3 : List (HloOp τ sig (Elt F)) :=
  [ unary main_arg10 main_v152 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v152 main_v153 rfl shapeCasts_S1x128x128_S128x128,
    unary main_arg11 main_v154 ((extractStridedSlice S1x128 ![2, 0] · slices_S3x128_S1x128_2_0) : (⟨S3x128, .f32⟩ : BufTy).Contents (Elt F) → (⟨S1x128, .f32⟩ : BufTy).Contents (Elt F)),
    reshape main_v154 main_v155 rfl shapeCasts_S1x128_S128,
    unary main_arg12 main_v156 ((extractStridedSlice S1x128 ![2, 0] · slices_S3x128_S1x128_2_0) : (⟨S3x128, .f32⟩ : BufTy).Contents (Elt F) → (⟨S1x128, .f32⟩ : BufTy).Contents (Elt F)),
    reshape main_v156 main_v157 rfl shapeCasts_S1x128_S128,
    unary main_arg13 main_v158 ((extractStridedSlice S1x128 ![2, 0] · slices_S3x128_S1x128_2_0) : (⟨S3x128, .f32⟩ : BufTy).Contents (Elt F) → (⟨S1x128, .f32⟩ : BufTy).Contents (Elt F)),
    reshape main_v158 main_v159 rfl shapeCasts_S1x128_S128,
    unary main_arg14 main_v160 ((extractStridedSlice S1x128 ![2, 0] · slices_S3x128_S1x128_2_0) : (⟨S3x128, .f32⟩ : BufTy).Contents (Elt F) → (⟨S1x128, .f32⟩ : BufTy).Contents (Elt F)),
    reshape main_v160 main_v161 rfl shapeCasts_S1x128_S128,
    unary main_arg15 main_v162 ((extractStridedSlice S1x128 ![2, 0] · slices_S3x128_S1x128_2_0) : (⟨S3x128, .f32⟩ : BufTy).Contents (Elt F) → (⟨S1x128, .f32⟩ : BufTy).Contents (Elt F)),
    reshape main_v162 main_v163 rfl shapeCasts_S1x128_S128,
    unary main_arg16 main_v164 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v164 main_v165 rfl shapeCasts_S1x128x128_S128x128,
    unary main_arg17 main_v166 ((extractStridedSlice S1x128 ![2, 0] · slices_S3x128_S1x128_2_0) : (⟨S3x128, .f32⟩ : BufTy).Contents (Elt F) → (⟨S1x128, .f32⟩ : BufTy).Contents (Elt F)),
    reshape main_v166 main_v167 rfl shapeCasts_S1x128_S128 ]

/-- Layer 3: the neighbour sum of layer 2's output. -/
def opsA3 : List (HloOp τ sig (Elt F)) :=
  [ unary main_arg1 main_v168 ((extractStridedSlice S1x600000 ![0, 0] · slices_S2x600000_S1x600000_0_0) : (⟨S2x600000, .i32⟩ : BufTy).Contents (Elt F) → (⟨S1x600000, .i32⟩ : BufTy).Contents (Elt F)),
    reshape main_v168 main_v169 rfl shapeCasts_S1x600000_S600000,
    unary main_arg1 main_v170 ((extractStridedSlice S1x600000 ![1, 0] · slices_S2x600000_S1x600000_1_0) : (⟨S2x600000, .i32⟩ : BufTy).Contents (Elt F) → (⟨S1x600000, .i32⟩ : BufTy).Contents (Elt F)),
    reshape main_v170 main_v171 rfl shapeCasts_S1x600000_S600000,
    nullary main_c_10 (constantI S_ 32 0#32),
    unary main_c_10 main_v172 (broadcastInDim S600000 ![] bcast_S_S600000 : (⟨S_, .i32⟩ : BufTy).Contents (Elt F) → (⟨S600000, .i32⟩ : BufTy).Contents (Elt F)),
    binary main_v169 main_v172 main_v173 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v174 (broadcastInDim S600000 ![] bcast_S_S600000 : (⟨S_, .i32⟩ : BufTy).Contents (Elt F) → (⟨S600000, .i32⟩ : BufTy).Contents (Elt F)),
    binary main_v169 main_v174 main_v175 (addi : (⟨S600000, .i32⟩ : BufTy).Contents (Elt F) → (⟨S600000, .i32⟩ : BufTy).Contents (Elt F) → (⟨S600000, .i32⟩ : BufTy).Contents (Elt F)),
    ternary main_v173 main_v175 main_v169 main_v176 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v176 main_v177 (broadcastInDim S600000x1 ![0] bcast_S600000_S600000x1_0 : (⟨S600000, .i32⟩ : BufTy).Contents (Elt F) → (⟨S600000x1, .i32⟩ : BufTy).Contents (Elt F)),
    binary main_v151 main_v177 main_v178 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_12 (constant S_ .f32 0x00000000#32),
    unary main_cst_12 main_v179 (broadcastInDim S50000x128 ![] bcast_S_S50000x128 : (⟨S_, .f32⟩ : BufTy).Contents (Elt F) → (⟨S50000x128, .f32⟩ : BufTy).Contents (Elt F)),
    unary main_v171 main_v180 (broadcastInDim S600000x1 ![0] bcast_S600000_S600000x1_0 : (⟨S600000, .i32⟩ : BufTy).Contents (Elt F) → (⟨S600000x1, .i32⟩ : BufTy).Contents (Elt F)),
    ternary main_v179 main_v180 main_v178 main_v181 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- Layer 3: the dense part. -/
def opsB3 : List (HloOp τ sig (Elt F)) :=
  [ binary main_v151 main_v181 main_v182 (addf : (⟨S50000x128, .f32⟩ : BufTy).Contents (Elt F) → (⟨S50000x128, .f32⟩ : BufTy).Contents (Elt F) → (⟨S50000x128, .f32⟩ : BufTy).Contents (Elt F)),
    unary main_v153 main_v183 ((transpose S128x128 [1, 0] · transposes_S128x128_S128x128_1_0) : (⟨S128x128, .f32⟩ : BufTy).Contents (Elt F) → (⟨S128x128, .f32⟩ : BufTy).Contents (Elt F)),
    binary main_v182 main_v183 main_v184 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v155 main_v185 (broadcastInDim S1x128 ![1] bcast_S128_S1x128_1 : (⟨S128, .f32⟩ : BufTy).Contents (Elt F) → (⟨S1x128, .f32⟩ : BufTy).Contents (Elt F)),
    unary main_v185 main_v186 (broadcastInDim S50000x128 ![0, 1] bcast_S1x128_S50000x128_0_1 : (⟨S1x128, .f32⟩ : BufTy).Contents (Elt F) → (⟨S50000x128, .f32⟩ : BufTy).Contents (Elt F)),
    binary main_v184 main_v186 main_v187 (addf : (⟨S50000x128, .f32⟩ : BufTy).Contents (Elt F) → (⟨S50000x128, .f32⟩ : BufTy).Contents (Elt F) → (⟨S50000x128, .f32⟩ : BufTy).Contents (Elt F)),
    unary main_v161 main_v188 (broadcastInDim S1x128 ![1] bcast_S128_S1x128_1 : (⟨S128, .f32⟩ : BufTy).Contents (Elt F) → (⟨S1x128, .f32⟩ : BufTy).Contents (Elt F)),
    unary main_v188 main_v189 (broadcastInDim S50000x128 ![0, 1] bcast_S1x128_S50000x128_0_1 : (⟨S1x128, .f32⟩ : BufTy).Contents (Elt F) → (⟨S50000x128, .f32⟩ : BufTy).Contents (Elt F)),
    binary main_v187 main_v189 main_v190 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v191 (broadcastInDim S128 ![] bcast_S_S128 : (⟨S_, .f32⟩ : BufTy).Contents (Elt F) → (⟨S128, .f32⟩ : BufTy).Contents (Elt F)),
    binary main_v163 main_v191 main_v192 (addf : (⟨S128, .f32⟩ : BufTy).Contents (Elt F) → (⟨S128, .f32⟩ : BufTy).Contents (Elt F) → (⟨S128, .f32⟩ : BufTy).Contents (Elt F)),
    unary main_v192 main_v193 (Host.rsqrt : (⟨S128, .f32⟩ : BufTy).Contents (Elt F) → (⟨S128, .f32⟩ : BufTy).Contents (Elt F)),
    binary main_v157 main_v193 main_v194 (mulf : (⟨S128, .f32⟩ : BufTy).Contents (Elt F) → (⟨S128, .f32⟩ : BufTy).Contents (Elt F) → (⟨S128, .f32⟩ : BufTy).Contents (Elt F)),
    unary main_v194 main_v195 (broadcastInDim S1x128 ![1] bcast_S128_S1x128_1 : (⟨S128, .f32⟩ : BufTy).Contents (Elt F) → (⟨S1x128, .f32⟩ : BufTy).Contents (Elt F)),
    unary main_v195 main_v196 (broadcastInDim S50000x128 ![0, 1] bcast_S1x128_S50000x128_0_1 : (⟨S1x128, .f32⟩ : BufTy).Contents (Elt F) → (⟨S50000x128, .f32⟩ : BufTy).Contents (Elt F)),
    binary main_v190 main_v196 main_v197 (mulf : (⟨S50000x128, .f32⟩ : BufTy).Contents (Elt F) → (⟨S50000x128, .f32⟩ : BufTy).Contents (Elt F) → (⟨S50000x128, .f32⟩ : BufTy).Contents (Elt F)),
    unary main_v159 main_v198 (broadcastInDim S1x128 ![1] bcast_S128_S1x128_1 : (⟨S128, .f32⟩ : BufTy).Contents (Elt F) → (⟨S1x128, .f32⟩ : BufTy).Contents (Elt F)),
    unary main_v198 main_v199 (broadcastInDim S50000x128 ![0, 1] bcast_S1x128_S50000x128_0_1 : (⟨S1x128, .f32⟩ : BufTy).Contents (Elt F) → (⟨S50000x128, .f32⟩ : BufTy).Contents (Elt F)),
    binary main_v197 main_v199 main_v200 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v200) (TRef.of (T := ⟨S50000x128, .f32⟩) main_call6_v0) (TRef.of (T := ⟨S50000x128, .f32⟩) main_v201) maximumf,
    unary main_v165 main_v202 ((transpose S128x128 [1, 0] · transposes_S128x128_S128x128_1_0) : (⟨S128x128, .f32⟩ : BufTy).Contents (Elt F) → (⟨S128x128, .f32⟩ : BufTy).Contents (Elt F)),
    binary main_v201 main_v202 main_v203 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v167 main_v204 (broadcastInDim S1x128 ![1] bcast_S128_S1x128_1 : (⟨S128, .f32⟩ : BufTy).Contents (Elt F) → (⟨S1x128, .f32⟩ : BufTy).Contents (Elt F)),
    unary main_v204 main_v205 (broadcastInDim S50000x128 ![0, 1] bcast_S1x128_S50000x128_0_1 : (⟨S1x128, .f32⟩ : BufTy).Contents (Elt F) → (⟨S50000x128, .f32⟩ : BufTy).Contents (Elt F)),
    binary main_v203 main_v205 main_v206 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v206) (TRef.of (T := ⟨S50000x128, .f32⟩) main_call7_v0) (TRef.of (T := ⟨S50000x128, .f32⟩) main_v207) maximumf ]

/-- The readout. -/
def opsT : List (HloOp τ sig (Elt F)) :=
  [ nullary main_cst_14 (constant S_ .f32 0x00000000#32),
    binary main_v39 main_cst_14 main_v208 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v208 main_v209 (broadcastInDim S1x128 ![1] bcast_S128_S1x128_1 : (⟨S128, .f32⟩ : BufTy).Contents (Elt F) → (⟨S1x128, .f32⟩ : BufTy).Contents (Elt F)),
    nullary main_cst_15 (constant S_ .f32 0x00000000#32),
    binary main_v95 main_cst_15 main_v210 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v210 main_v211 (broadcastInDim S1x128 ![1] bcast_S128_S1x128_1 : (⟨S128, .f32⟩ : BufTy).Contents (Elt F) → (⟨S1x128, .f32⟩ : BufTy).Contents (Elt F)),
    nullary main_cst_16 (constant S_ .f32 0x00000000#32),
    binary main_v151 main_cst_16 main_v212 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v212 main_v213 (broadcastInDim S1x128 ![1] bcast_S128_S1x128_1 : (⟨S128, .f32⟩ : BufTy).Contents (Elt F) → (⟨S1x128, .f32⟩ : BufTy).Contents (Elt F)),
    nullary main_cst_17 (constant S_ .f32 0x00000000#32),
    binary main_v207 main_cst_17 main_v214 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v214 main_v215 (broadcastInDim S1x128 ![1] bcast_S128_S1x128_1 : (⟨S128, .f32⟩ : BufTy).Contents (Elt F) → (⟨S1x128, .f32⟩ : BufTy).Contents (Elt F)),
    nary ![main_v209, main_v211, main_v213, main_v215] main_v216 (fun u => concatenate S1x512 1 [⟨S1x128, u 0⟩, ⟨S1x128, u 1⟩, ⟨S1x128, u 2⟩, ⟨S1x128, u 3⟩] concatenates_S1x128_S1x128_S1x128_S1x128_S1x512_d1),
    unary main_arg18 main_v217 ((transpose S512x10 [1, 0] · transposes_S10x512_S512x10_1_0) : (⟨S10x512, .f32⟩ : BufTy).Contents (Elt F) → (⟨S512x10, .f32⟩ : BufTy).Contents (Elt F)),
    binary main_v216 main_v217 main_v218 ((fun l r => Host.dotGeneral dot_S1x512_S512x10_S1x10_1_0_0_1_n_n none l r) : (⟨S1x512, .f32⟩ : BufTy).Contents (Elt F) → (⟨S512x10, .f32⟩ : BufTy).Contents (Elt F) → (⟨S1x10, .f32⟩ : BufTy).Contents (Elt F)),
    unary main_arg19 main_v219 (broadcastInDim S1x10 ![1] bcast_S10_S1x10_1 : (⟨S10, .f32⟩ : BufTy).Contents (Elt F) → (⟨S1x10, .f32⟩ : BufTy).Contents (Elt F)),
    binary main_v218 main_v219 main_v220 (addf : (⟨S1x10, .f32⟩ : BufTy).Contents (Elt F) → (⟨S1x10, .f32⟩ : BufTy).Contents (Elt F) → (⟨S1x10, .f32⟩ : BufTy).Contents (Elt F)) ]

/-- @main's 257 operations, in order. -/
def ops : List (HloOp τ sig (Elt F)) :=
  opsA0 (F := F) ++ opsB0 (F := F) ++ opsP1 (F := F) ++ opsA1 (F := F) ++ opsB1 (F := F) ++ opsP2 (F := F) ++ opsA2 (F := F) ++ opsB2 (F := F) ++ opsP3 (F := F) ++ opsA3 (F := F) ++ opsB3 (F := F) ++ opsT (F := F)

theorem main_eq (c : Dev nD) : main (F := F) c = seq (ops (F := F)) := rfl
theorem scopedRefs_eq : (Finset.univ.filter fun b : Ref sig .tc => b.isScoped) = ∅ := by decide
theorem scopedSems_eq : (Finset.univ.filter fun sm : SemLoc sig => sm.isScoped .tc) = ∅ := by decide

theorem opsA0_sub : (opsA0 (F := F)).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem opsB0_sub : (opsB0 (F := F)).Forall fun op => op.bufs ⊆ tcRefs τ sig :=
  ⟨binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem opsP1_sub : (opsP1 (F := F)).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
theorem opsA1_sub : (opsA1 (F := F)).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem opsB1_sub : (opsB1 (F := F)).Forall fun op => op.bufs ⊆ tcRefs τ sig :=
  ⟨binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem opsP2_sub : (opsP2 (F := F)).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
theorem opsA2_sub : (opsA2 (F := F)).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem opsB2_sub : (opsB2 (F := F)).Forall fun op => op.bufs ⊆ tcRefs τ sig :=
  ⟨binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem opsP3_sub : (opsP3 (F := F)).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
theorem opsA3_sub : (opsA3 (F := F)).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem opsB3_sub : (opsB3 (F := F)).Forall fun op => op.bufs ⊆ tcRefs τ sig :=
  ⟨binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem opsT_sub : (opsT (F := F)).Forall fun op => op.bufs ⊆ tcRefs τ sig :=
  ⟨nullary_bufs_sub .., binary_bufs_sub .., unary_bufs_sub .., nullary_bufs_sub .., binary_bufs_sub .., unary_bufs_sub .., nullary_bufs_sub .., binary_bufs_sub .., unary_bufs_sub .., nullary_bufs_sub .., binary_bufs_sub .., unary_bufs_sub .., nary_bufs_sub .., unary_bufs_sub .., binary_bufs_sub .., unary_bufs_sub .., binary_bufs_sub ..⟩

theorem ops_sub : (ops (F := F)).Forall fun op => op.bufs ⊆ tcRefs τ sig := by
  rw [List.forall_iff_forall_mem]
  intro op h
  unfold ops at h
  simp only [List.mem_append] at h
  rcases h with ((((((((((h | h) | h) | h) | h) | h) | h) | h) | h) | h) | h) | h
  · exact List.forall_iff_forall_mem.1 opsA0_sub op h
  · exact List.forall_iff_forall_mem.1 opsB0_sub op h
  · exact List.forall_iff_forall_mem.1 opsP1_sub op h
  · exact List.forall_iff_forall_mem.1 opsA1_sub op h
  · exact List.forall_iff_forall_mem.1 opsB1_sub op h
  · exact List.forall_iff_forall_mem.1 opsP2_sub op h
  · exact List.forall_iff_forall_mem.1 opsA2_sub op h
  · exact List.forall_iff_forall_mem.1 opsB2_sub op h
  · exact List.forall_iff_forall_mem.1 opsP3_sub op h
  · exact List.forall_iff_forall_mem.1 opsA3_sub op h
  · exact List.forall_iff_forall_mem.1 opsB3_sub op h
  · exact List.forall_iff_forall_mem.1 opsT_sub op h

theorem opsA0_fresh : ∀ op ∈ opsA0 (F := F), op.fresh = ∅ := by
  intro _ h; unfold opsA0 at h; (repeat (cases h with | head => rfl | tail _ h => ?_)); exact nomatch h
theorem opsB0_fresh : ∀ op ∈ opsB0 (F := F), op.fresh = ∅ := by
  intro _ h; unfold opsB0 at h; (repeat (cases h with | head => rfl | tail _ h => ?_)); exact nomatch h
theorem opsP1_fresh : ∀ op ∈ opsP1 (F := F), op.fresh = ∅ := by
  intro _ h; unfold opsP1 at h; (repeat (cases h with | head => rfl | tail _ h => ?_)); exact nomatch h
theorem opsA1_fresh : ∀ op ∈ opsA1 (F := F), op.fresh = ∅ := by
  intro _ h; unfold opsA1 at h; (repeat (cases h with | head => rfl | tail _ h => ?_)); exact nomatch h
theorem opsB1_fresh : ∀ op ∈ opsB1 (F := F), op.fresh = ∅ := by
  intro _ h; unfold opsB1 at h; (repeat (cases h with | head => rfl | tail _ h => ?_)); exact nomatch h
theorem opsP2_fresh : ∀ op ∈ opsP2 (F := F), op.fresh = ∅ := by
  intro _ h; unfold opsP2 at h; (repeat (cases h with | head => rfl | tail _ h => ?_)); exact nomatch h
theorem opsA2_fresh : ∀ op ∈ opsA2 (F := F), op.fresh = ∅ := by
  intro _ h; unfold opsA2 at h; (repeat (cases h with | head => rfl | tail _ h => ?_)); exact nomatch h
theorem opsB2_fresh : ∀ op ∈ opsB2 (F := F), op.fresh = ∅ := by
  intro _ h; unfold opsB2 at h; (repeat (cases h with | head => rfl | tail _ h => ?_)); exact nomatch h
theorem opsP3_fresh : ∀ op ∈ opsP3 (F := F), op.fresh = ∅ := by
  intro _ h; unfold opsP3 at h; (repeat (cases h with | head => rfl | tail _ h => ?_)); exact nomatch h
theorem opsA3_fresh : ∀ op ∈ opsA3 (F := F), op.fresh = ∅ := by
  intro _ h; unfold opsA3 at h; (repeat (cases h with | head => rfl | tail _ h => ?_)); exact nomatch h
theorem opsB3_fresh : ∀ op ∈ opsB3 (F := F), op.fresh = ∅ := by
  intro _ h; unfold opsB3 at h; (repeat (cases h with | head => rfl | tail _ h => ?_)); exact nomatch h
theorem opsT_fresh : ∀ op ∈ opsT (F := F), op.fresh = ∅ := by
  intro _ h; unfold opsT at h; (repeat (cases h with | head => rfl | tail _ h => ?_)); exact nomatch h

theorem ops_fresh : ∀ op ∈ ops (F := F), op.fresh = ∅ := by
  intro op h
  unfold ops at h
  simp only [List.mem_append] at h
  rcases h with ((((((((((h | h) | h) | h) | h) | h) | h) | h) | h) | h) | h) | h
  · exact opsA0_fresh op h
  · exact opsB0_fresh op h
  · exact opsP1_fresh op h
  · exact opsA1_fresh op h
  · exact opsB1_fresh op h
  · exact opsP2_fresh op h
  · exact opsA2_fresh op h
  · exact opsB2_fresh op h
  · exact opsP3_fresh op h
  · exact opsA3_fresh op h
  · exact opsB3_fresh op h
  · exact opsT_fresh op h

end Cert.ReferenceIdeal.RefValue

end
-- ==== Proof.LibHostLine.lean ====
/-
  A straight line of host operations, each writing one buffer of its own: what a buffer holds at the end of the line.

  The buffers' contents after a line is the fold of the operations' results over the contents before it, so a line
  cut in two folds the second part over what the first leaves.  Suppose every operation of the line writes exactly
  one reference, and cut the line at one operation.  A reference that is none of those the part after the cut writes
  is written by none of its operations, so at the end of the line its buffer holds what it held right after the
  operation at the cut.  For the operation's own result this is the operation's function of what its operands'
  buffers held right before it; and when the operands too are written by nothing from the cut on (in particular are
  not the result), what they held right before the cut is what they hold at the end.  So at the END of the line

      result = f (operand₁ at the end) (operand₂ at the end) …

  for a constant, a one-, a two- and a three-operand operation.  A program in which every value has a buffer of its
  own, written once and after its operands, satisfies the conditions at every operation, and its buffers' final
  contents then follow one operation at a time, each from the earlier ones.
-/
import Idealize.ShloMosaic.Lib.StableHlo.Run

noncomputable section

namespace Cert.Lib.HostLine

open Idealize.ShloMosaic Idealize.ShloMosaic.StableHlo

variable {τ : Topo} {sig : RefSig} {Val : EltTy → Type}

variable {τ : Topo} {sig : RefSig} {Val : EltTy → Type}

/-- Operation by operation, the one reference each operation of a line writes. -/
abbrev WritesOne (l : List (HloOp τ sig Val)) (w : List (Ref sig .tc)) : Prop :=
  List.Forall₂ (fun op r => op.writes = {Proc.devRef (τ := τ) .tc r}) l w

/-- Two lines run one after the other: the second folds over what the first leaves. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A reference that is none of those a line writes is written by none of its operations. -/
theorem not_written {l : List (HloOp τ sig Val)} {w : List (Ref sig .tc)} (h : WritesOne l w) :
    ∀ {r : Ref sig .tc}, r ∉ w → ∀ op ∈ l, Proc.devRef (τ := τ) .tc r ∉ op.writes := by
  induction h with
  | nil => intro r _ op hop; cases hop
  | @cons op' r' l' w' hab _ ih =>
    intro r hr op hop
    rcases List.mem_cons.mp hop with rfl | hop
    · rw [hab, Finset.mem_singleton]
      exact devRef_ne_of_ne fun e => hr (e ▸ List.mem_cons_self)
    · exact ih (fun hm => hr (List.mem_cons_of_mem _ hm)) op hop

/-- A buffer the rest of the line does not write holds at the end what it held after the operation at the cut. -/
theorem after_cut {l pre post : List (HloOp τ sig Val)} {op : HloOp τ sig Val} {wpost : List (Ref sig .tc)}
    (e : l = pre ++ op :: post) (hpost : WritesOne post wpost) (V : Valuation τ sig Val)
    {r : Ref sig .tc} (hr : r ∉ wpost) :
    after l V (Proc.devRef .tc r) = op.result (after pre V) (Proc.devRef .tc r) := by
  subst e
  rw [after_app, after_cons]
  exact after_of_forall_not_mem post _ (not_written hpost hr)

/-- A constant's buffer, not written again, holds the constant at the end. -/
theorem fin_nullary {l pre post : List (HloOp τ sig Val)} {wpost : List (Ref sig .tc)} (V : Valuation τ sig Val)
    (y : Ref sig .tc) (v : y.ty.Contents Val) (hy)
    (e : l = pre ++ nullary y v hy :: post) (hpost : WritesOne post wpost) (hy' : y ∉ wpost) :
    after l V (Proc.devRef .tc y) = v := by
  rw [after_cut e hpost V hy', nullary_result]

/-- A one-operand operation's buffer, not written again, holds at the end the operation's function of what the
    operand's buffer holds at the end, when nothing from the operation on writes the operand. -/
theorem fin_unary {l pre post : List (HloOp τ sig Val)} {wpost : List (Ref sig .tc)} (V : Valuation τ sig Val)
    (x y : Ref sig .tc) (f : x.ty.Contents Val → y.ty.Contents Val) (hx hy)
    (e : l = pre ++ unary x y f hx hy :: post) (hpost : WritesOne post wpost)
    (hy' : y ∉ wpost) (hx' : x ∉ y :: wpost) :
    after l V (Proc.devRef .tc y) = f (after l V (Proc.devRef .tc x)) := by
  have nx : x ≠ y := fun h => hx' (by rw [h]; exact List.mem_cons_self)
  rw [after_cut e hpost V hy', after_cut e hpost V (fun h => hx' (List.mem_cons_of_mem _ h)), unary_result,
    unary_result_ne x y f hx hy _ nx]

/-- The same for two operands. -/
theorem fin_binary {l pre post : List (HloOp τ sig Val)} {wpost : List (Ref sig .tc)} (V : Valuation τ sig Val)
    (a b y : Ref sig .tc) (f : a.ty.Contents Val → b.ty.Contents Val → y.ty.Contents Val) (ha hb hy)
    (e : l = pre ++ binary a b y f ha hb hy :: post) (hpost : WritesOne post wpost)
    (hy' : y ∉ wpost) (ha' : a ∉ y :: wpost) (hb' : b ∉ y :: wpost) :
    after l V (Proc.devRef .tc y) = f (after l V (Proc.devRef .tc a)) (after l V (Proc.devRef .tc b)) := by
  have na : a ≠ y := fun h => ha' (by rw [h]; exact List.mem_cons_self)
  have nb : b ≠ y := fun h => hb' (by rw [h]; exact List.mem_cons_self)
  rw [after_cut e hpost V hy', after_cut e hpost V (fun h => ha' (List.mem_cons_of_mem _ h)),
    after_cut e hpost V (fun h => hb' (List.mem_cons_of_mem _ h)), binary_result,
    binary_result_ne a b y f ha hb hy _ na, binary_result_ne a b y f ha hb hy _ nb]

/-- The same for three operands. -/
theorem fin_ternary {l pre post : List (HloOp τ sig Val)} {wpost : List (Ref sig .tc)} (V : Valuation τ sig Val)
    (c a b y : Ref sig .tc) (f : c.ty.Contents Val → a.ty.Contents Val → b.ty.Contents Val → y.ty.Contents Val) (hc ha hb hy)
    (e : l = pre ++ ternary c a b y f hc ha hb hy :: post) (hpost : WritesOne post wpost)
    (hy' : y ∉ wpost) (hc' : c ∉ y :: wpost) (ha' : a ∉ y :: wpost) (hb' : b ∉ y :: wpost) :
    after l V (Proc.devRef .tc y)
      = f (after l V (Proc.devRef .tc c)) (after l V (Proc.devRef .tc a)) (after l V (Proc.devRef .tc b)) := by
  have nc : c ≠ y := fun h => hc' (by rw [h]; exact List.mem_cons_self)
  have na : a ≠ y := fun h => ha' (by rw [h]; exact List.mem_cons_self)
  have nb : b ≠ y := fun h => hb' (by rw [h]; exact List.mem_cons_self)
  rw [after_cut e hpost V hy', after_cut e hpost V (fun h => hc' (List.mem_cons_of_mem _ h)),
    after_cut e hpost V (fun h => ha' (List.mem_cons_of_mem _ h)),
    after_cut e hpost V (fun h => hb' (List.mem_cons_of_mem _ h)), ternary_result,
    ternary_result_ne a b c y f hc ha hb hy _ nc, ternary_result_ne a b c y f hc ha hb hy _ na,
    ternary_result_ne a b c y f hc ha hb hy _ nb]

end Cert.Lib.HostLine

end
-- ==== Proof.Ref.Chunks.lean ====
/-
  What each stretch of the reference's line leaves in its buffers, from any contents before it: the buffers it does not
  write keep their contents; its result buffer holds the stretch's stage function of what its operand buffers held.
-/
import proofs.«156729_j87711822119196_1_alg».proof.Proof.Ref.Ops
import proofs.«156729_j87711822119196_1_alg».proof.Proof.Ref.Stages
import proofs.«156729_j87711822119196_1_alg».proof.Proof.LibHostLine

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Lib.HostLine

variable {F : FTy → Type} [FloatOps F]

/-- The buffers the stretch `opsA0` writes, operation by operation. -/
def wA0 : List (Ref sig .tc) :=
  [main_v0, main_v1, main_v2, main_v3, main_c, main_v4, main_v5, main_c_0, main_v6, main_v7, main_v8, main_v9, main_v10, main_cst, main_v11, main_v12, main_v13]

/-- The buffers the stretch `opsB0` writes, operation by operation. -/
def wB0 : List (Ref sig .tc) :=
  [main_v14, main_v15, main_v16, main_v17, main_v18, main_v19, main_v20, main_v21, main_v22, main_cst_1, main_v23, main_v24, main_v25, main_v26, main_v27, main_v28, main_v29, main_v30, main_v31, main_v32, main_call0_cst, main_call0_v0, main_v33, main_v34, main_v35, main_v36, main_v37, main_v38, main_call1_cst, main_call1_v0, main_v39]

/-- The buffers the stretch `opsP1` writes, operation by operation. -/
def wP1 : List (Ref sig .tc) :=
  [main_v40, main_v41, main_v42, main_v43, main_v44, main_v45, main_v46, main_v47, main_v48, main_v49, main_v50, main_v51, main_v52, main_v53, main_v54, main_v55]

/-- The buffers the stretch `opsA1` writes, operation by operation. -/
def wA1 : List (Ref sig .tc) :=
  [main_v56, main_v57, main_v58, main_v59, main_c_2, main_v60, main_v61, main_c_3, main_v62, main_v63, main_v64, main_v65, main_v66, main_cst_4, main_v67, main_v68, main_v69]

/-- The buffers the stretch `opsB1` writes, operation by operation. -/
def wB1 : List (Ref sig .tc) :=
  [main_v70, main_v71, main_v72, main_v73, main_v74, main_v75, main_v76, main_v77, main_v78, main_cst_5, main_v79, main_v80, main_v81, main_v82, main_v83, main_v84, main_v85, main_v86, main_v87, main_v88, main_call2_cst, main_call2_v0, main_v89, main_v90, main_v91, main_v92, main_v93, main_v94, main_call3_cst, main_call3_v0, main_v95]

/-- The buffers the stretch `opsP2` writes, operation by operation. -/
def wP2 : List (Ref sig .tc) :=
  [main_v96, main_v97, main_v98, main_v99, main_v100, main_v101, main_v102, main_v103, main_v104, main_v105, main_v106, main_v107, main_v108, main_v109, main_v110, main_v111]

/-- The buffers the stretch `opsA2` writes, operation by operation. -/
def wA2 : List (Ref sig .tc) :=
  [main_v112, main_v113, main_v114, main_v115, main_c_6, main_v116, main_v117, main_c_7, main_v118, main_v119, main_v120, main_v121, main_v122, main_cst_8, main_v123, main_v124, main_v125]

/-- The buffers the stretch `opsB2` writes, operation by operation. -/
def wB2 : List (Ref sig .tc) :=
  [main_v126, main_v127, main_v128, main_v129, main_v130, main_v131, main_v132, main_v133, main_v134, main_cst_9, main_v135, main_v136, main_v137, main_v138, main_v139, main_v140, main_v141, main_v142, main_v143, main_v144, main_call4_cst, main_call4_v0, main_v145, main_v146, main_v147, main_v148, main_v149, main_v150, main_call5_cst, main_call5_v0, main_v151]

/-- The buffers the stretch `opsP3` writes, operation by operation. -/
def wP3 : List (Ref sig .tc) :=
  [main_v152, main_v153, main_v154, main_v155, main_v156, main_v157, main_v158, main_v159, main_v160, main_v161, main_v162, main_v163, main_v164, main_v165, main_v166, main_v167]

/-- The buffers the stretch `opsA3` writes, operation by operation. -/
def wA3 : List (Ref sig .tc) :=
  [main_v168, main_v169, main_v170, main_v171, main_c_10, main_v172, main_v173, main_c_11, main_v174, main_v175, main_v176, main_v177, main_v178, main_cst_12, main_v179, main_v180, main_v181]

/-- The buffers the stretch `opsB3` writes, operation by operation. -/
def wB3 : List (Ref sig .tc) :=
  [main_v182, main_v183, main_v184, main_v185, main_v186, main_v187, main_v188, main_v189, main_v190, main_cst_13, main_v191, main_v192, main_v193, main_v194, main_v195, main_v196, main_v197, main_v198, main_v199, main_v200, main_call6_cst, main_call6_v0, main_v201, main_v202, main_v203, main_v204, main_v205, main_v206, main_call7_cst, main_call7_v0, main_v207]

/-- The buffers the stretch `opsT` writes, operation by operation. -/
def wT : List (Ref sig .tc) :=
  [main_cst_14, main_v208, main_v209, main_cst_15, main_v210, main_v211, main_cst_16, main_v212, main_v213, main_cst_17, main_v214, main_v215, main_v216, main_v217, main_v218, main_v219, main_v220]

theorem opsA0_writes : WritesOne (τ := τ) (opsA0 (F := F)) wA0 := by
  unfold opsA0 wA0
  repeat (first | exact List.Forall₂.nil | refine List.Forall₂.cons rfl ?_)

/-- A buffer the stretch `opsA0` does not write keeps its contents. -/
theorem opsA0_keeps (U : Valuation τ sig (Elt F)) {r : Ref sig .tc} (hr : r ∉ wA0) :
    after (opsA0 (F := F)) U (no_index (Proc.devRef .tc r)) = U (Proc.devRef .tc r) :=
  after_of_forall_not_mem _ U (not_written opsA0_writes hr)

theorem opsB0_writes : WritesOne (τ := τ) (opsB0 (F := F)) wB0 := by
  unfold opsB0 wB0
  repeat (first | exact List.Forall₂.nil | refine List.Forall₂.cons rfl ?_)

/-- A buffer the stretch `opsB0` does not write keeps its contents. -/
theorem opsB0_keeps (U : Valuation τ sig (Elt F)) {r : Ref sig .tc} (hr : r ∉ wB0) :
    after (opsB0 (F := F)) U (no_index (Proc.devRef .tc r)) = U (Proc.devRef .tc r) :=
  after_of_forall_not_mem _ U (not_written opsB0_writes hr)

theorem opsP1_writes : WritesOne (τ := τ) (opsP1 (F := F)) wP1 := by
  unfold opsP1 wP1
  repeat (first | exact List.Forall₂.nil | refine List.Forall₂.cons rfl ?_)

/-- A buffer the stretch `opsP1` does not write keeps its contents. -/
theorem opsP1_keeps (U : Valuation τ sig (Elt F)) {r : Ref sig .tc} (hr : r ∉ wP1) :
    after (opsP1 (F := F)) U (no_index (Proc.devRef .tc r)) = U (Proc.devRef .tc r) :=
  after_of_forall_not_mem _ U (not_written opsP1_writes hr)

theorem opsA1_writes : WritesOne (τ := τ) (opsA1 (F := F)) wA1 := by
  unfold opsA1 wA1
  repeat (first | exact List.Forall₂.nil | refine List.Forall₂.cons rfl ?_)

/-- A buffer the stretch `opsA1` does not write keeps its contents. -/
theorem opsA1_keeps (U : Valuation τ sig (Elt F)) {r : Ref sig .tc} (hr : r ∉ wA1) :
    after (opsA1 (F := F)) U (no_index (Proc.devRef .tc r)) = U (Proc.devRef .tc r) :=
  after_of_forall_not_mem _ U (not_written opsA1_writes hr)

theorem opsB1_writes : WritesOne (τ := τ) (opsB1 (F := F)) wB1 := by
  unfold opsB1 wB1
  repeat (first | exact List.Forall₂.nil | refine List.Forall₂.cons rfl ?_)

/-- A buffer the stretch `opsB1` does not write keeps its contents. -/
theorem opsB1_keeps (U : Valuation τ sig (Elt F)) {r : Ref sig .tc} (hr : r ∉ wB1) :
    after (opsB1 (F := F)) U (no_index (Proc.devRef .tc r)) = U (Proc.devRef .tc r) :=
  after_of_forall_not_mem _ U (not_written opsB1_writes hr)

theorem opsP2_writes : WritesOne (τ := τ) (opsP2 (F := F)) wP2 := by
  unfold opsP2 wP2
  repeat (first | exact List.Forall₂.nil | refine List.Forall₂.cons rfl ?_)

/-- A buffer the stretch `opsP2` does not write keeps its contents. -/
theorem opsP2_keeps (U : Valuation τ sig (Elt F)) {r : Ref sig .tc} (hr : r ∉ wP2) :
    after (opsP2 (F := F)) U (no_index (Proc.devRef .tc r)) = U (Proc.devRef .tc r) :=
  after_of_forall_not_mem _ U (not_written opsP2_writes hr)

theorem opsA2_writes : WritesOne (τ := τ) (opsA2 (F := F)) wA2 := by
  unfold opsA2 wA2
  repeat (first | exact List.Forall₂.nil | refine List.Forall₂.cons rfl ?_)

/-- A buffer the stretch `opsA2` does not write keeps its contents. -/
theorem opsA2_keeps (U : Valuation τ sig (Elt F)) {r : Ref sig .tc} (hr : r ∉ wA2) :
    after (opsA2 (F := F)) U (no_index (Proc.devRef .tc r)) = U (Proc.devRef .tc r) :=
  after_of_forall_not_mem _ U (not_written opsA2_writes hr)

theorem opsB2_writes : WritesOne (τ := τ) (opsB2 (F := F)) wB2 := by
  unfold opsB2 wB2
  repeat (first | exact List.Forall₂.nil | refine List.Forall₂.cons rfl ?_)

/-- A buffer the stretch `opsB2` does not write keeps its contents. -/
theorem opsB2_keeps (U : Valuation τ sig (Elt F)) {r : Ref sig .tc} (hr : r ∉ wB2) :
    after (opsB2 (F := F)) U (no_index (Proc.devRef .tc r)) = U (Proc.devRef .tc r) :=
  after_of_forall_not_mem _ U (not_written opsB2_writes hr)

theorem opsP3_writes : WritesOne (τ := τ) (opsP3 (F := F)) wP3 := by
  unfold opsP3 wP3
  repeat (first | exact List.Forall₂.nil | refine List.Forall₂.cons rfl ?_)

/-- A buffer the stretch `opsP3` does not write keeps its contents. -/
theorem opsP3_keeps (U : Valuation τ sig (Elt F)) {r : Ref sig .tc} (hr : r ∉ wP3) :
    after (opsP3 (F := F)) U (no_index (Proc.devRef .tc r)) = U (Proc.devRef .tc r) :=
  after_of_forall_not_mem _ U (not_written opsP3_writes hr)

theorem opsA3_writes : WritesOne (τ := τ) (opsA3 (F := F)) wA3 := by
  unfold opsA3 wA3
  repeat (first | exact List.Forall₂.nil | refine List.Forall₂.cons rfl ?_)

/-- A buffer the stretch `opsA3` does not write keeps its contents. -/
theorem opsA3_keeps (U : Valuation τ sig (Elt F)) {r : Ref sig .tc} (hr : r ∉ wA3) :
    after (opsA3 (F := F)) U (no_index (Proc.devRef .tc r)) = U (Proc.devRef .tc r) :=
  after_of_forall_not_mem _ U (not_written opsA3_writes hr)

theorem opsB3_writes : WritesOne (τ := τ) (opsB3 (F := F)) wB3 := by
  unfold opsB3 wB3
  repeat (first | exact List.Forall₂.nil | refine List.Forall₂.cons rfl ?_)

/-- A buffer the stretch `opsB3` does not write keeps its contents. -/
theorem opsB3_keeps (U : Valuation τ sig (Elt F)) {r : Ref sig .tc} (hr : r ∉ wB3) :
    after (opsB3 (F := F)) U (no_index (Proc.devRef .tc r)) = U (Proc.devRef .tc r) :=
  after_of_forall_not_mem _ U (not_written opsB3_writes hr)

theorem opsT_writes : WritesOne (τ := τ) (opsT (F := F)) wT := by
  unfold opsT wT
  repeat (first | exact List.Forall₂.nil | refine List.Forall₂.cons rfl ?_)

/-- A buffer the stretch `opsT` does not write keeps its contents. -/
theorem opsT_keeps (U : Valuation τ sig (Elt F)) {r : Ref sig .tc} (hr : r ∉ wT) :
    after (opsT (F := F)) U (no_index (Proc.devRef .tc r)) = U (Proc.devRef .tc r) :=
  after_of_forall_not_mem _ U (not_written opsT_writes hr)

/-- Layer 0's neighbour-sum stretch leaves the neighbour sum of what the layer's input buffer holds. -/
theorem opsA0_out (U : Valuation τ sig (Elt F)) :
    after (opsA0 (F := F)) U (Proc.devRef .tc main_v13) = aggR (U (Proc.devRef .tc main_arg0)) (U (Proc.devRef .tc main_arg1)) := by
  unfold opsA0
  after_results_simp <;> rfl

/-- Layer 0's dense stretch leaves the dense part of what its input, neighbour-sum and parameter buffers hold. -/
theorem opsB0_out (U : Valuation τ sig (Elt F)) :
    after (opsB0 (F := F)) U (Proc.devRef .tc main_v39)
      = denseR (U (Proc.devRef .tc main_arg0)) (U (Proc.devRef .tc main_v13)) (U (Proc.devRef .tc main_arg2)) (U (Proc.devRef .tc main_arg3)) (U (Proc.devRef .tc main_arg4)) (U (Proc.devRef .tc main_arg5))
          (U (Proc.devRef .tc main_arg6)) (U (Proc.devRef .tc main_arg7)) (U (Proc.devRef .tc main_arg8)) (U (Proc.devRef .tc main_arg9)) := by
  unfold opsB0
  after_results_simp <;> rfl

/-- Layer 1's neighbour-sum stretch leaves the neighbour sum of what the layer's input buffer holds. -/
theorem opsA1_out (U : Valuation τ sig (Elt F)) :
    after (opsA1 (F := F)) U (Proc.devRef .tc main_v69) = aggR (U (Proc.devRef .tc main_v39)) (U (Proc.devRef .tc main_arg1)) := by
  unfold opsA1
  after_results_simp <;> rfl

/-- Layer 1's dense stretch leaves the dense part of what its input, neighbour-sum and parameter buffers hold. -/
theorem opsB1_out (U : Valuation τ sig (Elt F)) :
    after (opsB1 (F := F)) U (Proc.devRef .tc main_v95)
      = denseR (U (Proc.devRef .tc main_v39)) (U (Proc.devRef .tc main_v69)) (U (Proc.devRef .tc main_v41)) (U (Proc.devRef .tc main_v43)) (U (Proc.devRef .tc main_v45)) (U (Proc.devRef .tc main_v47))
          (U (Proc.devRef .tc main_v49)) (U (Proc.devRef .tc main_v51)) (U (Proc.devRef .tc main_v53)) (U (Proc.devRef .tc main_v55)) := by
  unfold opsB1
  after_results_simp <;> rfl

theorem opsP1_out0 (U : Valuation τ sig (Elt F)) :
    after (opsP1 (F := F)) U (Proc.devRef .tc main_v41) = sliceW0 (U (Proc.devRef .tc main_arg10)) := by
  unfold opsP1
  after_results_simp <;> rfl

theorem opsP1_out1 (U : Valuation τ sig (Elt F)) :
    after (opsP1 (F := F)) U (Proc.devRef .tc main_v43) = sliceV0 (U (Proc.devRef .tc main_arg11)) := by
  unfold opsP1
  after_results_simp <;> rfl

theorem opsP1_out2 (U : Valuation τ sig (Elt F)) :
    after (opsP1 (F := F)) U (Proc.devRef .tc main_v45) = sliceV0 (U (Proc.devRef .tc main_arg12)) := by
  unfold opsP1
  after_results_simp <;> rfl

theorem opsP1_out3 (U : Valuation τ sig (Elt F)) :
    after (opsP1 (F := F)) U (Proc.devRef .tc main_v47) = sliceV0 (U (Proc.devRef .tc main_arg13)) := by
  unfold opsP1
  after_results_simp <;> rfl

theorem opsP1_out4 (U : Valuation τ sig (Elt F)) :
    after (opsP1 (F := F)) U (Proc.devRef .tc main_v49) = sliceV0 (U (Proc.devRef .tc main_arg14)) := by
  unfold opsP1
  after_results_simp <;> rfl

theorem opsP1_out5 (U : Valuation τ sig (Elt F)) :
    after (opsP1 (F := F)) U (Proc.devRef .tc main_v51) = sliceV0 (U (Proc.devRef .tc main_arg15)) := by
  unfold opsP1
  after_results_simp <;> rfl

theorem opsP1_out6 (U : Valuation τ sig (Elt F)) :
    after (opsP1 (F := F)) U (Proc.devRef .tc main_v53) = sliceW0 (U (Proc.devRef .tc main_arg16)) := by
  unfold opsP1
  after_results_simp <;> rfl

theorem opsP1_out7 (U : Valuation τ sig (Elt F)) :
    after (opsP1 (F := F)) U (Proc.devRef .tc main_v55) = sliceV0 (U (Proc.devRef .tc main_arg17)) := by
  unfold opsP1
  after_results_simp <;> rfl

/-- Layer 2's neighbour-sum stretch leaves the neighbour sum of what the layer's input buffer holds. -/
theorem opsA2_out (U : Valuation τ sig (Elt F)) :
    after (opsA2 (F := F)) U (Proc.devRef .tc main_v125) = aggR (U (Proc.devRef .tc main_v95)) (U (Proc.devRef .tc main_arg1)) := by
  unfold opsA2
  after_results_simp <;> rfl

/-- Layer 2's dense stretch leaves the dense part of what its input, neighbour-sum and parameter buffers hold. -/
theorem opsB2_out (U : Valuation τ sig (Elt F)) :
    after (opsB2 (F := F)) U (Proc.devRef .tc main_v151)
      = denseR (U (Proc.devRef .tc main_v95)) (U (Proc.devRef .tc main_v125)) (U (Proc.devRef .tc main_v97)) (U (Proc.devRef .tc main_v99)) (U (Proc.devRef .tc main_v101)) (U (Proc.devRef .tc main_v103))
          (U (Proc.devRef .tc main_v105)) (U (Proc.devRef .tc main_v107)) (U (Proc.devRef .tc main_v109)) (U (Proc.devRef .tc main_v111)) := by
  unfold opsB2
  after_results_simp <;> rfl

theorem opsP2_out0 (U : Valuation τ sig (Elt F)) :
    after (opsP2 (F := F)) U (Proc.devRef .tc main_v97) = sliceW1 (U (Proc.devRef .tc main_arg10)) := by
  unfold opsP2
  after_results_simp <;> rfl

theorem opsP2_out1 (U : Valuation τ sig (Elt F)) :
    after (opsP2 (F := F)) U (Proc.devRef .tc main_v99) = sliceV1 (U (Proc.devRef .tc main_arg11)) := by
  unfold opsP2
  after_results_simp <;> rfl

theorem opsP2_out2 (U : Valuation τ sig (Elt F)) :
    after (opsP2 (F := F)) U (Proc.devRef .tc main_v101) = sliceV1 (U (Proc.devRef .tc main_arg12)) := by
  unfold opsP2
  after_results_simp <;> rfl

theorem opsP2_out3 (U : Valuation τ sig (Elt F)) :
    after (opsP2 (F := F)) U (Proc.devRef .tc main_v103) = sliceV1 (U (Proc.devRef .tc main_arg13)) := by
  unfold opsP2
  after_results_simp <;> rfl

theorem opsP2_out4 (U : Valuation τ sig (Elt F)) :
    after (opsP2 (F := F)) U (Proc.devRef .tc main_v105) = sliceV1 (U (Proc.devRef .tc main_arg14)) := by
  unfold opsP2
  after_results_simp <;> rfl

theorem opsP2_out5 (U : Valuation τ sig (Elt F)) :
    after (opsP2 (F := F)) U (Proc.devRef .tc main_v107) = sliceV1 (U (Proc.devRef .tc main_arg15)) := by
  unfold opsP2
  after_results_simp <;> rfl

theorem opsP2_out6 (U : Valuation τ sig (Elt F)) :
    after (opsP2 (F := F)) U (Proc.devRef .tc main_v109) = sliceW1 (U (Proc.devRef .tc main_arg16)) := by
  unfold opsP2
  after_results_simp <;> rfl

theorem opsP2_out7 (U : Valuation τ sig (Elt F)) :
    after (opsP2 (F := F)) U (Proc.devRef .tc main_v111) = sliceV1 (U (Proc.devRef .tc main_arg17)) := by
  unfold opsP2
  after_results_simp <;> rfl

/-- Layer 3's neighbour-sum stretch leaves the neighbour sum of what the layer's input buffer holds. -/
theorem opsA3_out (U : Valuation τ sig (Elt F)) :
    after (opsA3 (F := F)) U (Proc.devRef .tc main_v181) = aggR (U (Proc.devRef .tc main_v151)) (U (Proc.devRef .tc main_arg1)) := by
  unfold opsA3
  after_results_simp <;> rfl

/-- Layer 3's dense stretch leaves the dense part of what its input, neighbour-sum and parameter buffers hold. -/
theorem opsB3_out (U : Valuation τ sig (Elt F)) :
    after (opsB3 (F := F)) U (Proc.devRef .tc main_v207)
      = denseR (U (Proc.devRef .tc main_v151)) (U (Proc.devRef .tc main_v181)) (U (Proc.devRef .tc main_v153)) (U (Proc.devRef .tc main_v155)) (U (Proc.devRef .tc main_v157)) (U (Proc.devRef .tc main_v159))
          (U (Proc.devRef .tc main_v161)) (U (Proc.devRef .tc main_v163)) (U (Proc.devRef .tc main_v165)) (U (Proc.devRef .tc main_v167)) := by
  unfold opsB3
  after_results_simp <;> rfl

theorem opsP3_out0 (U : Valuation τ sig (Elt F)) :
    after (opsP3 (F := F)) U (Proc.devRef .tc main_v153) = sliceW2 (U (Proc.devRef .tc main_arg10)) := by
  unfold opsP3
  after_results_simp <;> rfl

theorem opsP3_out1 (U : Valuation τ sig (Elt F)) :
    after (opsP3 (F := F)) U (Proc.devRef .tc main_v155) = sliceV2 (U (Proc.devRef .tc main_arg11)) := by
  unfold opsP3
  after_results_simp <;> rfl

theorem opsP3_out2 (U : Valuation τ sig (Elt F)) :
    after (opsP3 (F := F)) U (Proc.devRef .tc main_v157) = sliceV2 (U (Proc.devRef .tc main_arg12)) := by
  unfold opsP3
  after_results_simp <;> rfl

theorem opsP3_out3 (U : Valuation τ sig (Elt F)) :
    after (opsP3 (F := F)) U (Proc.devRef .tc main_v159) = sliceV2 (U (Proc.devRef .tc main_arg13)) := by
  unfold opsP3
  after_results_simp <;> rfl

theorem opsP3_out4 (U : Valuation τ sig (Elt F)) :
    after (opsP3 (F := F)) U (Proc.devRef .tc main_v161) = sliceV2 (U (Proc.devRef .tc main_arg14)) := by
  unfold opsP3
  after_results_simp <;> rfl

theorem opsP3_out5 (U : Valuation τ sig (Elt F)) :
    after (opsP3 (F := F)) U (Proc.devRef .tc main_v163) = sliceV2 (U (Proc.devRef .tc main_arg15)) := by
  unfold opsP3
  after_results_simp <;> rfl

theorem opsP3_out6 (U : Valuation τ sig (Elt F)) :
    after (opsP3 (F := F)) U (Proc.devRef .tc main_v165) = sliceW2 (U (Proc.devRef .tc main_arg16)) := by
  unfold opsP3
  after_results_simp <;> rfl

theorem opsP3_out7 (U : Valuation τ sig (Elt F)) :
    after (opsP3 (F := F)) U (Proc.devRef .tc main_v167) = sliceV2 (U (Proc.devRef .tc main_arg17)) := by
  unfold opsP3
  after_results_simp <;> rfl

/-- The readout stretch leaves the readout of what the four layers' output buffers and the readout parameters hold. -/
theorem opsT_out (U : Valuation τ sig (Elt F)) :
    after (opsT (F := F)) U (Proc.devRef .tc main_v220)
      = tailR (U (Proc.devRef .tc main_v39)) (U (Proc.devRef .tc main_v95)) (U (Proc.devRef .tc main_v151)) (U (Proc.devRef .tc main_v207)) (U (Proc.devRef .tc main_arg18)) (U (Proc.devRef .tc main_arg19)) := by
  unfold opsT
  after_results_simp <;> rfl

end Cert.ReferenceIdeal.RefValue

end
-- ==== Proof.Ref.RunRef.lean ====
/-
  The reference's run read back: every weakly fair execution of the reference terminates with its result buffer at the
  composed stage function `resR` of the arguments' launch contents, and the twenty arguments unchanged.

  The line's twelve stretches run one after the other, each folding over what the earlier ones leave.  Read from the
  end: the readout stretch leaves the readout of what the four output buffers hold; no later stretch writes an output
  buffer, so each holds what its layer's dense stretch left, the dense part of what the layer's input, neighbour-sum
  and parameter buffers held then; and so on down to the arguments, which no operation writes.
-/
import proofs.«156729_j87711822119196_1_alg».proof.Proof.Ref.Chunks

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Lib.HostLine

variable {F : FTy → Type} [FloatOps F]

/-- Two lines that write one buffer per operation, one after the other, do. -/
theorem writesOne_app {τ : Topo} {sig : RefSig} {Val : EltTy → Type} {l₁ l₂ : List (HloOp τ sig Val)} {w₁ w₂ : List (Ref sig .tc)}
    (h₁ : WritesOne l₁ w₁) (h₂ : WritesOne l₂ w₂) : WritesOne (l₁ ++ l₂) (w₁ ++ w₂) := by
  induction h₁ with
  | nil => exact h₂
  | cons hab _ ih => exact List.Forall₂.cons hab ih

/-- Every buffer the line writes, operation by operation. -/
def wAll : List (Ref sig .tc) :=
  wA0 ++ wB0 ++ wP1 ++ wA1 ++ wB1 ++ wP2 ++ wA2 ++ wB2 ++ wP3 ++ wA3 ++ wB3 ++ wT

theorem ops_writes : WritesOne (τ := τ) (ops (F := F)) wAll :=
  writesOne_app (writesOne_app (writesOne_app (writesOne_app (writesOne_app (writesOne_app (writesOne_app (writesOne_app (writesOne_app (writesOne_app (writesOne_app (opsA0_writes) opsB0_writes) opsP1_writes) opsA1_writes) opsB1_writes) opsP2_writes) opsA2_writes) opsB2_writes) opsP3_writes) opsA3_writes) opsB3_writes) opsT_writes

/-- A buffer the line does not write keeps its contents. -/
theorem ops_keeps (V : Valuation τ sig (Elt F)) {r : Ref sig .tc} (hr : r ∉ wAll) :
    after (ops (F := F)) V (Proc.devRef .tc r) = V (Proc.devRef .tc r) :=
  after_of_forall_not_mem _ V (not_written ops_writes hr)

/-! The stretches' results restated with the buffer un-indexed, so that one rewriting pass finds them at any buffer. -/

theorem opsA0_out' (U : Valuation τ sig (Elt F)) :
    after (opsA0 (F := F)) U (no_index (Proc.devRef .tc main_v13)) = aggR (U (Proc.devRef .tc main_arg0)) (U (Proc.devRef .tc main_arg1)) :=
  opsA0_out U

theorem opsB0_out' (U : Valuation τ sig (Elt F)) :
    after (opsB0 (F := F)) U (no_index (Proc.devRef .tc main_v39))
      = denseR (U (Proc.devRef .tc main_arg0)) (U (Proc.devRef .tc main_v13)) (U (Proc.devRef .tc main_arg2)) (U (Proc.devRef .tc main_arg3)) (U (Proc.devRef .tc main_arg4)) (U (Proc.devRef .tc main_arg5))
          (U (Proc.devRef .tc main_arg6)) (U (Proc.devRef .tc main_arg7)) (U (Proc.devRef .tc main_arg8)) (U (Proc.devRef .tc main_arg9)) :=
  opsB0_out U

theorem opsA1_out' (U : Valuation τ sig (Elt F)) :
    after (opsA1 (F := F)) U (no_index (Proc.devRef .tc main_v69)) = aggR (U (Proc.devRef .tc main_v39)) (U (Proc.devRef .tc main_arg1)) :=
  opsA1_out U

theorem opsB1_out' (U : Valuation τ sig (Elt F)) :
    after (opsB1 (F := F)) U (no_index (Proc.devRef .tc main_v95))
      = denseR (U (Proc.devRef .tc main_v39)) (U (Proc.devRef .tc main_v69)) (U (Proc.devRef .tc main_v41)) (U (Proc.devRef .tc main_v43)) (U (Proc.devRef .tc main_v45)) (U (Proc.devRef .tc main_v47))
          (U (Proc.devRef .tc main_v49)) (U (Proc.devRef .tc main_v51)) (U (Proc.devRef .tc main_v53)) (U (Proc.devRef .tc main_v55)) :=
  opsB1_out U

theorem opsP1_out0' (U : Valuation τ sig (Elt F)) :
    after (opsP1 (F := F)) U (no_index (Proc.devRef .tc main_v41)) = sliceW0 (U (Proc.devRef .tc main_arg10)) :=
  opsP1_out0 U

theorem opsP1_out1' (U : Valuation τ sig (Elt F)) :
    after (opsP1 (F := F)) U (no_index (Proc.devRef .tc main_v43)) = sliceV0 (U (Proc.devRef .tc main_arg11)) :=
  opsP1_out1 U

theorem opsP1_out2' (U : Valuation τ sig (Elt F)) :
    after (opsP1 (F := F)) U (no_index (Proc.devRef .tc main_v45)) = sliceV0 (U (Proc.devRef .tc main_arg12)) :=
  opsP1_out2 U

theorem opsP1_out3' (U : Valuation τ sig (Elt F)) :
    after (opsP1 (F := F)) U (no_index (Proc.devRef .tc main_v47)) = sliceV0 (U (Proc.devRef .tc main_arg13)) :=
  opsP1_out3 U

theorem opsP1_out4' (U : Valuation τ sig (Elt F)) :
    after (opsP1 (F := F)) U (no_index (Proc.devRef .tc main_v49)) = sliceV0 (U (Proc.devRef .tc main_arg14)) :=
  opsP1_out4 U

theorem opsP1_out5' (U : Valuation τ sig (Elt F)) :
    after (opsP1 (F := F)) U (no_index (Proc.devRef .tc main_v51)) = sliceV0 (U (Proc.devRef .tc main_arg15)) :=
  opsP1_out5 U

theorem opsP1_out6' (U : Valuation τ sig (Elt F)) :
    after (opsP1 (F := F)) U (no_index (Proc.devRef .tc main_v53)) = sliceW0 (U (Proc.devRef .tc main_arg16)) :=
  opsP1_out6 U

theorem opsP1_out7' (U : Valuation τ sig (Elt F)) :
    after (opsP1 (F := F)) U (no_index (Proc.devRef .tc main_v55)) = sliceV0 (U (Proc.devRef .tc main_arg17)) :=
  opsP1_out7 U

theorem opsA2_out' (U : Valuation τ sig (Elt F)) :
    after (opsA2 (F := F)) U (no_index (Proc.devRef .tc main_v125)) = aggR (U (Proc.devRef .tc main_v95)) (U (Proc.devRef .tc main_arg1)) :=
  opsA2_out U

theorem opsB2_out' (U : Valuation τ sig (Elt F)) :
    after (opsB2 (F := F)) U (no_index (Proc.devRef .tc main_v151))
      = denseR (U (Proc.devRef .tc main_v95)) (U (Proc.devRef .tc main_v125)) (U (Proc.devRef .tc main_v97)) (U (Proc.devRef .tc main_v99)) (U (Proc.devRef .tc main_v101)) (U (Proc.devRef .tc main_v103))
          (U (Proc.devRef .tc main_v105)) (U (Proc.devRef .tc main_v107)) (U (Proc.devRef .tc main_v109)) (U (Proc.devRef .tc main_v111)) :=
  opsB2_out U

theorem opsP2_out0' (U : Valuation τ sig (Elt F)) :
    after (opsP2 (F := F)) U (no_index (Proc.devRef .tc main_v97)) = sliceW1 (U (Proc.devRef .tc main_arg10)) :=
  opsP2_out0 U

theorem opsP2_out1' (U : Valuation τ sig (Elt F)) :
    after (opsP2 (F := F)) U (no_index (Proc.devRef .tc main_v99)) = sliceV1 (U (Proc.devRef .tc main_arg11)) :=
  opsP2_out1 U

theorem opsP2_out2' (U : Valuation τ sig (Elt F)) :
    after (opsP2 (F := F)) U (no_index (Proc.devRef .tc main_v101)) = sliceV1 (U (Proc.devRef .tc main_arg12)) :=
  opsP2_out2 U

theorem opsP2_out3' (U : Valuation τ sig (Elt F)) :
    after (opsP2 (F := F)) U (no_index (Proc.devRef .tc main_v103)) = sliceV1 (U (Proc.devRef .tc main_arg13)) :=
  opsP2_out3 U

theorem opsP2_out4' (U : Valuation τ sig (Elt F)) :
    after (opsP2 (F := F)) U (no_index (Proc.devRef .tc main_v105)) = sliceV1 (U (Proc.devRef .tc main_arg14)) :=
  opsP2_out4 U

theorem opsP2_out5' (U : Valuation τ sig (Elt F)) :
    after (opsP2 (F := F)) U (no_index (Proc.devRef .tc main_v107)) = sliceV1 (U (Proc.devRef .tc main_arg15)) :=
  opsP2_out5 U

theorem opsP2_out6' (U : Valuation τ sig (Elt F)) :
    after (opsP2 (F := F)) U (no_index (Proc.devRef .tc main_v109)) = sliceW1 (U (Proc.devRef .tc main_arg16)) :=
  opsP2_out6 U

theorem opsP2_out7' (U : Valuation τ sig (Elt F)) :
    after (opsP2 (F := F)) U (no_index (Proc.devRef .tc main_v111)) = sliceV1 (U (Proc.devRef .tc main_arg17)) :=
  opsP2_out7 U

theorem opsA3_out' (U : Valuation τ sig (Elt F)) :
    after (opsA3 (F := F)) U (no_index (Proc.devRef .tc main_v181)) = aggR (U (Proc.devRef .tc main_v151)) (U (Proc.devRef .tc main_arg1)) :=
  opsA3_out U

theorem opsB3_out' (U : Valuation τ sig (Elt F)) :
    after (opsB3 (F := F)) U (no_index (Proc.devRef .tc main_v207))
      = denseR (U (Proc.devRef .tc main_v151)) (U (Proc.devRef .tc main_v181)) (U (Proc.devRef .tc main_v153)) (U (Proc.devRef .tc main_v155)) (U (Proc.devRef .tc main_v157)) (U (Proc.devRef .tc main_v159))
          (U (Proc.devRef .tc main_v161)) (U (Proc.devRef .tc main_v163)) (U (Proc.devRef .tc main_v165)) (U (Proc.devRef .tc main_v167)) :=
  opsB3_out U

theorem opsP3_out0' (U : Valuation τ sig (Elt F)) :
    after (opsP3 (F := F)) U (no_index (Proc.devRef .tc main_v153)) = sliceW2 (U (Proc.devRef .tc main_arg10)) :=
  opsP3_out0 U

theorem opsP3_out1' (U : Valuation τ sig (Elt F)) :
    after (opsP3 (F := F)) U (no_index (Proc.devRef .tc main_v155)) = sliceV2 (U (Proc.devRef .tc main_arg11)) :=
  opsP3_out1 U

theorem opsP3_out2' (U : Valuation τ sig (Elt F)) :
    after (opsP3 (F := F)) U (no_index (Proc.devRef .tc main_v157)) = sliceV2 (U (Proc.devRef .tc main_arg12)) :=
  opsP3_out2 U

theorem opsP3_out3' (U : Valuation τ sig (Elt F)) :
    after (opsP3 (F := F)) U (no_index (Proc.devRef .tc main_v159)) = sliceV2 (U (Proc.devRef .tc main_arg13)) :=
  opsP3_out3 U

theorem opsP3_out4' (U : Valuation τ sig (Elt F)) :
    after (opsP3 (F := F)) U (no_index (Proc.devRef .tc main_v161)) = sliceV2 (U (Proc.devRef .tc main_arg14)) :=
  opsP3_out4 U

theorem opsP3_out5' (U : Valuation τ sig (Elt F)) :
    after (opsP3 (F := F)) U (no_index (Proc.devRef .tc main_v163)) = sliceV2 (U (Proc.devRef .tc main_arg15)) :=
  opsP3_out5 U

theorem opsP3_out6' (U : Valuation τ sig (Elt F)) :
    after (opsP3 (F := F)) U (no_index (Proc.devRef .tc main_v165)) = sliceW2 (U (Proc.devRef .tc main_arg16)) :=
  opsP3_out6 U

theorem opsP3_out7' (U : Valuation τ sig (Elt F)) :
    after (opsP3 (F := F)) U (no_index (Proc.devRef .tc main_v167)) = sliceV2 (U (Proc.devRef .tc main_arg17)) :=
  opsP3_out7 U

theorem opsT_out' (U : Valuation τ sig (Elt F)) :
    after (opsT (F := F)) U (no_index (Proc.devRef .tc main_v220))
      = tailR (U (Proc.devRef .tc main_v39)) (U (Proc.devRef .tc main_v95)) (U (Proc.devRef .tc main_v151)) (U (Proc.devRef .tc main_v207)) (U (Proc.devRef .tc main_arg18)) (U (Proc.devRef .tc main_arg19)) :=
  opsT_out U

/-- After the whole line the result buffer holds the composed stage function of what the argument buffers held before. -/
theorem ops_result (V : Valuation τ sig (Elt F)) :
    after (ops (F := F)) V (Proc.devRef .tc main_v220)
      = resR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
          (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  unfold ops
  simp only [after_app]
  simp (disch := decide) only [opsA0_out', opsB0_out', opsP1_out0', opsP1_out1', opsP1_out2', opsP1_out3', opsP1_out4', opsP1_out5', opsP1_out6', opsP1_out7', opsA1_out', opsB1_out', opsP2_out0', opsP2_out1', opsP2_out2', opsP2_out3', opsP2_out4', opsP2_out5', opsP2_out6', opsP2_out7', opsA2_out', opsB2_out', opsP3_out0', opsP3_out1', opsP3_out2', opsP3_out3', opsP3_out4', opsP3_out5', opsP3_out6', opsP3_out7', opsA3_out', opsB3_out', opsT_out', opsA0_keeps, opsB0_keeps, opsP1_keeps, opsA1_keeps, opsB1_keeps, opsP2_keeps, opsA2_keeps, opsB2_keeps, opsP3_keeps, opsA3_keeps, opsB3_keeps, opsT_keeps]
  rfl

/-- On every device, for any float values, from any memory with zero counters: every weakly fair execution of the
    reference terminates with its result at `resR` of the arguments and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v220)
        = resR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
            (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v220).trans (ops_result _),
      (h c main_arg0).trans (ops_keeps _ (by decide)),
      (h c main_arg1).trans (ops_keeps _ (by decide)),
      (h c main_arg2).trans (ops_keeps _ (by decide)),
      (h c main_arg3).trans (ops_keeps _ (by decide)),
      (h c main_arg4).trans (ops_keeps _ (by decide)),
      (h c main_arg5).trans (ops_keeps _ (by decide)),
      (h c main_arg6).trans (ops_keeps _ (by decide)),
      (h c main_arg7).trans (ops_keeps _ (by decide)),
      (h c main_arg8).trans (ops_keeps _ (by decide)),
      (h c main_arg9).trans (ops_keeps _ (by decide)),
      (h c main_arg10).trans (ops_keeps _ (by decide)),
      (h c main_arg11).trans (ops_keeps _ (by decide)),
      (h c main_arg12).trans (ops_keeps _ (by decide)),
      (h c main_arg13).trans (ops_keeps _ (by decide)),
      (h c main_arg14).trans (ops_keeps _ (by decide)),
      (h c main_arg15).trans (ops_keeps _ (by decide)),
      (h c main_arg16).trans (ops_keeps _ (by decide)),
      (h c main_arg17).trans (ops_keeps _ (by decide)),
      (h c main_arg18).trans (ops_keeps _ (by decide)),
      (h c main_arg19).trans (ops_keeps _ (by decide))⟩)
    (run_seq scopedRefs_eq scopedSems_eq defs main (fun _ => ops) main_eq (fun _ => ops_sub) m ρ (fun _ => ops_fresh))

end Cert.ReferenceIdeal.RefValue

end
-- ==== Proof.lean ====
/-
  The certificate of a four-layer graph isomorphism network: the kernel (four Pallas regions, one per layer, among
  stretches of host operations that gather and scatter-add the neighbour sums and fold the normalisation into a scale
  and a shift) against the plain reference.

  The frames. Each kernel region loads its eight input blocks whole, computes
  relu (relu (((x + agg) · W1ᵀ + b1) · scale + shift) · W2ᵀ + b2) and stores the output block whole; the region
  halves run the body symbolically at every grid point, the run folds the buffer contents through the nine items of
  @main, and every argument array reaches the end as launched. The reference is a straight line of host operations.

  The values. At the extended reals each region's output array is one layer of the arrays it finds; those arrays are
  the previous layer's output, its neighbour sum and slice i of the parameters; the reference computes the same
  nested layers with the normalisation centred first, ((A + b1) − m) · s + be, where the kernel computes
  (A + b1) · s + (be − m · s). The two agree for real g, be, m and a real non-negative v — then
  s = g · (v + ε)^(-1/2) is real and multiplication by a real distributes over the sum of any extended real and a
  real — which is what the precondition provides: every float input finite, the variances non-negative.
-/
import proofs.«156729_j87711822119196_1_alg».proof.Defs
import proofs.«156729_j87711822119196_1_alg».proof.Proof.Gen.Kernel
import proofs.«156729_j87711822119196_1_alg».proof.Proof.Gen.KernelIdeal
import proofs.«156729_j87711822119196_1_alg».proof.Proof.Gen.ReferenceIdeal
import proofs.«156729_j87711822119196_1_alg».proof.Proof.Gen.Pre_finite_inputs
import proofs.«156729_j87711822119196_1_alg».proof.Proof.Frames
import proofs.«156729_j87711822119196_1_alg».proof.Proof.KI.ValueRun
import proofs.«156729_j87711822119196_1_alg».proof.Proof.ResBridge
import proofs.«156729_j87711822119196_1_alg».proof.Proof.PreFacts
import proofs.«156729_j87711822119196_1_alg».proof.Proof.Ref.RunRef

set_option maxRecDepth 16384

noncomputable section

namespace Cert.Proof

open Idealize.ShloMosaic Idealize.ShloMosaic.TcCoe Idealize.SL.Sem

/-- The reference runs to the end and leaves its arguments as launched: its run with the result dropped. -/
theorem frame_R : Cert.frame_ReferenceIdeal := fun m ρ _ =>
  (θ_run Cert.ReferenceIdeal.defs _ _).mono (fun _ h c => (h c).2) (Cert.ReferenceIdeal.RefValue.ref_run m ρ)

/-- Run from memories that agree on the arguments, the two idealized programs end with one result: the readout of
    the four nested layers of the arguments. -/
theorem algebraic : Cert.algebraic_KernelIdeal_ReferenceIdeal := by
  intro m ρ m' ρ' hpre hagree
  refine ⟨fun c => Cert.KernelIdeal.KVal.kRes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    Cert.KernelIdeal.GenH.value_run m ρ, ?_⟩
  refine (θ_run Cert.ReferenceIdeal.defs _ _).mono (fun r h c => ⟨(h c).1.trans ?_, (h c).2⟩)
    (Cert.ReferenceIdeal.RefValue.ref_run m' ρ')
  obtain ⟨e0, e1, e2, e3, e4, e5, e6, e7, e8, e9, e10, e11, e12, e13, e14, e15, e16, e17, e18, e19⟩ := hagree c
  rw [e0, e1, e2, e3, e4, e5, e6, e7, e8, e9, e10, e11, e12, e13, e14, e15, e16, e17, e18, e19]
  exact (Cert.KernelIdeal.KVal.kRes_eq_resR _ _ _ _ _ _ _ _ _ _ _ _ _ _ _ _ _ _ _ _
    (Cert.Gin.PreFacts.pre_facts _ _ _ _ _ _ _ _ _ _ _ _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    Cert.Proof.Frames.frame_K, Cert.Proof.Frames.frame_KI, frame_R, Cert.Proof.Frames.preserves, algebraic⟩

end Cert.Proof

end
